-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v376)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v376) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4x64 : Shape := ⟨3, ![1000000, 4, 64]⟩
abbrev S4x32x2 : Shape := ⟨3, ![4, 32, 2]⟩
abbrev S_ : Shape := ⟨0, ![]⟩

class Facts : Prop where
  bcast_S_S1000000x4x64 : S_.BroadcastsInDim S1000000x4x64 (![] : Fin 0 → Fin S1000000x4x64.rank)
  reducesTo_S1000000x4x64_S_d0_1_2 : S1000000x4x64.ReducesTo [0, 1, 2] S_
  h_S_ : 0 < S_.numel
  bcast_S_S4x32x2 : S_.BroadcastsInDim S4x32x2 (![] : Fin 0 → Fin S4x32x2.rank)
  reducesTo_S4x32x2_S_d0_1_2 : S4x32x2.ReducesTo [0, 1, 2] S_

variable [Facts]

def fn {F : FTy → Type} [FloatOps F] (main_arg0 : FVec F S1000000x4x64 .f32) (main_arg1 : FVec F S4x32x2 .f32) : IVec S_ 1 :=
  let main_v0 : FVec F S1000000x4x64 .f32 := Host.absf main_arg0
  let main_cst : FVec F S_ .f32 := constant S_ .f32 0x7F800000#32
  let main_v1 : FVec F S1000000x4x64 .f32 := broadcastInDim S1000000x4x64 ![] bcast_S_S1000000x4x64 main_cst
  let main_v2 : IVec S1000000x4x64 1 := cmpf .olt main_v0 main_v1
  let main_c : IVec S_ 1 := constantI S_ 1 1#1
  let main_v3 : IVec S_ 1 := (fun x v => Host.reduce IntOp.andi x v reducesTo_S1000000x4x64_S_d0_1_2 h_S_) main_v2 main_c
  let main_v4 : FVec F S4x32x2 .f32 := Host.absf main_arg1
  let main_cst_0 : FVec F S_ .f32 := constant S_ .f32 0x7F800000#32
  let main_v5 : FVec F S4x32x2 .f32 := broadcastInDim S4x32x2 ![] bcast_S_S4x32x2 main_cst_0
  let main_v6 : IVec S4x32x2 1 := cmpf .olt main_v4 main_v5
  let main_c_1 : IVec S_ 1 := constantI S_ 1 1#1
  let main_v7 : IVec S_ 1 := (fun x v => Host.reduce IntOp.andi x v reducesTo_S4x32x2_S_d0_1_2 h_S_) main_v6 main_c_1
  let main_v8 : IVec S_ 1 := andi main_v3 main_v7
  main_v8
-- ==== Kernel.lean ====
abbrev S1000000x4x64 : Shape := ⟨3, ![1000000, 4, 64]⟩
abbrev S4x32x2 : Shape := ⟨3, ![4, 32, 2]⟩
abbrev S2 : Shape := ⟨1, ![2]⟩
abbrev S_ : Shape := ⟨0, ![]⟩
abbrev S4x32 : Shape := ⟨2, ![4, 32]⟩
abbrev S4x32x1 : Shape := ⟨3, ![4, 32, 1]⟩
abbrev S1x1x2 : Shape := ⟨3, ![1, 1, 2]⟩
abbrev S4x1x32x2 : Shape := ⟨4, ![4, 1, 32, 2]⟩
abbrev S4x2x32x2 : Shape := ⟨4, ![4, 2, 32, 2]⟩
abbrev S8x32x2 : Shape := ⟨3, ![8, 32, 2]⟩
abbrev S32 : Shape := ⟨1, ![32]⟩
abbrev S32x1 : Shape := ⟨2, ![32, 1]⟩
abbrev S32x2 : Shape := ⟨2, ![32, 2]⟩
abbrev S1x32x2 : Shape := ⟨3, ![1, 32, 2]⟩
abbrev S3x32x2 : Shape := ⟨3, ![3, 32, 2]⟩
abbrev S64x64 : Shape := ⟨2, ![64, 64]⟩
abbrev S1x64x64 : Shape := ⟨3, ![1, 64, 64]⟩
abbrev S3x64x64 : Shape := ⟨3, ![3, 64, 64]⟩
abbrev S1000000x64 : Shape := ⟨2, ![1000000, 64]⟩
abbrev S5000x4x64 : Shape := ⟨3, ![5000, 4, 64]⟩
abbrev S5000x64 : Shape := ⟨2, ![5000, 64]⟩
abbrev S5000x1x64 : Shape := ⟨3, ![5000, 1, 64]⟩

abbrev nBuf : Space → Nat
  | .hbm => 471
  | .vmem => 5
  | .smem => 0
  | _ => 0

abbrev hbmTy0_0 (i : Nat) : BufTy := match i % 128 with
  | 0 => ⟨S1000000x4x64, .f32⟩
  | 1 => ⟨S4x32x2, .f32⟩
  | 2 => ⟨S2, .f32⟩
  | 3 => ⟨S4x32x2, .f32⟩
  | 4 => ⟨S_, .f32⟩
  | 5 => ⟨S4x32, .f32⟩
  | 6 => ⟨S4x32x1, .f32⟩
  | 7 => ⟨S4x32x1, .f32⟩
  | 8 => ⟨S_, .f32⟩
  | 9 => ⟨S4x32x1, .f32⟩
  | 10 => ⟨S4x32x1, .f32⟩
  | 11 => ⟨S4x32x2, .f32⟩
  | 12 => ⟨S4x32x2, .f32⟩
  | 13 => ⟨S1x1x2, .f32⟩
  | 14 => ⟨S4x32x2, .f32⟩
  | 15 => ⟨S4x32x2, .f32⟩
  | 16 => ⟨S4x1x32x2, .f32⟩
  | 17 => ⟨S4x1x32x2, .f32⟩
  | 18 => ⟨S4x2x32x2, .f32⟩
  | 19 => ⟨S8x32x2, .f32⟩
  | 20 => ⟨S_, .f32⟩
  | 21 => ⟨S32, .f32⟩
  | 22 => ⟨S_, .f32⟩
  | 23 => ⟨S32, .f32⟩
  | 24 => ⟨S32x1, .f32⟩
  | 25 => ⟨S32x1, .f32⟩
  | 26 => ⟨S32x2, .f32⟩
  | 27 => ⟨S1x32x2, .f32⟩
  | 28 => ⟨S32x2, .f32⟩
  | 29 => ⟨S32x1, .f32⟩
  | 30 => ⟨S32, .f32⟩
  | 31 => ⟨S32x1, .f32⟩
  | 32 => ⟨S32, .f32⟩
  | 33 => ⟨S32, .f32⟩
  | 34 => ⟨S32x1, .f32⟩
  | 35 => ⟨S32, .f32⟩
  | 36 => ⟨S32x1, .f32⟩
  | 37 => ⟨S32, .f32⟩
  | 38 => ⟨S32, .f32⟩
  | 39 => ⟨S32, .f32⟩
  | 40 => ⟨S32x1, .f32⟩
  | 41 => ⟨S32, .f32⟩
  | 42 => ⟨S32x1, .f32⟩
  | 43 => ⟨S32, .f32⟩
  | 44 => ⟨S32, .f32⟩
  | 45 => ⟨S32x1, .f32⟩
  | 46 => ⟨S32, .f32⟩
  | 47 => ⟨S32x1, .f32⟩
  | 48 => ⟨S32, .f32⟩
  | 49 => ⟨S32, .f32⟩
  | 50 => ⟨S32, .f32⟩
  | 51 => ⟨S32x1, .f32⟩
  | 52 => ⟨S32x1, .f32⟩
  | 53 => ⟨S32x2, .f32⟩
  | 54 => ⟨S1x32x2, .f32⟩
  | 55 => ⟨S32x2, .f32⟩
  | 56 => ⟨S32x1, .f32⟩
  | 57 => ⟨S32, .f32⟩
  | 58 => ⟨S32x1, .f32⟩
  | 59 => ⟨S32, .f32⟩
  | 60 => ⟨S32, .f32⟩
  | 61 => ⟨S32x1, .f32⟩
  | 62 => ⟨S32, .f32⟩
  | 63 => ⟨S32x1, .f32⟩
  | 64 => ⟨S32, .f32⟩
  | 65 => ⟨S32, .f32⟩
  | 66 => ⟨S32, .f32⟩
  | 67 => ⟨S32x1, .f32⟩
  | 68 => ⟨S32, .f32⟩
  | 69 => ⟨S32x1, .f32⟩
  | 70 => ⟨S32, .f32⟩
  | 71 => ⟨S32, .f32⟩
  | 72 => ⟨S32x1, .f32⟩
  | 73 => ⟨S32, .f32⟩
  | 74 => ⟨S32x1, .f32⟩
  | 75 => ⟨S32, .f32⟩
  | 76 => ⟨S32, .f32⟩
  | 77 => ⟨S32, .f32⟩
  | 78 => ⟨S32x1, .f32⟩
  | 79 => ⟨S32x1, .f32⟩
  | 80 => ⟨S32x2, .f32⟩
  | 81 => ⟨S1x32x2, .f32⟩
  | 82 => ⟨S32x2, .f32⟩
  | 83 => ⟨S32x1, .f32⟩
  | 84 => ⟨S32, .f32⟩
  | 85 => ⟨S32x1, .f32⟩
  | 86 => ⟨S32, .f32⟩
  | 87 => ⟨S32, .f32⟩
  | 88 => ⟨S32x1, .f32⟩
  | 89 => ⟨S32, .f32⟩
  | 90 => ⟨S32x1, .f32⟩
  | 91 => ⟨S32, .f32⟩
  | 92 => ⟨S32, .f32⟩
  | 93 => ⟨S32, .f32⟩
  | 94 => ⟨S32x1, .f32⟩
  | 95 => ⟨S32, .f32⟩
  | 96 => ⟨S32x1, .f32⟩
  | 97 => ⟨S32, .f32⟩
  | 98 => ⟨S32, .f32⟩
  | 99 => ⟨S32x1, .f32⟩
  | 100 => ⟨S32, .f32⟩
  | 101 => ⟨S32x1, .f32⟩
  | 102 => ⟨S32, .f32⟩
  | 103 => ⟨S32, .f32⟩
  | 104 => ⟨S32, .f32⟩
  | 105 => ⟨S32x1, .f32⟩
  | 106 => ⟨S32x1, .f32⟩
  | 107 => ⟨S32x2, .f32⟩
  | 108 => ⟨S1x32x2, .f32⟩
  | 109 => ⟨S1x32x2, .f32⟩
  | 110 => ⟨S1x32x2, .f32⟩
  | 111 => ⟨S3x32x2, .f32⟩
  | 112 => ⟨S1x32x2, .f32⟩
  | 113 => ⟨S32x2, .f32⟩
  | 114 => ⟨S32, .i32⟩
  | 115 => ⟨S32x1, .f32⟩
  | 116 => ⟨S32, .f32⟩
  | 117 => ⟨S32x1, .f32⟩
  | 118 => ⟨S32, .f32⟩
  | 119 => ⟨S_, .f32⟩
  | 120 => ⟨S64x64, .f32⟩
  | 121 => ⟨S_, .i32⟩
  | 122 => ⟨S32, .i32⟩
  | 123 => ⟨S32, .i32⟩
  | 124 => ⟨S_, .i32⟩
  | 125 => ⟨S32, .i32⟩
  | 126 => ⟨S32, .i32⟩
  | 127 => ⟨S_, .i32⟩
  | _ => ⟨S1000000x4x64, .f32⟩

abbrev hbmTy0_1 (i : Nat) : BufTy := match i % 128 with
  | 0 => ⟨S32, .i32⟩
  | 1 => ⟨S32, .i1⟩
  | 2 => ⟨S_, .i32⟩
  | 3 => ⟨S32, .i32⟩
  | 4 => ⟨S32, .i32⟩
  | 5 => ⟨S32, .i32⟩
  | 6 => ⟨S_, .i32⟩
  | 7 => ⟨S32, .i32⟩
  | 8 => ⟨S32, .i1⟩
  | 9 => ⟨S_, .i32⟩
  | 10 => ⟨S32, .i32⟩
  | 11 => ⟨S32, .i32⟩
  | 12 => ⟨S32, .i32⟩
  | 13 => ⟨S32x1, .i32⟩
  | 14 => ⟨S32x1, .i32⟩
  | 15 => ⟨S32x2, .i32⟩
  | 16 => ⟨S64x64, .f32⟩
  | 17 => ⟨S_, .i32⟩
  | 18 => ⟨S32, .i32⟩
  | 19 => ⟨S32, .i32⟩
  | 20 => ⟨S_, .i32⟩
  | 21 => ⟨S32, .i32⟩
  | 22 => ⟨S32, .i32⟩
  | 23 => ⟨S_, .i32⟩
  | 24 => ⟨S32, .i32⟩
  | 25 => ⟨S32, .i32⟩
  | 26 => ⟨S32, .f32⟩
  | 27 => ⟨S_, .i32⟩
  | 28 => ⟨S32, .i32⟩
  | 29 => ⟨S32, .i1⟩
  | 30 => ⟨S_, .i32⟩
  | 31 => ⟨S32, .i32⟩
  | 32 => ⟨S32, .i32⟩
  | 33 => ⟨S32, .i32⟩
  | 34 => ⟨S_, .i32⟩
  | 35 => ⟨S32, .i32⟩
  | 36 => ⟨S32, .i1⟩
  | 37 => ⟨S_, .i32⟩
  | 38 => ⟨S32, .i32⟩
  | 39 => ⟨S32, .i32⟩
  | 40 => ⟨S32, .i32⟩
  | 41 => ⟨S32x1, .i32⟩
  | 42 => ⟨S32x1, .i32⟩
  | 43 => ⟨S32x2, .i32⟩
  | 44 => ⟨S64x64, .f32⟩
  | 45 => ⟨S_, .i32⟩
  | 46 => ⟨S32, .i32⟩
  | 47 => ⟨S32, .i32⟩
  | 48 => ⟨S_, .i32⟩
  | 49 => ⟨S32, .i32⟩
  | 50 => ⟨S32, .i32⟩
  | 51 => ⟨S_, .i32⟩
  | 52 => ⟨S32, .i32⟩
  | 53 => ⟨S32, .i32⟩
  | 54 => ⟨S_, .i32⟩
  | 55 => ⟨S32, .i32⟩
  | 56 => ⟨S32, .i1⟩
  | 57 => ⟨S_, .i32⟩
  | 58 => ⟨S32, .i32⟩
  | 59 => ⟨S32, .i32⟩
  | 60 => ⟨S32, .i32⟩
  | 61 => ⟨S_, .i32⟩
  | 62 => ⟨S32, .i32⟩
  | 63 => ⟨S32, .i1⟩
  | 64 => ⟨S_, .i32⟩
  | 65 => ⟨S32, .i32⟩
  | 66 => ⟨S32, .i32⟩
  | 67 => ⟨S32, .i32⟩
  | 68 => ⟨S32x1, .i32⟩
  | 69 => ⟨S32x1, .i32⟩
  | 70 => ⟨S32x2, .i32⟩
  | 71 => ⟨S64x64, .f32⟩
  | 72 => ⟨S_, .i32⟩
  | 73 => ⟨S32, .i32⟩
  | 74 => ⟨S32, .i32⟩
  | 75 => ⟨S_, .i32⟩
  | 76 => ⟨S32, .i32⟩
  | 77 => ⟨S32, .i32⟩
  | 78 => ⟨S_, .i32⟩
  | 79 => ⟨S32, .i32⟩
  | 80 => ⟨S32, .i32⟩
  | 81 => ⟨S_, .i32⟩
  | 82 => ⟨S32, .i32⟩
  | 83 => ⟨S32, .i32⟩
  | 84 => ⟨S_, .i32⟩
  | 85 => ⟨S32, .i32⟩
  | 86 => ⟨S32, .i1⟩
  | 87 => ⟨S_, .i32⟩
  | 88 => ⟨S32, .i32⟩
  | 89 => ⟨S32, .i32⟩
  | 90 => ⟨S32, .i32⟩
  | 91 => ⟨S_, .i32⟩
  | 92 => ⟨S32, .i32⟩
  | 93 => ⟨S32, .i1⟩
  | 94 => ⟨S_, .i32⟩
  | 95 => ⟨S32, .i32⟩
  | 96 => ⟨S32, .i32⟩
  | 97 => ⟨S32, .i32⟩
  | 98 => ⟨S32x1, .i32⟩
  | 99 => ⟨S32x1, .i32⟩
  | 100 => ⟨S32x2, .i32⟩
  | 101 => ⟨S64x64, .f32⟩
  | 102 => ⟨S1x32x2, .f32⟩
  | 103 => ⟨S32x2, .f32⟩
  | 104 => ⟨S32, .i32⟩
  | 105 => ⟨S32x1, .f32⟩
  | 106 => ⟨S32, .f32⟩
  | 107 => ⟨S32x1, .f32⟩
  | 108 => ⟨S32, .f32⟩
  | 109 => ⟨S_, .f32⟩
  | 110 => ⟨S64x64, .f32⟩
  | 111 => ⟨S_, .i32⟩
  | 112 => ⟨S32, .i32⟩
  | 113 => ⟨S32, .i32⟩
  | 114 => ⟨S_, .i32⟩
  | 115 => ⟨S32, .i32⟩
  | 116 => ⟨S32, .i32⟩
  | 117 => ⟨S_, .i32⟩
  | 118 => ⟨S32, .i32⟩
  | 119 => ⟨S32, .i1⟩
  | 120 => ⟨S_, .i32⟩
  | 121 => ⟨S32, .i32⟩
  | 122 => ⟨S32, .i32⟩
  | 123 => ⟨S32, .i32⟩
  | 124 => ⟨S_, .i32⟩
  | 125 => ⟨S32, .i32⟩
  | 126 => ⟨S32, .i1⟩
  | 127 => ⟨S_, .i32⟩
  | _ => ⟨S1000000x4x64, .f32⟩

abbrev hbmTy0_2 (i : Nat) : BufTy := match i % 128 with
  | 0 => ⟨S32, .i32⟩
  | 1 => ⟨S32, .i32⟩
  | 2 => ⟨S32, .i32⟩
  | 3 => ⟨S32x1, .i32⟩
  | 4 => ⟨S32x1, .i32⟩
  | 5 => ⟨S32x2, .i32⟩
  | 6 => ⟨S64x64, .f32⟩
  | 7 => ⟨S_, .i32⟩
  | 8 => ⟨S32, .i32⟩
  | 9 => ⟨S32, .i32⟩
  | 10 => ⟨S_, .i32⟩
  | 11 => ⟨S32, .i32⟩
  | 12 => ⟨S32, .i32⟩
  | 13 => ⟨S_, .i32⟩
  | 14 => ⟨S32, .i32⟩
  | 15 => ⟨S32, .i32⟩
  | 16 => ⟨S32, .f32⟩
  | 17 => ⟨S_, .i32⟩
  | 18 => ⟨S32, .i32⟩
  | 19 => ⟨S32, .i1⟩
  | 20 => ⟨S_, .i32⟩
  | 21 => ⟨S32, .i32⟩
  | 22 => ⟨S32, .i32⟩
  | 23 => ⟨S32, .i32⟩
  | 24 => ⟨S_, .i32⟩
  | 25 => ⟨S32, .i32⟩
  | 26 => ⟨S32, .i1⟩
  | 27 => ⟨S_, .i32⟩
  | 28 => ⟨S32, .i32⟩
  | 29 => ⟨S32, .i32⟩
  | 30 => ⟨S32, .i32⟩
  | 31 => ⟨S32x1, .i32⟩
  | 32 => ⟨S32x1, .i32⟩
  | 33 => ⟨S32x2, .i32⟩
  | 34 => ⟨S64x64, .f32⟩
  | 35 => ⟨S_, .i32⟩
  | 36 => ⟨S32, .i32⟩
  | 37 => ⟨S32, .i32⟩
  | 38 => ⟨S_, .i32⟩
  | 39 => ⟨S32, .i32⟩
  | 40 => ⟨S32, .i32⟩
  | 41 => ⟨S_, .i32⟩
  | 42 => ⟨S32, .i32⟩
  | 43 => ⟨S32, .i32⟩
  | 44 => ⟨S_, .i32⟩
  | 45 => ⟨S32, .i32⟩
  | 46 => ⟨S32, .i1⟩
  | 47 => ⟨S_, .i32⟩
  | 48 => ⟨S32, .i32⟩
  | 49 => ⟨S32, .i32⟩
  | 50 => ⟨S32, .i32⟩
  | 51 => ⟨S_, .i32⟩
  | 52 => ⟨S32, .i32⟩
  | 53 => ⟨S32, .i1⟩
  | 54 => ⟨S_, .i32⟩
  | 55 => ⟨S32, .i32⟩
  | 56 => ⟨S32, .i32⟩
  | 57 => ⟨S32, .i32⟩
  | 58 => ⟨S32x1, .i32⟩
  | 59 => ⟨S32x1, .i32⟩
  | 60 => ⟨S32x2, .i32⟩
  | 61 => ⟨S64x64, .f32⟩
  | 62 => ⟨S_, .i32⟩
  | 63 => ⟨S32, .i32⟩
  | 64 => ⟨S32, .i32⟩
  | 65 => ⟨S_, .i32⟩
  | 66 => ⟨S32, .i32⟩
  | 67 => ⟨S32, .i32⟩
  | 68 => ⟨S_, .i32⟩
  | 69 => ⟨S32, .i32⟩
  | 70 => ⟨S32, .i32⟩
  | 71 => ⟨S_, .i32⟩
  | 72 => ⟨S32, .i32⟩
  | 73 => ⟨S32, .i32⟩
  | 74 => ⟨S_, .i32⟩
  | 75 => ⟨S32, .i32⟩
  | 76 => ⟨S32, .i1⟩
  | 77 => ⟨S_, .i32⟩
  | 78 => ⟨S32, .i32⟩
  | 79 => ⟨S32, .i32⟩
  | 80 => ⟨S32, .i32⟩
  | 81 => ⟨S_, .i32⟩
  | 82 => ⟨S32, .i32⟩
  | 83 => ⟨S32, .i1⟩
  | 84 => ⟨S_, .i32⟩
  | 85 => ⟨S32, .i32⟩
  | 86 => ⟨S32, .i32⟩
  | 87 => ⟨S32, .i32⟩
  | 88 => ⟨S32x1, .i32⟩
  | 89 => ⟨S32x1, .i32⟩
  | 90 => ⟨S32x2, .i32⟩
  | 91 => ⟨S64x64, .f32⟩
  | 92 => ⟨S1x32x2, .f32⟩
  | 93 => ⟨S32x2, .f32⟩
  | 94 => ⟨S32, .i32⟩
  | 95 => ⟨S32x1, .f32⟩
  | 96 => ⟨S32, .f32⟩
  | 97 => ⟨S32x1, .f32⟩
  | 98 => ⟨S32, .f32⟩
  | 99 => ⟨S_, .f32⟩
  | 100 => ⟨S64x64, .f32⟩
  | 101 => ⟨S_, .i32⟩
  | 102 => ⟨S32, .i32⟩
  | 103 => ⟨S32, .i32⟩
  | 104 => ⟨S_, .i32⟩
  | 105 => ⟨S32, .i32⟩
  | 106 => ⟨S32, .i32⟩
  | 107 => ⟨S_, .i32⟩
  | 108 => ⟨S32, .i32⟩
  | 109 => ⟨S32, .i1⟩
  | 110 => ⟨S_, .i32⟩
  | 111 => ⟨S32, .i32⟩
  | 112 => ⟨S32, .i32⟩
  | 113 => ⟨S32, .i32⟩
  | 114 => ⟨S_, .i32⟩
  | 115 => ⟨S32, .i32⟩
  | 116 => ⟨S32, .i1⟩
  | 117 => ⟨S_, .i32⟩
  | 118 => ⟨S32, .i32⟩
  | 119 => ⟨S32, .i32⟩
  | 120 => ⟨S32, .i32⟩
  | 121 => ⟨S32x1, .i32⟩
  | 122 => ⟨S32x1, .i32⟩
  | 123 => ⟨S32x2, .i32⟩
  | 124 => ⟨S64x64, .f32⟩
  | 125 => ⟨S_, .i32⟩
  | 126 => ⟨S32, .i32⟩
  | 127 => ⟨S32, .i32⟩
  | _ => ⟨S1000000x4x64, .f32⟩

abbrev hbmTy0_3 (i : Nat) : BufTy := match i % 128 with
  | 0 => ⟨S_, .i32⟩
  | 1 => ⟨S32, .i32⟩
  | 2 => ⟨S32, .i32⟩
  | 3 => ⟨S_, .i32⟩
  | 4 => ⟨S32, .i32⟩
  | 5 => ⟨S32, .i32⟩
  | 6 => ⟨S32, .f32⟩
  | 7 => ⟨S_, .i32⟩
  | 8 => ⟨S32, .i32⟩
  | 9 => ⟨S32, .i1⟩
  | 10 => ⟨S_, .i32⟩
  | 11 => ⟨S32, .i32⟩
  | 12 => ⟨S32, .i32⟩
  | 13 => ⟨S32, .i32⟩
  | 14 => ⟨S_, .i32⟩
  | 15 => ⟨S32, .i32⟩
  | 16 => ⟨S32, .i1⟩
  | 17 => ⟨S_, .i32⟩
  | 18 => ⟨S32, .i32⟩
  | 19 => ⟨S32, .i32⟩
  | 20 => ⟨S32, .i32⟩
  | 21 => ⟨S32x1, .i32⟩
  | 22 => ⟨S32x1, .i32⟩
  | 23 => ⟨S32x2, .i32⟩
  | 24 => ⟨S64x64, .f32⟩
  | 25 => ⟨S_, .i32⟩
  | 26 => ⟨S32, .i32⟩
  | 27 => ⟨S32, .i32⟩
  | 28 => ⟨S_, .i32⟩
  | 29 => ⟨S32, .i32⟩
  | 30 => ⟨S32, .i32⟩
  | 31 => ⟨S_, .i32⟩
  | 32 => ⟨S32, .i32⟩
  | 33 => ⟨S32, .i32⟩
  | 34 => ⟨S_, .i32⟩
  | 35 => ⟨S32, .i32⟩
  | 36 => ⟨S32, .i1⟩
  | 37 => ⟨S_, .i32⟩
  | 38 => ⟨S32, .i32⟩
  | 39 => ⟨S32, .i32⟩
  | 40 => ⟨S32, .i32⟩
  | 41 => ⟨S_, .i32⟩
  | 42 => ⟨S32, .i32⟩
  | 43 => ⟨S32, .i1⟩
  | 44 => ⟨S_, .i32⟩
  | 45 => ⟨S32, .i32⟩
  | 46 => ⟨S32, .i32⟩
  | 47 => ⟨S32, .i32⟩
  | 48 => ⟨S32x1, .i32⟩
  | 49 => ⟨S32x1, .i32⟩
  | 50 => ⟨S32x2, .i32⟩
  | 51 => ⟨S64x64, .f32⟩
  | 52 => ⟨S_, .i32⟩
  | 53 => ⟨S32, .i32⟩
  | 54 => ⟨S32, .i32⟩
  | 55 => ⟨S_, .i32⟩
  | 56 => ⟨S32, .i32⟩
  | 57 => ⟨S32, .i32⟩
  | 58 => ⟨S_, .i32⟩
  | 59 => ⟨S32, .i32⟩
  | 60 => ⟨S32, .i32⟩
  | 61 => ⟨S_, .i32⟩
  | 62 => ⟨S32, .i32⟩
  | 63 => ⟨S32, .i32⟩
  | 64 => ⟨S_, .i32⟩
  | 65 => ⟨S32, .i32⟩
  | 66 => ⟨S32, .i1⟩
  | 67 => ⟨S_, .i32⟩
  | 68 => ⟨S32, .i32⟩
  | 69 => ⟨S32, .i32⟩
  | 70 => ⟨S32, .i32⟩
  | 71 => ⟨S_, .i32⟩
  | 72 => ⟨S32, .i32⟩
  | 73 => ⟨S32, .i1⟩
  | 74 => ⟨S_, .i32⟩
  | 75 => ⟨S32, .i32⟩
  | 76 => ⟨S32, .i32⟩
  | 77 => ⟨S32, .i32⟩
  | 78 => ⟨S32x1, .i32⟩
  | 79 => ⟨S32x1, .i32⟩
  | 80 => ⟨S32x2, .i32⟩
  | 81 => ⟨S64x64, .f32⟩
  | 82 => ⟨S1x64x64, .f32⟩
  | 83 => ⟨S1x64x64, .f32⟩
  | 84 => ⟨S1x64x64, .f32⟩
  | 85 => ⟨S3x64x64, .f32⟩
  | 86 => ⟨S1000000x64, .f32⟩
  | _ => ⟨S1000000x4x64, .f32⟩

abbrev hbmTy (i : Nat) : BufTy := match i / 128 with
  | 0 => hbmTy0_0 i
  | 1 => hbmTy0_1 i
  | 2 => hbmTy0_2 i
  | 3 => hbmTy0_3 i
  | _ => ⟨S1000000x4x64, .f32⟩

abbrev bufTy : (tb : Table) → Fin (tcTables nBuf tb) → BufTy
  | .hbm, ⟨i, _⟩ => hbmTy i
  | .local _ .vmem, ⟨0, _⟩ => ⟨S5000x4x64, .f32⟩
  | .local _ .vmem, ⟨1, _⟩ => ⟨S5000x4x64, .f32⟩
  | .local _ .vmem, ⟨2, _⟩ => ⟨S3x64x64, .f32⟩
  | .local _ .vmem, ⟨3, _⟩ => ⟨S5000x64, .f32⟩
  | .local _ .vmem, ⟨4, _⟩ => ⟨S5000x64, .f32⟩
  | _, _ => ⟨S1000000x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_cst_4 : Ref sig .tc := ⟨.hbm, 119, rfl⟩
abbrev main_v112 : Ref sig .tc := ⟨.hbm, 120, rfl⟩
abbrev main_c : Ref sig .tc := ⟨.hbm, 121, rfl⟩
abbrev main_v113 : Ref sig .tc := ⟨.hbm, 122, rfl⟩
abbrev main_v114 : Ref sig .tc := ⟨.hbm, 123, rfl⟩
abbrev main_c_5 : Ref sig .tc := ⟨.hbm, 124, rfl⟩
abbrev main_v115 : Ref sig .tc := ⟨.hbm, 125, rfl⟩
abbrev main_v116 : Ref sig .tc := ⟨.hbm, 126, rfl⟩
abbrev main_c_6 : Ref sig .tc := ⟨.hbm, 127, rfl⟩
abbrev main_v117 : Ref sig .tc := ⟨.hbm, 128, rfl⟩
abbrev main_v118 : Ref sig .tc := ⟨.hbm, 129, rfl⟩
abbrev main_c_7 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_c_8 : Ref sig .tc := ⟨.hbm, 134, rfl⟩
abbrev main_v122 : Ref sig .tc := ⟨.hbm, 135, rfl⟩
abbrev main_v123 : Ref sig .tc := ⟨.hbm, 136, rfl⟩
abbrev main_c_9 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_c_10 : Ref sig .tc := ⟨.hbm, 145, rfl⟩
abbrev main_v131 : Ref sig .tc := ⟨.hbm, 146, rfl⟩
abbrev main_v132 : Ref sig .tc := ⟨.hbm, 147, rfl⟩
abbrev main_c_11 : Ref sig .tc := ⟨.hbm, 148, rfl⟩
abbrev main_v133 : Ref sig .tc := ⟨.hbm, 149, rfl⟩
abbrev main_v134 : Ref sig .tc := ⟨.hbm, 150, rfl⟩
abbrev main_c_12 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_c_13 : Ref sig .tc := ⟨.hbm, 155, rfl⟩
abbrev main_v138 : Ref sig .tc := ⟨.hbm, 156, rfl⟩
abbrev main_v139 : Ref sig .tc := ⟨.hbm, 157, rfl⟩
abbrev main_c_14 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_c_15 : Ref sig .tc := ⟨.hbm, 162, rfl⟩
abbrev main_v143 : Ref sig .tc := ⟨.hbm, 163, rfl⟩
abbrev main_v144 : Ref sig .tc := ⟨.hbm, 164, rfl⟩
abbrev main_c_16 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_c_17 : Ref sig .tc := ⟨.hbm, 173, rfl⟩
abbrev main_v152 : Ref sig .tc := ⟨.hbm, 174, rfl⟩
abbrev main_v153 : Ref sig .tc := ⟨.hbm, 175, rfl⟩
abbrev main_c_18 : Ref sig .tc := ⟨.hbm, 176, rfl⟩
abbrev main_v154 : Ref sig .tc := ⟨.hbm, 177, rfl⟩
abbrev main_v155 : Ref sig .tc := ⟨.hbm, 178, rfl⟩
abbrev main_c_19 : Ref sig .tc := ⟨.hbm, 179, rfl⟩
abbrev main_v156 : Ref sig .tc := ⟨.hbm, 180, rfl⟩
abbrev main_v157 : Ref sig .tc := ⟨.hbm, 181, rfl⟩
abbrev main_c_20 : Ref sig .tc := ⟨.hbm, 182, rfl⟩
abbrev main_v158 : Ref sig .tc := ⟨.hbm, 183, rfl⟩
abbrev main_v159 : Ref sig .tc := ⟨.hbm, 184, rfl⟩
abbrev main_c_21 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_c_22 : Ref sig .tc := ⟨.hbm, 189, rfl⟩
abbrev main_v163 : Ref sig .tc := ⟨.hbm, 190, rfl⟩
abbrev main_v164 : Ref sig .tc := ⟨.hbm, 191, rfl⟩
abbrev main_c_23 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_c_24 : Ref sig .tc := ⟨.hbm, 200, rfl⟩
abbrev main_v172 : Ref sig .tc := ⟨.hbm, 201, rfl⟩
abbrev main_v173 : Ref sig .tc := ⟨.hbm, 202, rfl⟩
abbrev main_c_25 : Ref sig .tc := ⟨.hbm, 203, rfl⟩
abbrev main_v174 : Ref sig .tc := ⟨.hbm, 204, rfl⟩
abbrev main_v175 : Ref sig .tc := ⟨.hbm, 205, rfl⟩
abbrev main_c_26 : Ref sig .tc := ⟨.hbm, 206, rfl⟩
abbrev main_v176 : Ref sig .tc := ⟨.hbm, 207, rfl⟩
abbrev main_v177 : Ref sig .tc := ⟨.hbm, 208, rfl⟩
abbrev main_c_27 : Ref sig .tc := ⟨.hbm, 209, rfl⟩
abbrev main_v178 : Ref sig .tc := ⟨.hbm, 210, rfl⟩
abbrev main_v179 : Ref sig .tc := ⟨.hbm, 211, rfl⟩
abbrev main_c_28 : Ref sig .tc := ⟨.hbm, 212, rfl⟩
abbrev main_v180 : Ref sig .tc := ⟨.hbm, 213, rfl⟩
abbrev main_v181 : Ref sig .tc := ⟨.hbm, 214, rfl⟩
abbrev main_c_29 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_c_30 : Ref sig .tc := ⟨.hbm, 219, rfl⟩
abbrev main_v185 : Ref sig .tc := ⟨.hbm, 220, rfl⟩
abbrev main_v186 : Ref sig .tc := ⟨.hbm, 221, rfl⟩
abbrev main_c_31 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_cst_32 : Ref sig .tc := ⟨.hbm, 237, rfl⟩
abbrev main_v201 : Ref sig .tc := ⟨.hbm, 238, rfl⟩
abbrev main_c_33 : Ref sig .tc := ⟨.hbm, 239, rfl⟩
abbrev main_v202 : Ref sig .tc := ⟨.hbm, 240, rfl⟩
abbrev main_v203 : Ref sig .tc := ⟨.hbm, 241, rfl⟩
abbrev main_c_34 : Ref sig .tc := ⟨.hbm, 242, rfl⟩
abbrev main_v204 : Ref sig .tc := ⟨.hbm, 243, rfl⟩
abbrev main_v205 : Ref sig .tc := ⟨.hbm, 244, rfl⟩
abbrev main_c_35 : Ref sig .tc := ⟨.hbm, 245, rfl⟩
abbrev main_v206 : Ref sig .tc := ⟨.hbm, 246, rfl⟩
abbrev main_v207 : Ref sig .tc := ⟨.hbm, 247, rfl⟩
abbrev main_c_36 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_c_37 : Ref sig .tc := ⟨.hbm, 252, rfl⟩
abbrev main_v211 : Ref sig .tc := ⟨.hbm, 253, rfl⟩
abbrev main_v212 : Ref sig .tc := ⟨.hbm, 254, rfl⟩
abbrev main_c_38 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_c_39 : Ref sig .tc := ⟨.hbm, 263, rfl⟩
abbrev main_v220 : Ref sig .tc := ⟨.hbm, 264, rfl⟩
abbrev main_v221 : Ref sig .tc := ⟨.hbm, 265, rfl⟩
abbrev main_c_40 : Ref sig .tc := ⟨.hbm, 266, rfl⟩
abbrev main_v222 : Ref sig .tc := ⟨.hbm, 267, rfl⟩
abbrev main_v223 : Ref sig .tc := ⟨.hbm, 268, rfl⟩
abbrev main_c_41 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_c_42 : Ref sig .tc := ⟨.hbm, 273, rfl⟩
abbrev main_v227 : Ref sig .tc := ⟨.hbm, 274, rfl⟩
abbrev main_v228 : Ref sig .tc := ⟨.hbm, 275, rfl⟩
abbrev main_c_43 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_c_44 : Ref sig .tc := ⟨.hbm, 280, rfl⟩
abbrev main_v232 : Ref sig .tc := ⟨.hbm, 281, rfl⟩
abbrev main_v233 : Ref sig .tc := ⟨.hbm, 282, rfl⟩
abbrev main_c_45 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_c_46 : Ref sig .tc := ⟨.hbm, 291, rfl⟩
abbrev main_v241 : Ref sig .tc := ⟨.hbm, 292, rfl⟩
abbrev main_v242 : Ref sig .tc := ⟨.hbm, 293, rfl⟩
abbrev main_c_47 : Ref sig .tc := ⟨.hbm, 294, rfl⟩
abbrev main_v243 : Ref sig .tc := ⟨.hbm, 295, rfl⟩
abbrev main_v244 : Ref sig .tc := ⟨.hbm, 296, rfl⟩
abbrev main_c_48 : Ref sig .tc := ⟨.hbm, 297, rfl⟩
abbrev main_v245 : Ref sig .tc := ⟨.hbm, 298, rfl⟩
abbrev main_v246 : Ref sig .tc := ⟨.hbm, 299, rfl⟩
abbrev main_c_49 : Ref sig .tc := ⟨.hbm, 300, rfl⟩
abbrev main_v247 : Ref sig .tc := ⟨.hbm, 301, rfl⟩
abbrev main_v248 : Ref sig .tc := ⟨.hbm, 302, rfl⟩
abbrev main_c_50 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_c_51 : Ref sig .tc := ⟨.hbm, 307, rfl⟩
abbrev main_v252 : Ref sig .tc := ⟨.hbm, 308, rfl⟩
abbrev main_v253 : Ref sig .tc := ⟨.hbm, 309, rfl⟩
abbrev main_c_52 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_c_53 : Ref sig .tc := ⟨.hbm, 318, rfl⟩
abbrev main_v261 : Ref sig .tc := ⟨.hbm, 319, rfl⟩
abbrev main_v262 : Ref sig .tc := ⟨.hbm, 320, rfl⟩
abbrev main_c_54 : Ref sig .tc := ⟨.hbm, 321, rfl⟩
abbrev main_v263 : Ref sig .tc := ⟨.hbm, 322, rfl⟩
abbrev main_v264 : Ref sig .tc := ⟨.hbm, 323, rfl⟩
abbrev main_c_55 : Ref sig .tc := ⟨.hbm, 324, rfl⟩
abbrev main_v265 : Ref sig .tc := ⟨.hbm, 325, rfl⟩
abbrev main_v266 : Ref sig .tc := ⟨.hbm, 326, rfl⟩
abbrev main_c_56 : Ref sig .tc := ⟨.hbm, 327, rfl⟩
abbrev main_v267 : Ref sig .tc := ⟨.hbm, 328, rfl⟩
abbrev main_v268 : Ref sig .tc := ⟨.hbm, 329, rfl⟩
abbrev main_c_57 : Ref sig .tc := ⟨.hbm, 330, rfl⟩
abbrev main_v269 : Ref sig .tc := ⟨.hbm, 331, rfl⟩
abbrev main_v270 : Ref sig .tc := ⟨.hbm, 332, rfl⟩
abbrev main_c_58 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_c_59 : Ref sig .tc := ⟨.hbm, 337, rfl⟩
abbrev main_v274 : Ref sig .tc := ⟨.hbm, 338, rfl⟩
abbrev main_v275 : Ref sig .tc := ⟨.hbm, 339, rfl⟩
abbrev main_c_60 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_cst_61 : Ref sig .tc := ⟨.hbm, 355, rfl⟩
abbrev main_v290 : Ref sig .tc := ⟨.hbm, 356, rfl⟩
abbrev main_c_62 : Ref sig .tc := ⟨.hbm, 357, rfl⟩
abbrev main_v291 : Ref sig .tc := ⟨.hbm, 358, rfl⟩
abbrev main_v292 : Ref sig .tc := ⟨.hbm, 359, rfl⟩
abbrev main_c_63 : Ref sig .tc := ⟨.hbm, 360, rfl⟩
abbrev main_v293 : Ref sig .tc := ⟨.hbm, 361, rfl⟩
abbrev main_v294 : Ref sig .tc := ⟨.hbm, 362, rfl⟩
abbrev main_c_64 : Ref sig .tc := ⟨.hbm, 363, rfl⟩
abbrev main_v295 : Ref sig .tc := ⟨.hbm, 364, rfl⟩
abbrev main_v296 : Ref sig .tc := ⟨.hbm, 365, rfl⟩
abbrev main_c_65 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_c_66 : Ref sig .tc := ⟨.hbm, 370, rfl⟩
abbrev main_v300 : Ref sig .tc := ⟨.hbm, 371, rfl⟩
abbrev main_v301 : Ref sig .tc := ⟨.hbm, 372, rfl⟩
abbrev main_c_67 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_c_68 : Ref sig .tc := ⟨.hbm, 381, rfl⟩
abbrev main_v309 : Ref sig .tc := ⟨.hbm, 382, rfl⟩
abbrev main_v310 : Ref sig .tc := ⟨.hbm, 383, rfl⟩
abbrev main_c_69 : Ref sig .tc := ⟨.hbm, 384, rfl⟩
abbrev main_v311 : Ref sig .tc := ⟨.hbm, 385, rfl⟩
abbrev main_v312 : Ref sig .tc := ⟨.hbm, 386, rfl⟩
abbrev main_c_70 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_c_71 : Ref sig .tc := ⟨.hbm, 391, rfl⟩
abbrev main_v316 : Ref sig .tc := ⟨.hbm, 392, rfl⟩
abbrev main_v317 : Ref sig .tc := ⟨.hbm, 393, rfl⟩
abbrev main_c_72 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_c_73 : Ref sig .tc := ⟨.hbm, 398, rfl⟩
abbrev main_v321 : Ref sig .tc := ⟨.hbm, 399, rfl⟩
abbrev main_v322 : Ref sig .tc := ⟨.hbm, 400, rfl⟩
abbrev main_c_74 : Ref sig .tc := ⟨.hbm, 401, rfl⟩
abbrev main_v323 : Ref sig .tc := ⟨.hbm, 402, rfl⟩
abbrev main_v324 : Ref sig .tc := ⟨.hbm, 403, rfl⟩
abbrev main_v325 : Ref sig .tc := ⟨.hbm, 404, rfl⟩
abbrev main_v326 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_c_75 : Ref sig .tc := ⟨.hbm, 409, rfl⟩
abbrev main_v330 : Ref sig .tc := ⟨.hbm, 410, rfl⟩
abbrev main_v331 : Ref sig .tc := ⟨.hbm, 411, rfl⟩
abbrev main_c_76 : Ref sig .tc := ⟨.hbm, 412, rfl⟩
abbrev main_v332 : Ref sig .tc := ⟨.hbm, 413, rfl⟩
abbrev main_v333 : Ref sig .tc := ⟨.hbm, 414, rfl⟩
abbrev main_c_77 : Ref sig .tc := ⟨.hbm, 415, rfl⟩
abbrev main_v334 : Ref sig .tc := ⟨.hbm, 416, rfl⟩
abbrev main_v335 : Ref sig .tc := ⟨.hbm, 417, rfl⟩
abbrev main_c_78 : Ref sig .tc := ⟨.hbm, 418, rfl⟩
abbrev main_v336 : Ref sig .tc := ⟨.hbm, 419, rfl⟩
abbrev main_v337 : Ref sig .tc := ⟨.hbm, 420, rfl⟩
abbrev main_c_79 : Ref sig .tc := ⟨.hbm, 421, rfl⟩
abbrev main_v338 : Ref sig .tc := ⟨.hbm, 422, rfl⟩
abbrev main_v339 : Ref sig .tc := ⟨.hbm, 423, rfl⟩
abbrev main_v340 : Ref sig .tc := ⟨.hbm, 424, rfl⟩
abbrev main_c_80 : Ref sig .tc := ⟨.hbm, 425, rfl⟩
abbrev main_v341 : Ref sig .tc := ⟨.hbm, 426, rfl⟩
abbrev main_v342 : Ref sig .tc := ⟨.hbm, 427, rfl⟩
abbrev main_c_81 : Ref sig .tc := ⟨.hbm, 428, rfl⟩
abbrev main_v343 : Ref sig .tc := ⟨.hbm, 429, rfl⟩
abbrev main_v344 : Ref sig .tc := ⟨.hbm, 430, rfl⟩
abbrev main_v345 : Ref sig .tc := ⟨.hbm, 431, rfl⟩
abbrev main_v346 : Ref sig .tc := ⟨.hbm, 432, rfl⟩
abbrev main_v347 : Ref sig .tc := ⟨.hbm, 433, rfl⟩
abbrev main_v348 : Ref sig .tc := ⟨.hbm, 434, rfl⟩
abbrev main_v349 : Ref sig .tc := ⟨.hbm, 435, rfl⟩
abbrev main_c_82 : Ref sig .tc := ⟨.hbm, 436, rfl⟩
abbrev main_v350 : Ref sig .tc := ⟨.hbm, 437, rfl⟩
abbrev main_v351 : Ref sig .tc := ⟨.hbm, 438, rfl⟩
abbrev main_c_83 : Ref sig .tc := ⟨.hbm, 439, rfl⟩
abbrev main_v352 : Ref sig .tc := ⟨.hbm, 440, rfl⟩
abbrev main_v353 : Ref sig .tc := ⟨.hbm, 441, rfl⟩
abbrev main_c_84 : Ref sig .tc := ⟨.hbm, 442, rfl⟩
abbrev main_v354 : Ref sig .tc := ⟨.hbm, 443, rfl⟩
abbrev main_v355 : Ref sig .tc := ⟨.hbm, 444, rfl⟩
abbrev main_c_85 : Ref sig .tc := ⟨.hbm, 445, rfl⟩
abbrev main_v356 : Ref sig .tc := ⟨.hbm, 446, rfl⟩
abbrev main_v357 : Ref sig .tc := ⟨.hbm, 447, rfl⟩
abbrev main_c_86 : Ref sig .tc := ⟨.hbm, 448, rfl⟩
abbrev main_v358 : Ref sig .tc := ⟨.hbm, 449, rfl⟩
abbrev main_v359 : Ref sig .tc := ⟨.hbm, 450, rfl⟩
abbrev main_c_87 : Ref sig .tc := ⟨.hbm, 451, rfl⟩
abbrev main_v360 : Ref sig .tc := ⟨.hbm, 452, rfl⟩
abbrev main_v361 : Ref sig .tc := ⟨.hbm, 453, rfl⟩
abbrev main_v362 : Ref sig .tc := ⟨.hbm, 454, rfl⟩
abbrev main_c_88 : Ref sig .tc := ⟨.hbm, 455, rfl⟩
abbrev main_v363 : Ref sig .tc := ⟨.hbm, 456, rfl⟩
abbrev main_v364 : Ref sig .tc := ⟨.hbm, 457, rfl⟩
abbrev main_c_89 : Ref sig .tc := ⟨.hbm, 458, rfl⟩
abbrev main_v365 : Ref sig .tc := ⟨.hbm, 459, rfl⟩
abbrev main_v366 : Ref sig .tc := ⟨.hbm, 460, rfl⟩
abbrev main_v367 : Ref sig .tc := ⟨.hbm, 461, rfl⟩
abbrev main_v368 : Ref sig .tc := ⟨.hbm, 462, rfl⟩
abbrev main_v369 : Ref sig .tc := ⟨.hbm, 463, rfl⟩
abbrev main_v370 : Ref sig .tc := ⟨.hbm, 464, rfl⟩
abbrev main_v371 : Ref sig .tc := ⟨.hbm, 465, rfl⟩
abbrev main_v372 : Ref sig .tc := ⟨.hbm, 466, rfl⟩
abbrev main_v373 : Ref sig .tc := ⟨.hbm, 467, rfl⟩
abbrev main_v374 : Ref sig .tc := ⟨.hbm, 468, rfl⟩
abbrev main_v375 : Ref sig .tc := ⟨.hbm, 469, rfl⟩
abbrev main_v376 : Ref sig .tc := ⟨.hbm, 470, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4x32x2_S4x32_d2 : S4x32x2.ReducesTo [2] S4x32
  h_S_ : 0 < S_.numel
  bcast_S4x32_S4x32x1_0_1 : S4x32.BroadcastsInDim S4x32x1 (![0, 1] : Fin 2 → Fin S4x32x1.rank)
  bcast_S_S4x32x1 : S_.BroadcastsInDim S4x32x1 (![] : Fin 0 → Fin S4x32x1.rank)
  bcast_S4x32x1_S4x32x2_0_1_2 : S4x32x1.BroadcastsInDim S4x32x2 (![0, 1, 2] : Fin 3 → Fin S4x32x2.rank)
  bcast_S2_S1x1x2_2 : S2.BroadcastsInDim S1x1x2 (![2] : Fin 1 → Fin S1x1x2.rank)
  bcast_S1x1x2_S4x32x2_0_1_2 : S1x1x2.BroadcastsInDim S4x32x2 (![0, 1, 2] : Fin 3 → Fin S4x32x2.rank)
  bcast_S4x32x2_S4x1x32x2_0_2_3 : S4x32x2.BroadcastsInDim S4x1x32x2 (![0, 2, 3] : Fin 3 → Fin S4x1x32x2.rank)
  concatenates_S4x1x32x2_S4x1x32x2_S4x2x32x2_d1 : Shape.Concatenates [S4x1x32x2, S4x1x32x2] S4x2x32x2 1
  shapeCasts_S4x2x32x2_S8x32x2 : S4x2x32x2.ShapeCasts S8x32x2
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  slices_S8x32x2_S1x32x2_5_0_0 : S8x32x2.Slices ![5, 0, 0] S1x32x2
  shapeCasts_S1x32x2_S32x2 : S1x32x2.ShapeCasts S32x2
  slices_S32x2_S32x1_0_0 : S32x2.Slices ![0, 0] S32x1
  shapeCasts_S32x1_S32 : S32x1.ShapeCasts S32
  slices_S32x2_S32x1_0_1 : S32x2.Slices ![0, 1] S32x1
  slices_S8x32x2_S1x32x2_3_0_0 : S8x32x2.Slices ![3, 0, 0] S1x32x2
  slices_S8x32x2_S1x32x2_0_0_0 : S8x32x2.Slices ![0, 0, 0] S1x32x2
  bcast_S32x2_S1x32x2_1_2 : S32x2.BroadcastsInDim S1x32x2 (![1, 2] : Fin 2 → Fin S1x32x2.rank)
  concatenates_S1x32x2_S1x32x2_S1x32x2_S3x32x2_d0 : Shape.Concatenates [S1x32x2, S1x32x2, S1x32x2] S3x32x2 0
  slices_S3x32x2_S1x32x2_0_0_0 : S3x32x2.Slices ![0, 0, 0] S1x32x2
  bcast_S_S64x64 : S_.BroadcastsInDim S64x64 (![] : Fin 0 → Fin S64x64.rank)
  slices_S3x32x2_S1x32x2_1_0_0 : S3x32x2.Slices ![1, 0, 0] S1x32x2
  slices_S3x32x2_S1x32x2_2_0_0 : S3x32x2.Slices ![2, 0, 0] S1x32x2
  bcast_S64x64_S1x64x64_1_2 : S64x64.BroadcastsInDim S1x64x64 (![1, 2] : Fin 2 → Fin S1x64x64.rank)
  concatenates_S1x64x64_S1x64x64_S1x64x64_S3x64x64_d0 : Shape.Concatenates [S1x64x64, S1x64x64, S1x64x64] S3x64x64 0
  inb_S5000x4x64_S5000x4x64_0_0_0 : ∀ a, (![0, 0, 0] : Fin 3 → Nat) a + S5000x4x64.size a ≤ S5000x4x64.size a
  h_S5000x4x64 : 0 < S5000x4x64.numel
  inb_S3x64x64_S3x64x64_0_0_0 : ∀ a, (![0, 0, 0] : Fin 3 → Nat) a + S3x64x64.size a ≤ S3x64x64.size a
  h_S3x64x64 : 0 < S3x64x64.numel
  shapeCasts_S3x64x64_S3x64x64 : S3x64x64.ShapeCasts S3x64x64
  bitsLt_bf16_f32 : FTy.bits .bf16 < FTy.bits .f32
  slices_S5000x4x64_o0_0_0_S5000x1x64 : S5000x4x64.Slices ![0, 0, 0] S5000x1x64
  shapeCasts_S5000x1x64_S5000x64 : S5000x1x64.ShapeCasts S5000x64
  slices_S5000x4x64_o0_1_0_S5000x1x64 : S5000x4x64.Slices ![0, 1, 0] S5000x1x64
  slices_S5000x4x64_o0_2_0_S5000x1x64 : S5000x4x64.Slices ![0, 2, 0] S5000x1x64
  slices_S5000x4x64_o0_3_0_S5000x1x64 : S5000x4x64.Slices ![0, 3, 0] S5000x1x64
  slices_S3x64x64_o0_0_0_S1x64x64 : S3x64x64.Slices ![0, 0, 0] S1x64x64
  shapeCasts_S1x64x64_S64x64 : S1x64x64.ShapeCasts S64x64
  slices_S3x64x64_o1_0_0_S1x64x64 : S3x64x64.Slices ![1, 0, 0] S1x64x64
  slices_S3x64x64_o2_0_0_S1x64x64 : S3x64x64.Slices ![2, 0, 0] S1x64x64
  inb_S5000x64_S5000x64_0_0 : ∀ a, (![0, 0] : Fin 2 → Nat) a + S5000x64.size a ≤ S5000x64.size a
  h_S5000x64 : 0 < S5000x64.numel
  scatter_S64x64_S32x2_S32_n_01_01_1_wf : ScatterDims.WF S64x64 S32x2 S32 [] [0, 1] [0, 1] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4x64.size a ≤ S1000000x4x64.size a
  hwx0_0 : ∀ i : grid0.Coords, EltTy.bits .f32 = 32 ∨ (Rect.block (s := S1000000x4x64) S5000x4x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64x64.size a ≤ S3x64x64.size a
  hwx0_1 : ∀ i : grid0.Coords, EltTy.bits .f32 = 32 ∨ (Rect.block (s := S3x64x64) S3x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1000000x64.size a
  hwx0_2 : ∀ i : grid0.Coords, EltTy.bits .f32 = 32 ∨ (Rect.block (s := S1000000x64) S5000x64.size (cc0_transform_2 i) (hinb0_2 i)).WholeWords (EltTy.packing .f32)

variable [Facts₀]

def scatter_S64x64_S32x2_S32_n_01_01_1 : ScatterDims S64x64 S32x2 S32 where
  updateWindowDims := []
  insertedWindowDims := [0, 1]
  scatterDimsToOperandDims := [0, 1]
  indexVectorDim := 1
  wf := scatter_S64x64_S32x2_S32_n_01_01_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x4x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v375) S3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v376) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x4x64 : Shape := ⟨3, ![1000000, 4, 64]⟩
abbrev S4x32x2 : Shape := ⟨3, ![4, 32, 2]⟩
abbrev S2 : Shape := ⟨1, ![2]⟩
abbrev S_ : Shape := ⟨0, ![]⟩
abbrev S4x32 : Shape := ⟨2, ![4, 32]⟩
abbrev S4x32x1 : Shape := ⟨3, ![4, 32, 1]⟩
abbrev S1x1x2 : Shape := ⟨3, ![1, 1, 2]⟩
abbrev S4x1x32x2 : Shape := ⟨4, ![4, 1, 32, 2]⟩
abbrev S4x2x32x2 : Shape := ⟨4, ![4, 2, 32, 2]⟩
abbrev S8x32x2 : Shape := ⟨3, ![8, 32, 2]⟩
abbrev S1000000x4x32x2 : Shape := ⟨4, ![1000000, 4, 32, 2]⟩
abbrev S32 : Shape := ⟨1, ![32]⟩
abbrev S32x1 : Shape := ⟨2, ![32, 1]⟩
abbrev S32x2 : Shape := ⟨2, ![32, 2]⟩
abbrev S1x32x2 : Shape := ⟨3, ![1, 32, 2]⟩
abbrev S1000000x3x32x2 : Shape := ⟨4, ![1000000, 3, 32, 2]⟩
abbrev S3x32x2 : Shape := ⟨3, ![3, 32, 2]⟩
abbrev S1x3x32x2 : Shape := ⟨4, ![1, 3, 32, 2]⟩
abbrev S1000000x3x32x1 : Shape := ⟨4, ![1000000, 3, 32, 1]⟩
abbrev S1000000x3x32 : Shape := ⟨3, ![1000000, 3, 32]⟩
abbrev S1x3x32x1 : Shape := ⟨4, ![1, 3, 32, 1]⟩
abbrev S1x3x32 : Shape := ⟨3, ![1, 3, 32]⟩
abbrev S1000000x1x32x2 : Shape := ⟨4, ![1000000, 1, 32, 2]⟩
abbrev S1000000x64 : Shape := ⟨2, ![1000000, 64]⟩

abbrev nBuf : Space → Nat
  | .hbm => 154
  | .vmem => 0
  | .smem => 0
  | _ => 0

abbrev hbmTy0_0 (i : Nat) : BufTy := match i % 128 with
  | 0 => ⟨S1000000x4x64, .f32⟩
  | 1 => ⟨S4x32x2, .f32⟩
  | 2 => ⟨S2, .f32⟩
  | 3 => ⟨S4x32x2, .f32⟩
  | 4 => ⟨S_, .f32⟩
  | 5 => ⟨S4x32, .f32⟩
  | 6 => ⟨S4x32x1, .f32⟩
  | 7 => ⟨S4x32x1, .f32⟩
  | 8 => ⟨S_, .f32⟩
  | 9 => ⟨S4x32x1, .f32⟩
  | 10 => ⟨S4x32x1, .f32⟩
  | 11 => ⟨S4x32x2, .f32⟩
  | 12 => ⟨S4x32x2, .f32⟩
  | 13 => ⟨S1x1x2, .f32⟩
  | 14 => ⟨S4x32x2, .f32⟩
  | 15 => ⟨S4x32x2, .f32⟩
  | 16 => ⟨S4x1x32x2, .f32⟩
  | 17 => ⟨S4x1x32x2, .f32⟩
  | 18 => ⟨S4x2x32x2, .f32⟩
  | 19 => ⟨S8x32x2, .f32⟩
  | 20 => ⟨S1000000x4x32x2, .f32⟩
  | 21 => ⟨S_, .f32⟩
  | 22 => ⟨S32, .f32⟩
  | 23 => ⟨S_, .f32⟩
  | 24 => ⟨S32, .f32⟩
  | 25 => ⟨S32x1, .f32⟩
  | 26 => ⟨S32x1, .f32⟩
  | 27 => ⟨S32x2, .f32⟩
  | 28 => ⟨S1x32x2, .f32⟩
  | 29 => ⟨S32x2, .f32⟩
  | 30 => ⟨S32x1, .f32⟩
  | 31 => ⟨S32, .f32⟩
  | 32 => ⟨S32x1, .f32⟩
  | 33 => ⟨S32, .f32⟩
  | 34 => ⟨S32, .f32⟩
  | 35 => ⟨S32x1, .f32⟩
  | 36 => ⟨S32, .f32⟩
  | 37 => ⟨S32x1, .f32⟩
  | 38 => ⟨S32, .f32⟩
  | 39 => ⟨S32, .f32⟩
  | 40 => ⟨S32, .f32⟩
  | 41 => ⟨S32x1, .f32⟩
  | 42 => ⟨S32, .f32⟩
  | 43 => ⟨S32x1, .f32⟩
  | 44 => ⟨S32, .f32⟩
  | 45 => ⟨S32, .f32⟩
  | 46 => ⟨S32x1, .f32⟩
  | 47 => ⟨S32, .f32⟩
  | 48 => ⟨S32x1, .f32⟩
  | 49 => ⟨S32, .f32⟩
  | 50 => ⟨S32, .f32⟩
  | 51 => ⟨S32, .f32⟩
  | 52 => ⟨S32x1, .f32⟩
  | 53 => ⟨S32x1, .f32⟩
  | 54 => ⟨S32x2, .f32⟩
  | 55 => ⟨S1x32x2, .f32⟩
  | 56 => ⟨S32x2, .f32⟩
  | 57 => ⟨S32x1, .f32⟩
  | 58 => ⟨S32, .f32⟩
  | 59 => ⟨S32x1, .f32⟩
  | 60 => ⟨S32, .f32⟩
  | 61 => ⟨S32, .f32⟩
  | 62 => ⟨S32x1, .f32⟩
  | 63 => ⟨S32, .f32⟩
  | 64 => ⟨S32x1, .f32⟩
  | 65 => ⟨S32, .f32⟩
  | 66 => ⟨S32, .f32⟩
  | 67 => ⟨S32, .f32⟩
  | 68 => ⟨S32x1, .f32⟩
  | 69 => ⟨S32, .f32⟩
  | 70 => ⟨S32x1, .f32⟩
  | 71 => ⟨S32, .f32⟩
  | 72 => ⟨S32, .f32⟩
  | 73 => ⟨S32x1, .f32⟩
  | 74 => ⟨S32, .f32⟩
  | 75 => ⟨S32x1, .f32⟩
  | 76 => ⟨S32, .f32⟩
  | 77 => ⟨S32, .f32⟩
  | 78 => ⟨S32, .f32⟩
  | 79 => ⟨S32x1, .f32⟩
  | 80 => ⟨S32x1, .f32⟩
  | 81 => ⟨S32x2, .f32⟩
  | 82 => ⟨S1x32x2, .f32⟩
  | 83 => ⟨S32x2, .f32⟩
  | 84 => ⟨S32x1, .f32⟩
  | 85 => ⟨S32, .f32⟩
  | 86 => ⟨S32x1, .f32⟩
  | 87 => ⟨S32, .f32⟩
  | 88 => ⟨S32, .f32⟩
  | 89 => ⟨S32x1, .f32⟩
  | 90 => ⟨S32, .f32⟩
  | 91 => ⟨S32x1, .f32⟩
  | 92 => ⟨S32, .f32⟩
  | 93 => ⟨S32, .f32⟩
  | 94 => ⟨S32, .f32⟩
  | 95 => ⟨S32x1, .f32⟩
  | 96 => ⟨S32, .f32⟩
  | 97 => ⟨S32x1, .f32⟩
  | 98 => ⟨S32, .f32⟩
  | 99 => ⟨S32, .f32⟩
  | 100 => ⟨S32x1, .f32⟩
  | 101 => ⟨S32, .f32⟩
  | 102 => ⟨S32x1, .f32⟩
  | 103 => ⟨S32, .f32⟩
  | 104 => ⟨S32, .f32⟩
  | 105 => ⟨S32, .f32⟩
  | 106 => ⟨S32x1, .f32⟩
  | 107 => ⟨S32x1, .f32⟩
  | 108 => ⟨S32x2, .f32⟩
  | 109 => ⟨S1x32x2, .f32⟩
  | 110 => ⟨S1x32x2, .f32⟩
  | 111 => ⟨S1x32x2, .f32⟩
  | 112 => ⟨S1x32x2, .f32⟩
  | 113 => ⟨S4x32x2, .f32⟩
  | 114 => ⟨S1000000x3x32x2, .f32⟩
  | 115 => ⟨S3x32x2, .f32⟩
  | 116 => ⟨S1x3x32x2, .f32⟩
  | 117 => ⟨S1000000x3x32x1, .f32⟩
  | 118 => ⟨S1000000x3x32, .f32⟩
  | 119 => ⟨S1x3x32x1, .f32⟩
  | 120 => ⟨S1x3x32, .f32⟩
  | 121 => ⟨S1000000x3x32, .f32⟩
  | 122 => ⟨S1000000x3x32, .f32⟩
  | 123 => ⟨S1000000x3x32x1, .f32⟩
  | 124 => ⟨S1000000x3x32, .f32⟩
  | 125 => ⟨S1x3x32x1, .f32⟩
  | 126 => ⟨S1x3x32, .f32⟩
  | 127 => ⟨S1000000x3x32, .f32⟩
  | _ => ⟨S1000000x4x64, .f32⟩

abbrev hbmTy0_1 (i : Nat) : BufTy := match i % 128 with
  | 0 => ⟨S1000000x3x32, .f32⟩
  | 1 => ⟨S1000000x3x32, .f32⟩
  | 2 => ⟨S1000000x3x32x1, .f32⟩
  | 3 => ⟨S1000000x3x32, .f32⟩
  | 4 => ⟨S1x3x32x1, .f32⟩
  | 5 => ⟨S1x3x32, .f32⟩
  | 6 => ⟨S1000000x3x32, .f32⟩
  | 7 => ⟨S1000000x3x32, .f32⟩
  | 8 => ⟨S1000000x3x32x1, .f32⟩
  | 9 => ⟨S1000000x3x32, .f32⟩
  | 10 => ⟨S1x3x32x1, .f32⟩
  | 11 => ⟨S1x3x32, .f32⟩
  | 12 => ⟨S1000000x3x32, .f32⟩
  | 13 => ⟨S1000000x3x32, .f32⟩
  | 14 => ⟨S1000000x3x32, .f32⟩
  | 15 => ⟨S1000000x3x32x1, .f32⟩
  | 16 => ⟨S1000000x3x32x1, .f32⟩
  | 17 => ⟨S1000000x3x32x2, .f32⟩
  | 18 => ⟨S1000000x1x32x2, .f32⟩
  | 19 => ⟨S1000000x4x32x2, .f32⟩
  | 20 => ⟨S1000000x4x64, .f32⟩
  | 21 => ⟨S_, .f32⟩
  | 22 => ⟨S1000000x64, .f32⟩
  | 23 => ⟨S_, .f32⟩
  | 24 => ⟨S1000000x64, .f32⟩
  | 25 => ⟨S1000000x64, .f32⟩
  | _ => ⟨S1000000x4x64, .f32⟩

abbrev hbmTy (i : Nat) : BufTy := match i / 128 with
  | 0 => hbmTy0_0 i
  | 1 => hbmTy0_1 i
  | _ => ⟨S1000000x4x64, .f32⟩

abbrev bufTy : (tb : Table) → Fin (tcTables nBuf tb) → BufTy
  | .hbm, ⟨i, _⟩ => hbmTy i
  | _, _ => ⟨S1000000x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_cst_4 : Ref sig .tc := ⟨.hbm, 149, rfl⟩
abbrev main_v142 : Ref sig .tc := ⟨.hbm, 150, rfl⟩
abbrev main_cst_5 : Ref sig .tc := ⟨.hbm, 151, rfl⟩
abbrev main_v143 : Ref sig .tc := ⟨.hbm, 152, rfl⟩
abbrev main_v144 : Ref sig .tc := ⟨.hbm, 153, rfl⟩

abbrev nD : Nat := 1
abbrev τ : Topo := Topo.v7x

variable {F : FTy → Type} [FloatOps F]

class Facts₀ : Prop where
  reducesTo_S4x32x2_S4x32_d2 : S4x32x2.ReducesTo [2] S4x32
  h_S_ : 0 < S_.numel
  bcast_S4x32_S4x32x1_0_1 : S4x32.BroadcastsInDim S4x32x1 (![0, 1] : Fin 2 → Fin S4x32x1.rank)
  bcast_S_S4x32x1 : S_.BroadcastsInDim S4x32x1 (![] : Fin 0 → Fin S4x32x1.rank)
  bcast_S4x32x1_S4x32x2_0_1_2 : S4x32x1.BroadcastsInDim S4x32x2 (![0, 1, 2] : Fin 3 → Fin S4x32x2.rank)
  bcast_S2_S1x1x2_2 : S2.BroadcastsInDim S1x1x2 (![2] : Fin 1 → Fin S1x1x2.rank)
  bcast_S1x1x2_S4x32x2_0_1_2 : S1x1x2.BroadcastsInDim S4x32x2 (![0, 1, 2] : Fin 3 → Fin S4x32x2.rank)
  bcast_S4x32x2_S4x1x32x2_0_2_3 : S4x32x2.BroadcastsInDim S4x1x32x2 (![0, 2, 3] : Fin 3 → Fin S4x1x32x2.rank)
  concatenates_S4x1x32x2_S4x1x32x2_S4x2x32x2_d1 : Shape.Concatenates [S4x1x32x2, S4x1x32x2] S4x2x32x2 1
  shapeCasts_S4x2x32x2_S8x32x2 : S4x2x32x2.ShapeCasts S8x32x2
  shapeCasts_S1000000x4x64_S1000000x4x32x2 : S1000000x4x64.ShapeCasts S1000000x4x32x2
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  slices_S8x32x2_S1x32x2_5_0_0 : S8x32x2.Slices ![5, 0, 0] S1x32x2
  shapeCasts_S1x32x2_S32x2 : S1x32x2.ShapeCasts S32x2
  slices_S32x2_S32x1_0_0 : S32x2.Slices ![0, 0] S32x1
  shapeCasts_S32x1_S32 : S32x1.ShapeCasts S32
  slices_S32x2_S32x1_0_1 : S32x2.Slices ![0, 1] S32x1
  slices_S8x32x2_S1x32x2_3_0_0 : S8x32x2.Slices ![3, 0, 0] S1x32x2
  slices_S8x32x2_S1x32x2_0_0_0 : S8x32x2.Slices ![0, 0, 0] S1x32x2
  bcast_S32x2_S1x32x2_1_2 : S32x2.BroadcastsInDim S1x32x2 (![1, 2] : Fin 2 → Fin S1x32x2.rank)
  concatenates_S1x32x2_S1x32x2_S1x32x2_S1x32x2_S4x32x2_d0 : Shape.Concatenates [S1x32x2, S1x32x2, S1x32x2, S1x32x2] S4x32x2 0
  slices_S1000000x4x32x2_S1000000x3x32x2_0_0_0_0 : S1000000x4x32x2.Slices ![0, 0, 0, 0] S1000000x3x32x2
  slices_S4x32x2_S3x32x2_0_0_0 : S4x32x2.Slices ![0, 0, 0] S3x32x2
  bcast_S3x32x2_S1x3x32x2_1_2_3 : S3x32x2.BroadcastsInDim S1x3x32x2 (![1, 2, 3] : Fin 3 → Fin S1x3x32x2.rank)
  slices_S1000000x3x32x2_S1000000x3x32x1_0_0_0_0 : S1000000x3x32x2.Slices ![0, 0, 0, 0] S1000000x3x32x1
  shapeCasts_S1000000x3x32x1_S1000000x3x32 : S1000000x3x32x1.ShapeCasts S1000000x3x32
  slices_S1x3x32x2_S1x3x32x1_0_0_0_0 : S1x3x32x2.Slices ![0, 0, 0, 0] S1x3x32x1
  shapeCasts_S1x3x32x1_S1x3x32 : S1x3x32x1.ShapeCasts S1x3x32
  bcast_S1x3x32_S1000000x3x32_0_1_2 : S1x3x32.BroadcastsInDim S1000000x3x32 (![0, 1, 2] : Fin 3 → Fin S1000000x3x32.rank)
  slices_S1000000x3x32x2_S1000000x3x32x1_0_0_0_1 : S1000000x3x32x2.Slices ![0, 0, 0, 1] S1000000x3x32x1
  slices_S1x3x32x2_S1x3x32x1_0_0_0_1 : S1x3x32x2.Slices ![0, 0, 0, 1] S1x3x32x1
  bcast_S1000000x3x32_S1000000x3x32x1_0_1_2 : S1000000x3x32.BroadcastsInDim S1000000x3x32x1 (![0, 1, 2] : Fin 3 → Fin S1000000x3x32x1.rank)
  concatenates_S1000000x3x32x1_S1000000x3x32x1_S1000000x3x32x2_d3 : Shape.Concatenates [S1000000x3x32x1, S1000000x3x32x1] S1000000x3x32x2 3
  slices_S1000000x4x32x2_S1000000x1x32x2_0_3_0_0 : S1000000x4x32x2.Slices ![0, 3, 0, 0] S1000000x1x32x2
  concatenates_S1000000x3x32x2_S1000000x1x32x2_S1000000x4x32x2_d1 : Shape.Concatenates [S1000000x3x32x2, S1000000x1x32x2] S1000000x4x32x2 1
  shapeCasts_S1000000x4x32x2_S1000000x4x64 : S1000000x4x32x2.ShapeCasts S1000000x4x64
  reducesTo_S1000000x4x64_S1000000x64_d1 : S1000000x4x64.ReducesTo [1] S1000000x64
  bcast_S_S1000000x64 : S_.BroadcastsInDim S1000000x64 (![] : Fin 0 → Fin S1000000x64.rank)

variable [Facts₀]

class Facts : Prop extends Facts₀ where

variable [Facts]
-- ==== Proof.KHost.lean ====
/-
  The host prefix of `Kernel`'s @main, read as one fold.

  Before its one region @main runs a straight line of host operations (the normalisation of the rotation
  table, the reverse cumulative complex product, and the scatters that lay each rotation out as a
  block-diagonal 64×64 real matrix).  None of these operations writes an argument array and none allocates, so
  the region finds every argument array exactly as launched, and the core's buffers on entry are the fold
  `StableHlo.after hostOps0` of the launch memory.
-/
import proofs.«111939_j20813411516915_2_alg».proof.Proof.Gen.Kernel.Launch
import Idealize.ShloMosaic.Lib.Pipeline.FrameBody

set_option maxRecDepth 16384

noncomputable section

namespace Cert.Kernel.Frm

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ)

/-- Core `c`'s buffers when the region is entered: the launch memory after the host operations, in order. -/
abbrev V (c : Dev nD) (b : Ref sig .tc) : Buf (Elt F) ((c : Thread nD τ).loc b) :=
  StableHlo.after hostOps0 (fun b => m (c, b)) b

set_option maxHeartbeats 4000000 in
/-- No host operation of the prefix allocates a buffer. -/
theorem hostOps0_fresh : (hostOps0 : List (HloOp τ sig (Elt F))).Forall fun op => op.fresh = ∅ := by
  simp only [List.Forall]; repeat' constructor

/-- @main is its host prefix followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes the feature array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes the rotation table: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.Kernel.Frm

end
-- ==== Proof.KBody.lean ====
/-
  The kernel body of `Kernel` as one triple.

  At a grid point the body is handed three whole staging buffers: a block of 5000 rows of the feature array
  (each row four positions of 64 lanes), the three 64×64 rotation matrices, and the 5000×64 output block.  It
  loads the two inputs whole, loads the output block (a value it never uses), and stores ONE value that
  covers the output block: the payload `k0_pay1` of the two loaded values — the three rotated positions,
  plus the fourth, times one quarter.  So after the body the inputs are as they were and the output block
  is that payload, whatever it held before.
-/
import proofs.«111939_j20813411516915_2_alg».proof.Proof.Gen.Kernel.Launch
import proofs.«111939_j20813411516915_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole feature block, the whole matrix block and the whole output block, as rectangles. -/
abbrev rX : Rect S5000x4x64 := Rect.unit (s := S5000x4x64) ![0, 0, 0] S5000x4x64.size inb_S5000x4x64_S5000x4x64_0_0_0
abbrev rR : Rect S3x64x64 := Rect.unit (s := S3x64x64) ![0, 0, 0] S3x64x64.size inb_S3x64x64_S3x64x64_0_0_0
abbrev rO : Rect S5000x64 := Rect.unit (s := S5000x64) ![0, 0] S5000x64.size inb_S5000x64_S5000x64_0_0

/-- What the body leaves in the output block, from the two input blocks: its one store, over the payload. -/
def outBlk (x0 : Vec F S5000x4x64 .f32) (x1 : Vec F S3x64x64 .f32) : Vec F S5000x64 .f32 :=
  View.canon [⟨rO, k0_pay1 (View.ld x0 rX) (View.ld x1 rR)⟩]

/-- The one store is of the whole block, so it covers it. -/
theorem coverO (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

set_option maxHeartbeats 4000000 in
/-- The body on whole staging buffers, the inputs at contents `x0`, `x1` and the output at anything: it runs to
    its continuation with the inputs unchanged and the output block at `outBlk x0 x1`. -/
theorem sound_kernel (c : Dev nD) (E : Set ℕ) (i : grid0.Coords)
    (arg1 : Memref sig .tc .vmem S5000x4x64 .f32) (harg1 : arg1.IsWhole)
    (arg2 : Memref sig .tc .vmem S3x64x64 .f32) (harg2 : arg2.IsWhole)
    (arg3 : Memref sig .tc .vmem S5000x64 .f32) (harg3 : arg3.IsWhole)
    (x0 : Vec F S5000x4x64 .f32) (x1 : Vec F S3x64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__rotation_mean_kernel i arg1 harg1 arg2 harg2 arg3 harg3) K := by
  simp only [cc0__rotation_mean_kernel_eq_skeleton]; unfold cc0__rotation_mean_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

end Cert.Kernel.Frm

end
-- ==== Proof.KFrame.lean ====
/-
  The frame of `Kernel`: the region run point by point.

  The region's grid has 200 points.  At point `t` the pipeline hands the body the block of rows
  `5000·t … 5000·t + 4999` of the feature array, the three rotation matrices (one block, the whole array, fetched
  once and kept), and the matching block of 5000 rows of the output; the body overwrites the output block with
  `outBlk` of the two input blocks and leaves the inputs alone.  With that as the proof data the library's launch
  theorem gives: every weakly fair execution of @main terminates without a fault, the output array ends at what
  the blocks written back make of it, and every other array — the two arguments among them — ends as the
  region found it, which for the arguments is as launched.
-/
import proofs.«111939_j20813411516915_2_alg».proof.Proof.KHost
import proofs.«111939_j20813411516915_2_alg».proof.Proof.KBody
import proofs.«111939_j20813411516915_2_alg».proof.Proof.Gen.Kernel.Points

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrix window's staging buffer holds its block at every point, although it is fetched at the first only:
    its block index never moves. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its
    block and the output's at `outBlk` of the two input blocks; nothing else touched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlk (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array of the pipeline ends at what the proof data
    makes of it, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the output array named and the arguments as launched: the feature array is staged by an input
    window and never written back; the rotation table is staged by no window. -/
theorem run_named : θ_run defs (onTc (τ := τ) (main (F := F))) ⟨m, fun _ => 0, ρ⟩ fun r => ∀ c : Dev nD,
      r.2.mem ((c.tc : Thread nD τ).loc main_v376) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1 2,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.Kernel.Frm

end
-- ==== Proof.KIHost.lean ====
/-
  The host prefix of `KernelIdeal`'s @main, read as one fold.

  Before its one region @main runs a straight line of host operations (the normalisation of the rotation
  table, the reverse cumulative complex product, and the scatters that lay each rotation out as a
  block-diagonal 64×64 real matrix).  None of these operations writes an argument array and none allocates, so
  the region finds every argument array exactly as launched, and the core's buffers on entry are the fold
  `StableHlo.after hostOps0` of the launch memory.
-/
import proofs.«111939_j20813411516915_2_alg».proof.Proof.Gen.KernelIdeal.Launch
import Idealize.ShloMosaic.Lib.Pipeline.FrameBody

set_option maxRecDepth 16384

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ)

/-- Core `c`'s buffers when the region is entered: the launch memory after the host operations, in order. -/
abbrev V (c : Dev nD) (b : Ref sig .tc) : Buf (Elt F) ((c : Thread nD τ).loc b) :=
  StableHlo.after hostOps0 (fun b => m (c, b)) b

set_option maxHeartbeats 4000000 in
/-- No host operation of the prefix allocates a buffer. -/
theorem hostOps0_fresh : (hostOps0 : List (HloOp τ sig (Elt F))).Forall fun op => op.fresh = ∅ := by
  simp only [List.Forall]; repeat' constructor

/-- @main is its host prefix followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes the feature array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes the rotation table: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.KernelIdeal.Frm

end
-- ==== Proof.KIBody.lean ====
/-
  The kernel body of `KernelIdeal` as one triple.

  At a grid point the body is handed three whole staging buffers: a block of 5000 rows of the feature array
  (each row four positions of 64 lanes), the three 64×64 rotation matrices, and the 5000×64 output block.  It
  loads the two inputs whole, loads the output block (a value it never uses), and stores ONE value that
  covers the output block: the payload `k0_pay1` of the two loaded values — the three rotated positions,
  plus the fourth, times one quarter.  So after the body the inputs are as they were and the output block
  is that payload, whatever it held before.
-/
import proofs.«111939_j20813411516915_2_alg».proof.Proof.Gen.KernelIdeal.Launch
import proofs.«111939_j20813411516915_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole feature block, the whole matrix block and the whole output block, as rectangles. -/
abbrev rX : Rect S5000x4x64 := Rect.unit (s := S5000x4x64) ![0, 0, 0] S5000x4x64.size inb_S5000x4x64_S5000x4x64_0_0_0
abbrev rR : Rect S3x64x64 := Rect.unit (s := S3x64x64) ![0, 0, 0] S3x64x64.size inb_S3x64x64_S3x64x64_0_0_0
abbrev rO : Rect S5000x64 := Rect.unit (s := S5000x64) ![0, 0] S5000x64.size inb_S5000x64_S5000x64_0_0

/-- What the body leaves in the output block, from the two input blocks: its one store, over the payload. -/
def outBlk (x0 : Vec F S5000x4x64 .f32) (x1 : Vec F S3x64x64 .f32) : Vec F S5000x64 .f32 :=
  View.canon [⟨rO, k0_pay1 (View.ld x0 rX) (View.ld x1 rR)⟩]

/-- The one store is of the whole block, so it covers it. -/
theorem coverO (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

set_option maxHeartbeats 4000000 in
/-- The body on whole staging buffers, the inputs at contents `x0`, `x1` and the output at anything: it runs to
    its continuation with the inputs unchanged and the output block at `outBlk x0 x1`. -/
theorem sound_kernel (c : Dev nD) (E : Set ℕ) (i : grid0.Coords)
    (arg1 : Memref sig .tc .vmem S5000x4x64 .f32) (harg1 : arg1.IsWhole)
    (arg2 : Memref sig .tc .vmem S3x64x64 .f32) (harg2 : arg2.IsWhole)
    (arg3 : Memref sig .tc .vmem S5000x64 .f32) (harg3 : arg3.IsWhole)
    (x0 : Vec F S5000x4x64 .f32) (x1 : Vec F S3x64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__rotation_mean_kernel i arg1 harg1 arg2 harg2 arg3 harg3) K := by
  simp only [cc0__rotation_mean_kernel_eq_skeleton]; unfold cc0__rotation_mean_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

end Cert.KernelIdeal.Frm

end
-- ==== Proof.KIFrame.lean ====
/-
  The frame of `KernelIdeal`: the region run point by point.

  The region's grid has 200 points.  At point `t` the pipeline hands the body the block of rows
  `5000·t … 5000·t + 4999` of the feature array, the three rotation matrices (one block, the whole array, fetched
  once and kept), and the matching block of 5000 rows of the output; the body overwrites the output block with
  `outBlk` of the two input blocks and leaves the inputs alone.  With that as the proof data the library's launch
  theorem gives: every weakly fair execution of @main terminates without a fault, the output array ends at what
  the blocks written back make of it, and every other array — the two arguments among them — ends as the
  region found it, which for the arguments is as launched.
-/
import proofs.«111939_j20813411516915_2_alg».proof.Proof.KIHost
import proofs.«111939_j20813411516915_2_alg».proof.Proof.KIBody
import proofs.«111939_j20813411516915_2_alg».proof.Proof.Gen.KernelIdeal.Points

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The matrix window's staging buffer holds its block at every point, although it is fetched at the first only:
    its block index never moves. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input's buffer at its
    block and the output's at `outBlk` of the two input blocks; nothing else touched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlk (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the rest passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array of the pipeline ends at what the proof data
    makes of it, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the output array named and the arguments as launched: the feature array is staged by an input
    window and never written back; the rotation table is staged by no window. -/
theorem run_named : θ_run defs (onTc (τ := τ) (main (F := F))) ⟨m, fun _ => 0, ρ⟩ fun r => ∀ c : Dev nD,
      r.2.mem ((c.tc : Thread nD τ).loc main_v376) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1 2,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Frm

end
-- ==== Proof.RefRun.lean ====
/-
  The reference program's run, read back.

  The reference's @main is a straight line of 152 host operations and no kernel.  Listed in order they are
  `ops`; running them in order from the launch memory terminates on every weakly fair execution, and leaves each
  buffer at the fold of the operations' results over its launch contents.  No operation writes an argument array,
  so both arguments end as launched; the result array ends at the fold read at the last operation's buffer.
-/
import proofs.«111939_j20813411516915_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 152 operations, in order. -/
abbrev ops : List (HloOp τ sig (Elt F)) :=
  [
    nullary main_cst (fun i => FloatOps.ofBits .f32 (lit0 (S2.rowMajor i))),
    binary main_arg1 main_arg1 main_v0 (mulf : (⟨S4x32x2, .f32⟩ : BufTy).Contents (Elt F) → (⟨S4x32x2, .f32⟩ : BufTy).Contents (Elt F) → (⟨S4x32x2, .f32⟩ : BufTy).Contents (Elt F)),
    nullary main_cst_0 (constant S_ .f32 0x00000000#32),
    binary main_v0 main_cst_0 main_v1 ((fun x v => Host.reduceAdd x v reducesTo_S4x32x2_S4x32_d2 h_S_) : (⟨S4x32x2, .f32⟩ : BufTy).Contents (Elt F) → (⟨S_, .f32⟩ : BufTy).Contents (Elt F) → (⟨S4x32, .f32⟩ : BufTy).Contents (Elt F)),
    unary main_v1 main_v2 (broadcastInDim S4x32x1 ![0, 1] bcast_S4x32_S4x32x1_0_1 : (⟨S4x32, .f32⟩ : BufTy).Contents (Elt F) → (⟨S4x32x1, .f32⟩ : BufTy).Contents (Elt F)),
    unary main_v2 main_v3 (Host.sqrt : (⟨S4x32x1, .f32⟩ : BufTy).Contents (Elt F) → (⟨S4x32x1, .f32⟩ : BufTy).Contents (Elt F)),
    nullary main_cst_1 (constant S_ .f32 0x2B8CBCCC#32),
    unary main_cst_1 main_v4 (broadcastInDim S4x32x1 ![] bcast_S_S4x32x1 : (⟨S_, .f32⟩ : BufTy).Contents (Elt F) → (⟨S4x32x1, .f32⟩ : BufTy).Contents (Elt F)),
    binary main_v3 main_v4 main_v5 (maximumf : (⟨S4x32x1, .f32⟩ : BufTy).Contents (Elt F) → (⟨S4x32x1, .f32⟩ : BufTy).Contents (Elt F) → (⟨S4x32x1, .f32⟩ : BufTy).Contents (Elt F)),
    unary main_v5 main_v6 (broadcastInDim S4x32x2 ![0, 1, 2] bcast_S4x32x1_S4x32x2_0_1_2 : (⟨S4x32x1, .f32⟩ : BufTy).Contents (Elt F) → (⟨S4x32x2, .f32⟩ : BufTy).Contents (Elt F)),
    binary main_arg1 main_v6 main_v7 (Host.divf : (⟨S4x32x2, .f32⟩ : BufTy).Contents (Elt F) → (⟨S4x32x2, .f32⟩ : BufTy).Contents (Elt F) → (⟨S4x32x2, .f32⟩ : BufTy).Contents (Elt F)),
    unary main_cst main_v8 (broadcastInDim S1x1x2 ![2] bcast_S2_S1x1x2_2 : (⟨S2, .f32⟩ : BufTy).Contents (Elt F) → (⟨S1x1x2, .f32⟩ : BufTy).Contents (Elt F)),
    unary main_v8 main_v9 (broadcastInDim S4x32x2 ![0, 1, 2] bcast_S1x1x2_S4x32x2_0_1_2 : (⟨S1x1x2, .f32⟩ : BufTy).Contents (Elt F) → (⟨S4x32x2, .f32⟩ : BufTy).Contents (Elt F)),
    binary main_v7 main_v9 main_v10 (mulf : (⟨S4x32x2, .f32⟩ : BufTy).Contents (Elt F) → (⟨S4x32x2, .f32⟩ : BufTy).Contents (Elt F) → (⟨S4x32x2, .f32⟩ : BufTy).Contents (Elt F)),
    unary main_v7 main_v11 (broadcastInDim S4x1x32x2 ![0, 2, 3] bcast_S4x32x2_S4x1x32x2_0_2_3 : (⟨S4x32x2, .f32⟩ : BufTy).Contents (Elt F) → (⟨S4x1x32x2, .f32⟩ : BufTy).Contents (Elt F)),
    unary main_v10 main_v12 (broadcastInDim S4x1x32x2 ![0, 2, 3] bcast_S4x32x2_S4x1x32x2_0_2_3 : (⟨S4x32x2, .f32⟩ : BufTy).Contents (Elt F) → (⟨S4x1x32x2, .f32⟩ : BufTy).Contents (Elt F)),
    binary main_v11 main_v12 main_v13 ((fun a b => concatenate S4x2x32x2 1 [⟨S4x1x32x2, a⟩, ⟨S4x1x32x2, b⟩] concatenates_S4x1x32x2_S4x1x32x2_S4x2x32x2_d1) : (⟨S4x1x32x2, .f32⟩ : BufTy).Contents (Elt F) → (⟨S4x1x32x2, .f32⟩ : BufTy).Contents (Elt F) → (⟨S4x2x32x2, .f32⟩ : BufTy).Contents (Elt F)),
    reshape main_v13 main_v14 rfl shapeCasts_S4x2x32x2_S8x32x2,
    reshape main_arg0 main_v15 rfl shapeCasts_S1000000x4x64_S1000000x4x32x2,
    nullary main_cst_2 (constant S_ .f32 0x3F800000#32),
    unary main_cst_2 main_v16 (broadcastInDim S32 ![] bcast_S_S32 : (⟨S_, .f32⟩ : BufTy).Contents (Elt F) → (⟨S32, .f32⟩ : BufTy).Contents (Elt F)),
    nullary main_cst_3 (constant S_ .f32 0x00000000#32),
    unary main_cst_3 main_v17 (broadcastInDim S32 ![] bcast_S_S32 : (⟨S_, .f32⟩ : BufTy).Contents (Elt F) → (⟨S32, .f32⟩ : BufTy).Contents (Elt F)),
    unary main_v16 main_v18 (broadcastInDim S32x1 ![0] bcast_S32_S32x1_0 : (⟨S32, .f32⟩ : BufTy).Contents (Elt F) → (⟨S32x1, .f32⟩ : BufTy).Contents (Elt F)),
    unary main_v17 main_v19 (broadcastInDim S32x1 ![0] bcast_S32_S32x1_0 : (⟨S32, .f32⟩ : BufTy).Contents (Elt F) → (⟨S32x1, .f32⟩ : BufTy).Contents (Elt F)),
    binary main_v18 main_v19 main_v20 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    unary main_v14 main_v21 ((extractStridedSlice S1x32x2 ![5, 0, 0] · slices_S8x32x2_S1x32x2_5_0_0) : (⟨S8x32x2, .f32⟩ : BufTy).Contents (Elt F) → (⟨S1x32x2, .f32⟩ : BufTy).Contents (Elt F)),
    reshape main_v21 main_v22 rfl shapeCasts_S1x32x2_S32x2,
    unary main_v20 main_v23 ((extractStridedSlice S32x1 ![0, 0] · slices_S32x2_S32x1_0_0) : (⟨S32x2, .f32⟩ : BufTy).Contents (Elt F) → (⟨S32x1, .f32⟩ : BufTy).Contents (Elt F)),
    reshape main_v23 main_v24 rfl shapeCasts_S32x1_S32,
    unary main_v22 main_v25 ((extractStridedSlice S32x1 ![0, 0] · slices_S32x2_S32x1_0_0) : (⟨S32x2, .f32⟩ : BufTy).Contents (Elt F) → (⟨S32x1, .f32⟩ : BufTy).Contents (Elt F)),
    reshape main_v25 main_v26 rfl shapeCasts_S32x1_S32,
    binary main_v24 main_v26 main_v27 (mulf : (⟨S32, .f32⟩ : BufTy).Contents (Elt F) → (⟨S32, .f32⟩ : BufTy).Contents (Elt F) → (⟨S32, .f32⟩ : BufTy).Contents (Elt F)),
    unary main_v20 main_v28 ((extractStridedSlice S32x1 ![0, 1] · slices_S32x2_S32x1_0_1) : (⟨S32x2, .f32⟩ : BufTy).Contents (Elt F) → (⟨S32x1, .f32⟩ : BufTy).Contents (Elt F)),
    reshape main_v28 main_v29 rfl shapeCasts_S32x1_S32,
    unary main_v22 main_v30 ((extractStridedSlice S32x1 ![0, 1] · slices_S32x2_S32x1_0_1) : (⟨S32x2, .f32⟩ : BufTy).Contents (Elt F) → (⟨S32x1, .f32⟩ : BufTy).Contents (Elt F)),
    reshape main_v30 main_v31 rfl shapeCasts_S32x1_S32,
    binary main_v29 main_v31 main_v32 (mulf : (⟨S32, .f32⟩ : BufTy).Contents (Elt F) → (⟨S32, .f32⟩ : BufTy).Contents (Elt F) → (⟨S32, .f32⟩ : BufTy).Contents (Elt F)),
    binary main_v27 main_v32 main_v33 (subf : (⟨S32, .f32⟩ : BufTy).Contents (Elt F) → (⟨S32, .f32⟩ : BufTy).Contents (Elt F) → (⟨S32, .f32⟩ : BufTy).Contents (Elt F)),
    unary main_v20 main_v34 ((extractStridedSlice S32x1 ![0, 0] · slices_S32x2_S32x1_0_0) : (⟨S32x2, .f32⟩ : BufTy).Contents (Elt F) → (⟨S32x1, .f32⟩ : BufTy).Contents (Elt F)),
    reshape main_v34 main_v35 rfl shapeCasts_S32x1_S32,
    unary main_v22 main_v36 ((extractStridedSlice S32x1 ![0, 1] · slices_S32x2_S32x1_0_1) : (⟨S32x2, .f32⟩ : BufTy).Contents (Elt F) → (⟨S32x1, .f32⟩ : BufTy).Contents (Elt F)),
    reshape main_v36 main_v37 rfl shapeCasts_S32x1_S32,
    binary main_v35 main_v37 main_v38 (mulf : (⟨S32, .f32⟩ : BufTy).Contents (Elt F) → (⟨S32, .f32⟩ : BufTy).Contents (Elt F) → (⟨S32, .f32⟩ : BufTy).Contents (Elt F)),
    unary main_v20 main_v39 ((extractStridedSlice S32x1 ![0, 1] · slices_S32x2_S32x1_0_1) : (⟨S32x2, .f32⟩ : BufTy).Contents (Elt F) → (⟨S32x1, .f32⟩ : BufTy).Contents (Elt F)),
    reshape main_v39 main_v40 rfl shapeCasts_S32x1_S32,
    unary main_v22 main_v41 ((extractStridedSlice S32x1 ![0, 0] · slices_S32x2_S32x1_0_0) : (⟨S32x2, .f32⟩ : BufTy).Contents (Elt F) → (⟨S32x1, .f32⟩ : BufTy).Contents (Elt F)),
    reshape main_v41 main_v42 rfl shapeCasts_S32x1_S32,
    binary main_v40 main_v42 main_v43 (mulf : (⟨S32, .f32⟩ : BufTy).Contents (Elt F) → (⟨S32, .f32⟩ : BufTy).Contents (Elt F) → (⟨S32, .f32⟩ : BufTy).Contents (Elt F)),
    binary main_v38 main_v43 main_v44 (addf : (⟨S32, .f32⟩ : BufTy).Contents (Elt F) → (⟨S32, .f32⟩ : BufTy).Contents (Elt F) → (⟨S32, .f32⟩ : BufTy).Contents (Elt F)),
    unary main_v33 main_v45 (broadcastInDim S32x1 ![0] bcast_S32_S32x1_0 : (⟨S32, .f32⟩ : BufTy).Contents (Elt F) → (⟨S32x1, .f32⟩ : BufTy).Contents (Elt F)),
    unary main_v44 main_v46 (broadcastInDim S32x1 ![0] bcast_S32_S32x1_0 : (⟨S32, .f32⟩ : BufTy).Contents (Elt F) → (⟨S32x1, .f32⟩ : BufTy).Contents (Elt F)),
    binary main_v45 main_v46 main_v47 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    unary main_v14 main_v48 ((extractStridedSlice S1x32x2 ![3, 0, 0] · slices_S8x32x2_S1x32x2_3_0_0) : (⟨S8x32x2, .f32⟩ : BufTy).Contents (Elt F) → (⟨S1x32x2, .f32⟩ : BufTy).Contents (Elt F)),
    reshape main_v48 main_v49 rfl shapeCasts_S1x32x2_S32x2,
    unary main_v47 main_v50 ((extractStridedSlice S32x1 ![0, 0] · slices_S32x2_S32x1_0_0) : (⟨S32x2, .f32⟩ : BufTy).Contents (Elt F) → (⟨S32x1, .f32⟩ : BufTy).Contents (Elt F)),
    reshape main_v50 main_v51 rfl shapeCasts_S32x1_S32,
    unary main_v49 main_v52 ((extractStridedSlice S32x1 ![0, 0] · slices_S32x2_S32x1_0_0) : (⟨S32x2, .f32⟩ : BufTy).Contents (Elt F) → (⟨S32x1, .f32⟩ : BufTy).Contents (Elt F)),
    reshape main_v52 main_v53 rfl shapeCasts_S32x1_S32,
    binary main_v51 main_v53 main_v54 (mulf : (⟨S32, .f32⟩ : BufTy).Contents (Elt F) → (⟨S32, .f32⟩ : BufTy).Contents (Elt F) → (⟨S32, .f32⟩ : BufTy).Contents (Elt F)),
    unary main_v47 main_v55 ((extractStridedSlice S32x1 ![0, 1] · slices_S32x2_S32x1_0_1) : (⟨S32x2, .f32⟩ : BufTy).Contents (Elt F) → (⟨S32x1, .f32⟩ : BufTy).Contents (Elt F)),
    reshape main_v55 main_v56 rfl shapeCasts_S32x1_S32,
    unary main_v49 main_v57 ((extractStridedSlice S32x1 ![0, 1] · slices_S32x2_S32x1_0_1) : (⟨S32x2, .f32⟩ : BufTy).Contents (Elt F) → (⟨S32x1, .f32⟩ : BufTy).Contents (Elt F)),
    reshape main_v57 main_v58 rfl shapeCasts_S32x1_S32,
    binary main_v56 main_v58 main_v59 (mulf : (⟨S32, .f32⟩ : BufTy).Contents (Elt F) → (⟨S32, .f32⟩ : BufTy).Contents (Elt F) → (⟨S32, .f32⟩ : BufTy).Contents (Elt F)),
    binary main_v54 main_v59 main_v60 (subf : (⟨S32, .f32⟩ : BufTy).Contents (Elt F) → (⟨S32, .f32⟩ : BufTy).Contents (Elt F) → (⟨S32, .f32⟩ : BufTy).Contents (Elt F)),
    unary main_v47 main_v61 ((extractStridedSlice S32x1 ![0, 0] · slices_S32x2_S32x1_0_0) : (⟨S32x2, .f32⟩ : BufTy).Contents (Elt F) → (⟨S32x1, .f32⟩ : BufTy).Contents (Elt F)),
    reshape main_v61 main_v62 rfl shapeCasts_S32x1_S32,
    unary main_v49 main_v63 ((extractStridedSlice S32x1 ![0, 1] · slices_S32x2_S32x1_0_1) : (⟨S32x2, .f32⟩ : BufTy).Contents (Elt F) → (⟨S32x1, .f32⟩ : BufTy).Contents (Elt F)),
    reshape main_v63 main_v64 rfl shapeCasts_S32x1_S32,
    binary main_v62 main_v64 main_v65 (mulf : (⟨S32, .f32⟩ : BufTy).Contents (Elt F) → (⟨S32, .f32⟩ : BufTy).Contents (Elt F) → (⟨S32, .f32⟩ : BufTy).Contents (Elt F)),
    unary main_v47 main_v66 ((extractStridedSlice S32x1 ![0, 1] · slices_S32x2_S32x1_0_1) : (⟨S32x2, .f32⟩ : BufTy).Contents (Elt F) → (⟨S32x1, .f32⟩ : BufTy).Contents (Elt F)),
    reshape main_v66 main_v67 rfl shapeCasts_S32x1_S32,
    unary main_v49 main_v68 ((extractStridedSlice S32x1 ![0, 0] · slices_S32x2_S32x1_0_0) : (⟨S32x2, .f32⟩ : BufTy).Contents (Elt F) → (⟨S32x1, .f32⟩ : BufTy).Contents (Elt F)),
    reshape main_v68 main_v69 rfl shapeCasts_S32x1_S32,
    binary main_v67 main_v69 main_v70 (mulf : (⟨S32, .f32⟩ : BufTy).Contents (Elt F) → (⟨S32, .f32⟩ : BufTy).Contents (Elt F) → (⟨S32, .f32⟩ : BufTy).Contents (Elt F)),
    binary main_v65 main_v70 main_v71 (addf : (⟨S32, .f32⟩ : BufTy).Contents (Elt F) → (⟨S32, .f32⟩ : BufTy).Contents (Elt F) → (⟨S32, .f32⟩ : BufTy).Contents (Elt F)),
    unary main_v60 main_v72 (broadcastInDim S32x1 ![0] bcast_S32_S32x1_0 : (⟨S32, .f32⟩ : BufTy).Contents (Elt F) → (⟨S32x1, .f32⟩ : BufTy).Contents (Elt F)),
    unary main_v71 main_v73 (broadcastInDim S32x1 ![0] bcast_S32_S32x1_0 : (⟨S32, .f32⟩ : BufTy).Contents (Elt F) → (⟨S32x1, .f32⟩ : BufTy).Contents (Elt F)),
    binary main_v72 main_v73 main_v74 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    unary main_v14 main_v75 ((extractStridedSlice S1x32x2 ![0, 0, 0] · slices_S8x32x2_S1x32x2_0_0_0) : (⟨S8x32x2, .f32⟩ : BufTy).Contents (Elt F) → (⟨S1x32x2, .f32⟩ : BufTy).Contents (Elt F)),
    reshape main_v75 main_v76 rfl shapeCasts_S1x32x2_S32x2,
    unary main_v74 main_v77 ((extractStridedSlice S32x1 ![0, 0] · slices_S32x2_S32x1_0_0) : (⟨S32x2, .f32⟩ : BufTy).Contents (Elt F) → (⟨S32x1, .f32⟩ : BufTy).Contents (Elt F)),
    reshape main_v77 main_v78 rfl shapeCasts_S32x1_S32,
    unary main_v76 main_v79 ((extractStridedSlice S32x1 ![0, 0] · slices_S32x2_S32x1_0_0) : (⟨S32x2, .f32⟩ : BufTy).Contents (Elt F) → (⟨S32x1, .f32⟩ : BufTy).Contents (Elt F)),
    reshape main_v79 main_v80 rfl shapeCasts_S32x1_S32,
    binary main_v78 main_v80 main_v81 (mulf : (⟨S32, .f32⟩ : BufTy).Contents (Elt F) → (⟨S32, .f32⟩ : BufTy).Contents (Elt F) → (⟨S32, .f32⟩ : BufTy).Contents (Elt F)),
    unary main_v74 main_v82 ((extractStridedSlice S32x1 ![0, 1] · slices_S32x2_S32x1_0_1) : (⟨S32x2, .f32⟩ : BufTy).Contents (Elt F) → (⟨S32x1, .f32⟩ : BufTy).Contents (Elt F)),
    reshape main_v82 main_v83 rfl shapeCasts_S32x1_S32,
    unary main_v76 main_v84 ((extractStridedSlice S32x1 ![0, 1] · slices_S32x2_S32x1_0_1) : (⟨S32x2, .f32⟩ : BufTy).Contents (Elt F) → (⟨S32x1, .f32⟩ : BufTy).Contents (Elt F)),
    reshape main_v84 main_v85 rfl shapeCasts_S32x1_S32,
    binary main_v83 main_v85 main_v86 (mulf : (⟨S32, .f32⟩ : BufTy).Contents (Elt F) → (⟨S32, .f32⟩ : BufTy).Contents (Elt F) → (⟨S32, .f32⟩ : BufTy).Contents (Elt F)),
    binary main_v81 main_v86 main_v87 (subf : (⟨S32, .f32⟩ : BufTy).Contents (Elt F) → (⟨S32, .f32⟩ : BufTy).Contents (Elt F) → (⟨S32, .f32⟩ : BufTy).Contents (Elt F)),
    unary main_v74 main_v88 ((extractStridedSlice S32x1 ![0, 0] · slices_S32x2_S32x1_0_0) : (⟨S32x2, .f32⟩ : BufTy).Contents (Elt F) → (⟨S32x1, .f32⟩ : BufTy).Contents (Elt F)),
    reshape main_v88 main_v89 rfl shapeCasts_S32x1_S32,
    unary main_v76 main_v90 ((extractStridedSlice S32x1 ![0, 1] · slices_S32x2_S32x1_0_1) : (⟨S32x2, .f32⟩ : BufTy).Contents (Elt F) → (⟨S32x1, .f32⟩ : BufTy).Contents (Elt F)),
    reshape main_v90 main_v91 rfl shapeCasts_S32x1_S32,
    binary main_v89 main_v91 main_v92 (mulf : (⟨S32, .f32⟩ : BufTy).Contents (Elt F) → (⟨S32, .f32⟩ : BufTy).Contents (Elt F) → (⟨S32, .f32⟩ : BufTy).Contents (Elt F)),
    unary main_v74 main_v93 ((extractStridedSlice S32x1 ![0, 1] · slices_S32x2_S32x1_0_1) : (⟨S32x2, .f32⟩ : BufTy).Contents (Elt F) → (⟨S32x1, .f32⟩ : BufTy).Contents (Elt F)),
    reshape main_v93 main_v94 rfl shapeCasts_S32x1_S32,
    unary main_v76 main_v95 ((extractStridedSlice S32x1 ![0, 0] · slices_S32x2_S32x1_0_0) : (⟨S32x2, .f32⟩ : BufTy).Contents (Elt F) → (⟨S32x1, .f32⟩ : BufTy).Contents (Elt F)),
    reshape main_v95 main_v96 rfl shapeCasts_S32x1_S32,
    binary main_v94 main_v96 main_v97 (mulf : (⟨S32, .f32⟩ : BufTy).Contents (Elt F) → (⟨S32, .f32⟩ : BufTy).Contents (Elt F) → (⟨S32, .f32⟩ : BufTy).Contents (Elt F)),
    binary main_v92 main_v97 main_v98 (addf : (⟨S32, .f32⟩ : BufTy).Contents (Elt F) → (⟨S32, .f32⟩ : BufTy).Contents (Elt F) → (⟨S32, .f32⟩ : BufTy).Contents (Elt F)),
    unary main_v87 main_v99 (broadcastInDim S32x1 ![0] bcast_S32_S32x1_0 : (⟨S32, .f32⟩ : BufTy).Contents (Elt F) → (⟨S32x1, .f32⟩ : BufTy).Contents (Elt F)),
    unary main_v98 main_v100 (broadcastInDim S32x1 ![0] bcast_S32_S32x1_0 : (⟨S32, .f32⟩ : BufTy).Contents (Elt F) → (⟨S32x1, .f32⟩ : BufTy).Contents (Elt F)),
    binary main_v99 main_v100 main_v101 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    unary main_v101 main_v102 (broadcastInDim S1x32x2 ![1, 2] bcast_S32x2_S1x32x2_1_2 : (⟨S32x2, .f32⟩ : BufTy).Contents (Elt F) → (⟨S1x32x2, .f32⟩ : BufTy).Contents (Elt F)),
    unary main_v74 main_v103 (broadcastInDim S1x32x2 ![1, 2] bcast_S32x2_S1x32x2_1_2 : (⟨S32x2, .f32⟩ : BufTy).Contents (Elt F) → (⟨S1x32x2, .f32⟩ : BufTy).Contents (Elt F)),
    unary main_v47 main_v104 (broadcastInDim S1x32x2 ![1, 2] bcast_S32x2_S1x32x2_1_2 : (⟨S32x2, .f32⟩ : BufTy).Contents (Elt F) → (⟨S1x32x2, .f32⟩ : BufTy).Contents (Elt F)),
    unary main_v20 main_v105 (broadcastInDim S1x32x2 ![1, 2] bcast_S32x2_S1x32x2_1_2 : (⟨S32x2, .f32⟩ : BufTy).Contents (Elt F) → (⟨S1x32x2, .f32⟩ : BufTy).Contents (Elt F)),
    nary ![main_v102, main_v103, main_v104, main_v105] main_v106 (fun u => concatenate S4x32x2 0 [⟨S1x32x2, u 0⟩, ⟨S1x32x2, u 1⟩, ⟨S1x32x2, u 2⟩, ⟨S1x32x2, u 3⟩] concatenates_S1x32x2_S1x32x2_S1x32x2_S1x32x2_S4x32x2_d0),
    unary main_v15 main_v107 ((extractStridedSlice S1000000x3x32x2 ![0, 0, 0, 0] · slices_S1000000x4x32x2_S1000000x3x32x2_0_0_0_0) : (⟨S1000000x4x32x2, .f32⟩ : BufTy).Contents (Elt F) → (⟨S1000000x3x32x2, .f32⟩ : BufTy).Contents (Elt F)),
    unary main_v106 main_v108 ((extractStridedSlice S3x32x2 ![0, 0, 0] · slices_S4x32x2_S3x32x2_0_0_0) : (⟨S4x32x2, .f32⟩ : BufTy).Contents (Elt F) → (⟨S3x32x2, .f32⟩ : BufTy).Contents (Elt F)),
    unary main_v108 main_v109 (broadcastInDim S1x3x32x2 ![1, 2, 3] bcast_S3x32x2_S1x3x32x2_1_2_3 : (⟨S3x32x2, .f32⟩ : BufTy).Contents (Elt F) → (⟨S1x3x32x2, .f32⟩ : BufTy).Contents (Elt F)),
    unary main_v107 main_v110 ((extractStridedSlice S1000000x3x32x1 ![0, 0, 0, 0] · slices_S1000000x3x32x2_S1000000x3x32x1_0_0_0_0) : (⟨S1000000x3x32x2, .f32⟩ : BufTy).Contents (Elt F) → (⟨S1000000x3x32x1, .f32⟩ : BufTy).Contents (Elt F)),
    reshape main_v110 main_v111 rfl shapeCasts_S1000000x3x32x1_S1000000x3x32,
    unary main_v109 main_v112 ((extractStridedSlice S1x3x32x1 ![0, 0, 0, 0] · slices_S1x3x32x2_S1x3x32x1_0_0_0_0) : (⟨S1x3x32x2, .f32⟩ : BufTy).Contents (Elt F) → (⟨S1x3x32x1, .f32⟩ : BufTy).Contents (Elt F)),
    reshape main_v112 main_v113 rfl shapeCasts_S1x3x32x1_S1x3x32,
    unary main_v113 main_v114 (broadcastInDim S1000000x3x32 ![0, 1, 2] bcast_S1x3x32_S1000000x3x32_0_1_2 : (⟨S1x3x32, .f32⟩ : BufTy).Contents (Elt F) → (⟨S1000000x3x32, .f32⟩ : BufTy).Contents (Elt F)),
    binary main_v111 main_v114 main_v115 (mulf : (⟨S1000000x3x32, .f32⟩ : BufTy).Contents (Elt F) → (⟨S1000000x3x32, .f32⟩ : BufTy).Contents (Elt F) → (⟨S1000000x3x32, .f32⟩ : BufTy).Contents (Elt F)),
    unary main_v107 main_v116 ((extractStridedSlice S1000000x3x32x1 ![0, 0, 0, 1] · slices_S1000000x3x32x2_S1000000x3x32x1_0_0_0_1) : (⟨S1000000x3x32x2, .f32⟩ : BufTy).Contents (Elt F) → (⟨S1000000x3x32x1, .f32⟩ : BufTy).Contents (Elt F)),
    reshape main_v116 main_v117 rfl shapeCasts_S1000000x3x32x1_S1000000x3x32,
    unary main_v109 main_v118 ((extractStridedSlice S1x3x32x1 ![0, 0, 0, 1] · slices_S1x3x32x2_S1x3x32x1_0_0_0_1) : (⟨S1x3x32x2, .f32⟩ : BufTy).Contents (Elt F) → (⟨S1x3x32x1, .f32⟩ : BufTy).Contents (Elt F)),
    reshape main_v118 main_v119 rfl shapeCasts_S1x3x32x1_S1x3x32,
    unary main_v119 main_v120 (broadcastInDim S1000000x3x32 ![0, 1, 2] bcast_S1x3x32_S1000000x3x32_0_1_2 : (⟨S1x3x32, .f32⟩ : BufTy).Contents (Elt F) → (⟨S1000000x3x32, .f32⟩ : BufTy).Contents (Elt F)),
    binary main_v117 main_v120 main_v121 (mulf : (⟨S1000000x3x32, .f32⟩ : BufTy).Contents (Elt F) → (⟨S1000000x3x32, .f32⟩ : BufTy).Contents (Elt F) → (⟨S1000000x3x32, .f32⟩ : BufTy).Contents (Elt F)),
    binary main_v115 main_v121 main_v122 (subf : (⟨S1000000x3x32, .f32⟩ : BufTy).Contents (Elt F) → (⟨S1000000x3x32, .f32⟩ : BufTy).Contents (Elt F) → (⟨S1000000x3x32, .f32⟩ : BufTy).Contents (Elt F)),
    unary main_v107 main_v123 ((extractStridedSlice S1000000x3x32x1 ![0, 0, 0, 0] · slices_S1000000x3x32x2_S1000000x3x32x1_0_0_0_0) : (⟨S1000000x3x32x2, .f32⟩ : BufTy).Contents (Elt F) → (⟨S1000000x3x32x1, .f32⟩ : BufTy).Contents (Elt F)),
    reshape main_v123 main_v124 rfl shapeCasts_S1000000x3x32x1_S1000000x3x32,
    unary main_v109 main_v125 ((extractStridedSlice S1x3x32x1 ![0, 0, 0, 1] · slices_S1x3x32x2_S1x3x32x1_0_0_0_1) : (⟨S1x3x32x2, .f32⟩ : BufTy).Contents (Elt F) → (⟨S1x3x32x1, .f32⟩ : BufTy).Contents (Elt F)),
    reshape main_v125 main_v126 rfl shapeCasts_S1x3x32x1_S1x3x32,
    unary main_v126 main_v127 (broadcastInDim S1000000x3x32 ![0, 1, 2] bcast_S1x3x32_S1000000x3x32_0_1_2 : (⟨S1x3x32, .f32⟩ : BufTy).Contents (Elt F) → (⟨S1000000x3x32, .f32⟩ : BufTy).Contents (Elt F)),
    binary main_v124 main_v127 main_v128 (mulf : (⟨S1000000x3x32, .f32⟩ : BufTy).Contents (Elt F) → (⟨S1000000x3x32, .f32⟩ : BufTy).Contents (Elt F) → (⟨S1000000x3x32, .f32⟩ : BufTy).Contents (Elt F)),
    unary main_v107 main_v129 ((extractStridedSlice S1000000x3x32x1 ![0, 0, 0, 1] · slices_S1000000x3x32x2_S1000000x3x32x1_0_0_0_1) : (⟨S1000000x3x32x2, .f32⟩ : BufTy).Contents (Elt F) → (⟨S1000000x3x32x1, .f32⟩ : BufTy).Contents (Elt F)),
    reshape main_v129 main_v130 rfl shapeCasts_S1000000x3x32x1_S1000000x3x32,
    unary main_v109 main_v131 ((extractStridedSlice S1x3x32x1 ![0, 0, 0, 0] · slices_S1x3x32x2_S1x3x32x1_0_0_0_0) : (⟨S1x3x32x2, .f32⟩ : BufTy).Contents (Elt F) → (⟨S1x3x32x1, .f32⟩ : BufTy).Contents (Elt F)),
    reshape main_v131 main_v132 rfl shapeCasts_S1x3x32x1_S1x3x32,
    unary main_v132 main_v133 (broadcastInDim S1000000x3x32 ![0, 1, 2] bcast_S1x3x32_S1000000x3x32_0_1_2 : (⟨S1x3x32, .f32⟩ : BufTy).Contents (Elt F) → (⟨S1000000x3x32, .f32⟩ : BufTy).Contents (Elt F)),
    binary main_v130 main_v133 main_v134 (mulf : (⟨S1000000x3x32, .f32⟩ : BufTy).Contents (Elt F) → (⟨S1000000x3x32, .f32⟩ : BufTy).Contents (Elt F) → (⟨S1000000x3x32, .f32⟩ : BufTy).Contents (Elt F)),
    binary main_v128 main_v134 main_v135 (addf : (⟨S1000000x3x32, .f32⟩ : BufTy).Contents (Elt F) → (⟨S1000000x3x32, .f32⟩ : BufTy).Contents (Elt F) → (⟨S1000000x3x32, .f32⟩ : BufTy).Contents (Elt F)),
    unary main_v122 main_v136 (broadcastInDim S1000000x3x32x1 ![0, 1, 2] bcast_S1000000x3x32_S1000000x3x32x1_0_1_2 : (⟨S1000000x3x32, .f32⟩ : BufTy).Contents (Elt F) → (⟨S1000000x3x32x1, .f32⟩ : BufTy).Contents (Elt F)),
    unary main_v135 main_v137 (broadcastInDim S1000000x3x32x1 ![0, 1, 2] bcast_S1000000x3x32_S1000000x3x32x1_0_1_2 : (⟨S1000000x3x32, .f32⟩ : BufTy).Contents (Elt F) → (⟨S1000000x3x32x1, .f32⟩ : BufTy).Contents (Elt F)),
    binary main_v136 main_v137 main_v138 ((fun a b => concatenate S1000000x3x32x2 3 [⟨S1000000x3x32x1, a⟩, ⟨S1000000x3x32x1, b⟩] concatenates_S1000000x3x32x1_S1000000x3x32x1_S1000000x3x32x2_d3) : (⟨S1000000x3x32x1, .f32⟩ : BufTy).Contents (Elt F) → (⟨S1000000x3x32x1, .f32⟩ : BufTy).Contents (Elt F) → (⟨S1000000x3x32x2, .f32⟩ : BufTy).Contents (Elt F)),
    unary main_v15 main_v139 ((extractStridedSlice S1000000x1x32x2 ![0, 3, 0, 0] · slices_S1000000x4x32x2_S1000000x1x32x2_0_3_0_0) : (⟨S1000000x4x32x2, .f32⟩ : BufTy).Contents (Elt F) → (⟨S1000000x1x32x2, .f32⟩ : BufTy).Contents (Elt F)),
    binary main_v138 main_v139 main_v140 ((fun a b => concatenate S1000000x4x32x2 1 [⟨S1000000x3x32x2, a⟩, ⟨S1000000x1x32x2, b⟩] concatenates_S1000000x3x32x2_S1000000x1x32x2_S1000000x4x32x2_d1) : (⟨S1000000x3x32x2, .f32⟩ : BufTy).Contents (Elt F) → (⟨S1000000x1x32x2, .f32⟩ : BufTy).Contents (Elt F) → (⟨S1000000x4x32x2, .f32⟩ : BufTy).Contents (Elt F)),
    reshape main_v140 main_v141 rfl shapeCasts_S1000000x4x32x2_S1000000x4x64,
    nullary main_cst_4 (constant S_ .f32 0x00000000#32),
    binary main_v141 main_cst_4 main_v142 ((fun x v => Host.reduceAdd x v reducesTo_S1000000x4x64_S1000000x64_d1 h_S_) : (⟨S1000000x4x64, .f32⟩ : BufTy).Contents (Elt F) → (⟨S_, .f32⟩ : BufTy).Contents (Elt F) → (⟨S1000000x64, .f32⟩ : BufTy).Contents (Elt F)),
    nullary main_cst_5 (constant S_ .f32 0x40800000#32),
    unary main_cst_5 main_v143 (broadcastInDim S1000000x64 ![] bcast_S_S1000000x64 : (⟨S_, .f32⟩ : BufTy).Contents (Elt F) → (⟨S1000000x64, .f32⟩ : BufTy).Contents (Elt F)),
    binary main_v142 main_v143 main_v144 (Host.divf : (⟨S1000000x64, .f32⟩ : BufTy).Contents (Elt F) → (⟨S1000000x64, .f32⟩ : BufTy).Contents (Elt F) → (⟨S1000000x64, .f32⟩ : BufTy).Contents (Elt F)) ]

set_option maxHeartbeats 40000000 in
/-- @main is the sequence of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
theorem ops_sub : (ops : List (HloOp τ sig (Elt F))).Forall fun op => op.bufs ⊆ tcRefs τ sig :=
  ⟨nullary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., reshape_bufs_sub .., reshape_bufs_sub .., nullary_bufs_sub .., unary_bufs_sub .., nullary_bufs_sub .., unary_bufs_sub .., unary_bufs_sub .., unary_bufs_sub .., binary_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., unary_bufs_sub .., unary_bufs_sub .., unary_bufs_sub .., unary_bufs_sub .., nary_bufs_sub .., unary_bufs_sub .., unary_bufs_sub .., unary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., binary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., binary_bufs_sub .., unary_bufs_sub .., unary_bufs_sub .., binary_bufs_sub .., unary_bufs_sub .., binary_bufs_sub .., reshape_bufs_sub .., nullary_bufs_sub .., binary_bufs_sub .., nullary_bufs_sub .., unary_bufs_sub .., binary_bufs_sub ..⟩

set_option maxHeartbeats 4000000 in
theorem ops_fresh : (ops : List (HloOp τ sig (Elt F))).Forall fun op => op.fresh = ∅ := by
  simp only [List.Forall]; repeat' constructor

/-- Every weakly fair execution of the reference's @main terminates with each buffer at the fold of the
    operations over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ op h => (List.forall_iff_forall_mem.mp ops_fresh) op h)

set_option maxHeartbeats 4000000 in
/-- No operation writes the feature array. -/
theorem kept_arg0 (V : Valuation τ sig (Elt F)) : after (ops (F := F)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, reshape_writes, nary_writes, Finset.mem_singleton]
    repeat' apply And.intro
    all_goals exact devRef_ne_of_ne (by decide)))

set_option maxHeartbeats 4000000 in
/-- No operation writes the rotation table. -/
theorem kept_arg1 (V : Valuation τ sig (Elt F)) : after (ops (F := F)) V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, reshape_writes, nary_writes, Finset.mem_singleton]
    repeat' apply And.intro
    all_goals exact devRef_ne_of_ne (by decide)))

/-- The run with the result named and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v144) = after (ops (F := F)) (launchContents m c) (Proc.devRef .tc main_v144)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v144, (h c main_arg0).trans (kept_arg0 _), (h c main_arg1).trans (kept_arg1 _)⟩)
    (run_fold m ρ)

end Cert.ReferenceIdeal.RefRun

end
-- ==== Proof.KIPayload.lean ====
/-
  The stored value of the kernel body, read at one index, at the ideal instance (floats are extended reals and every
  format change is the identity): a quarter of the sum of three 64-term products of row slices of the first operand with
  the three matrices of the second, plus the fourth row slice.
-/
import proofs.«111939_j20813411516915_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.SL.Sem Idealize.ShloMosaic.ValueIdx
open Cert.KernelIdeal Cert.KernelIdeal.Gen

/-! ## The layout operations at an index -/

/-- Row `l` of a [5000, 4, 64] array, cut out as a [5000, 1, 64] slice at offset `o = l` on the middle axis and then
    viewed as [5000, 64], reads the array at `(p, l, q)`. -/
theorem rowSlice_apply {α : Type} (x : S5000x4x64.Idx → α) (o : Nat) (l : Fin 4) (hl : l.val = o)
    (h : S5000x4x64.Slices ![0, o, 0] S5000x1x64) (hc : S5000x1x64.ShapeCasts S5000x64) (p : Fin 5000) (q : Fin 64) :
    shapeCast S5000x64 (extractStridedSlice S5000x1x64 ![0, o, 0] x h) hc (ix2 p q) = x (ix3 p l q) := by
  refine (shapeCast_apply _ hc (ix2 p q) (ix3 p (0 : Fin 1) q) ?_).trans ?_
  · rw [Shape.rowMajor_val_three, Shape.rowMajor_val_two]
    show (p.val * 1 + 0) * 64 + q.val = p.val * 64 + q.val
    omega
  · exact extractStridedSlice_apply _ x h _ _ fun a => match a with
      | ⟨0, _⟩ => by show p.val = 0 + p.val; omega
      | ⟨1, _⟩ => by show l.val = o + 0; omega
      | ⟨2, _⟩ => by show q.val = 0 + q.val; omega

/-- Matrix `l` of a [3, 64, 64] array, cut out as a [1, 64, 64] slice at offset `o = l` on the leading axis and then
    viewed as [64, 64], reads the array at `(l, k, q)`. -/
theorem matSlice_apply {α : Type} (y : S3x64x64.Idx → α) (o : Nat) (l : Fin 3) (hl : l.val = o)
    (h : S3x64x64.Slices ![o, 0, 0] S1x64x64) (hc : S1x64x64.ShapeCasts S64x64) (k q : Fin 64) :
    shapeCast S64x64 (extractStridedSlice S1x64x64 ![o, 0, 0] y h) hc (ix2 k q) = y (ix3 l k q) := by
  refine (shapeCast_apply _ hc (ix2 k q) (ix3 (0 : Fin 1) k q) ?_).trans ?_
  · rw [Shape.rowMajor_val_three, Shape.rowMajor_val_two]
    show (0 * 64 + k.val) * 64 + q.val = k.val * 64 + q.val
    omega
  · exact extractStridedSlice_apply _ y h _ _ fun a => match a with
      | ⟨0, _⟩ => by show l.val = o + 0; omega
      | ⟨1, _⟩ => by show k.val = 0 + k.val; omega
      | ⟨2, _⟩ => by show q.val = 0 + q.val; omega

/-! ## The product at an index -/

/-- The [5000, 64] × [64, 64] product into the zero accumulator, read at `(p, q)`: the 64-term sum of products along the
    one contracted axis. -/
theorem matmul_zero_apply (a : FVec Ideal S5000x64 .bf16) (b : FVec Ideal S64x64 .bf16) (p : Fin 5000) (q : Fin 64) :
    matmul (F := Ideal) dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hl : dot_S5000x64_S64x64_S5000x64_1_0_0_1_n_n.lhsIdx (ix2 p q)
      ((contrEquiv1 dot_S5000x64_S64x64_S5000x64_1_0_0_1_n_n 64 rfl rfl).symm k) = ix2 p k := by
    funext c
    refine Fin.ext ?_
    match c with
    | ⟨0, _⟩ => rfl
    | ⟨1, _⟩ =>
      exact (dot_S5000x64_S64x64_S5000x64_1_0_0_1_n_n.lhsIdx_val_of_single (cl := (1 : Fin 2)) rfl _ _).trans
        (contrEquiv1_symm_val dot_S5000x64_S64x64_S5000x64_1_0_0_1_n_n 64 rfl rfl k)
  have hr : dot_S5000x64_S64x64_S5000x64_1_0_0_1_n_n.rhsIdx (ix2 p q)
      ((contrEquiv1 dot_S5000x64_S64x64_S5000x64_1_0_0_1_n_n 64 rfl rfl).symm k) = ix2 k q := by
    funext c
    refine Fin.ext ?_
    match c with
    | ⟨0, _⟩ =>
      exact (dot_S5000x64_S64x64_S5000x64_1_0_0_1_n_n.rhsIdx_val_of_single (cr := (0 : Fin 2)) rfl _ _).trans
        (contrEquiv1_symm_val dot_S5000x64_S64x64_S5000x64_1_0_0_1_n_n 64 rfl rfl k)
    | ⟨1, _⟩ => rfl
  rw [hl, hr]

/-! ## The payload at an index -/

/-- The stored value at `(p, q)`: the three 64-term products of rows 0, 1, 2 of the first operand at `p` with the three
    matrices of the second operand, added left to right, plus row 3 of the first operand at `(p, q)`, all times the
    constant. -/
theorem k0_pay1_apply (v0 : Vec Ideal S5000x4x64 .f32) (v1 : Vec Ideal S3x64x64 .f32) (p : Fin 5000) (q : Fin 64) :
    k0_pay1 (F := Ideal) v0 v1 (ix2 p q)
      = ((((∑ k : Fin 64, v0 (ix3 p 0 k) * v1 (ix3 0 k q)) + (∑ k : Fin 64, v0 (ix3 p 1 k) * v1 (ix3 1 k q)))
          + (∑ k : Fin 64, v0 (ix3 p 2 k) * v1 (ix3 2 k q))) + v0 (ix3 p 3 q)) * Ideal.ofBits .f32 0x3E800000#32 := by
  unfold k0_pay1
  simp only [mulf_apply, addf_apply, broadcast_apply, matmul_zero_apply, truncf_apply,
    rowSlice_apply _ 0 (0 : Fin 4) rfl, rowSlice_apply _ 1 (1 : Fin 4) rfl, rowSlice_apply _ 2 (2 : Fin 4) rfl,
    rowSlice_apply _ 3 (3 : Fin 4) rfl, matSlice_apply _ 0 (0 : Fin 3) rfl, matSlice_apply _ 1 (1 : Fin 3) rfl,
    matSlice_apply _ 2 (2 : Fin 3) rfl, shapeCast_self, Ideal.ofBits_def]

end Cert.KernelIdeal.Pay

end
-- ==== Proof.KIValue.lean ====
/-
  The kernel's output array as one function of the arrays the region finds.

  Point `t` of the grid writes back rows `5000·t … 5000·t + 4999` of the output; row `n` of the output is
  therefore written exactly once, by point `n / 5000`, and what is written at lane `q` of that row is the body's
  payload there: with `X` the feature array and `R` the three 64×64 matrices as the region finds them,

      out[n, q] = ( Σ_k X[n,0,k]·R[0,k,q] + Σ_k X[n,1,k]·R[1,k,q] + Σ_k X[n,2,k]·R[2,k,q] + X[n,3,q] ) · ¼ .

  The feature block at point `t` is rows `5000·t …` of `X` (all four positions, all lanes) and the matrix block is
  the whole of `R` at every point; the output's blocks tile the output array.
-/
import proofs.«111939_j20813411516915_2_alg».proof.Proof.KIFrame
import proofs.«111939_j20813411516915_2_alg».proof.Proof.KIPayload
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- One entry of the output from a feature array and a matrix array: row `n`, lane `q`. -/
def entryK (X : S1000000x4x64.Idx → EReal) (R : S3x64x64.Idx → EReal) (n : Fin 1000000) (q : Fin 64) : EReal :=
  ((((∑ k : Fin 64, X (ix3 n 0 k) * R (ix3 0 k q)) + (∑ k : Fin 64, X (ix3 n 1 k) * R (ix3 1 k q)))
      + (∑ k : Fin 64, X (ix3 n 2 k) * R (ix3 2 k q))) + X (ix3 n 3 q)) * Ideal.ofBits .f32 0x3E800000#32

/-- The output array as one function. -/
def GK (X : S1000000x4x64.Idx → EReal) (R : S3x64x64.Idx → EReal) : S1000000x64.Idx → EReal :=
  fun i => entryK X R (i 0) (i 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's payload at an index of the block, over any two loaded values. -/
theorem pay_read (v0 : Vec Ideal S5000x4x64 .f32) (v1 : Vec Ideal S3x64x64 .f32) (y : S5000x64.Idx) :
    k0_pay1 (F := Ideal) v0 v1 y
      = ((((∑ k : Fin 64, v0 (ix3 (y 0) 0 k) * v1 (ix3 0 k (y 1))) + (∑ k : Fin 64, v0 (ix3 (y 0) 1 k) * v1 (ix3 1 k (y 1))))
          + (∑ k : Fin 64, v0 (ix3 (y 0) 2 k) * v1 (ix3 2 k (y 1)))) + v0 (ix3 (y 0) 3 (y 1))) * Ideal.ofBits .f32 0x3E800000#32 := by
  obtain ⟨p, q, rfl⟩ : ∃ (p : Fin 5000) (q : Fin 64), y = ix2 p q := ⟨y 0, y 1, eq_ix2 y⟩
  exact Cert.KernelIdeal.Pay.k0_pay1_apply v0 v1 p q

/-- The printed index maps over the grid: the feature window moves with the output window along the rows and
    sits at block 0 on its other axes; the matrix window never moves; the output's row block is the point. -/
theorem idx_facts : ∀ t : Fin cfg0.N, win0_0.index t (0 : Fin 3) = win0_2.index t (0 : Fin 2)
    ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The payload of the two blocks at point `t`, read at an index of the output block, is `GK` at that index of the
    array: the feature block is rows `5000·t …` of the feature array, the matrix block the whole matrix array. -/
theorem block_form (c : Dev nD) (X : Buf (Elt Ideal) ((c.tc : Thread nD τ).loc main_arg0)) (R : Buf (Elt Ideal) ((c.tc : Thread nD τ).loc main_v375))
    (t : Fin cfg0.N) (y : S5000x64.Idx) :
    k0_pay1 (F := Ideal) (((cfg0.win 0).blk t).view.read (Elt Ideal) X) (((cfg0.win 1).blk t).view.read (Elt Ideal) R) y
      = GK X R (((cfg0.win 2).blk t).view.emb y) := by
  obtain ⟨e0, e1, e2, e3, e4, e5, e6, e7⟩ := idx_facts t
  refine (pay_read _ _ y).trans ?_
  have h0 : ∀ (l : Fin 4) (k : Fin 64), ((cfg0.win 0).blk t).view.emb (ix3 (y 0) l k) = ix3 ((((cfg0.win 2).blk t).view.emb y) 0) l k := by
    intro l k
    funext a; apply Fin.ext
    match a with
    | ⟨0, _⟩ => show win0_0.index t (0 : Fin 3) * 5000 + 1 * (y 0).val = win0_2.index t (0 : Fin 2) * 5000 + 1 * (y 0).val; omega
    | ⟨1, _⟩ => show win0_0.index t (1 : Fin 3) * 4 + 1 * l.val = l.val; omega
    | ⟨2, _⟩ => show win0_0.index t (2 : Fin 3) * 64 + 1 * k.val = k.val; omega
  have h1 : ∀ (l : Fin 3) (k : Fin 64), ((cfg0.win 1).blk t).view.emb (ix3 l k (y 1)) = ix3 l k ((((cfg0.win 2).blk t).view.emb y) 1) := by
    intro l k
    funext a; apply Fin.ext
    match a with
    | ⟨0, _⟩ => show win0_1.index t (0 : Fin 3) * 3 + 1 * l.val = l.val; omega
    | ⟨1, _⟩ => show win0_1.index t (1 : Fin 3) * 64 + 1 * k.val = k.val; omega
    | ⟨2, _⟩ => show win0_1.index t (2 : Fin 3) * 64 + 1 * (y 1).val = win0_2.index t (1 : Fin 2) * 64 + 1 * (y 1).val; omega
  have r0 : ∀ (l : Fin 4) (k : Fin 64), ((cfg0.win 0).blk t).view.read (Elt Ideal) X (ix3 (y 0) l k) = X (ix3 ((((cfg0.win 2).blk t).view.emb y) 0) l k) :=
    fun l k => congrArg X (h0 l k)
  have r1 : ∀ (l : Fin 3) (k : Fin 64), ((cfg0.win 1).blk t).view.read (Elt Ideal) R (ix3 l k (y 1)) = R (ix3 l k ((((cfg0.win 2).blk t).view.emb y) 1)) :=
    fun l k => congrArg R (h1 l k)
  have hq : (((cfg0.win 2).blk t).view.emb y) 1 = y 1 := by
    apply Fin.ext
    show win0_2.index t (1 : Fin 2) * 64 + 1 * (y 1).val = (y 1).val; omega
  have r03 := r0 3 (y 1)
  simp only [r0, r1, r03]
  unfold GK entryK
  simp only [hq]

/-- What point `t` writes back is block `t` of `GK` of the feature array and the matrix array as found. -/
theorem flushed_eq (c : Dev nD) (t : Fin cfg0.N) :
    (dats m 0 c).flushed 2 t = ((cfg0.win 2).blk t).view.read (Elt Ideal) (GK (V m c main_arg0) (V m c main_v375)) := by
  show (cfg0.win 2).cut (grid0.coords t) ((dats m 0 c).after 2 t) = _
  rw [after2]
  unfold outBlk
  rw [View.canon_unit_zero hz2]
  simp only [View.ld_unit_zero (S := S5000x4x64) hz3, View.ld_unit_zero (S := S3x64x64) hz3]
  unfold iblk
  funext y
  exact block_form c (V m c main_arg0) (V m c main_v375) t y

/-- An index of the output array is in point `t`'s block iff each coordinate is in the block's range. -/
theorem mem_blk (t : Fin cfg0.N) (i : S1000000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v376).slice (win0_2.rect t)).set ↔ _
  rw [View.set_slice_whole, Rect.mem_set_unit]
  exact Iff.rfl

/-- Every index of the output array is in the block of the point its row falls in. -/
theorem cover (i : S1000000x64.Idx) : ∃ t : Fin cfg0.N, (cfg0.win 2).flush t = true ∧ i ∈ ((cfg0.win 2).blk t).view.set := by
  have hi0 : (i 0).val < 1000000 := (i 0).isLt
  have hi1 : (i 1).val < 64 := (i 1).isLt
  have hN : cfg0.N = 200 := N_0
  refine ⟨⟨(i 0).val / 5000, by rw [hN]; omega⟩, flush0_2 _, ?_⟩
  rw [mem_blk]
  obtain ⟨e0, e1, e2, e3, e4, e5, e6, e7⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e6]; dsimp only; omega
  | ⟨1, _⟩ => show win0_2.index _ (1 : Fin 2) * 64 ≤ (i 1).val ∧ (i 1).val < win0_2.index _ (1 : Fin 2) * 64 + 64; rw [e7]; omega

/-- The output array after the run. -/
theorem final (c : Dev nD) : (dats m 0 c).arrAt 2 cfg0.N = GK (V m c main_arg0) (V m c main_v375) :=
  (dats m 0 c).arrAt_eq_of_cover 2 (GK (V m c main_arg0) (V m c main_v375)) (fun t _ => flushed_eq m c t) cover

/-- The kernel's run with the output array as that function; the arguments as launched. -/
theorem run : θ_run defs (onTc (τ := τ) (main (F := Ideal))) ⟨m, fun _ => 0, ρ⟩ fun r => ∀ c : Dev nD,
      r.2.mem ((c.tc : Thread nD τ).loc main_v376) = GK (m ((c.tc : Thread nD τ).loc main_arg0)) (V m c main_v375)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((final m c).trans (by rw [V_main_arg0])), (h c).2⟩) (run_named m ρ)

end Cert.KernelIdeal.Val

end
-- ==== Proof.KISplit.lean ====
/-
  The host prefix of `KernelIdeal` cut in two.

  The first 109 operations normalise the rotation table, build the three cumulative rotations and lay each out as a
  one-row block; the remaining 359 stack those rows and scatter each rotation into a block-diagonal 64×64 real matrix.  The
  whole prefix is the first part followed by the second.
-/
import proofs.«111939_j20813411516915_2_alg».proof.Proof.Gen.KernelIdeal.Launch

set_option maxRecDepth 16384

noncomputable section

namespace Cert.KernelIdeal.Frm

open Cert.KernelIdeal Cert.KernelIdeal.Gen Idealize.ShloMosaic Idealize.ShloMosaic.TcCoe Idealize.SL.Sem

variable {F : FTy → Type} [FloatOps F]

set_option maxHeartbeats 40000000 in
/-- The operations up to the cumulative rotations laid out as rows. -/
abbrev hostPre : List (HloOp τ sig (Elt F)) :=
  [
    StableHlo.nullary main_cst (fun i => FloatOps.ofBits .f32 (lit0 (S2.rowMajor i))),
    StableHlo.binary main_arg1 main_arg1 main_v0 (mulf : (⟨S4x32x2, .f32⟩ : BufTy).Contents (Elt F) → (⟨S4x32x2, .f32⟩ : BufTy).Contents (Elt F) → (⟨S4x32x2, .f32⟩ : BufTy).Contents (Elt F)),
    StableHlo.nullary main_cst_0 (constant S_ .f32 0x00000000#32),
    StableHlo.binary main_v0 main_cst_0 main_v1 ((fun x v => Host.reduceAdd x v reducesTo_S4x32x2_S4x32_d2 h_S_) : (⟨S4x32x2, .f32⟩ : BufTy).Contents (Elt F) → (⟨S_, .f32⟩ : BufTy).Contents (Elt F) → (⟨S4x32, .f32⟩ : BufTy).Contents (Elt F)),
    StableHlo.unary main_v1 main_v2 (broadcastInDim S4x32x1 ![0, 1] bcast_S4x32_S4x32x1_0_1 : (⟨S4x32, .f32⟩ : BufTy).Contents (Elt F) → (⟨S4x32x1, .f32⟩ : BufTy).Contents (Elt F)),
    StableHlo.unary main_v2 main_v3 (Host.sqrt : (⟨S4x32x1, .f32⟩ : BufTy).Contents (Elt F) → (⟨S4x32x1, .f32⟩ : BufTy).Contents (Elt F)),
    StableHlo.nullary main_cst_1 (constant S_ .f32 0x2B8CBCCC#32),
    StableHlo.unary main_cst_1 main_v4 (broadcastInDim S4x32x1 ![] bcast_S_S4x32x1 : (⟨S_, .f32⟩ : BufTy).Contents (Elt F) → (⟨S4x32x1, .f32⟩ : BufTy).Contents (Elt F)),
    StableHlo.binary main_v3 main_v4 main_v5 (maximumf : (⟨S4x32x1, .f32⟩ : BufTy).Contents (Elt F) → (⟨S4x32x1, .f32⟩ : BufTy).Contents (Elt F) → (⟨S4x32x1, .f32⟩ : BufTy).Contents (Elt F)),
    StableHlo.unary main_v5 main_v6 (broadcastInDim S4x32x2 ![0, 1, 2] bcast_S4x32x1_S4x32x2_0_1_2 : (⟨S4x32x1, .f32⟩ : BufTy).Contents (Elt F) → (⟨S4x32x2, .f32⟩ : BufTy).Contents (Elt F)),
    StableHlo.binary main_arg1 main_v6 main_v7 (Host.divf : (⟨S4x32x2, .f32⟩ : BufTy).Contents (Elt F) → (⟨S4x32x2, .f32⟩ : BufTy).Contents (Elt F) → (⟨S4x32x2, .f32⟩ : BufTy).Contents (Elt F)),
    StableHlo.unary main_cst main_v8 (broadcastInDim S1x1x2 ![2] bcast_S2_S1x1x2_2 : (⟨S2, .f32⟩ : BufTy).Contents (Elt F) → (⟨S1x1x2, .f32⟩ : BufTy).Contents (Elt F)),
    StableHlo.unary main_v8 main_v9 (broadcastInDim S4x32x2 ![0, 1, 2] bcast_S1x1x2_S4x32x2_0_1_2 : (⟨S1x1x2, .f32⟩ : BufTy).Contents (Elt F) → (⟨S4x32x2, .f32⟩ : BufTy).Contents (Elt F)),
    StableHlo.binary main_v7 main_v9 main_v10 (mulf : (⟨S4x32x2, .f32⟩ : BufTy).Contents (Elt F) → (⟨S4x32x2, .f32⟩ : BufTy).Contents (Elt F) → (⟨S4x32x2, .f32⟩ : BufTy).Contents (Elt F)),
    StableHlo.unary main_v7 main_v11 (broadcastInDim S4x1x32x2 ![0, 2, 3] bcast_S4x32x2_S4x1x32x2_0_2_3 : (⟨S4x32x2, .f32⟩ : BufTy).Contents (Elt F) → (⟨S4x1x32x2, .f32⟩ : BufTy).Contents (Elt F)),
    StableHlo.unary main_v10 main_v12 (broadcastInDim S4x1x32x2 ![0, 2, 3] bcast_S4x32x2_S4x1x32x2_0_2_3 : (⟨S4x32x2, .f32⟩ : BufTy).Contents (Elt F) → (⟨S4x1x32x2, .f32⟩ : BufTy).Contents (Elt F)),
    StableHlo.binary main_v11 main_v12 main_v13 ((fun a b => concatenate S4x2x32x2 1 [⟨S4x1x32x2, a⟩, ⟨S4x1x32x2, b⟩] concatenates_S4x1x32x2_S4x1x32x2_S4x2x32x2_d1) : (⟨S4x1x32x2, .f32⟩ : BufTy).Contents (Elt F) → (⟨S4x1x32x2, .f32⟩ : BufTy).Contents (Elt F) → (⟨S4x2x32x2, .f32⟩ : BufTy).Contents (Elt F)),
    StableHlo.reshape main_v13 main_v14 rfl shapeCasts_S4x2x32x2_S8x32x2,
    StableHlo.nullary main_cst_2 (constant S_ .f32 0x3F800000#32),
    StableHlo.unary main_cst_2 main_v15 (broadcastInDim S32 ![] bcast_S_S32 : (⟨S_, .f32⟩ : BufTy).Contents (Elt F) → (⟨S32, .f32⟩ : BufTy).Contents (Elt F)),
    StableHlo.nullary main_cst_3 (constant S_ .f32 0x00000000#32),
    StableHlo.unary main_cst_3 main_v16 (broadcastInDim S32 ![] bcast_S_S32 : (⟨S_, .f32⟩ : BufTy).Contents (Elt F) → (⟨S32, .f32⟩ : BufTy).Contents (Elt F)),
    StableHlo.unary main_v15 main_v17 (broadcastInDim S32x1 ![0] bcast_S32_S32x1_0 : (⟨S32, .f32⟩ : BufTy).Contents (Elt F) → (⟨S32x1, .f32⟩ : BufTy).Contents (Elt F)),
    StableHlo.unary main_v16 main_v18 (broadcastInDim S32x1 ![0] bcast_S32_S32x1_0 : (⟨S32, .f32⟩ : BufTy).Contents (Elt F) → (⟨S32x1, .f32⟩ : BufTy).Contents (Elt F)),
    StableHlo.binary main_v17 main_v18 main_v19 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    StableHlo.unary main_v14 main_v20 ((extractStridedSlice S1x32x2 ![5, 0, 0] · slices_S8x32x2_S1x32x2_5_0_0) : (⟨S8x32x2, .f32⟩ : BufTy).Contents (Elt F) → (⟨S1x32x2, .f32⟩ : BufTy).Contents (Elt F)),
    StableHlo.reshape main_v20 main_v21 rfl shapeCasts_S1x32x2_S32x2,
    StableHlo.unary main_v19 main_v22 ((extractStridedSlice S32x1 ![0, 0] · slices_S32x2_S32x1_0_0) : (⟨S32x2, .f32⟩ : BufTy).Contents (Elt F) → (⟨S32x1, .f32⟩ : BufTy).Contents (Elt F)),
    StableHlo.reshape main_v22 main_v23 rfl shapeCasts_S32x1_S32,
    StableHlo.unary main_v21 main_v24 ((extractStridedSlice S32x1 ![0, 0] · slices_S32x2_S32x1_0_0) : (⟨S32x2, .f32⟩ : BufTy).Contents (Elt F) → (⟨S32x1, .f32⟩ : BufTy).Contents (Elt F)),
    StableHlo.reshape main_v24 main_v25 rfl shapeCasts_S32x1_S32,
    StableHlo.binary main_v23 main_v25 main_v26 (mulf : (⟨S32, .f32⟩ : BufTy).Contents (Elt F) → (⟨S32, .f32⟩ : BufTy).Contents (Elt F) → (⟨S32, .f32⟩ : BufTy).Contents (Elt F)),
    StableHlo.unary main_v19 main_v27 ((extractStridedSlice S32x1 ![0, 1] · slices_S32x2_S32x1_0_1) : (⟨S32x2, .f32⟩ : BufTy).Contents (Elt F) → (⟨S32x1, .f32⟩ : BufTy).Contents (Elt F)),
    StableHlo.reshape main_v27 main_v28 rfl shapeCasts_S32x1_S32,
    StableHlo.unary main_v21 main_v29 ((extractStridedSlice S32x1 ![0, 1] · slices_S32x2_S32x1_0_1) : (⟨S32x2, .f32⟩ : BufTy).Contents (Elt F) → (⟨S32x1, .f32⟩ : BufTy).Contents (Elt F)),
    StableHlo.reshape main_v29 main_v30 rfl shapeCasts_S32x1_S32,
    StableHlo.binary main_v28 main_v30 main_v31 (mulf : (⟨S32, .f32⟩ : BufTy).Contents (Elt F) → (⟨S32, .f32⟩ : BufTy).Contents (Elt F) → (⟨S32, .f32⟩ : BufTy).Contents (Elt F)),
    StableHlo.binary main_v26 main_v31 main_v32 (subf : (⟨S32, .f32⟩ : BufTy).Contents (Elt F) → (⟨S32, .f32⟩ : BufTy).Contents (Elt F) → (⟨S32, .f32⟩ : BufTy).Contents (Elt F)),
    StableHlo.unary main_v19 main_v33 ((extractStridedSlice S32x1 ![0, 0] · slices_S32x2_S32x1_0_0) : (⟨S32x2, .f32⟩ : BufTy).Contents (Elt F) → (⟨S32x1, .f32⟩ : BufTy).Contents (Elt F)),
    StableHlo.reshape main_v33 main_v34 rfl shapeCasts_S32x1_S32,
    StableHlo.unary main_v21 main_v35 ((extractStridedSlice S32x1 ![0, 1] · slices_S32x2_S32x1_0_1) : (⟨S32x2, .f32⟩ : BufTy).Contents (Elt F) → (⟨S32x1, .f32⟩ : BufTy).Contents (Elt F)),
    StableHlo.reshape main_v35 main_v36 rfl shapeCasts_S32x1_S32,
    StableHlo.binary main_v34 main_v36 main_v37 (mulf : (⟨S32, .f32⟩ : BufTy).Contents (Elt F) → (⟨S32, .f32⟩ : BufTy).Contents (Elt F) → (⟨S32, .f32⟩ : BufTy).Contents (Elt F)),
    StableHlo.unary main_v19 main_v38 ((extractStridedSlice S32x1 ![0, 1] · slices_S32x2_S32x1_0_1) : (⟨S32x2, .f32⟩ : BufTy).Contents (Elt F) → (⟨S32x1, .f32⟩ : BufTy).Contents (Elt F)),
    StableHlo.reshape main_v38 main_v39 rfl shapeCasts_S32x1_S32,
    StableHlo.unary main_v21 main_v40 ((extractStridedSlice S32x1 ![0, 0] · slices_S32x2_S32x1_0_0) : (⟨S32x2, .f32⟩ : BufTy).Contents (Elt F) → (⟨S32x1, .f32⟩ : BufTy).Contents (Elt F)),
    StableHlo.reshape main_v40 main_v41 rfl shapeCasts_S32x1_S32,
    StableHlo.binary main_v39 main_v41 main_v42 (mulf : (⟨S32, .f32⟩ : BufTy).Contents (Elt F) → (⟨S32, .f32⟩ : BufTy).Contents (Elt F) → (⟨S32, .f32⟩ : BufTy).Contents (Elt F)),
    StableHlo.binary main_v37 main_v42 main_v43 (addf : (⟨S32, .f32⟩ : BufTy).Contents (Elt F) → (⟨S32, .f32⟩ : BufTy).Contents (Elt F) → (⟨S32, .f32⟩ : BufTy).Contents (Elt F)),
    StableHlo.unary main_v32 main_v44 (broadcastInDim S32x1 ![0] bcast_S32_S32x1_0 : (⟨S32, .f32⟩ : BufTy).Contents (Elt F) → (⟨S32x1, .f32⟩ : BufTy).Contents (Elt F)),
    StableHlo.unary main_v43 main_v45 (broadcastInDim S32x1 ![0] bcast_S32_S32x1_0 : (⟨S32, .f32⟩ : BufTy).Contents (Elt F) → (⟨S32x1, .f32⟩ : BufTy).Contents (Elt F)),
    StableHlo.binary main_v44 main_v45 main_v46 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    StableHlo.unary main_v14 main_v47 ((extractStridedSlice S1x32x2 ![3, 0, 0] · slices_S8x32x2_S1x32x2_3_0_0) : (⟨S8x32x2, .f32⟩ : BufTy).Contents (Elt F) → (⟨S1x32x2, .f32⟩ : BufTy).Contents (Elt F)),
    StableHlo.reshape main_v47 main_v48 rfl shapeCasts_S1x32x2_S32x2,
    StableHlo.unary main_v46 main_v49 ((extractStridedSlice S32x1 ![0, 0] · slices_S32x2_S32x1_0_0) : (⟨S32x2, .f32⟩ : BufTy).Contents (Elt F) → (⟨S32x1, .f32⟩ : BufTy).Contents (Elt F)),
    StableHlo.reshape main_v49 main_v50 rfl shapeCasts_S32x1_S32,
    StableHlo.unary main_v48 main_v51 ((extractStridedSlice S32x1 ![0, 0] · slices_S32x2_S32x1_0_0) : (⟨S32x2, .f32⟩ : BufTy).Contents (Elt F) → (⟨S32x1, .f32⟩ : BufTy).Contents (Elt F)),
    StableHlo.reshape main_v51 main_v52 rfl shapeCasts_S32x1_S32,
    StableHlo.binary main_v50 main_v52 main_v53 (mulf : (⟨S32, .f32⟩ : BufTy).Contents (Elt F) → (⟨S32, .f32⟩ : BufTy).Contents (Elt F) → (⟨S32, .f32⟩ : BufTy).Contents (Elt F)),
    StableHlo.unary main_v46 main_v54 ((extractStridedSlice S32x1 ![0, 1] · slices_S32x2_S32x1_0_1) : (⟨S32x2, .f32⟩ : BufTy).Contents (Elt F) → (⟨S32x1, .f32⟩ : BufTy).Contents (Elt F)),
    StableHlo.reshape main_v54 main_v55 rfl shapeCasts_S32x1_S32,
    StableHlo.unary main_v48 main_v56 ((extractStridedSlice S32x1 ![0, 1] · slices_S32x2_S32x1_0_1) : (⟨S32x2, .f32⟩ : BufTy).Contents (Elt F) → (⟨S32x1, .f32⟩ : BufTy).Contents (Elt F)),
    StableHlo.reshape main_v56 main_v57 rfl shapeCasts_S32x1_S32,
    StableHlo.binary main_v55 main_v57 main_v58 (mulf : (⟨S32, .f32⟩ : BufTy).Contents (Elt F) → (⟨S32, .f32⟩ : BufTy).Contents (Elt F) → (⟨S32, .f32⟩ : BufTy).Contents (Elt F)),
    StableHlo.binary main_v53 main_v58 main_v59 (subf : (⟨S32, .f32⟩ : BufTy).Contents (Elt F) → (⟨S32, .f32⟩ : BufTy).Contents (Elt F) → (⟨S32, .f32⟩ : BufTy).Contents (Elt F)),
    StableHlo.unary main_v46 main_v60 ((extractStridedSlice S32x1 ![0, 0] · slices_S32x2_S32x1_0_0) : (⟨S32x2, .f32⟩ : BufTy).Contents (Elt F) → (⟨S32x1, .f32⟩ : BufTy).Contents (Elt F)),
    StableHlo.reshape main_v60 main_v61 rfl shapeCasts_S32x1_S32,
    StableHlo.unary main_v48 main_v62 ((extractStridedSlice S32x1 ![0, 1] · slices_S32x2_S32x1_0_1) : (⟨S32x2, .f32⟩ : BufTy).Contents (Elt F) → (⟨S32x1, .f32⟩ : BufTy).Contents (Elt F)),
    StableHlo.reshape main_v62 main_v63 rfl shapeCasts_S32x1_S32,
    StableHlo.binary main_v61 main_v63 main_v64 (mulf : (⟨S32, .f32⟩ : BufTy).Contents (Elt F) → (⟨S32, .f32⟩ : BufTy).Contents (Elt F) → (⟨S32, .f32⟩ : BufTy).Contents (Elt F)),
    StableHlo.unary main_v46 main_v65 ((extractStridedSlice S32x1 ![0, 1] · slices_S32x2_S32x1_0_1) : (⟨S32x2, .f32⟩ : BufTy).Contents (Elt F) → (⟨S32x1, .f32⟩ : BufTy).Contents (Elt F)),
    StableHlo.reshape main_v65 main_v66 rfl shapeCasts_S32x1_S32,
    StableHlo.unary main_v48 main_v67 ((extractStridedSlice S32x1 ![0, 0] · slices_S32x2_S32x1_0_0) : (⟨S32x2, .f32⟩ : BufTy).Contents (Elt F) → (⟨S32x1, .f32⟩ : BufTy).Contents (Elt F)),
    StableHlo.reshape main_v67 main_v68 rfl shapeCasts_S32x1_S32,
    StableHlo.binary main_v66 main_v68 main_v69 (mulf : (⟨S32, .f32⟩ : BufTy).Contents (Elt F) → (⟨S32, .f32⟩ : BufTy).Contents (Elt F) → (⟨S32, .f32⟩ : BufTy).Contents (Elt F)),
    StableHlo.binary main_v64 main_v69 main_v70 (addf : (⟨S32, .f32⟩ : BufTy).Contents (Elt F) → (⟨S32, .f32⟩ : BufTy).Contents (Elt F) → (⟨S32, .f32⟩ : BufTy).Contents (Elt F)),
    StableHlo.unary main_v59 main_v71 (broadcastInDim S32x1 ![0] bcast_S32_S32x1_0 : (⟨S32, .f32⟩ : BufTy).Contents (Elt F) → (⟨S32x1, .f32⟩ : BufTy).Contents (Elt F)),
    StableHlo.unary main_v70 main_v72 (broadcastInDim S32x1 ![0] bcast_S32_S32x1_0 : (⟨S32, .f32⟩ : BufTy).Contents (Elt F) → (⟨S32x1, .f32⟩ : BufTy).Contents (Elt F)),
    StableHlo.binary main_v71 main_v72 main_v73 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    StableHlo.unary main_v14 main_v74 ((extractStridedSlice S1x32x2 ![0, 0, 0] · slices_S8x32x2_S1x32x2_0_0_0) : (⟨S8x32x2, .f32⟩ : BufTy).Contents (Elt F) → (⟨S1x32x2, .f32⟩ : BufTy).Contents (Elt F)),
    StableHlo.reshape main_v74 main_v75 rfl shapeCasts_S1x32x2_S32x2,
    StableHlo.unary main_v73 main_v76 ((extractStridedSlice S32x1 ![0, 0] · slices_S32x2_S32x1_0_0) : (⟨S32x2, .f32⟩ : BufTy).Contents (Elt F) → (⟨S32x1, .f32⟩ : BufTy).Contents (Elt F)),
    StableHlo.reshape main_v76 main_v77 rfl shapeCasts_S32x1_S32,
    StableHlo.unary main_v75 main_v78 ((extractStridedSlice S32x1 ![0, 0] · slices_S32x2_S32x1_0_0) : (⟨S32x2, .f32⟩ : BufTy).Contents (Elt F) → (⟨S32x1, .f32⟩ : BufTy).Contents (Elt F)),
    StableHlo.reshape main_v78 main_v79 rfl shapeCasts_S32x1_S32,
    StableHlo.binary main_v77 main_v79 main_v80 (mulf : (⟨S32, .f32⟩ : BufTy).Contents (Elt F) → (⟨S32, .f32⟩ : BufTy).Contents (Elt F) → (⟨S32, .f32⟩ : BufTy).Contents (Elt F)),
    StableHlo.unary main_v73 main_v81 ((extractStridedSlice S32x1 ![0, 1] · slices_S32x2_S32x1_0_1) : (⟨S32x2, .f32⟩ : BufTy).Contents (Elt F) → (⟨S32x1, .f32⟩ : BufTy).Contents (Elt F)),
    StableHlo.reshape main_v81 main_v82 rfl shapeCasts_S32x1_S32,
    StableHlo.unary main_v75 main_v83 ((extractStridedSlice S32x1 ![0, 1] · slices_S32x2_S32x1_0_1) : (⟨S32x2, .f32⟩ : BufTy).Contents (Elt F) → (⟨S32x1, .f32⟩ : BufTy).Contents (Elt F)),
    StableHlo.reshape main_v83 main_v84 rfl shapeCasts_S32x1_S32,
    StableHlo.binary main_v82 main_v84 main_v85 (mulf : (⟨S32, .f32⟩ : BufTy).Contents (Elt F) → (⟨S32, .f32⟩ : BufTy).Contents (Elt F) → (⟨S32, .f32⟩ : BufTy).Contents (Elt F)),
    StableHlo.binary main_v80 main_v85 main_v86 (subf : (⟨S32, .f32⟩ : BufTy).Contents (Elt F) → (⟨S32, .f32⟩ : BufTy).Contents (Elt F) → (⟨S32, .f32⟩ : BufTy).Contents (Elt F)),
    StableHlo.unary main_v73 main_v87 ((extractStridedSlice S32x1 ![0, 0] · slices_S32x2_S32x1_0_0) : (⟨S32x2, .f32⟩ : BufTy).Contents (Elt F) → (⟨S32x1, .f32⟩ : BufTy).Contents (Elt F)),
    StableHlo.reshape main_v87 main_v88 rfl shapeCasts_S32x1_S32,
    StableHlo.unary main_v75 main_v89 ((extractStridedSlice S32x1 ![0, 1] · slices_S32x2_S32x1_0_1) : (⟨S32x2, .f32⟩ : BufTy).Contents (Elt F) → (⟨S32x1, .f32⟩ : BufTy).Contents (Elt F)),
    StableHlo.reshape main_v89 main_v90 rfl shapeCasts_S32x1_S32,
    StableHlo.binary main_v88 main_v90 main_v91 (mulf : (⟨S32, .f32⟩ : BufTy).Contents (Elt F) → (⟨S32, .f32⟩ : BufTy).Contents (Elt F) → (⟨S32, .f32⟩ : BufTy).Contents (Elt F)),
    StableHlo.unary main_v73 main_v92 ((extractStridedSlice S32x1 ![0, 1] · slices_S32x2_S32x1_0_1) : (⟨S32x2, .f32⟩ : BufTy).Contents (Elt F) → (⟨S32x1, .f32⟩ : BufTy).Contents (Elt F)),
    StableHlo.reshape main_v92 main_v93 rfl shapeCasts_S32x1_S32,
    StableHlo.unary main_v75 main_v94 ((extractStridedSlice S32x1 ![0, 0] · slices_S32x2_S32x1_0_0) : (⟨S32x2, .f32⟩ : BufTy).Contents (Elt F) → (⟨S32x1, .f32⟩ : BufTy).Contents (Elt F)),
    StableHlo.reshape main_v94 main_v95 rfl shapeCasts_S32x1_S32,
    StableHlo.binary main_v93 main_v95 main_v96 (mulf : (⟨S32, .f32⟩ : BufTy).Contents (Elt F) → (⟨S32, .f32⟩ : BufTy).Contents (Elt F) → (⟨S32, .f32⟩ : BufTy).Contents (Elt F)),
    StableHlo.binary main_v91 main_v96 main_v97 (addf : (⟨S32, .f32⟩ : BufTy).Contents (Elt F) → (⟨S32, .f32⟩ : BufTy).Contents (Elt F) → (⟨S32, .f32⟩ : BufTy).Contents (Elt F)),
    StableHlo.unary main_v86 main_v98 (broadcastInDim S32x1 ![0] bcast_S32_S32x1_0 : (⟨S32, .f32⟩ : BufTy).Contents (Elt F) → (⟨S32x1, .f32⟩ : BufTy).Contents (Elt F)),
    StableHlo.unary main_v97 main_v99 (broadcastInDim S32x1 ![0] bcast_S32_S32x1_0 : (⟨S32, .f32⟩ : BufTy).Contents (Elt F) → (⟨S32x1, .f32⟩ : BufTy).Contents (Elt F)),
    StableHlo.binary main_v98 main_v99 main_v100 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    StableHlo.unary main_v100 main_v101 (broadcastInDim S1x32x2 ![1, 2] bcast_S32x2_S1x32x2_1_2 : (⟨S32x2, .f32⟩ : BufTy).Contents (Elt F) → (⟨S1x32x2, .f32⟩ : BufTy).Contents (Elt F)),
    StableHlo.unary main_v73 main_v102 (broadcastInDim S1x32x2 ![1, 2] bcast_S32x2_S1x32x2_1_2 : (⟨S32x2, .f32⟩ : BufTy).Contents (Elt F) → (⟨S1x32x2, .f32⟩ : BufTy).Contents (Elt F)),
    StableHlo.unary main_v46 main_v103 (broadcastInDim S1x32x2 ![1, 2] bcast_S32x2_S1x32x2_1_2 : (⟨S32x2, .f32⟩ : BufTy).Contents (Elt F) → (⟨S1x32x2, .f32⟩ : BufTy).Contents (Elt F)) ]

set_option maxHeartbeats 40000000 in
/-- The operations from the stacking of the rotations to the three matrices. -/
abbrev hostTail : List (HloOp τ sig (Elt F)) :=
  [
    StableHlo.nary ![main_v101, main_v102, main_v103] main_v104 (fun u => concatenate S3x32x2 0 [⟨S1x32x2, u 0⟩, ⟨S1x32x2, u 1⟩, ⟨S1x32x2, u 2⟩] concatenates_S1x32x2_S1x32x2_S1x32x2_S3x32x2_d0),
    StableHlo.unary main_v104 main_v105 ((extractStridedSlice S1x32x2 ![0, 0, 0] · slices_S3x32x2_S1x32x2_0_0_0) : (⟨S3x32x2, .f32⟩ : BufTy).Contents (Elt F) → (⟨S1x32x2, .f32⟩ : BufTy).Contents (Elt F)),
    StableHlo.reshape main_v105 main_v106 rfl shapeCasts_S1x32x2_S32x2,
    StableHlo.nullary main_v107 (iotaInDim S32 32 0),
    StableHlo.unary main_v106 main_v108 ((extractStridedSlice S32x1 ![0, 0] · slices_S32x2_S32x1_0_0) : (⟨S32x2, .f32⟩ : BufTy).Contents (Elt F) → (⟨S32x1, .f32⟩ : BufTy).Contents (Elt F)),
    StableHlo.reshape main_v108 main_v109 rfl shapeCasts_S32x1_S32,
    StableHlo.unary main_v106 main_v110 ((extractStridedSlice S32x1 ![0, 1] · slices_S32x2_S32x1_0_1) : (⟨S32x2, .f32⟩ : BufTy).Contents (Elt F) → (⟨S32x1, .f32⟩ : BufTy).Contents (Elt F)),
    StableHlo.reshape main_v110 main_v111 rfl shapeCasts_S32x1_S32,
    StableHlo.nullary main_cst_4 (constant S_ .f32 0x00000000#32),
    StableHlo.unary main_cst_4 main_v112 (broadcastInDim S64x64 ![] bcast_S_S64x64 : (⟨S_, .f32⟩ : BufTy).Contents (Elt F) → (⟨S64x64, .f32⟩ : BufTy).Contents (Elt F)),
    StableHlo.nullary main_c (constantI S_ 32 2#32),
    StableHlo.unary main_c main_v113 (broadcastInDim S32 ![] bcast_S_S32 : (⟨S_, .i32⟩ : BufTy).Contents (Elt F) → (⟨S32, .i32⟩ : BufTy).Contents (Elt F)),
    StableHlo.binary main_v113 main_v107 main_v114 (muli : (⟨S32, .i32⟩ : BufTy).Contents (Elt F) → (⟨S32, .i32⟩ : BufTy).Contents (Elt F) → (⟨S32, .i32⟩ : BufTy).Contents (Elt F)),
    StableHlo.nullary main_c_5 (constantI S_ 32 2#32),
    StableHlo.unary main_c_5 main_v115 (broadcastInDim S32 ![] bcast_S_S32 : (⟨S_, .i32⟩ : BufTy).Contents (Elt F) → (⟨S32, .i32⟩ : BufTy).Contents (Elt F)),
    StableHlo.binary main_v115 main_v107 main_v116 (muli : (⟨S32, .i32⟩ : BufTy).Contents (Elt F) → (⟨S32, .i32⟩ : BufTy).Contents (Elt F) → (⟨S32, .i32⟩ : BufTy).Contents (Elt F)),
    StableHlo.nullary main_c_6 (constantI S_ 32 0#32),
    StableHlo.unary main_c_6 main_v117 (broadcastInDim S32 ![] bcast_S_S32 : (⟨S_, .i32⟩ : BufTy).Contents (Elt F) → (⟨S32, .i32⟩ : BufTy).Contents (Elt F)),
    StableHlo.binary main_v114 main_v117 main_v118 (cmpi .slt : (⟨S32, .i32⟩ : BufTy).Contents (Elt F) → (⟨S32, .i32⟩ : BufTy).Contents (Elt F) → (⟨S32, .i1⟩ : BufTy).Contents (Elt F)),
    StableHlo.nullary main_c_7 (constantI S_ 32 64#32),
    StableHlo.unary main_c_7 main_v119 (broadcastInDim S32 ![] bcast_S_S32 : (⟨S_, .i32⟩ : BufTy).Contents (Elt F) → (⟨S32, .i32⟩ : BufTy).Contents (Elt F)),
    StableHlo.binary main_v114 main_v119 main_v120 (addi : (⟨S32, .i32⟩ : BufTy).Contents (Elt F) → (⟨S32, .i32⟩ : BufTy).Contents (Elt F) → (⟨S32, .i32⟩ : BufTy).Contents (Elt F)),
    StableHlo.ternary main_v118 main_v120 main_v114 main_v121 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_8 (constantI S_ 32 0#32),
    StableHlo.unary main_c_8 main_v122 (broadcastInDim S32 ![] bcast_S_S32 : (⟨S_, .i32⟩ : BufTy).Contents (Elt F) → (⟨S32, .i32⟩ : BufTy).Contents (Elt F)),
    StableHlo.binary main_v116 main_v122 main_v123 (cmpi .slt : (⟨S32, .i32⟩ : BufTy).Contents (Elt F) → (⟨S32, .i32⟩ : BufTy).Contents (Elt F) → (⟨S32, .i1⟩ : BufTy).Contents (Elt F)),
    StableHlo.nullary main_c_9 (constantI S_ 32 64#32),
    StableHlo.unary main_c_9 main_v124 (broadcastInDim S32 ![] bcast_S_S32 : (⟨S_, .i32⟩ : BufTy).Contents (Elt F) → (⟨S32, .i32⟩ : BufTy).Contents (Elt F)),
    StableHlo.binary main_v116 main_v124 main_v125 (addi : (⟨S32, .i32⟩ : BufTy).Contents (Elt F) → (⟨S32, .i32⟩ : BufTy).Contents (Elt F) → (⟨S32, .i32⟩ : BufTy).Contents (Elt F)),
    StableHlo.ternary main_v123 main_v125 main_v116 main_v126 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v121 main_v127 (broadcastInDim S32x1 ![0] bcast_S32_S32x1_0 : (⟨S32, .i32⟩ : BufTy).Contents (Elt F) → (⟨S32x1, .i32⟩ : BufTy).Contents (Elt F)),
    StableHlo.unary main_v126 main_v128 (broadcastInDim S32x1 ![0] bcast_S32_S32x1_0 : (⟨S32, .i32⟩ : BufTy).Contents (Elt F) → (⟨S32x1, .i32⟩ : BufTy).Contents (Elt F)),
    StableHlo.binary main_v127 main_v128 main_v129 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v112 main_v129 main_v109 main_v130 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_10 (constantI S_ 32 2#32),
    StableHlo.unary main_c_10 main_v131 (broadcastInDim S32 ![] bcast_S_S32 : (⟨S_, .i32⟩ : BufTy).Contents (Elt F) → (⟨S32, .i32⟩ : BufTy).Contents (Elt F)),
    StableHlo.binary main_v131 main_v107 main_v132 (muli : (⟨S32, .i32⟩ : BufTy).Contents (Elt F) → (⟨S32, .i32⟩ : BufTy).Contents (Elt F) → (⟨S32, .i32⟩ : BufTy).Contents (Elt F)),
    StableHlo.nullary main_c_11 (constantI S_ 32 1#32),
    StableHlo.unary main_c_11 main_v133 (broadcastInDim S32 ![] bcast_S_S32 : (⟨S_, .i32⟩ : BufTy).Contents (Elt F) → (⟨S32, .i32⟩ : BufTy).Contents (Elt F)),
    StableHlo.binary main_v132 main_v133 main_v134 (addi : (⟨S32, .i32⟩ : BufTy).Contents (Elt F) → (⟨S32, .i32⟩ : BufTy).Contents (Elt F) → (⟨S32, .i32⟩ : BufTy).Contents (Elt F)),
    StableHlo.nullary main_c_12 (constantI S_ 32 2#32),
    StableHlo.unary main_c_12 main_v135 (broadcastInDim S32 ![] bcast_S_S32 : (⟨S_, .i32⟩ : BufTy).Contents (Elt F) → (⟨S32, .i32⟩ : BufTy).Contents (Elt F)),
    StableHlo.binary main_v135 main_v107 main_v136 (muli : (⟨S32, .i32⟩ : BufTy).Contents (Elt F) → (⟨S32, .i32⟩ : BufTy).Contents (Elt F) → (⟨S32, .i32⟩ : BufTy).Contents (Elt F)),
    StableHlo.unary main_v111 main_v137 (Host.negf : (⟨S32, .f32⟩ : BufTy).Contents (Elt F) → (⟨S32, .f32⟩ : BufTy).Contents (Elt F)),
    StableHlo.nullary main_c_13 (constantI S_ 32 0#32),
    StableHlo.unary main_c_13 main_v138 (broadcastInDim S32 ![] bcast_S_S32 : (⟨S_, .i32⟩ : BufTy).Contents (Elt F) → (⟨S32, .i32⟩ : BufTy).Contents (Elt F)),
    StableHlo.binary main_v134 main_v138 main_v139 (cmpi .slt : (⟨S32, .i32⟩ : BufTy).Contents (Elt F) → (⟨S32, .i32⟩ : BufTy).Contents (Elt F) → (⟨S32, .i1⟩ : BufTy).Contents (Elt F)),
    StableHlo.nullary main_c_14 (constantI S_ 32 64#32),
    StableHlo.unary main_c_14 main_v140 (broadcastInDim S32 ![] bcast_S_S32 : (⟨S_, .i32⟩ : BufTy).Contents (Elt F) → (⟨S32, .i32⟩ : BufTy).Contents (Elt F)),
    StableHlo.binary main_v134 main_v140 main_v141 (addi : (⟨S32, .i32⟩ : BufTy).Contents (Elt F) → (⟨S32, .i32⟩ : BufTy).Contents (Elt F) → (⟨S32, .i32⟩ : BufTy).Contents (Elt F)),
    StableHlo.ternary main_v139 main_v141 main_v134 main_v142 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_15 (constantI S_ 32 0#32),
    StableHlo.unary main_c_15 main_v143 (broadcastInDim S32 ![] bcast_S_S32 : (⟨S_, .i32⟩ : BufTy).Contents (Elt F) → (⟨S32, .i32⟩ : BufTy).Contents (Elt F)),
    StableHlo.binary main_v136 main_v143 main_v144 (cmpi .slt : (⟨S32, .i32⟩ : BufTy).Contents (Elt F) → (⟨S32, .i32⟩ : BufTy).Contents (Elt F) → (⟨S32, .i1⟩ : BufTy).Contents (Elt F)),
    StableHlo.nullary main_c_16 (constantI S_ 32 64#32),
    StableHlo.unary main_c_16 main_v145 (broadcastInDim S32 ![] bcast_S_S32 : (⟨S_, .i32⟩ : BufTy).Contents (Elt F) → (⟨S32, .i32⟩ : BufTy).Contents (Elt F)),
    StableHlo.binary main_v136 main_v145 main_v146 (addi : (⟨S32, .i32⟩ : BufTy).Contents (Elt F) → (⟨S32, .i32⟩ : BufTy).Contents (Elt F) → (⟨S32, .i32⟩ : BufTy).Contents (Elt F)),
    StableHlo.ternary main_v144 main_v146 main_v136 main_v147 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v142 main_v148 (broadcastInDim S32x1 ![0] bcast_S32_S32x1_0 : (⟨S32, .i32⟩ : BufTy).Contents (Elt F) → (⟨S32x1, .i32⟩ : BufTy).Contents (Elt F)),
    StableHlo.unary main_v147 main_v149 (broadcastInDim S32x1 ![0] bcast_S32_S32x1_0 : (⟨S32, .i32⟩ : BufTy).Contents (Elt F) → (⟨S32x1, .i32⟩ : BufTy).Contents (Elt F)),
    StableHlo.binary main_v148 main_v149 main_v150 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v130 main_v150 main_v137 main_v151 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_17 (constantI S_ 32 2#32),
    StableHlo.unary main_c_17 main_v152 (broadcastInDim S32 ![] bcast_S_S32 : (⟨S_, .i32⟩ : BufTy).Contents (Elt F) → (⟨S32, .i32⟩ : BufTy).Contents (Elt F)),
    StableHlo.binary main_v152 main_v107 main_v153 (muli : (⟨S32, .i32⟩ : BufTy).Contents (Elt F) → (⟨S32, .i32⟩ : BufTy).Contents (Elt F) → (⟨S32, .i32⟩ : BufTy).Contents (Elt F)),
    StableHlo.nullary main_c_18 (constantI S_ 32 2#32),
    StableHlo.unary main_c_18 main_v154 (broadcastInDim S32 ![] bcast_S_S32 : (⟨S_, .i32⟩ : BufTy).Contents (Elt F) → (⟨S32, .i32⟩ : BufTy).Contents (Elt F)),
    StableHlo.binary main_v154 main_v107 main_v155 (muli : (⟨S32, .i32⟩ : BufTy).Contents (Elt F) → (⟨S32, .i32⟩ : BufTy).Contents (Elt F) → (⟨S32, .i32⟩ : BufTy).Contents (Elt F)),
    StableHlo.nullary main_c_19 (constantI S_ 32 1#32),
    StableHlo.unary main_c_19 main_v156 (broadcastInDim S32 ![] bcast_S_S32 : (⟨S_, .i32⟩ : BufTy).Contents (Elt F) → (⟨S32, .i32⟩ : BufTy).Contents (Elt F)),
    StableHlo.binary main_v155 main_v156 main_v157 (addi : (⟨S32, .i32⟩ : BufTy).Contents (Elt F) → (⟨S32, .i32⟩ : BufTy).Contents (Elt F) → (⟨S32, .i32⟩ : BufTy).Contents (Elt F)),
    StableHlo.nullary main_c_20 (constantI S_ 32 0#32),
    StableHlo.unary main_c_20 main_v158 (broadcastInDim S32 ![] bcast_S_S32 : (⟨S_, .i32⟩ : BufTy).Contents (Elt F) → (⟨S32, .i32⟩ : BufTy).Contents (Elt F)),
    StableHlo.binary main_v153 main_v158 main_v159 (cmpi .slt : (⟨S32, .i32⟩ : BufTy).Contents (Elt F) → (⟨S32, .i32⟩ : BufTy).Contents (Elt F) → (⟨S32, .i1⟩ : BufTy).Contents (Elt F)),
    StableHlo.nullary main_c_21 (constantI S_ 32 64#32),
    StableHlo.unary main_c_21 main_v160 (broadcastInDim S32 ![] bcast_S_S32 : (⟨S_, .i32⟩ : BufTy).Contents (Elt F) → (⟨S32, .i32⟩ : BufTy).Contents (Elt F)),
    StableHlo.binary main_v153 main_v160 main_v161 (addi : (⟨S32, .i32⟩ : BufTy).Contents (Elt F) → (⟨S32, .i32⟩ : BufTy).Contents (Elt F) → (⟨S32, .i32⟩ : BufTy).Contents (Elt F)),
    StableHlo.ternary main_v159 main_v161 main_v153 main_v162 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_22 (constantI S_ 32 0#32),
    StableHlo.unary main_c_22 main_v163 (broadcastInDim S32 ![] bcast_S_S32 : (⟨S_, .i32⟩ : BufTy).Contents (Elt F) → (⟨S32, .i32⟩ : BufTy).Contents (Elt F)),
    StableHlo.binary main_v157 main_v163 main_v164 (cmpi .slt : (⟨S32, .i32⟩ : BufTy).Contents (Elt F) → (⟨S32, .i32⟩ : BufTy).Contents (Elt F) → (⟨S32, .i1⟩ : BufTy).Contents (Elt F)),
    StableHlo.nullary main_c_23 (constantI S_ 32 64#32),
    StableHlo.unary main_c_23 main_v165 (broadcastInDim S32 ![] bcast_S_S32 : (⟨S_, .i32⟩ : BufTy).Contents (Elt F) → (⟨S32, .i32⟩ : BufTy).Contents (Elt F)),
    StableHlo.binary main_v157 main_v165 main_v166 (addi : (⟨S32, .i32⟩ : BufTy).Contents (Elt F) → (⟨S32, .i32⟩ : BufTy).Contents (Elt F) → (⟨S32, .i32⟩ : BufTy).Contents (Elt F)),
    StableHlo.ternary main_v164 main_v166 main_v157 main_v167 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v162 main_v168 (broadcastInDim S32x1 ![0] bcast_S32_S32x1_0 : (⟨S32, .i32⟩ : BufTy).Contents (Elt F) → (⟨S32x1, .i32⟩ : BufTy).Contents (Elt F)),
    StableHlo.unary main_v167 main_v169 (broadcastInDim S32x1 ![0] bcast_S32_S32x1_0 : (⟨S32, .i32⟩ : BufTy).Contents (Elt F) → (⟨S32x1, .i32⟩ : BufTy).Contents (Elt F)),
    StableHlo.binary main_v168 main_v169 main_v170 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v151 main_v170 main_v111 main_v171 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_24 (constantI S_ 32 2#32),
    StableHlo.unary main_c_24 main_v172 (broadcastInDim S32 ![] bcast_S_S32 : (⟨S_, .i32⟩ : BufTy).Contents (Elt F) → (⟨S32, .i32⟩ : BufTy).Contents (Elt F)),
    StableHlo.binary main_v172 main_v107 main_v173 (muli : (⟨S32, .i32⟩ : BufTy).Contents (Elt F) → (⟨S32, .i32⟩ : BufTy).Contents (Elt F) → (⟨S32, .i32⟩ : BufTy).Contents (Elt F)),
    StableHlo.nullary main_c_25 (constantI S_ 32 1#32),
    StableHlo.unary main_c_25 main_v174 (broadcastInDim S32 ![] bcast_S_S32 : (⟨S_, .i32⟩ : BufTy).Contents (Elt F) → (⟨S32, .i32⟩ : BufTy).Contents (Elt F)),
    StableHlo.binary main_v173 main_v174 main_v175 (addi : (⟨S32, .i32⟩ : BufTy).Contents (Elt F) → (⟨S32, .i32⟩ : BufTy).Contents (Elt F) → (⟨S32, .i32⟩ : BufTy).Contents (Elt F)),
    StableHlo.nullary main_c_26 (constantI S_ 32 2#32),
    StableHlo.unary main_c_26 main_v176 (broadcastInDim S32 ![] bcast_S_S32 : (⟨S_, .i32⟩ : BufTy).Contents (Elt F) → (⟨S32, .i32⟩ : BufTy).Contents (Elt F)),
    StableHlo.binary main_v176 main_v107 main_v177 (muli : (⟨S32, .i32⟩ : BufTy).Contents (Elt F) → (⟨S32, .i32⟩ : BufTy).Contents (Elt F) → (⟨S32, .i32⟩ : BufTy).Contents (Elt F)),
    StableHlo.nullary main_c_27 (constantI S_ 32 1#32),
    StableHlo.unary main_c_27 main_v178 (broadcastInDim S32 ![] bcast_S_S32 : (⟨S_, .i32⟩ : BufTy).Contents (Elt F) → (⟨S32, .i32⟩ : BufTy).Contents (Elt F)),
    StableHlo.binary main_v177 main_v178 main_v179 (addi : (⟨S32, .i32⟩ : BufTy).Contents (Elt F) → (⟨S32, .i32⟩ : BufTy).Contents (Elt F) → (⟨S32, .i32⟩ : BufTy).Contents (Elt F)),
    StableHlo.nullary main_c_28 (constantI S_ 32 0#32),
    StableHlo.unary main_c_28 main_v180 (broadcastInDim S32 ![] bcast_S_S32 : (⟨S_, .i32⟩ : BufTy).Contents (Elt F) → (⟨S32, .i32⟩ : BufTy).Contents (Elt F)),
    StableHlo.binary main_v175 main_v180 main_v181 (cmpi .slt : (⟨S32, .i32⟩ : BufTy).Contents (Elt F) → (⟨S32, .i32⟩ : BufTy).Contents (Elt F) → (⟨S32, .i1⟩ : BufTy).Contents (Elt F)),
    StableHlo.nullary main_c_29 (constantI S_ 32 64#32),
    StableHlo.unary main_c_29 main_v182 (broadcastInDim S32 ![] bcast_S_S32 : (⟨S_, .i32⟩ : BufTy).Contents (Elt F) → (⟨S32, .i32⟩ : BufTy).Contents (Elt F)),
    StableHlo.binary main_v175 main_v182 main_v183 (addi : (⟨S32, .i32⟩ : BufTy).Contents (Elt F) → (⟨S32, .i32⟩ : BufTy).Contents (Elt F) → (⟨S32, .i32⟩ : BufTy).Contents (Elt F)),
    StableHlo.ternary main_v181 main_v183 main_v175 main_v184 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_30 (constantI S_ 32 0#32),
    StableHlo.unary main_c_30 main_v185 (broadcastInDim S32 ![] bcast_S_S32 : (⟨S_, .i32⟩ : BufTy).Contents (Elt F) → (⟨S32, .i32⟩ : BufTy).Contents (Elt F)),
    StableHlo.binary main_v179 main_v185 main_v186 (cmpi .slt : (⟨S32, .i32⟩ : BufTy).Contents (Elt F) → (⟨S32, .i32⟩ : BufTy).Contents (Elt F) → (⟨S32, .i1⟩ : BufTy).Contents (Elt F)),
    StableHlo.nullary main_c_31 (constantI S_ 32 64#32),
    StableHlo.unary main_c_31 main_v187 (broadcastInDim S32 ![] bcast_S_S32 : (⟨S_, .i32⟩ : BufTy).Contents (Elt F) → (⟨S32, .i32⟩ : BufTy).Contents (Elt F)),
    StableHlo.binary main_v179 main_v187 main_v188 (addi : (⟨S32, .i32⟩ : BufTy).Contents (Elt F) → (⟨S32, .i32⟩ : BufTy).Contents (Elt F) → (⟨S32, .i32⟩ : BufTy).Contents (Elt F)),
    StableHlo.ternary main_v186 main_v188 main_v179 main_v189 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v184 main_v190 (broadcastInDim S32x1 ![0] bcast_S32_S32x1_0 : (⟨S32, .i32⟩ : BufTy).Contents (Elt F) → (⟨S32x1, .i32⟩ : BufTy).Contents (Elt F)),
    StableHlo.unary main_v189 main_v191 (broadcastInDim S32x1 ![0] bcast_S32_S32x1_0 : (⟨S32, .i32⟩ : BufTy).Contents (Elt F) → (⟨S32x1, .i32⟩ : BufTy).Contents (Elt F)),
    StableHlo.binary main_v190 main_v191 main_v192 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v171 main_v192 main_v109 main_v193 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.unary main_v104 main_v194 ((extractStridedSlice S1x32x2 ![1, 0, 0] · slices_S3x32x2_S1x32x2_1_0_0) : (⟨S3x32x2, .f32⟩ : BufTy).Contents (Elt F) → (⟨S1x32x2, .f32⟩ : BufTy).Contents (Elt F)),
    StableHlo.reshape main_v194 main_v195 rfl shapeCasts_S1x32x2_S32x2,
    StableHlo.nullary main_v196 (iotaInDim S32 32 0),
    StableHlo.unary main_v195 main_v197 ((extractStridedSlice S32x1 ![0, 0] · slices_S32x2_S32x1_0_0) : (⟨S32x2, .f32⟩ : BufTy).Contents (Elt F) → (⟨S32x1, .f32⟩ : BufTy).Contents (Elt F)),
    StableHlo.reshape main_v197 main_v198 rfl shapeCasts_S32x1_S32,
    StableHlo.unary main_v195 main_v199 ((extractStridedSlice S32x1 ![0, 1] · slices_S32x2_S32x1_0_1) : (⟨S32x2, .f32⟩ : BufTy).Contents (Elt F) → (⟨S32x1, .f32⟩ : BufTy).Contents (Elt F)),
    StableHlo.reshape main_v199 main_v200 rfl shapeCasts_S32x1_S32,
    StableHlo.nullary main_cst_32 (constant S_ .f32 0x00000000#32),
    StableHlo.unary main_cst_32 main_v201 (broadcastInDim S64x64 ![] bcast_S_S64x64 : (⟨S_, .f32⟩ : BufTy).Contents (Elt F) → (⟨S64x64, .f32⟩ : BufTy).Contents (Elt F)),
    StableHlo.nullary main_c_33 (constantI S_ 32 2#32),
    StableHlo.unary main_c_33 main_v202 (broadcastInDim S32 ![] bcast_S_S32 : (⟨S_, .i32⟩ : BufTy).Contents (Elt F) → (⟨S32, .i32⟩ : BufTy).Contents (Elt F)),
    StableHlo.binary main_v202 main_v196 main_v203 (muli : (⟨S32, .i32⟩ : BufTy).Contents (Elt F) → (⟨S32, .i32⟩ : BufTy).Contents (Elt F) → (⟨S32, .i32⟩ : BufTy).Contents (Elt F)),
    StableHlo.nullary main_c_34 (constantI S_ 32 2#32),
    StableHlo.unary main_c_34 main_v204 (broadcastInDim S32 ![] bcast_S_S32 : (⟨S_, .i32⟩ : BufTy).Contents (Elt F) → (⟨S32, .i32⟩ : BufTy).Contents (Elt F)),
    StableHlo.binary main_v204 main_v196 main_v205 (muli : (⟨S32, .i32⟩ : BufTy).Contents (Elt F) → (⟨S32, .i32⟩ : BufTy).Contents (Elt F) → (⟨S32, .i32⟩ : BufTy).Contents (Elt F)),
    StableHlo.nullary main_c_35 (constantI S_ 32 0#32),
    StableHlo.unary main_c_35 main_v206 (broadcastInDim S32 ![] bcast_S_S32 : (⟨S_, .i32⟩ : BufTy).Contents (Elt F) → (⟨S32, .i32⟩ : BufTy).Contents (Elt F)),
    StableHlo.binary main_v203 main_v206 main_v207 (cmpi .slt : (⟨S32, .i32⟩ : BufTy).Contents (Elt F) → (⟨S32, .i32⟩ : BufTy).Contents (Elt F) → (⟨S32, .i1⟩ : BufTy).Contents (Elt F)),
    StableHlo.nullary main_c_36 (constantI S_ 32 64#32),
    StableHlo.unary main_c_36 main_v208 (broadcastInDim S32 ![] bcast_S_S32 : (⟨S_, .i32⟩ : BufTy).Contents (Elt F) → (⟨S32, .i32⟩ : BufTy).Contents (Elt F)),
    StableHlo.binary main_v203 main_v208 main_v209 (addi : (⟨S32, .i32⟩ : BufTy).Contents (Elt F) → (⟨S32, .i32⟩ : BufTy).Contents (Elt F) → (⟨S32, .i32⟩ : BufTy).Contents (Elt F)),
    StableHlo.ternary main_v207 main_v209 main_v203 main_v210 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_37 (constantI S_ 32 0#32),
    StableHlo.unary main_c_37 main_v211 (broadcastInDim S32 ![] bcast_S_S32 : (⟨S_, .i32⟩ : BufTy).Contents (Elt F) → (⟨S32, .i32⟩ : BufTy).Contents (Elt F)),
    StableHlo.binary main_v205 main_v211 main_v212 (cmpi .slt : (⟨S32, .i32⟩ : BufTy).Contents (Elt F) → (⟨S32, .i32⟩ : BufTy).Contents (Elt F) → (⟨S32, .i1⟩ : BufTy).Contents (Elt F)),
    StableHlo.nullary main_c_38 (constantI S_ 32 64#32),
    StableHlo.unary main_c_38 main_v213 (broadcastInDim S32 ![] bcast_S_S32 : (⟨S_, .i32⟩ : BufTy).Contents (Elt F) → (⟨S32, .i32⟩ : BufTy).Contents (Elt F)),
    StableHlo.binary main_v205 main_v213 main_v214 (addi : (⟨S32, .i32⟩ : BufTy).Contents (Elt F) → (⟨S32, .i32⟩ : BufTy).Contents (Elt F) → (⟨S32, .i32⟩ : BufTy).Contents (Elt F)),
    StableHlo.ternary main_v212 main_v214 main_v205 main_v215 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v210 main_v216 (broadcastInDim S32x1 ![0] bcast_S32_S32x1_0 : (⟨S32, .i32⟩ : BufTy).Contents (Elt F) → (⟨S32x1, .i32⟩ : BufTy).Contents (Elt F)),
    StableHlo.unary main_v215 main_v217 (broadcastInDim S32x1 ![0] bcast_S32_S32x1_0 : (⟨S32, .i32⟩ : BufTy).Contents (Elt F) → (⟨S32x1, .i32⟩ : BufTy).Contents (Elt F)),
    StableHlo.binary main_v216 main_v217 main_v218 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v201 main_v218 main_v198 main_v219 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_39 (constantI S_ 32 2#32),
    StableHlo.unary main_c_39 main_v220 (broadcastInDim S32 ![] bcast_S_S32 : (⟨S_, .i32⟩ : BufTy).Contents (Elt F) → (⟨S32, .i32⟩ : BufTy).Contents (Elt F)),
    StableHlo.binary main_v220 main_v196 main_v221 (muli : (⟨S32, .i32⟩ : BufTy).Contents (Elt F) → (⟨S32, .i32⟩ : BufTy).Contents (Elt F) → (⟨S32, .i32⟩ : BufTy).Contents (Elt F)),
    StableHlo.nullary main_c_40 (constantI S_ 32 1#32),
    StableHlo.unary main_c_40 main_v222 (broadcastInDim S32 ![] bcast_S_S32 : (⟨S_, .i32⟩ : BufTy).Contents (Elt F) → (⟨S32, .i32⟩ : BufTy).Contents (Elt F)),
    StableHlo.binary main_v221 main_v222 main_v223 (addi : (⟨S32, .i32⟩ : BufTy).Contents (Elt F) → (⟨S32, .i32⟩ : BufTy).Contents (Elt F) → (⟨S32, .i32⟩ : BufTy).Contents (Elt F)),
    StableHlo.nullary main_c_41 (constantI S_ 32 2#32),
    StableHlo.unary main_c_41 main_v224 (broadcastInDim S32 ![] bcast_S_S32 : (⟨S_, .i32⟩ : BufTy).Contents (Elt F) → (⟨S32, .i32⟩ : BufTy).Contents (Elt F)),
    StableHlo.binary main_v224 main_v196 main_v225 (muli : (⟨S32, .i32⟩ : BufTy).Contents (Elt F) → (⟨S32, .i32⟩ : BufTy).Contents (Elt F) → (⟨S32, .i32⟩ : BufTy).Contents (Elt F)),
    StableHlo.unary main_v200 main_v226 (Host.negf : (⟨S32, .f32⟩ : BufTy).Contents (Elt F) → (⟨S32, .f32⟩ : BufTy).Contents (Elt F)),
    StableHlo.nullary main_c_42 (constantI S_ 32 0#32),
    StableHlo.unary main_c_42 main_v227 (broadcastInDim S32 ![] bcast_S_S32 : (⟨S_, .i32⟩ : BufTy).Contents (Elt F) → (⟨S32, .i32⟩ : BufTy).Contents (Elt F)),
    StableHlo.binary main_v223 main_v227 main_v228 (cmpi .slt : (⟨S32, .i32⟩ : BufTy).Contents (Elt F) → (⟨S32, .i32⟩ : BufTy).Contents (Elt F) → (⟨S32, .i1⟩ : BufTy).Contents (Elt F)),
    StableHlo.nullary main_c_43 (constantI S_ 32 64#32),
    StableHlo.unary main_c_43 main_v229 (broadcastInDim S32 ![] bcast_S_S32 : (⟨S_, .i32⟩ : BufTy).Contents (Elt F) → (⟨S32, .i32⟩ : BufTy).Contents (Elt F)),
    StableHlo.binary main_v223 main_v229 main_v230 (addi : (⟨S32, .i32⟩ : BufTy).Contents (Elt F) → (⟨S32, .i32⟩ : BufTy).Contents (Elt F) → (⟨S32, .i32⟩ : BufTy).Contents (Elt F)),
    StableHlo.ternary main_v228 main_v230 main_v223 main_v231 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_44 (constantI S_ 32 0#32),
    StableHlo.unary main_c_44 main_v232 (broadcastInDim S32 ![] bcast_S_S32 : (⟨S_, .i32⟩ : BufTy).Contents (Elt F) → (⟨S32, .i32⟩ : BufTy).Contents (Elt F)),
    StableHlo.binary main_v225 main_v232 main_v233 (cmpi .slt : (⟨S32, .i32⟩ : BufTy).Contents (Elt F) → (⟨S32, .i32⟩ : BufTy).Contents (Elt F) → (⟨S32, .i1⟩ : BufTy).Contents (Elt F)),
    StableHlo.nullary main_c_45 (constantI S_ 32 64#32),
    StableHlo.unary main_c_45 main_v234 (broadcastInDim S32 ![] bcast_S_S32 : (⟨S_, .i32⟩ : BufTy).Contents (Elt F) → (⟨S32, .i32⟩ : BufTy).Contents (Elt F)),
    StableHlo.binary main_v225 main_v234 main_v235 (addi : (⟨S32, .i32⟩ : BufTy).Contents (Elt F) → (⟨S32, .i32⟩ : BufTy).Contents (Elt F) → (⟨S32, .i32⟩ : BufTy).Contents (Elt F)),
    StableHlo.ternary main_v233 main_v235 main_v225 main_v236 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v231 main_v237 (broadcastInDim S32x1 ![0] bcast_S32_S32x1_0 : (⟨S32, .i32⟩ : BufTy).Contents (Elt F) → (⟨S32x1, .i32⟩ : BufTy).Contents (Elt F)),
    StableHlo.unary main_v236 main_v238 (broadcastInDim S32x1 ![0] bcast_S32_S32x1_0 : (⟨S32, .i32⟩ : BufTy).Contents (Elt F) → (⟨S32x1, .i32⟩ : BufTy).Contents (Elt F)),
    StableHlo.binary main_v237 main_v238 main_v239 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v219 main_v239 main_v226 main_v240 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_46 (constantI S_ 32 2#32),
    StableHlo.unary main_c_46 main_v241 (broadcastInDim S32 ![] bcast_S_S32 : (⟨S_, .i32⟩ : BufTy).Contents (Elt F) → (⟨S32, .i32⟩ : BufTy).Contents (Elt F)),
    StableHlo.binary main_v241 main_v196 main_v242 (muli : (⟨S32, .i32⟩ : BufTy).Contents (Elt F) → (⟨S32, .i32⟩ : BufTy).Contents (Elt F) → (⟨S32, .i32⟩ : BufTy).Contents (Elt F)),
    StableHlo.nullary main_c_47 (constantI S_ 32 2#32),
    StableHlo.unary main_c_47 main_v243 (broadcastInDim S32 ![] bcast_S_S32 : (⟨S_, .i32⟩ : BufTy).Contents (Elt F) → (⟨S32, .i32⟩ : BufTy).Contents (Elt F)),
    StableHlo.binary main_v243 main_v196 main_v244 (muli : (⟨S32, .i32⟩ : BufTy).Contents (Elt F) → (⟨S32, .i32⟩ : BufTy).Contents (Elt F) → (⟨S32, .i32⟩ : BufTy).Contents (Elt F)),
    StableHlo.nullary main_c_48 (constantI S_ 32 1#32),
    StableHlo.unary main_c_48 main_v245 (broadcastInDim S32 ![] bcast_S_S32 : (⟨S_, .i32⟩ : BufTy).Contents (Elt F) → (⟨S32, .i32⟩ : BufTy).Contents (Elt F)),
    StableHlo.binary main_v244 main_v245 main_v246 (addi : (⟨S32, .i32⟩ : BufTy).Contents (Elt F) → (⟨S32, .i32⟩ : BufTy).Contents (Elt F) → (⟨S32, .i32⟩ : BufTy).Contents (Elt F)),
    StableHlo.nullary main_c_49 (constantI S_ 32 0#32),
    StableHlo.unary main_c_49 main_v247 (broadcastInDim S32 ![] bcast_S_S32 : (⟨S_, .i32⟩ : BufTy).Contents (Elt F) → (⟨S32, .i32⟩ : BufTy).Contents (Elt F)),
    StableHlo.binary main_v242 main_v247 main_v248 (cmpi .slt : (⟨S32, .i32⟩ : BufTy).Contents (Elt F) → (⟨S32, .i32⟩ : BufTy).Contents (Elt F) → (⟨S32, .i1⟩ : BufTy).Contents (Elt F)),
    StableHlo.nullary main_c_50 (constantI S_ 32 64#32),
    StableHlo.unary main_c_50 main_v249 (broadcastInDim S32 ![] bcast_S_S32 : (⟨S_, .i32⟩ : BufTy).Contents (Elt F) → (⟨S32, .i32⟩ : BufTy).Contents (Elt F)),
    StableHlo.binary main_v242 main_v249 main_v250 (addi : (⟨S32, .i32⟩ : BufTy).Contents (Elt F) → (⟨S32, .i32⟩ : BufTy).Contents (Elt F) → (⟨S32, .i32⟩ : BufTy).Contents (Elt F)),
    StableHlo.ternary main_v248 main_v250 main_v242 main_v251 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_51 (constantI S_ 32 0#32),
    StableHlo.unary main_c_51 main_v252 (broadcastInDim S32 ![] bcast_S_S32 : (⟨S_, .i32⟩ : BufTy).Contents (Elt F) → (⟨S32, .i32⟩ : BufTy).Contents (Elt F)),
    StableHlo.binary main_v246 main_v252 main_v253 (cmpi .slt : (⟨S32, .i32⟩ : BufTy).Contents (Elt F) → (⟨S32, .i32⟩ : BufTy).Contents (Elt F) → (⟨S32, .i1⟩ : BufTy).Contents (Elt F)),
    StableHlo.nullary main_c_52 (constantI S_ 32 64#32),
    StableHlo.unary main_c_52 main_v254 (broadcastInDim S32 ![] bcast_S_S32 : (⟨S_, .i32⟩ : BufTy).Contents (Elt F) → (⟨S32, .i32⟩ : BufTy).Contents (Elt F)),
    StableHlo.binary main_v246 main_v254 main_v255 (addi : (⟨S32, .i32⟩ : BufTy).Contents (Elt F) → (⟨S32, .i32⟩ : BufTy).Contents (Elt F) → (⟨S32, .i32⟩ : BufTy).Contents (Elt F)),
    StableHlo.ternary main_v253 main_v255 main_v246 main_v256 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v251 main_v257 (broadcastInDim S32x1 ![0] bcast_S32_S32x1_0 : (⟨S32, .i32⟩ : BufTy).Contents (Elt F) → (⟨S32x1, .i32⟩ : BufTy).Contents (Elt F)),
    StableHlo.unary main_v256 main_v258 (broadcastInDim S32x1 ![0] bcast_S32_S32x1_0 : (⟨S32, .i32⟩ : BufTy).Contents (Elt F) → (⟨S32x1, .i32⟩ : BufTy).Contents (Elt F)),
    StableHlo.binary main_v257 main_v258 main_v259 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v240 main_v259 main_v200 main_v260 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_53 (constantI S_ 32 2#32),
    StableHlo.unary main_c_53 main_v261 (broadcastInDim S32 ![] bcast_S_S32 : (⟨S_, .i32⟩ : BufTy).Contents (Elt F) → (⟨S32, .i32⟩ : BufTy).Contents (Elt F)),
    StableHlo.binary main_v261 main_v196 main_v262 (muli : (⟨S32, .i32⟩ : BufTy).Contents (Elt F) → (⟨S32, .i32⟩ : BufTy).Contents (Elt F) → (⟨S32, .i32⟩ : BufTy).Contents (Elt F)),
    StableHlo.nullary main_c_54 (constantI S_ 32 1#32),
    StableHlo.unary main_c_54 main_v263 (broadcastInDim S32 ![] bcast_S_S32 : (⟨S_, .i32⟩ : BufTy).Contents (Elt F) → (⟨S32, .i32⟩ : BufTy).Contents (Elt F)),
    StableHlo.binary main_v262 main_v263 main_v264 (addi : (⟨S32, .i32⟩ : BufTy).Contents (Elt F) → (⟨S32, .i32⟩ : BufTy).Contents (Elt F) → (⟨S32, .i32⟩ : BufTy).Contents (Elt F)),
    StableHlo.nullary main_c_55 (constantI S_ 32 2#32),
    StableHlo.unary main_c_55 main_v265 (broadcastInDim S32 ![] bcast_S_S32 : (⟨S_, .i32⟩ : BufTy).Contents (Elt F) → (⟨S32, .i32⟩ : BufTy).Contents (Elt F)),
    StableHlo.binary main_v265 main_v196 main_v266 (muli : (⟨S32, .i32⟩ : BufTy).Contents (Elt F) → (⟨S32, .i32⟩ : BufTy).Contents (Elt F) → (⟨S32, .i32⟩ : BufTy).Contents (Elt F)),
    StableHlo.nullary main_c_56 (constantI S_ 32 1#32),
    StableHlo.unary main_c_56 main_v267 (broadcastInDim S32 ![] bcast_S_S32 : (⟨S_, .i32⟩ : BufTy).Contents (Elt F) → (⟨S32, .i32⟩ : BufTy).Contents (Elt F)),
    StableHlo.binary main_v266 main_v267 main_v268 (addi : (⟨S32, .i32⟩ : BufTy).Contents (Elt F) → (⟨S32, .i32⟩ : BufTy).Contents (Elt F) → (⟨S32, .i32⟩ : BufTy).Contents (Elt F)),
    StableHlo.nullary main_c_57 (constantI S_ 32 0#32),
    StableHlo.unary main_c_57 main_v269 (broadcastInDim S32 ![] bcast_S_S32 : (⟨S_, .i32⟩ : BufTy).Contents (Elt F) → (⟨S32, .i32⟩ : BufTy).Contents (Elt F)),
    StableHlo.binary main_v264 main_v269 main_v270 (cmpi .slt : (⟨S32, .i32⟩ : BufTy).Contents (Elt F) → (⟨S32, .i32⟩ : BufTy).Contents (Elt F) → (⟨S32, .i1⟩ : BufTy).Contents (Elt F)),
    StableHlo.nullary main_c_58 (constantI S_ 32 64#32),
    StableHlo.unary main_c_58 main_v271 (broadcastInDim S32 ![] bcast_S_S32 : (⟨S_, .i32⟩ : BufTy).Contents (Elt F) → (⟨S32, .i32⟩ : BufTy).Contents (Elt F)),
    StableHlo.binary main_v264 main_v271 main_v272 (addi : (⟨S32, .i32⟩ : BufTy).Contents (Elt F) → (⟨S32, .i32⟩ : BufTy).Contents (Elt F) → (⟨S32, .i32⟩ : BufTy).Contents (Elt F)),
    StableHlo.ternary main_v270 main_v272 main_v264 main_v273 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_59 (constantI S_ 32 0#32),
    StableHlo.unary main_c_59 main_v274 (broadcastInDim S32 ![] bcast_S_S32 : (⟨S_, .i32⟩ : BufTy).Contents (Elt F) → (⟨S32, .i32⟩ : BufTy).Contents (Elt F)),
    StableHlo.binary main_v268 main_v274 main_v275 (cmpi .slt : (⟨S32, .i32⟩ : BufTy).Contents (Elt F) → (⟨S32, .i32⟩ : BufTy).Contents (Elt F) → (⟨S32, .i1⟩ : BufTy).Contents (Elt F)),
    StableHlo.nullary main_c_60 (constantI S_ 32 64#32),
    StableHlo.unary main_c_60 main_v276 (broadcastInDim S32 ![] bcast_S_S32 : (⟨S_, .i32⟩ : BufTy).Contents (Elt F) → (⟨S32, .i32⟩ : BufTy).Contents (Elt F)),
    StableHlo.binary main_v268 main_v276 main_v277 (addi : (⟨S32, .i32⟩ : BufTy).Contents (Elt F) → (⟨S32, .i32⟩ : BufTy).Contents (Elt F) → (⟨S32, .i32⟩ : BufTy).Contents (Elt F)),
    StableHlo.ternary main_v275 main_v277 main_v268 main_v278 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v273 main_v279 (broadcastInDim S32x1 ![0] bcast_S32_S32x1_0 : (⟨S32, .i32⟩ : BufTy).Contents (Elt F) → (⟨S32x1, .i32⟩ : BufTy).Contents (Elt F)),
    StableHlo.unary main_v278 main_v280 (broadcastInDim S32x1 ![0] bcast_S32_S32x1_0 : (⟨S32, .i32⟩ : BufTy).Contents (Elt F) → (⟨S32x1, .i32⟩ : BufTy).Contents (Elt F)),
    StableHlo.binary main_v279 main_v280 main_v281 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v260 main_v281 main_v198 main_v282 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.unary main_v104 main_v283 ((extractStridedSlice S1x32x2 ![2, 0, 0] · slices_S3x32x2_S1x32x2_2_0_0) : (⟨S3x32x2, .f32⟩ : BufTy).Contents (Elt F) → (⟨S1x32x2, .f32⟩ : BufTy).Contents (Elt F)),
    StableHlo.reshape main_v283 main_v284 rfl shapeCasts_S1x32x2_S32x2,
    StableHlo.nullary main_v285 (iotaInDim S32 32 0),
    StableHlo.unary main_v284 main_v286 ((extractStridedSlice S32x1 ![0, 0] · slices_S32x2_S32x1_0_0) : (⟨S32x2, .f32⟩ : BufTy).Contents (Elt F) → (⟨S32x1, .f32⟩ : BufTy).Contents (Elt F)),
    StableHlo.reshape main_v286 main_v287 rfl shapeCasts_S32x1_S32,
    StableHlo.unary main_v284 main_v288 ((extractStridedSlice S32x1 ![0, 1] · slices_S32x2_S32x1_0_1) : (⟨S32x2, .f32⟩ : BufTy).Contents (Elt F) → (⟨S32x1, .f32⟩ : BufTy).Contents (Elt F)),
    StableHlo.reshape main_v288 main_v289 rfl shapeCasts_S32x1_S32,
    StableHlo.nullary main_cst_61 (constant S_ .f32 0x00000000#32),
    StableHlo.unary main_cst_61 main_v290 (broadcastInDim S64x64 ![] bcast_S_S64x64 : (⟨S_, .f32⟩ : BufTy).Contents (Elt F) → (⟨S64x64, .f32⟩ : BufTy).Contents (Elt F)),
    StableHlo.nullary main_c_62 (constantI S_ 32 2#32),
    StableHlo.unary main_c_62 main_v291 (broadcastInDim S32 ![] bcast_S_S32 : (⟨S_, .i32⟩ : BufTy).Contents (Elt F) → (⟨S32, .i32⟩ : BufTy).Contents (Elt F)),
    StableHlo.binary main_v291 main_v285 main_v292 (muli : (⟨S32, .i32⟩ : BufTy).Contents (Elt F) → (⟨S32, .i32⟩ : BufTy).Contents (Elt F) → (⟨S32, .i32⟩ : BufTy).Contents (Elt F)),
    StableHlo.nullary main_c_63 (constantI S_ 32 2#32),
    StableHlo.unary main_c_63 main_v293 (broadcastInDim S32 ![] bcast_S_S32 : (⟨S_, .i32⟩ : BufTy).Contents (Elt F) → (⟨S32, .i32⟩ : BufTy).Contents (Elt F)),
    StableHlo.binary main_v293 main_v285 main_v294 (muli : (⟨S32, .i32⟩ : BufTy).Contents (Elt F) → (⟨S32, .i32⟩ : BufTy).Contents (Elt F) → (⟨S32, .i32⟩ : BufTy).Contents (Elt F)),
    StableHlo.nullary main_c_64 (constantI S_ 32 0#32),
    StableHlo.unary main_c_64 main_v295 (broadcastInDim S32 ![] bcast_S_S32 : (⟨S_, .i32⟩ : BufTy).Contents (Elt F) → (⟨S32, .i32⟩ : BufTy).Contents (Elt F)),
    StableHlo.binary main_v292 main_v295 main_v296 (cmpi .slt : (⟨S32, .i32⟩ : BufTy).Contents (Elt F) → (⟨S32, .i32⟩ : BufTy).Contents (Elt F) → (⟨S32, .i1⟩ : BufTy).Contents (Elt F)),
    StableHlo.nullary main_c_65 (constantI S_ 32 64#32),
    StableHlo.unary main_c_65 main_v297 (broadcastInDim S32 ![] bcast_S_S32 : (⟨S_, .i32⟩ : BufTy).Contents (Elt F) → (⟨S32, .i32⟩ : BufTy).Contents (Elt F)),
    StableHlo.binary main_v292 main_v297 main_v298 (addi : (⟨S32, .i32⟩ : BufTy).Contents (Elt F) → (⟨S32, .i32⟩ : BufTy).Contents (Elt F) → (⟨S32, .i32⟩ : BufTy).Contents (Elt F)),
    StableHlo.ternary main_v296 main_v298 main_v292 main_v299 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_66 (constantI S_ 32 0#32),
    StableHlo.unary main_c_66 main_v300 (broadcastInDim S32 ![] bcast_S_S32 : (⟨S_, .i32⟩ : BufTy).Contents (Elt F) → (⟨S32, .i32⟩ : BufTy).Contents (Elt F)),
    StableHlo.binary main_v294 main_v300 main_v301 (cmpi .slt : (⟨S32, .i32⟩ : BufTy).Contents (Elt F) → (⟨S32, .i32⟩ : BufTy).Contents (Elt F) → (⟨S32, .i1⟩ : BufTy).Contents (Elt F)),
    StableHlo.nullary main_c_67 (constantI S_ 32 64#32),
    StableHlo.unary main_c_67 main_v302 (broadcastInDim S32 ![] bcast_S_S32 : (⟨S_, .i32⟩ : BufTy).Contents (Elt F) → (⟨S32, .i32⟩ : BufTy).Contents (Elt F)),
    StableHlo.binary main_v294 main_v302 main_v303 (addi : (⟨S32, .i32⟩ : BufTy).Contents (Elt F) → (⟨S32, .i32⟩ : BufTy).Contents (Elt F) → (⟨S32, .i32⟩ : BufTy).Contents (Elt F)),
    StableHlo.ternary main_v301 main_v303 main_v294 main_v304 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v299 main_v305 (broadcastInDim S32x1 ![0] bcast_S32_S32x1_0 : (⟨S32, .i32⟩ : BufTy).Contents (Elt F) → (⟨S32x1, .i32⟩ : BufTy).Contents (Elt F)),
    StableHlo.unary main_v304 main_v306 (broadcastInDim S32x1 ![0] bcast_S32_S32x1_0 : (⟨S32, .i32⟩ : BufTy).Contents (Elt F) → (⟨S32x1, .i32⟩ : BufTy).Contents (Elt F)),
    StableHlo.binary main_v305 main_v306 main_v307 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v290 main_v307 main_v287 main_v308 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_68 (constantI S_ 32 2#32),
    StableHlo.unary main_c_68 main_v309 (broadcastInDim S32 ![] bcast_S_S32 : (⟨S_, .i32⟩ : BufTy).Contents (Elt F) → (⟨S32, .i32⟩ : BufTy).Contents (Elt F)),
    StableHlo.binary main_v309 main_v285 main_v310 (muli : (⟨S32, .i32⟩ : BufTy).Contents (Elt F) → (⟨S32, .i32⟩ : BufTy).Contents (Elt F) → (⟨S32, .i32⟩ : BufTy).Contents (Elt F)),
    StableHlo.nullary main_c_69 (constantI S_ 32 1#32),
    StableHlo.unary main_c_69 main_v311 (broadcastInDim S32 ![] bcast_S_S32 : (⟨S_, .i32⟩ : BufTy).Contents (Elt F) → (⟨S32, .i32⟩ : BufTy).Contents (Elt F)),
    StableHlo.binary main_v310 main_v311 main_v312 (addi : (⟨S32, .i32⟩ : BufTy).Contents (Elt F) → (⟨S32, .i32⟩ : BufTy).Contents (Elt F) → (⟨S32, .i32⟩ : BufTy).Contents (Elt F)),
    StableHlo.nullary main_c_70 (constantI S_ 32 2#32),
    StableHlo.unary main_c_70 main_v313 (broadcastInDim S32 ![] bcast_S_S32 : (⟨S_, .i32⟩ : BufTy).Contents (Elt F) → (⟨S32, .i32⟩ : BufTy).Contents (Elt F)),
    StableHlo.binary main_v313 main_v285 main_v314 (muli : (⟨S32, .i32⟩ : BufTy).Contents (Elt F) → (⟨S32, .i32⟩ : BufTy).Contents (Elt F) → (⟨S32, .i32⟩ : BufTy).Contents (Elt F)),
    StableHlo.unary main_v289 main_v315 (Host.negf : (⟨S32, .f32⟩ : BufTy).Contents (Elt F) → (⟨S32, .f32⟩ : BufTy).Contents (Elt F)),
    StableHlo.nullary main_c_71 (constantI S_ 32 0#32),
    StableHlo.unary main_c_71 main_v316 (broadcastInDim S32 ![] bcast_S_S32 : (⟨S_, .i32⟩ : BufTy).Contents (Elt F) → (⟨S32, .i32⟩ : BufTy).Contents (Elt F)),
    StableHlo.binary main_v312 main_v316 main_v317 (cmpi .slt : (⟨S32, .i32⟩ : BufTy).Contents (Elt F) → (⟨S32, .i32⟩ : BufTy).Contents (Elt F) → (⟨S32, .i1⟩ : BufTy).Contents (Elt F)),
    StableHlo.nullary main_c_72 (constantI S_ 32 64#32),
    StableHlo.unary main_c_72 main_v318 (broadcastInDim S32 ![] bcast_S_S32 : (⟨S_, .i32⟩ : BufTy).Contents (Elt F) → (⟨S32, .i32⟩ : BufTy).Contents (Elt F)),
    StableHlo.binary main_v312 main_v318 main_v319 (addi : (⟨S32, .i32⟩ : BufTy).Contents (Elt F) → (⟨S32, .i32⟩ : BufTy).Contents (Elt F) → (⟨S32, .i32⟩ : BufTy).Contents (Elt F)),
    StableHlo.ternary main_v317 main_v319 main_v312 main_v320 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_73 (constantI S_ 32 0#32),
    StableHlo.unary main_c_73 main_v321 (broadcastInDim S32 ![] bcast_S_S32 : (⟨S_, .i32⟩ : BufTy).Contents (Elt F) → (⟨S32, .i32⟩ : BufTy).Contents (Elt F)),
    StableHlo.binary main_v314 main_v321 main_v322 (cmpi .slt : (⟨S32, .i32⟩ : BufTy).Contents (Elt F) → (⟨S32, .i32⟩ : BufTy).Contents (Elt F) → (⟨S32, .i1⟩ : BufTy).Contents (Elt F)),
    StableHlo.nullary main_c_74 (constantI S_ 32 64#32),
    StableHlo.unary main_c_74 main_v323 (broadcastInDim S32 ![] bcast_S_S32 : (⟨S_, .i32⟩ : BufTy).Contents (Elt F) → (⟨S32, .i32⟩ : BufTy).Contents (Elt F)),
    StableHlo.binary main_v314 main_v323 main_v324 (addi : (⟨S32, .i32⟩ : BufTy).Contents (Elt F) → (⟨S32, .i32⟩ : BufTy).Contents (Elt F) → (⟨S32, .i32⟩ : BufTy).Contents (Elt F)),
    StableHlo.ternary main_v322 main_v324 main_v314 main_v325 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v320 main_v326 (broadcastInDim S32x1 ![0] bcast_S32_S32x1_0 : (⟨S32, .i32⟩ : BufTy).Contents (Elt F) → (⟨S32x1, .i32⟩ : BufTy).Contents (Elt F)),
    StableHlo.unary main_v325 main_v327 (broadcastInDim S32x1 ![0] bcast_S32_S32x1_0 : (⟨S32, .i32⟩ : BufTy).Contents (Elt F) → (⟨S32x1, .i32⟩ : BufTy).Contents (Elt F)),
    StableHlo.binary main_v326 main_v327 main_v328 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v308 main_v328 main_v315 main_v329 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_75 (constantI S_ 32 2#32),
    StableHlo.unary main_c_75 main_v330 (broadcastInDim S32 ![] bcast_S_S32 : (⟨S_, .i32⟩ : BufTy).Contents (Elt F) → (⟨S32, .i32⟩ : BufTy).Contents (Elt F)),
    StableHlo.binary main_v330 main_v285 main_v331 (muli : (⟨S32, .i32⟩ : BufTy).Contents (Elt F) → (⟨S32, .i32⟩ : BufTy).Contents (Elt F) → (⟨S32, .i32⟩ : BufTy).Contents (Elt F)),
    StableHlo.nullary main_c_76 (constantI S_ 32 2#32),
    StableHlo.unary main_c_76 main_v332 (broadcastInDim S32 ![] bcast_S_S32 : (⟨S_, .i32⟩ : BufTy).Contents (Elt F) → (⟨S32, .i32⟩ : BufTy).Contents (Elt F)),
    StableHlo.binary main_v332 main_v285 main_v333 (muli : (⟨S32, .i32⟩ : BufTy).Contents (Elt F) → (⟨S32, .i32⟩ : BufTy).Contents (Elt F) → (⟨S32, .i32⟩ : BufTy).Contents (Elt F)),
    StableHlo.nullary main_c_77 (constantI S_ 32 1#32),
    StableHlo.unary main_c_77 main_v334 (broadcastInDim S32 ![] bcast_S_S32 : (⟨S_, .i32⟩ : BufTy).Contents (Elt F) → (⟨S32, .i32⟩ : BufTy).Contents (Elt F)),
    StableHlo.binary main_v333 main_v334 main_v335 (addi : (⟨S32, .i32⟩ : BufTy).Contents (Elt F) → (⟨S32, .i32⟩ : BufTy).Contents (Elt F) → (⟨S32, .i32⟩ : BufTy).Contents (Elt F)),
    StableHlo.nullary main_c_78 (constantI S_ 32 0#32),
    StableHlo.unary main_c_78 main_v336 (broadcastInDim S32 ![] bcast_S_S32 : (⟨S_, .i32⟩ : BufTy).Contents (Elt F) → (⟨S32, .i32⟩ : BufTy).Contents (Elt F)),
    StableHlo.binary main_v331 main_v336 main_v337 (cmpi .slt : (⟨S32, .i32⟩ : BufTy).Contents (Elt F) → (⟨S32, .i32⟩ : BufTy).Contents (Elt F) → (⟨S32, .i1⟩ : BufTy).Contents (Elt F)),
    StableHlo.nullary main_c_79 (constantI S_ 32 64#32),
    StableHlo.unary main_c_79 main_v338 (broadcastInDim S32 ![] bcast_S_S32 : (⟨S_, .i32⟩ : BufTy).Contents (Elt F) → (⟨S32, .i32⟩ : BufTy).Contents (Elt F)),
    StableHlo.binary main_v331 main_v338 main_v339 (addi : (⟨S32, .i32⟩ : BufTy).Contents (Elt F) → (⟨S32, .i32⟩ : BufTy).Contents (Elt F) → (⟨S32, .i32⟩ : BufTy).Contents (Elt F)),
    StableHlo.ternary main_v337 main_v339 main_v331 main_v340 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_80 (constantI S_ 32 0#32),
    StableHlo.unary main_c_80 main_v341 (broadcastInDim S32 ![] bcast_S_S32 : (⟨S_, .i32⟩ : BufTy).Contents (Elt F) → (⟨S32, .i32⟩ : BufTy).Contents (Elt F)),
    StableHlo.binary main_v335 main_v341 main_v342 (cmpi .slt : (⟨S32, .i32⟩ : BufTy).Contents (Elt F) → (⟨S32, .i32⟩ : BufTy).Contents (Elt F) → (⟨S32, .i1⟩ : BufTy).Contents (Elt F)),
    StableHlo.nullary main_c_81 (constantI S_ 32 64#32),
    StableHlo.unary main_c_81 main_v343 (broadcastInDim S32 ![] bcast_S_S32 : (⟨S_, .i32⟩ : BufTy).Contents (Elt F) → (⟨S32, .i32⟩ : BufTy).Contents (Elt F)),
    StableHlo.binary main_v335 main_v343 main_v344 (addi : (⟨S32, .i32⟩ : BufTy).Contents (Elt F) → (⟨S32, .i32⟩ : BufTy).Contents (Elt F) → (⟨S32, .i32⟩ : BufTy).Contents (Elt F)),
    StableHlo.ternary main_v342 main_v344 main_v335 main_v345 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v340 main_v346 (broadcastInDim S32x1 ![0] bcast_S32_S32x1_0 : (⟨S32, .i32⟩ : BufTy).Contents (Elt F) → (⟨S32x1, .i32⟩ : BufTy).Contents (Elt F)),
    StableHlo.unary main_v345 main_v347 (broadcastInDim S32x1 ![0] bcast_S32_S32x1_0 : (⟨S32, .i32⟩ : BufTy).Contents (Elt F) → (⟨S32x1, .i32⟩ : BufTy).Contents (Elt F)),
    StableHlo.binary main_v346 main_v347 main_v348 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v329 main_v348 main_v289 main_v349 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_82 (constantI S_ 32 2#32),
    StableHlo.unary main_c_82 main_v350 (broadcastInDim S32 ![] bcast_S_S32 : (⟨S_, .i32⟩ : BufTy).Contents (Elt F) → (⟨S32, .i32⟩ : BufTy).Contents (Elt F)),
    StableHlo.binary main_v350 main_v285 main_v351 (muli : (⟨S32, .i32⟩ : BufTy).Contents (Elt F) → (⟨S32, .i32⟩ : BufTy).Contents (Elt F) → (⟨S32, .i32⟩ : BufTy).Contents (Elt F)),
    StableHlo.nullary main_c_83 (constantI S_ 32 1#32),
    StableHlo.unary main_c_83 main_v352 (broadcastInDim S32 ![] bcast_S_S32 : (⟨S_, .i32⟩ : BufTy).Contents (Elt F) → (⟨S32, .i32⟩ : BufTy).Contents (Elt F)),
    StableHlo.binary main_v351 main_v352 main_v353 (addi : (⟨S32, .i32⟩ : BufTy).Contents (Elt F) → (⟨S32, .i32⟩ : BufTy).Contents (Elt F) → (⟨S32, .i32⟩ : BufTy).Contents (Elt F)),
    StableHlo.nullary main_c_84 (constantI S_ 32 2#32),
    StableHlo.unary main_c_84 main_v354 (broadcastInDim S32 ![] bcast_S_S32 : (⟨S_, .i32⟩ : BufTy).Contents (Elt F) → (⟨S32, .i32⟩ : BufTy).Contents (Elt F)),
    StableHlo.binary main_v354 main_v285 main_v355 (muli : (⟨S32, .i32⟩ : BufTy).Contents (Elt F) → (⟨S32, .i32⟩ : BufTy).Contents (Elt F) → (⟨S32, .i32⟩ : BufTy).Contents (Elt F)),
    StableHlo.nullary main_c_85 (constantI S_ 32 1#32),
    StableHlo.unary main_c_85 main_v356 (broadcastInDim S32 ![] bcast_S_S32 : (⟨S_, .i32⟩ : BufTy).Contents (Elt F) → (⟨S32, .i32⟩ : BufTy).Contents (Elt F)),
    StableHlo.binary main_v355 main_v356 main_v357 (addi : (⟨S32, .i32⟩ : BufTy).Contents (Elt F) → (⟨S32, .i32⟩ : BufTy).Contents (Elt F) → (⟨S32, .i32⟩ : BufTy).Contents (Elt F)),
    StableHlo.nullary main_c_86 (constantI S_ 32 0#32),
    StableHlo.unary main_c_86 main_v358 (broadcastInDim S32 ![] bcast_S_S32 : (⟨S_, .i32⟩ : BufTy).Contents (Elt F) → (⟨S32, .i32⟩ : BufTy).Contents (Elt F)),
    StableHlo.binary main_v353 main_v358 main_v359 (cmpi .slt : (⟨S32, .i32⟩ : BufTy).Contents (Elt F) → (⟨S32, .i32⟩ : BufTy).Contents (Elt F) → (⟨S32, .i1⟩ : BufTy).Contents (Elt F)),
    StableHlo.nullary main_c_87 (constantI S_ 32 64#32),
    StableHlo.unary main_c_87 main_v360 (broadcastInDim S32 ![] bcast_S_S32 : (⟨S_, .i32⟩ : BufTy).Contents (Elt F) → (⟨S32, .i32⟩ : BufTy).Contents (Elt F)),
    StableHlo.binary main_v353 main_v360 main_v361 (addi : (⟨S32, .i32⟩ : BufTy).Contents (Elt F) → (⟨S32, .i32⟩ : BufTy).Contents (Elt F) → (⟨S32, .i32⟩ : BufTy).Contents (Elt F)),
    StableHlo.ternary main_v359 main_v361 main_v353 main_v362 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_88 (constantI S_ 32 0#32),
    StableHlo.unary main_c_88 main_v363 (broadcastInDim S32 ![] bcast_S_S32 : (⟨S_, .i32⟩ : BufTy).Contents (Elt F) → (⟨S32, .i32⟩ : BufTy).Contents (Elt F)),
    StableHlo.binary main_v357 main_v363 main_v364 (cmpi .slt : (⟨S32, .i32⟩ : BufTy).Contents (Elt F) → (⟨S32, .i32⟩ : BufTy).Contents (Elt F) → (⟨S32, .i1⟩ : BufTy).Contents (Elt F)),
    StableHlo.nullary main_c_89 (constantI S_ 32 64#32),
    StableHlo.unary main_c_89 main_v365 (broadcastInDim S32 ![] bcast_S_S32 : (⟨S_, .i32⟩ : BufTy).Contents (Elt F) → (⟨S32, .i32⟩ : BufTy).Contents (Elt F)),
    StableHlo.binary main_v357 main_v365 main_v366 (addi : (⟨S32, .i32⟩ : BufTy).Contents (Elt F) → (⟨S32, .i32⟩ : BufTy).Contents (Elt F) → (⟨S32, .i32⟩ : BufTy).Contents (Elt F)),
    StableHlo.ternary main_v364 main_v366 main_v357 main_v367 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v362 main_v368 (broadcastInDim S32x1 ![0] bcast_S32_S32x1_0 : (⟨S32, .i32⟩ : BufTy).Contents (Elt F) → (⟨S32x1, .i32⟩ : BufTy).Contents (Elt F)),
    StableHlo.unary main_v367 main_v369 (broadcastInDim S32x1 ![0] bcast_S32_S32x1_0 : (⟨S32, .i32⟩ : BufTy).Contents (Elt F) → (⟨S32x1, .i32⟩ : BufTy).Contents (Elt F)),
    StableHlo.binary main_v368 main_v369 main_v370 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v349 main_v370 main_v287 main_v371 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.unary main_v193 main_v372 (broadcastInDim S1x64x64 ![1, 2] bcast_S64x64_S1x64x64_1_2 : (⟨S64x64, .f32⟩ : BufTy).Contents (Elt F) → (⟨S1x64x64, .f32⟩ : BufTy).Contents (Elt F)),
    StableHlo.unary main_v282 main_v373 (broadcastInDim S1x64x64 ![1, 2] bcast_S64x64_S1x64x64_1_2 : (⟨S64x64, .f32⟩ : BufTy).Contents (Elt F) → (⟨S1x64x64, .f32⟩ : BufTy).Contents (Elt F)),
    StableHlo.unary main_v371 main_v374 (broadcastInDim S1x64x64 ![1, 2] bcast_S64x64_S1x64x64_1_2 : (⟨S64x64, .f32⟩ : BufTy).Contents (Elt F) → (⟨S1x64x64, .f32⟩ : BufTy).Contents (Elt F)),
    StableHlo.nary ![main_v372, main_v373, main_v374] main_v375 (fun u => concatenate S3x64x64 0 [⟨S1x64x64, u 0⟩, ⟨S1x64x64, u 1⟩, ⟨S1x64x64, u 2⟩] concatenates_S1x64x64_S1x64x64_S1x64x64_S3x64x64_d0) ]

set_option maxHeartbeats 40000000 in
theorem hostOps0_split : (hostOps0 : List (HloOp τ sig (Elt F))) = hostPre ++ hostTail := rfl

end Cert.KernelIdeal.Frm

end
-- ==== Proof.LibFold.lean ====
/-
  Reading a fold of host operations in one pass.

  The contents of a buffer after a straight line of host operations is a fold: each operation rewrites the buffer it writes
  and leaves every other buffer as it was. The tactic below unfolds such a fold — also through a concatenation of lines and
  through nested folds — down to the operations' functions applied to the contents the fold starts from, visiting each
  shared intermediate once.
-/
import Idealize.ShloMosaic.Lib.StableHlo.Run
import Idealize.ShloMosaic.Lib.Pipeline.Frame

namespace Cert.LibFold

open Idealize.ShloMosaic Idealize.ShloMosaic.StableHlo

/-- Rewrites every `after ops V b` in the goal, for literal lines `ops` over literal references, to the operations' functions of
    `V` at the buffers read: one simplifier pass per round, and between rounds one rewrite at a time for a reshape's result and frame and
    for whatever occurrence the pass left. -/
macro "after_all" : tactic =>
  `(tactic| (try simp only [StableHlo.after_append, after_cons, after_nil]
             repeat (first
               | rw [reshape_result]
               | (rw [reshape_result_ne]; rotate_left; decide)
               | simp (disch := decide) only [StableHlo.after_append, after_cons, after_nil,
                   nullary_result', unary_result', binary_result', ternary_result', quaternary_result', nary4_result', nary_result',
                   unaryIndexed_result', binaryIndexed_result',
                   nullary_result_ne', unary_result_ne', binary_result_ne', ternary_result_ne', quaternary_result_ne',
                   nary_result_ne', unaryIndexed_result_ne', binaryIndexed_result_ne']
               | rw [nullary_result] | rw [unary_result] | rw [binary_result] | rw [ternary_result] | rw [quaternary_result]
               | rw [binaryIndexed_result] | rw [nary4_result] | rw [nary_result] | rw [unaryIndexed_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [binaryIndexed_result_ne]; rotate_left; decide)
               | (rw [nary_result_ne]; rotate_left; decide)
               | (rw [unaryIndexed_result_ne]; rotate_left; decide))))

end Cert.LibFold
-- ==== Proof.LibScatterSet.lean ====
import Idealize.ShloMosaic.PureOps.ShapeOps

/-!
# Reading a set-scatter at an index

`Host.scatter d f x idx upd` is a left fold over the update indices in row-major order: an update
index `j` whose result index `d.resultIdx? j idx` is `some i` replaces the element at `i` by
`f (old element) (upd j)`, and an update index whose result index is `none` is dropped.

For the body `f = fun _ b => b` (the update replaces the element) this file says what the folded
function is at a given operand index `i'`:

* `scatter_set_miss`: when no update index lands at `i'`, the element is the operand's, `x i'`;
* `scatter_set_hit`: when some update index lands at `i'` and every update index landing there
  carries the same value `v`, the element is `v` (whatever the order of the fold).

Both come from the same two facts about a left fold, over an arbitrary list, of a step that
overwrites one element or does nothing (`foldl_step_miss`, `foldl_step_hit`), proved by induction
on the list. The scatter is the case of the list of all row-major positions: every update index is
the image of its own position under the inverse of the row-major equivalence.
-/

namespace Cert.Lib.ScatterSet

open Idealize.ShloMosaic

section ListFold

variable {ι κ α : Type} [DecidableEq ι]

/-- Let `stepf r n` overwrite `r` at `i` by `g n` when `ri n = some i`, and be `r` when
    `ri n = none`. Folding `stepf` over a list none of whose members writes at `i'` leaves the
    element at `i'` as it was. -/
theorem foldl_step_miss (ri : κ → Option ι) (g : κ → α) (stepf : (ι → α) → κ → ι → α)
    (hsome : ∀ r n i, ri n = some i → stepf r n = fun i'' => if i'' = i then g n else r i'')
    (hnone : ∀ r n, ri n = none → stepf r n = r)
    (L : List κ) (x : ι → α) (i' : ι) (hno : ∀ n ∈ L, ri n ≠ some i') :
    L.foldl stepf x i' = x i' := by
  induction L generalizing x with
  | nil => rfl
  | cons n L ih =>
    rw [List.foldl_cons, ih _ (fun m hm => hno m (List.mem_cons_of_mem _ hm))]
    have h := hno n List.mem_cons_self
    cases hr : ri n with
    | none => rw [hnone x n hr]
    | some i =>
      have hne : i' ≠ i := fun e => h (by rw [hr, e])
      rw [hsome x n i hr]; exact if_neg hne

/-- With `stepf` as above: folding it over a list some member of which writes at `i'`, every
    member that writes at `i'` writing `v`, gives `v` at `i'` — the last member that writes there
    decides, and it writes `v`. -/
theorem foldl_step_hit (ri : κ → Option ι) (g : κ → α) (stepf : (ι → α) → κ → ι → α)
    (hsome : ∀ r n i, ri n = some i → stepf r n = fun i'' => if i'' = i then g n else r i'')
    (hnone : ∀ r n, ri n = none → stepf r n = r)
    (L : List κ) (x : ι → α) (i' : ι) (v : α)
    (hex : ∃ n ∈ L, ri n = some i') (hall : ∀ n ∈ L, ri n = some i' → g n = v) :
    L.foldl stepf x i' = v := by
  induction L generalizing x with
  | nil => obtain ⟨n, hn, _⟩ := hex; cases hn
  | cons n L ih =>
    rw [List.foldl_cons]
    by_cases htail : ∃ m ∈ L, ri m = some i'
    · -- a later member still writes at `i'`: what the head does is overwritten
      exact ih _ htail (fun m hm => hall m (List.mem_cons_of_mem _ hm))
    · -- no later member writes at `i'`: the tail keeps the head's value there, and the member
      -- that writes at `i'` can only be the head
      rw [foldl_step_miss ri g stepf hsome hnone L _ i' (fun m hm e => htail ⟨m, hm, e⟩)]
      obtain ⟨m, hm, hmi⟩ := hex
      rcases List.mem_cons.1 hm with rfl | hm'
      · rw [hsome x m i' hmi]
        exact (if_pos rfl).trans (hall m List.mem_cons_self hmi)
      · exact absurd ⟨m, hm', hmi⟩ htail

end ListFold

section Scatter

variable {s : Shape} {α : Type} {w : Nat} {si u : Shape}

/-- A set-scatter leaves the operand's element at `i'` when no update index lands at `i'`. -/
theorem scatter_set_miss (d : ScatterDims s si u) (x : s.Idx → α) (idx : IVec si w) (upd : u.Idx → α)
    (i' : s.Idx) (hno : ∀ j : u.Idx, d.resultIdx? j idx ≠ some i') :
    Host.scatter d (fun _ b => b) x idx upd i' = x i' := by
  unfold Host.scatter
  refine foldl_step_miss (fun n => d.resultIdx? (u.rowMajor.symm n) idx) (fun n => upd (u.rowMajor.symm n))
    _ ?_ ?_ (List.finRange u.numel) x i' (fun n _ => hno (u.rowMajor.symm n))
  · intro r n i h; simp only [h]
  · intro r n h; simp only [h]

/-- A set-scatter has the value `v` at `i'` when some update index lands at `i'` and every update
    index that lands at `i'` carries `v`. -/
theorem scatter_set_hit (d : ScatterDims s si u) (x : s.Idx → α) (idx : IVec si w) (upd : u.Idx → α)
    (i' : s.Idx) (v : α) (hex : ∃ j : u.Idx, d.resultIdx? j idx = some i')
    (hall : ∀ j : u.Idx, d.resultIdx? j idx = some i' → upd j = v) :
    Host.scatter d (fun _ b => b) x idx upd i' = v := by
  unfold Host.scatter
  obtain ⟨j, hj⟩ := hex
  refine foldl_step_hit (fun n => d.resultIdx? (u.rowMajor.symm n) idx) (fun n => upd (u.rowMajor.symm n))
    _ ?_ ?_ (List.finRange u.numel) x i' v
    ⟨u.rowMajor j, List.mem_finRange _, by simpa using hj⟩
    (fun n _ h => hall (u.rowMajor.symm n) h)
  · intro r n i h; simp only [h]
  · intro r n h; simp only [h]

end Scatter

end Cert.Lib.ScatterSet
-- ==== Proof.KIRotMat.lean ====
/-
  The three rotation matrices the host builds.

  The last 359 host operations stack three rows of 32 complex numbers (each a (re, im) pair) and turn each row into a
  64×64 real matrix: starting from zeros, four scatters write, for e = 0 … 31, the real part at (2e, 2e) and (2e+1, 2e+1),
  the imaginary part at (2e, 2e+1) and its negation at (2e+1, 2e); the three matrices are then stacked.  This file proves
  that entry (l, k, j) of the result is `entry` of row l at (k, j): block-diagonal with 2×2 blocks
  [[re e, im e], [-im e, re e]].

  The line is cut into six stretches (the stack of rows, one stretch per matrix, the three leading unit axes, the final
  stack) and each is read on its own from an arbitrary starting valuation; a matrix's stretch reads only the stack of
  rows, so the other stretches leave what it needs untouched.  Where an update lands is decided on the closed index
  arrays; which update an entry receives is then the set-scatter lemma applied four times.
-/
import proofs.«111939_j20813411516915_2_alg».proof.Proof.KISplit
import proofs.«111939_j20813411516915_2_alg».proof.Proof.LibFold
import proofs.«111939_j20813411516915_2_alg».proof.Proof.LibScatterSet
import Idealize.ShloMosaic.Lib.ValueIdx
import Idealize.ShloMosaic.PureOps.Ideal.Laws
import Idealize.ShloMosaic.Lib.ValueLayout
import Idealize.ShloMosaic.Lib.Pipeline.Value

set_option maxRecDepth 16384

noncomputable section

namespace Cert.KernelIdeal.RotMat

open Cert.KernelIdeal Cert.KernelIdeal.Gen Idealize.ShloMosaic Idealize.ShloMosaic.TcCoe Idealize.SL.Sem
open Idealize.ShloMosaic.ValueIdx Cert.Lib.ScatterSet Cert.KernelIdeal.Frm

variable {F : FTy → Type} [FloatOps F]

/-- The 64×64 real matrix of 32 complex numbers `f` (given as one row of (re, im) pairs): block-diagonal, the 2×2 block
    `e` being `[[re e, im e], [-im e, re e]]`. -/
def entry (f : S1x32x2.Idx → EReal) (k j : Fin 64) : EReal :=
  if k.val / 2 = j.val / 2 then
    (if k.val % 2 = 0 then
      (if j.val % 2 = 0 then f (ix3 (0 : Fin 1) (⟨j.val / 2, by omega⟩ : Fin 32) (0 : Fin 2))
       else f (ix3 (0 : Fin 1) (⟨j.val / 2, by omega⟩ : Fin 32) (1 : Fin 2)))
     else
      (if j.val % 2 = 0 then - f (ix3 (0 : Fin 1) (⟨j.val / 2, by omega⟩ : Fin 32) (1 : Fin 2))
       else f (ix3 (0 : Fin 1) (⟨j.val / 2, by omega⟩ : Fin 32) (0 : Fin 2))))
  else 0

/-- One set-scatter of 32 updates, update `e` landing at `(2e + a, 2e + b)`: at `(k, j)` it reads update `j / 2` when
    `k` and `j` lie in the same 2×2 diagonal block at offsets `(a, b)`, and the operand elsewhere. -/
theorem scat_apply (x : S64x64.Idx → EReal) (I : IVec S32x2 32) (upd : S32.Idx → EReal) (a b : Nat) (ha : a < 2) (hb : b < 2)
    (h : ∀ e : Fin 32, scatter_S64x64_S32x2_S32_n_01_01_1.resultIdx? (ix1 e) I
      = some (ix2 (⟨2 * e.val + a, by omega⟩ : Fin 64) (⟨2 * e.val + b, by omega⟩ : Fin 64)))
    (k j : Fin 64) :
    Host.scatter scatter_S64x64_S32x2_S32_n_01_01_1 (fun _ b => b) x I upd (ix2 k j)
      = if k.val / 2 = j.val / 2 ∧ k.val % 2 = a ∧ j.val % 2 = b then upd (ix1 (⟨j.val / 2, by omega⟩ : Fin 32)) else x (ix2 k j) := by
  have key : ∀ jj : S32.Idx, scatter_S64x64_S32x2_S32_n_01_01_1.resultIdx? jj I = some (ix2 k j) →
      2 * (jj 0).val + a = k.val ∧ 2 * (jj 0).val + b = j.val := by
    intro jj hjj
    have hh := (congrArg (fun q : S32.Idx => scatter_S64x64_S32x2_S32_n_01_01_1.resultIdx? q I) (eq_ix1 jj)).trans (h (jj 0))
    have h2 := Option.some.inj (hh.symm.trans hjj)
    exact ⟨congrArg Fin.val (congrFun h2 0), congrArg Fin.val (congrFun h2 1)⟩
  by_cases hc : k.val / 2 = j.val / 2 ∧ k.val % 2 = a ∧ j.val % 2 = b
  · rw [if_pos hc]
    refine scatter_set_hit _ x I upd (ix2 k j) _ ⟨ix1 (⟨j.val / 2, by omega⟩ : Fin 32), ?_⟩ ?_
    · rw [h]
      have e0 : (⟨2 * (j.val / 2) + a, by omega⟩ : Fin 64) = k := Fin.ext (by show 2 * (j.val / 2) + a = k.val; omega)
      have e1 : (⟨2 * (j.val / 2) + b, by omega⟩ : Fin 64) = j := Fin.ext (by show 2 * (j.val / 2) + b = j.val; omega)
      show some (ix2 (⟨2 * (j.val / 2) + a, _⟩ : Fin 64) (⟨2 * (j.val / 2) + b, _⟩ : Fin 64)) = some (ix2 k j)
      rw [e0, e1]
    · intro jj hjj
      have hkey := key jj hjj
      have e0 : jj 0 = (⟨j.val / 2, by omega⟩ : Fin 32) := Fin.ext (by show (jj 0).val = j.val / 2; omega)
      have ejj : jj = ix1 (⟨j.val / 2, by omega⟩ : Fin 32) := (eq_ix1 jj).trans (congrArg ix1 e0)
      rw [ejj]
  · rw [if_neg hc]
    refine scatter_set_miss _ x I upd (ix2 k j) fun jj hjj => hc ?_
    have hkey := key jj hjj
    omega

/-- The four set-scatters into a zero matrix: real parts on the diagonal, the imaginary part above it and its negation below
    it inside each 2×2 block. -/
theorem mat_apply (z : S64x64.Idx → EReal) (hz : ∀ i, z i = 0) (I1 I2 I3 I4 : IVec S32x2 32) (re im nim : S32.Idx → EReal)
    (h1 : ∀ e : Fin 32, scatter_S64x64_S32x2_S32_n_01_01_1.resultIdx? (ix1 e) I1
      = some (ix2 (⟨2 * e.val + 0, by omega⟩ : Fin 64) (⟨2 * e.val + 0, by omega⟩ : Fin 64)))
    (h2 : ∀ e : Fin 32, scatter_S64x64_S32x2_S32_n_01_01_1.resultIdx? (ix1 e) I2
      = some (ix2 (⟨2 * e.val + 1, by omega⟩ : Fin 64) (⟨2 * e.val + 0, by omega⟩ : Fin 64)))
    (h3 : ∀ e : Fin 32, scatter_S64x64_S32x2_S32_n_01_01_1.resultIdx? (ix1 e) I3
      = some (ix2 (⟨2 * e.val + 0, by omega⟩ : Fin 64) (⟨2 * e.val + 1, by omega⟩ : Fin 64)))
    (h4 : ∀ e : Fin 32, scatter_S64x64_S32x2_S32_n_01_01_1.resultIdx? (ix1 e) I4
      = some (ix2 (⟨2 * e.val + 1, by omega⟩ : Fin 64) (⟨2 * e.val + 1, by omega⟩ : Fin 64)))
    (k j : Fin 64) :
    Host.scatter scatter_S64x64_S32x2_S32_n_01_01_1 (fun _ b => b)
      (Host.scatter scatter_S64x64_S32x2_S32_n_01_01_1 (fun _ b => b)
        (Host.scatter scatter_S64x64_S32x2_S32_n_01_01_1 (fun _ b => b)
          (Host.scatter scatter_S64x64_S32x2_S32_n_01_01_1 (fun _ b => b) z I1 re) I2 nim) I3 im) I4 re (ix2 k j)
      = if k.val / 2 = j.val / 2 then
          (if k.val % 2 = 0 then (if j.val % 2 = 0 then re (ix1 (⟨j.val / 2, by omega⟩ : Fin 32)) else im (ix1 (⟨j.val / 2, by omega⟩ : Fin 32)))
           else (if j.val % 2 = 0 then nim (ix1 (⟨j.val / 2, by omega⟩ : Fin 32)) else re (ix1 (⟨j.val / 2, by omega⟩ : Fin 32))))
        else 0 := by
  rw [scat_apply _ I4 re 1 1 (by omega) (by omega) h4, scat_apply _ I3 im 0 1 (by omega) (by omega) h3,
    scat_apply _ I2 nim 1 0 (by omega) (by omega) h2, scat_apply _ I1 re 0 0 (by omega) (by omega) h1, hz]
  have hk : k.val % 2 = 0 ∨ k.val % 2 = 1 := by omega
  have hj : j.val % 2 = 0 ∨ j.val % 2 = 1 := by omega
  by_cases hd : k.val / 2 = j.val / 2 <;> rcases hk with hk | hk <;> rcases hj with hj | hj <;> simp [hd, hk, hj]

/-- The same, the three update vectors being the real column, the imaginary column and its negation of a row `f`. -/
theorem mat_entry (f : S1x32x2.Idx → EReal) (z : S64x64.Idx → EReal) (hz : ∀ i, z i = 0) (I1 I2 I3 I4 : IVec S32x2 32)
    (re im nim : S32.Idx → EReal)
    (h1 : ∀ e : Fin 32, scatter_S64x64_S32x2_S32_n_01_01_1.resultIdx? (ix1 e) I1
      = some (ix2 (⟨2 * e.val + 0, by omega⟩ : Fin 64) (⟨2 * e.val + 0, by omega⟩ : Fin 64)))
    (h2 : ∀ e : Fin 32, scatter_S64x64_S32x2_S32_n_01_01_1.resultIdx? (ix1 e) I2
      = some (ix2 (⟨2 * e.val + 1, by omega⟩ : Fin 64) (⟨2 * e.val + 0, by omega⟩ : Fin 64)))
    (h3 : ∀ e : Fin 32, scatter_S64x64_S32x2_S32_n_01_01_1.resultIdx? (ix1 e) I3
      = some (ix2 (⟨2 * e.val + 0, by omega⟩ : Fin 64) (⟨2 * e.val + 1, by omega⟩ : Fin 64)))
    (h4 : ∀ e : Fin 32, scatter_S64x64_S32x2_S32_n_01_01_1.resultIdx? (ix1 e) I4
      = some (ix2 (⟨2 * e.val + 1, by omega⟩ : Fin 64) (⟨2 * e.val + 1, by omega⟩ : Fin 64)))
    (hre : ∀ e : Fin 32, re (ix1 e) = f (ix3 (0 : Fin 1) e (0 : Fin 2)))
    (him : ∀ e : Fin 32, im (ix1 e) = f (ix3 (0 : Fin 1) e (1 : Fin 2)))
    (hnim : ∀ e : Fin 32, nim (ix1 e) = - f (ix3 (0 : Fin 1) e (1 : Fin 2)))
    (k j : Fin 64) :
    Host.scatter scatter_S64x64_S32x2_S32_n_01_01_1 (fun _ b => b)
      (Host.scatter scatter_S64x64_S32x2_S32_n_01_01_1 (fun _ b => b)
        (Host.scatter scatter_S64x64_S32x2_S32_n_01_01_1 (fun _ b => b)
          (Host.scatter scatter_S64x64_S32x2_S32_n_01_01_1 (fun _ b => b) z I1 re) I2 nim) I3 im) I4 re (ix2 k j)
      = entry f k j := by
  rw [mat_apply z hz I1 I2 I3 I4 re im nim h1 h2 h3 h4 k j, hre, him, hnim]
  rfl

section Read
variable {α : Type}

/-- Column `c` of a 32×2 array, as a vector. -/
theorem col_apply (r : S32x2.Idx → α) (o : Nat) (c : Fin 2) (hoc : c.val = o) (hs : S32x2.Slices ![0, o] S32x1)
    (hcast : S32x1.ShapeCasts S32) (e : Fin 32) :
    shapeCast S32 (extractStridedSlice S32x1 ![0, o] r hs) hcast (ix1 e) = r (ix2 e c) := by
  refine (shapeCast_apply _ hcast (ix1 e) (ix2 e (0 : Fin 1)) ?_).trans ?_
  · rw [Shape.rowMajor_val_two, Shape.rowMajor_val_one]
    show e.val * 1 + 0 = e.val
    omega
  · exact slice2_axis1_apply o r hs e (0 : Fin 1) c (by rw [hoc]; rfl)

/-- Row `l` of a 3×32×2 array, as a 32×2 array. -/
theorem row_apply (g : S3x32x2.Idx → α) (o : Nat) (l : Fin 3) (hol : l.val = o) (hs : S3x32x2.Slices ![o, 0, 0] S1x32x2)
    (hcast : S1x32x2.ShapeCasts S32x2) (e : Fin 32) (c : Fin 2) :
    shapeCast S32x2 (extractStridedSlice S1x32x2 ![o, 0, 0] g hs) hcast (ix2 e c) = g (ix3 l e c) := by
  refine (shapeCast_1ab_ab_apply _ hcast e c).trans ?_
  exact extractStridedSlice_apply ![o, 0, 0] g hs (ix3 (0 : Fin 1) e c) (ix3 l e c) (fun a => by
    match a with
    | ⟨0, _⟩ => show l.val = o + 0; omega
    | ⟨1, _⟩ => show e.val = 0 + e.val; omega
    | ⟨2, _⟩ => show c.val = 0 + c.val; omega)

/-- Three pieces of one shape and extent 1 along an axis, stacked along it: piece `n` where the axis coordinate is `n`. -/
theorem stack3_apply {s₁ t : Shape} (f0 f1 f2 : s₁.Idx → α) (a : Fin t.rank) (h : Shape.Concatenates [s₁, s₁, s₁] t a)
    (hr : s₁.rank = t.rank) (h1 : s₁.size (a.cast hr.symm) = 1) (j : t.Idx) (n : Fin 3) (hn : (j a).val = n.val)
    (i : s₁.Idx) (hi : ∀ b : Fin s₁.rank, b.cast hr ≠ a → (i b).val = (j (b.cast hr)).val) :
    concatenate t a [⟨s₁, f0⟩, ⟨s₁, f1⟩, ⟨s₁, f2⟩] h j = ![f0, f1, f2] n i :=
  concatenate_ofFn_unit_apply a ![f0, f1, f2] h hr h1 j n hn i hi

/-- A 64×64 matrix given a leading unit axis. -/
theorem lead_apply (m : S64x64.Idx → α) (h : S64x64.BroadcastsInDim S1x64x64 (![1, 2] : Fin 2 → Fin S1x64x64.rank)) (k j : Fin 64) :
    broadcastInDim S1x64x64 ![1, 2] h m (ix3 (0 : Fin 1) k j) = m (ix2 k j) :=
  broadcastInDim_apply _ h m _ _ (fun a => by
    match a with
    | ⟨0, _⟩ => rfl
    | ⟨1, _⟩ => rfl)

end Read

/-- The zero matrix. -/
theorem zeros_apply (h : S_.BroadcastsInDim S64x64 (![] : Fin 0 → Fin S64x64.rank)) (i : S64x64.Idx) :
    broadcastInDim S64x64 ![] h (constant (F := Ideal) S_ .f32 0x00000000#32) i = (0 : EReal) :=
  (broadcastInDim_apply _ h _ i ix0 (fun a => a.elim0)).trans Ideal.ofBits_zero_f32

section Read2
variable {α : Type}
/-- Three `[1, n₁, n₂]` arrays stacked along the leading axis, read at `(l, a, b)`: array `l` at `(0, a, b)`. -/
theorem stack3_lead_apply {n1 n2 : Nat} (f0 f1 f2 : (⟨3, ![1, n1, n2]⟩ : Shape).Idx → α)
    (h : Shape.Concatenates [(⟨3, ![1, n1, n2]⟩ : Shape), ⟨3, ![1, n1, n2]⟩, ⟨3, ![1, n1, n2]⟩] ⟨3, ![3, n1, n2]⟩ 0)
    (l : Fin 3) (a : Fin n1) (b : Fin n2) :
    concatenate ⟨3, ![3, n1, n2]⟩ 0 [⟨⟨3, ![1, n1, n2]⟩, f0⟩, ⟨⟨3, ![1, n1, n2]⟩, f1⟩, ⟨⟨3, ![1, n1, n2]⟩, f2⟩] h (ix3 l a b)
      = ![f0, f1, f2] l (ix3 (0 : Fin 1) a b) :=
  stack3_apply f0 f1 f2 0 h rfl rfl (ix3 l a b) l rfl (ix3 (0 : Fin 1) a b) (fun c hc => by
    match c with
    | ⟨0, _⟩ => exact absurd rfl hc
    | ⟨1, _⟩ => rfl
    | ⟨2, _⟩ => rfl)
end Read2

/-- The matrix of a row depends only on the row's entries. -/
theorem entry_congr (f1 f2 : S1x32x2.Idx → EReal)
    (h : ∀ (e : Fin 32) (c : Fin 2), f1 (ix3 (0 : Fin 1) e c) = f2 (ix3 (0 : Fin 1) e c)) (k j : Fin 64) :
    entry f1 k j = entry f2 k j := by
  unfold entry
  simp only [h]

/-! ### Where the updates land

Each scatter's index array pairs two columns; a column is `2·e` or `2·e + 1` over `e = 0 … 31`, passed through
"add 64 when negative" (never taken). Update `e` of the scatter lands at (row column's value, column column's value). -/

/-- A 32-vector of one integer. -/
abbrev cI (b : BitVec 32) : (⟨S32, .i32⟩ : BufTy).Contents (Elt Ideal) := broadcastInDim S32 ![] bcast_S_S32 (constantI S_ 32 b)
/-- `2·e`. -/
abbrev twoE : (⟨S32, .i32⟩ : BufTy).Contents (Elt Ideal) := muli (cI 2#32) (iotaInDim S32 32 0)
/-- `2·e + 1`. -/
abbrev twoE1 : (⟨S32, .i32⟩ : BufTy).Contents (Elt Ideal) := addi (muli (cI 2#32) (iotaInDim S32 32 0)) (cI 1#32)
/-- A coordinate vector wrapped into `[0, 64)` and made a column. -/
abbrev colI (x : (⟨S32, .i32⟩ : BufTy).Contents (Elt Ideal)) : (⟨S32x1, .i32⟩ : BufTy).Contents (Elt Ideal) :=
  broadcastInDim S32x1 ![0] bcast_S32_S32x1_0 (select (cmpi .slt x (cI 0#32)) (addi x (cI 64#32)) x)

set_option maxHeartbeats 4000000 in
theorem land00 (A B : (⟨S32x1, .i32⟩ : BufTy).Contents (Elt Ideal)) (hA : A = colI twoE) (hB : B = colI twoE) :
    ∀ e : Fin 32, scatter_S64x64_S32x2_S32_n_01_01_1.resultIdx? (ix1 e)
        (concatenate S32x2 1 [⟨S32x1, A⟩, ⟨S32x1, B⟩] concatenates_S32x1_S32x1_S32x2_d1)
      = some (ix2 (⟨2 * e.val + 0, by omega⟩ : Fin 64) (⟨2 * e.val + 0, by omega⟩ : Fin 64)) := by
  subst hA hB
  decide +kernel

set_option maxHeartbeats 4000000 in
theorem land10 (A B : (⟨S32x1, .i32⟩ : BufTy).Contents (Elt Ideal)) (hA : A = colI twoE1) (hB : B = colI twoE) :
    ∀ e : Fin 32, scatter_S64x64_S32x2_S32_n_01_01_1.resultIdx? (ix1 e)
        (concatenate S32x2 1 [⟨S32x1, A⟩, ⟨S32x1, B⟩] concatenates_S32x1_S32x1_S32x2_d1)
      = some (ix2 (⟨2 * e.val + 1, by omega⟩ : Fin 64) (⟨2 * e.val + 0, by omega⟩ : Fin 64)) := by
  subst hA hB
  decide +kernel

set_option maxHeartbeats 4000000 in
theorem land01 (A B : (⟨S32x1, .i32⟩ : BufTy).Contents (Elt Ideal)) (hA : A = colI twoE) (hB : B = colI twoE1) :
    ∀ e : Fin 32, scatter_S64x64_S32x2_S32_n_01_01_1.resultIdx? (ix1 e)
        (concatenate S32x2 1 [⟨S32x1, A⟩, ⟨S32x1, B⟩] concatenates_S32x1_S32x1_S32x2_d1)
      = some (ix2 (⟨2 * e.val + 0, by omega⟩ : Fin 64) (⟨2 * e.val + 1, by omega⟩ : Fin 64)) := by
  subst hA hB
  decide +kernel

set_option maxHeartbeats 4000000 in
theorem land11 (A B : (⟨S32x1, .i32⟩ : BufTy).Contents (Elt Ideal)) (hA : A = colI twoE1) (hB : B = colI twoE1) :
    ∀ e : Fin 32, scatter_S64x64_S32x2_S32_n_01_01_1.resultIdx? (ix1 e)
        (concatenate S32x2 1 [⟨S32x1, A⟩, ⟨S32x1, B⟩] concatenates_S32x1_S32x1_S32x2_d1)
      = some (ix2 (⟨2 * e.val + 1, by omega⟩ : Fin 64) (⟨2 * e.val + 1, by omega⟩ : Fin 64)) := by
  subst hA hB
  decide +kernel
/-- The three rows stacked. -/
abbrev rowsOps : List (HloOp τ sig (Elt F)) :=
  [
    StableHlo.nary ![main_v101, main_v102, main_v103] main_v104 (fun u => concatenate S3x32x2 0 [⟨S1x32x2, u 0⟩, ⟨S1x32x2, u 1⟩, ⟨S1x32x2, u 2⟩] concatenates_S1x32x2_S1x32x2_S1x32x2_S3x32x2_d0) ]
/-- The operations building the first matrix from the stack. -/
abbrev mat0Ops : List (HloOp τ sig (Elt F)) :=
  [
    StableHlo.unary main_v104 main_v105 ((extractStridedSlice S1x32x2 ![0, 0, 0] · slices_S3x32x2_S1x32x2_0_0_0) : (⟨S3x32x2, .f32⟩ : BufTy).Contents (Elt F) → (⟨S1x32x2, .f32⟩ : BufTy).Contents (Elt F)),
    StableHlo.reshape main_v105 main_v106 rfl shapeCasts_S1x32x2_S32x2,
    StableHlo.nullary main_v107 (iotaInDim S32 32 0),
    StableHlo.unary main_v106 main_v108 ((extractStridedSlice S32x1 ![0, 0] · slices_S32x2_S32x1_0_0) : (⟨S32x2, .f32⟩ : BufTy).Contents (Elt F) → (⟨S32x1, .f32⟩ : BufTy).Contents (Elt F)),
    StableHlo.reshape main_v108 main_v109 rfl shapeCasts_S32x1_S32,
    StableHlo.unary main_v106 main_v110 ((extractStridedSlice S32x1 ![0, 1] · slices_S32x2_S32x1_0_1) : (⟨S32x2, .f32⟩ : BufTy).Contents (Elt F) → (⟨S32x1, .f32⟩ : BufTy).Contents (Elt F)),
    StableHlo.reshape main_v110 main_v111 rfl shapeCasts_S32x1_S32,
    StableHlo.nullary main_cst_4 (constant S_ .f32 0x00000000#32),
    StableHlo.unary main_cst_4 main_v112 (broadcastInDim S64x64 ![] bcast_S_S64x64 : (⟨S_, .f32⟩ : BufTy).Contents (Elt F) → (⟨S64x64, .f32⟩ : BufTy).Contents (Elt F)),
    StableHlo.nullary main_c (constantI S_ 32 2#32),
    StableHlo.unary main_c main_v113 (broadcastInDim S32 ![] bcast_S_S32 : (⟨S_, .i32⟩ : BufTy).Contents (Elt F) → (⟨S32, .i32⟩ : BufTy).Contents (Elt F)),
    StableHlo.binary main_v113 main_v107 main_v114 (muli : (⟨S32, .i32⟩ : BufTy).Contents (Elt F) → (⟨S32, .i32⟩ : BufTy).Contents (Elt F) → (⟨S32, .i32⟩ : BufTy).Contents (Elt F)),
    StableHlo.nullary main_c_5 (constantI S_ 32 2#32),
    StableHlo.unary main_c_5 main_v115 (broadcastInDim S32 ![] bcast_S_S32 : (⟨S_, .i32⟩ : BufTy).Contents (Elt F) → (⟨S32, .i32⟩ : BufTy).Contents (Elt F)),
    StableHlo.binary main_v115 main_v107 main_v116 (muli : (⟨S32, .i32⟩ : BufTy).Contents (Elt F) → (⟨S32, .i32⟩ : BufTy).Contents (Elt F) → (⟨S32, .i32⟩ : BufTy).Contents (Elt F)),
    StableHlo.nullary main_c_6 (constantI S_ 32 0#32),
    StableHlo.unary main_c_6 main_v117 (broadcastInDim S32 ![] bcast_S_S32 : (⟨S_, .i32⟩ : BufTy).Contents (Elt F) → (⟨S32, .i32⟩ : BufTy).Contents (Elt F)),
    StableHlo.binary main_v114 main_v117 main_v118 (cmpi .slt : (⟨S32, .i32⟩ : BufTy).Contents (Elt F) → (⟨S32, .i32⟩ : BufTy).Contents (Elt F) → (⟨S32, .i1⟩ : BufTy).Contents (Elt F)),
    StableHlo.nullary main_c_7 (constantI S_ 32 64#32),
    StableHlo.unary main_c_7 main_v119 (broadcastInDim S32 ![] bcast_S_S32 : (⟨S_, .i32⟩ : BufTy).Contents (Elt F) → (⟨S32, .i32⟩ : BufTy).Contents (Elt F)),
    StableHlo.binary main_v114 main_v119 main_v120 (addi : (⟨S32, .i32⟩ : BufTy).Contents (Elt F) → (⟨S32, .i32⟩ : BufTy).Contents (Elt F) → (⟨S32, .i32⟩ : BufTy).Contents (Elt F)),
    StableHlo.ternary main_v118 main_v120 main_v114 main_v121 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_8 (constantI S_ 32 0#32),
    StableHlo.unary main_c_8 main_v122 (broadcastInDim S32 ![] bcast_S_S32 : (⟨S_, .i32⟩ : BufTy).Contents (Elt F) → (⟨S32, .i32⟩ : BufTy).Contents (Elt F)),
    StableHlo.binary main_v116 main_v122 main_v123 (cmpi .slt : (⟨S32, .i32⟩ : BufTy).Contents (Elt F) → (⟨S32, .i32⟩ : BufTy).Contents (Elt F) → (⟨S32, .i1⟩ : BufTy).Contents (Elt F)),
    StableHlo.nullary main_c_9 (constantI S_ 32 64#32),
    StableHlo.unary main_c_9 main_v124 (broadcastInDim S32 ![] bcast_S_S32 : (⟨S_, .i32⟩ : BufTy).Contents (Elt F) → (⟨S32, .i32⟩ : BufTy).Contents (Elt F)),
    StableHlo.binary main_v116 main_v124 main_v125 (addi : (⟨S32, .i32⟩ : BufTy).Contents (Elt F) → (⟨S32, .i32⟩ : BufTy).Contents (Elt F) → (⟨S32, .i32⟩ : BufTy).Contents (Elt F)),
    StableHlo.ternary main_v123 main_v125 main_v116 main_v126 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v121 main_v127 (broadcastInDim S32x1 ![0] bcast_S32_S32x1_0 : (⟨S32, .i32⟩ : BufTy).Contents (Elt F) → (⟨S32x1, .i32⟩ : BufTy).Contents (Elt F)),
    StableHlo.unary main_v126 main_v128 (broadcastInDim S32x1 ![0] bcast_S32_S32x1_0 : (⟨S32, .i32⟩ : BufTy).Contents (Elt F) → (⟨S32x1, .i32⟩ : BufTy).Contents (Elt F)),
    StableHlo.binary main_v127 main_v128 main_v129 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v112 main_v129 main_v109 main_v130 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_10 (constantI S_ 32 2#32),
    StableHlo.unary main_c_10 main_v131 (broadcastInDim S32 ![] bcast_S_S32 : (⟨S_, .i32⟩ : BufTy).Contents (Elt F) → (⟨S32, .i32⟩ : BufTy).Contents (Elt F)),
    StableHlo.binary main_v131 main_v107 main_v132 (muli : (⟨S32, .i32⟩ : BufTy).Contents (Elt F) → (⟨S32, .i32⟩ : BufTy).Contents (Elt F) → (⟨S32, .i32⟩ : BufTy).Contents (Elt F)),
    StableHlo.nullary main_c_11 (constantI S_ 32 1#32),
    StableHlo.unary main_c_11 main_v133 (broadcastInDim S32 ![] bcast_S_S32 : (⟨S_, .i32⟩ : BufTy).Contents (Elt F) → (⟨S32, .i32⟩ : BufTy).Contents (Elt F)),
    StableHlo.binary main_v132 main_v133 main_v134 (addi : (⟨S32, .i32⟩ : BufTy).Contents (Elt F) → (⟨S32, .i32⟩ : BufTy).Contents (Elt F) → (⟨S32, .i32⟩ : BufTy).Contents (Elt F)),
    StableHlo.nullary main_c_12 (constantI S_ 32 2#32),
    StableHlo.unary main_c_12 main_v135 (broadcastInDim S32 ![] bcast_S_S32 : (⟨S_, .i32⟩ : BufTy).Contents (Elt F) → (⟨S32, .i32⟩ : BufTy).Contents (Elt F)),
    StableHlo.binary main_v135 main_v107 main_v136 (muli : (⟨S32, .i32⟩ : BufTy).Contents (Elt F) → (⟨S32, .i32⟩ : BufTy).Contents (Elt F) → (⟨S32, .i32⟩ : BufTy).Contents (Elt F)),
    StableHlo.unary main_v111 main_v137 (Host.negf : (⟨S32, .f32⟩ : BufTy).Contents (Elt F) → (⟨S32, .f32⟩ : BufTy).Contents (Elt F)),
    StableHlo.nullary main_c_13 (constantI S_ 32 0#32),
    StableHlo.unary main_c_13 main_v138 (broadcastInDim S32 ![] bcast_S_S32 : (⟨S_, .i32⟩ : BufTy).Contents (Elt F) → (⟨S32, .i32⟩ : BufTy).Contents (Elt F)),
    StableHlo.binary main_v134 main_v138 main_v139 (cmpi .slt : (⟨S32, .i32⟩ : BufTy).Contents (Elt F) → (⟨S32, .i32⟩ : BufTy).Contents (Elt F) → (⟨S32, .i1⟩ : BufTy).Contents (Elt F)),
    StableHlo.nullary main_c_14 (constantI S_ 32 64#32),
    StableHlo.unary main_c_14 main_v140 (broadcastInDim S32 ![] bcast_S_S32 : (⟨S_, .i32⟩ : BufTy).Contents (Elt F) → (⟨S32, .i32⟩ : BufTy).Contents (Elt F)),
    StableHlo.binary main_v134 main_v140 main_v141 (addi : (⟨S32, .i32⟩ : BufTy).Contents (Elt F) → (⟨S32, .i32⟩ : BufTy).Contents (Elt F) → (⟨S32, .i32⟩ : BufTy).Contents (Elt F)),
    StableHlo.ternary main_v139 main_v141 main_v134 main_v142 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_15 (constantI S_ 32 0#32),
    StableHlo.unary main_c_15 main_v143 (broadcastInDim S32 ![] bcast_S_S32 : (⟨S_, .i32⟩ : BufTy).Contents (Elt F) → (⟨S32, .i32⟩ : BufTy).Contents (Elt F)),
    StableHlo.binary main_v136 main_v143 main_v144 (cmpi .slt : (⟨S32, .i32⟩ : BufTy).Contents (Elt F) → (⟨S32, .i32⟩ : BufTy).Contents (Elt F) → (⟨S32, .i1⟩ : BufTy).Contents (Elt F)),
    StableHlo.nullary main_c_16 (constantI S_ 32 64#32),
    StableHlo.unary main_c_16 main_v145 (broadcastInDim S32 ![] bcast_S_S32 : (⟨S_, .i32⟩ : BufTy).Contents (Elt F) → (⟨S32, .i32⟩ : BufTy).Contents (Elt F)),
    StableHlo.binary main_v136 main_v145 main_v146 (addi : (⟨S32, .i32⟩ : BufTy).Contents (Elt F) → (⟨S32, .i32⟩ : BufTy).Contents (Elt F) → (⟨S32, .i32⟩ : BufTy).Contents (Elt F)),
    StableHlo.ternary main_v144 main_v146 main_v136 main_v147 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v142 main_v148 (broadcastInDim S32x1 ![0] bcast_S32_S32x1_0 : (⟨S32, .i32⟩ : BufTy).Contents (Elt F) → (⟨S32x1, .i32⟩ : BufTy).Contents (Elt F)),
    StableHlo.unary main_v147 main_v149 (broadcastInDim S32x1 ![0] bcast_S32_S32x1_0 : (⟨S32, .i32⟩ : BufTy).Contents (Elt F) → (⟨S32x1, .i32⟩ : BufTy).Contents (Elt F)),
    StableHlo.binary main_v148 main_v149 main_v150 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v130 main_v150 main_v137 main_v151 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_17 (constantI S_ 32 2#32),
    StableHlo.unary main_c_17 main_v152 (broadcastInDim S32 ![] bcast_S_S32 : (⟨S_, .i32⟩ : BufTy).Contents (Elt F) → (⟨S32, .i32⟩ : BufTy).Contents (Elt F)),
    StableHlo.binary main_v152 main_v107 main_v153 (muli : (⟨S32, .i32⟩ : BufTy).Contents (Elt F) → (⟨S32, .i32⟩ : BufTy).Contents (Elt F) → (⟨S32, .i32⟩ : BufTy).Contents (Elt F)),
    StableHlo.nullary main_c_18 (constantI S_ 32 2#32),
    StableHlo.unary main_c_18 main_v154 (broadcastInDim S32 ![] bcast_S_S32 : (⟨S_, .i32⟩ : BufTy).Contents (Elt F) → (⟨S32, .i32⟩ : BufTy).Contents (Elt F)),
    StableHlo.binary main_v154 main_v107 main_v155 (muli : (⟨S32, .i32⟩ : BufTy).Contents (Elt F) → (⟨S32, .i32⟩ : BufTy).Contents (Elt F) → (⟨S32, .i32⟩ : BufTy).Contents (Elt F)),
    StableHlo.nullary main_c_19 (constantI S_ 32 1#32),
    StableHlo.unary main_c_19 main_v156 (broadcastInDim S32 ![] bcast_S_S32 : (⟨S_, .i32⟩ : BufTy).Contents (Elt F) → (⟨S32, .i32⟩ : BufTy).Contents (Elt F)),
    StableHlo.binary main_v155 main_v156 main_v157 (addi : (⟨S32, .i32⟩ : BufTy).Contents (Elt F) → (⟨S32, .i32⟩ : BufTy).Contents (Elt F) → (⟨S32, .i32⟩ : BufTy).Contents (Elt F)),
    StableHlo.nullary main_c_20 (constantI S_ 32 0#32),
    StableHlo.unary main_c_20 main_v158 (broadcastInDim S32 ![] bcast_S_S32 : (⟨S_, .i32⟩ : BufTy).Contents (Elt F) → (⟨S32, .i32⟩ : BufTy).Contents (Elt F)),
    StableHlo.binary main_v153 main_v158 main_v159 (cmpi .slt : (⟨S32, .i32⟩ : BufTy).Contents (Elt F) → (⟨S32, .i32⟩ : BufTy).Contents (Elt F) → (⟨S32, .i1⟩ : BufTy).Contents (Elt F)),
    StableHlo.nullary main_c_21 (constantI S_ 32 64#32),
    StableHlo.unary main_c_21 main_v160 (broadcastInDim S32 ![] bcast_S_S32 : (⟨S_, .i32⟩ : BufTy).Contents (Elt F) → (⟨S32, .i32⟩ : BufTy).Contents (Elt F)),
    StableHlo.binary main_v153 main_v160 main_v161 (addi : (⟨S32, .i32⟩ : BufTy).Contents (Elt F) → (⟨S32, .i32⟩ : BufTy).Contents (Elt F) → (⟨S32, .i32⟩ : BufTy).Contents (Elt F)),
    StableHlo.ternary main_v159 main_v161 main_v153 main_v162 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_22 (constantI S_ 32 0#32),
    StableHlo.unary main_c_22 main_v163 (broadcastInDim S32 ![] bcast_S_S32 : (⟨S_, .i32⟩ : BufTy).Contents (Elt F) → (⟨S32, .i32⟩ : BufTy).Contents (Elt F)),
    StableHlo.binary main_v157 main_v163 main_v164 (cmpi .slt : (⟨S32, .i32⟩ : BufTy).Contents (Elt F) → (⟨S32, .i32⟩ : BufTy).Contents (Elt F) → (⟨S32, .i1⟩ : BufTy).Contents (Elt F)),
    StableHlo.nullary main_c_23 (constantI S_ 32 64#32),
    StableHlo.unary main_c_23 main_v165 (broadcastInDim S32 ![] bcast_S_S32 : (⟨S_, .i32⟩ : BufTy).Contents (Elt F) → (⟨S32, .i32⟩ : BufTy).Contents (Elt F)),
    StableHlo.binary main_v157 main_v165 main_v166 (addi : (⟨S32, .i32⟩ : BufTy).Contents (Elt F) → (⟨S32, .i32⟩ : BufTy).Contents (Elt F) → (⟨S32, .i32⟩ : BufTy).Contents (Elt F)),
    StableHlo.ternary main_v164 main_v166 main_v157 main_v167 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v162 main_v168 (broadcastInDim S32x1 ![0] bcast_S32_S32x1_0 : (⟨S32, .i32⟩ : BufTy).Contents (Elt F) → (⟨S32x1, .i32⟩ : BufTy).Contents (Elt F)),
    StableHlo.unary main_v167 main_v169 (broadcastInDim S32x1 ![0] bcast_S32_S32x1_0 : (⟨S32, .i32⟩ : BufTy).Contents (Elt F) → (⟨S32x1, .i32⟩ : BufTy).Contents (Elt F)),
    StableHlo.binary main_v168 main_v169 main_v170 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v151 main_v170 main_v111 main_v171 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_24 (constantI S_ 32 2#32),
    StableHlo.unary main_c_24 main_v172 (broadcastInDim S32 ![] bcast_S_S32 : (⟨S_, .i32⟩ : BufTy).Contents (Elt F) → (⟨S32, .i32⟩ : BufTy).Contents (Elt F)),
    StableHlo.binary main_v172 main_v107 main_v173 (muli : (⟨S32, .i32⟩ : BufTy).Contents (Elt F) → (⟨S32, .i32⟩ : BufTy).Contents (Elt F) → (⟨S32, .i32⟩ : BufTy).Contents (Elt F)),
    StableHlo.nullary main_c_25 (constantI S_ 32 1#32),
    StableHlo.unary main_c_25 main_v174 (broadcastInDim S32 ![] bcast_S_S32 : (⟨S_, .i32⟩ : BufTy).Contents (Elt F) → (⟨S32, .i32⟩ : BufTy).Contents (Elt F)),
    StableHlo.binary main_v173 main_v174 main_v175 (addi : (⟨S32, .i32⟩ : BufTy).Contents (Elt F) → (⟨S32, .i32⟩ : BufTy).Contents (Elt F) → (⟨S32, .i32⟩ : BufTy).Contents (Elt F)),
    StableHlo.nullary main_c_26 (constantI S_ 32 2#32),
    StableHlo.unary main_c_26 main_v176 (broadcastInDim S32 ![] bcast_S_S32 : (⟨S_, .i32⟩ : BufTy).Contents (Elt F) → (⟨S32, .i32⟩ : BufTy).Contents (Elt F)),
    StableHlo.binary main_v176 main_v107 main_v177 (muli : (⟨S32, .i32⟩ : BufTy).Contents (Elt F) → (⟨S32, .i32⟩ : BufTy).Contents (Elt F) → (⟨S32, .i32⟩ : BufTy).Contents (Elt F)),
    StableHlo.nullary main_c_27 (constantI S_ 32 1#32),
    StableHlo.unary main_c_27 main_v178 (broadcastInDim S32 ![] bcast_S_S32 : (⟨S_, .i32⟩ : BufTy).Contents (Elt F) → (⟨S32, .i32⟩ : BufTy).Contents (Elt F)),
    StableHlo.binary main_v177 main_v178 main_v179 (addi : (⟨S32, .i32⟩ : BufTy).Contents (Elt F) → (⟨S32, .i32⟩ : BufTy).Contents (Elt F) → (⟨S32, .i32⟩ : BufTy).Contents (Elt F)),
    StableHlo.nullary main_c_28 (constantI S_ 32 0#32),
    StableHlo.unary main_c_28 main_v180 (broadcastInDim S32 ![] bcast_S_S32 : (⟨S_, .i32⟩ : BufTy).Contents (Elt F) → (⟨S32, .i32⟩ : BufTy).Contents (Elt F)),
    StableHlo.binary main_v175 main_v180 main_v181 (cmpi .slt : (⟨S32, .i32⟩ : BufTy).Contents (Elt F) → (⟨S32, .i32⟩ : BufTy).Contents (Elt F) → (⟨S32, .i1⟩ : BufTy).Contents (Elt F)),
    StableHlo.nullary main_c_29 (constantI S_ 32 64#32),
    StableHlo.unary main_c_29 main_v182 (broadcastInDim S32 ![] bcast_S_S32 : (⟨S_, .i32⟩ : BufTy).Contents (Elt F) → (⟨S32, .i32⟩ : BufTy).Contents (Elt F)),
    StableHlo.binary main_v175 main_v182 main_v183 (addi : (⟨S32, .i32⟩ : BufTy).Contents (Elt F) → (⟨S32, .i32⟩ : BufTy).Contents (Elt F) → (⟨S32, .i32⟩ : BufTy).Contents (Elt F)),
    StableHlo.ternary main_v181 main_v183 main_v175 main_v184 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_30 (constantI S_ 32 0#32),
    StableHlo.unary main_c_30 main_v185 (broadcastInDim S32 ![] bcast_S_S32 : (⟨S_, .i32⟩ : BufTy).Contents (Elt F) → (⟨S32, .i32⟩ : BufTy).Contents (Elt F)),
    StableHlo.binary main_v179 main_v185 main_v186 (cmpi .slt : (⟨S32, .i32⟩ : BufTy).Contents (Elt F) → (⟨S32, .i32⟩ : BufTy).Contents (Elt F) → (⟨S32, .i1⟩ : BufTy).Contents (Elt F)),
    StableHlo.nullary main_c_31 (constantI S_ 32 64#32),
    StableHlo.unary main_c_31 main_v187 (broadcastInDim S32 ![] bcast_S_S32 : (⟨S_, .i32⟩ : BufTy).Contents (Elt F) → (⟨S32, .i32⟩ : BufTy).Contents (Elt F)),
    StableHlo.binary main_v179 main_v187 main_v188 (addi : (⟨S32, .i32⟩ : BufTy).Contents (Elt F) → (⟨S32, .i32⟩ : BufTy).Contents (Elt F) → (⟨S32, .i32⟩ : BufTy).Contents (Elt F)),
    StableHlo.ternary main_v186 main_v188 main_v179 main_v189 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v184 main_v190 (broadcastInDim S32x1 ![0] bcast_S32_S32x1_0 : (⟨S32, .i32⟩ : BufTy).Contents (Elt F) → (⟨S32x1, .i32⟩ : BufTy).Contents (Elt F)),
    StableHlo.unary main_v189 main_v191 (broadcastInDim S32x1 ![0] bcast_S32_S32x1_0 : (⟨S32, .i32⟩ : BufTy).Contents (Elt F) → (⟨S32x1, .i32⟩ : BufTy).Contents (Elt F)),
    StableHlo.binary main_v190 main_v191 main_v192 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v171 main_v192 main_v109 main_v193 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)) ]
/-- The operations building the second matrix from the stack. -/
abbrev mat1Ops : List (HloOp τ sig (Elt F)) :=
  [
    StableHlo.unary main_v104 main_v194 ((extractStridedSlice S1x32x2 ![1, 0, 0] · slices_S3x32x2_S1x32x2_1_0_0) : (⟨S3x32x2, .f32⟩ : BufTy).Contents (Elt F) → (⟨S1x32x2, .f32⟩ : BufTy).Contents (Elt F)),
    StableHlo.reshape main_v194 main_v195 rfl shapeCasts_S1x32x2_S32x2,
    StableHlo.nullary main_v196 (iotaInDim S32 32 0),
    StableHlo.unary main_v195 main_v197 ((extractStridedSlice S32x1 ![0, 0] · slices_S32x2_S32x1_0_0) : (⟨S32x2, .f32⟩ : BufTy).Contents (Elt F) → (⟨S32x1, .f32⟩ : BufTy).Contents (Elt F)),
    StableHlo.reshape main_v197 main_v198 rfl shapeCasts_S32x1_S32,
    StableHlo.unary main_v195 main_v199 ((extractStridedSlice S32x1 ![0, 1] · slices_S32x2_S32x1_0_1) : (⟨S32x2, .f32⟩ : BufTy).Contents (Elt F) → (⟨S32x1, .f32⟩ : BufTy).Contents (Elt F)),
    StableHlo.reshape main_v199 main_v200 rfl shapeCasts_S32x1_S32,
    StableHlo.nullary main_cst_32 (constant S_ .f32 0x00000000#32),
    StableHlo.unary main_cst_32 main_v201 (broadcastInDim S64x64 ![] bcast_S_S64x64 : (⟨S_, .f32⟩ : BufTy).Contents (Elt F) → (⟨S64x64, .f32⟩ : BufTy).Contents (Elt F)),
    StableHlo.nullary main_c_33 (constantI S_ 32 2#32),
    StableHlo.unary main_c_33 main_v202 (broadcastInDim S32 ![] bcast_S_S32 : (⟨S_, .i32⟩ : BufTy).Contents (Elt F) → (⟨S32, .i32⟩ : BufTy).Contents (Elt F)),
    StableHlo.binary main_v202 main_v196 main_v203 (muli : (⟨S32, .i32⟩ : BufTy).Contents (Elt F) → (⟨S32, .i32⟩ : BufTy).Contents (Elt F) → (⟨S32, .i32⟩ : BufTy).Contents (Elt F)),
    StableHlo.nullary main_c_34 (constantI S_ 32 2#32),
    StableHlo.unary main_c_34 main_v204 (broadcastInDim S32 ![] bcast_S_S32 : (⟨S_, .i32⟩ : BufTy).Contents (Elt F) → (⟨S32, .i32⟩ : BufTy).Contents (Elt F)),
    StableHlo.binary main_v204 main_v196 main_v205 (muli : (⟨S32, .i32⟩ : BufTy).Contents (Elt F) → (⟨S32, .i32⟩ : BufTy).Contents (Elt F) → (⟨S32, .i32⟩ : BufTy).Contents (Elt F)),
    StableHlo.nullary main_c_35 (constantI S_ 32 0#32),
    StableHlo.unary main_c_35 main_v206 (broadcastInDim S32 ![] bcast_S_S32 : (⟨S_, .i32⟩ : BufTy).Contents (Elt F) → (⟨S32, .i32⟩ : BufTy).Contents (Elt F)),
    StableHlo.binary main_v203 main_v206 main_v207 (cmpi .slt : (⟨S32, .i32⟩ : BufTy).Contents (Elt F) → (⟨S32, .i32⟩ : BufTy).Contents (Elt F) → (⟨S32, .i1⟩ : BufTy).Contents (Elt F)),
    StableHlo.nullary main_c_36 (constantI S_ 32 64#32),
    StableHlo.unary main_c_36 main_v208 (broadcastInDim S32 ![] bcast_S_S32 : (⟨S_, .i32⟩ : BufTy).Contents (Elt F) → (⟨S32, .i32⟩ : BufTy).Contents (Elt F)),
    StableHlo.binary main_v203 main_v208 main_v209 (addi : (⟨S32, .i32⟩ : BufTy).Contents (Elt F) → (⟨S32, .i32⟩ : BufTy).Contents (Elt F) → (⟨S32, .i32⟩ : BufTy).Contents (Elt F)),
    StableHlo.ternary main_v207 main_v209 main_v203 main_v210 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_37 (constantI S_ 32 0#32),
    StableHlo.unary main_c_37 main_v211 (broadcastInDim S32 ![] bcast_S_S32 : (⟨S_, .i32⟩ : BufTy).Contents (Elt F) → (⟨S32, .i32⟩ : BufTy).Contents (Elt F)),
    StableHlo.binary main_v205 main_v211 main_v212 (cmpi .slt : (⟨S32, .i32⟩ : BufTy).Contents (Elt F) → (⟨S32, .i32⟩ : BufTy).Contents (Elt F) → (⟨S32, .i1⟩ : BufTy).Contents (Elt F)),
    StableHlo.nullary main_c_38 (constantI S_ 32 64#32),
    StableHlo.unary main_c_38 main_v213 (broadcastInDim S32 ![] bcast_S_S32 : (⟨S_, .i32⟩ : BufTy).Contents (Elt F) → (⟨S32, .i32⟩ : BufTy).Contents (Elt F)),
    StableHlo.binary main_v205 main_v213 main_v214 (addi : (⟨S32, .i32⟩ : BufTy).Contents (Elt F) → (⟨S32, .i32⟩ : BufTy).Contents (Elt F) → (⟨S32, .i32⟩ : BufTy).Contents (Elt F)),
    StableHlo.ternary main_v212 main_v214 main_v205 main_v215 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v210 main_v216 (broadcastInDim S32x1 ![0] bcast_S32_S32x1_0 : (⟨S32, .i32⟩ : BufTy).Contents (Elt F) → (⟨S32x1, .i32⟩ : BufTy).Contents (Elt F)),
    StableHlo.unary main_v215 main_v217 (broadcastInDim S32x1 ![0] bcast_S32_S32x1_0 : (⟨S32, .i32⟩ : BufTy).Contents (Elt F) → (⟨S32x1, .i32⟩ : BufTy).Contents (Elt F)),
    StableHlo.binary main_v216 main_v217 main_v218 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v201 main_v218 main_v198 main_v219 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_39 (constantI S_ 32 2#32),
    StableHlo.unary main_c_39 main_v220 (broadcastInDim S32 ![] bcast_S_S32 : (⟨S_, .i32⟩ : BufTy).Contents (Elt F) → (⟨S32, .i32⟩ : BufTy).Contents (Elt F)),
    StableHlo.binary main_v220 main_v196 main_v221 (muli : (⟨S32, .i32⟩ : BufTy).Contents (Elt F) → (⟨S32, .i32⟩ : BufTy).Contents (Elt F) → (⟨S32, .i32⟩ : BufTy).Contents (Elt F)),
    StableHlo.nullary main_c_40 (constantI S_ 32 1#32),
    StableHlo.unary main_c_40 main_v222 (broadcastInDim S32 ![] bcast_S_S32 : (⟨S_, .i32⟩ : BufTy).Contents (Elt F) → (⟨S32, .i32⟩ : BufTy).Contents (Elt F)),
    StableHlo.binary main_v221 main_v222 main_v223 (addi : (⟨S32, .i32⟩ : BufTy).Contents (Elt F) → (⟨S32, .i32⟩ : BufTy).Contents (Elt F) → (⟨S32, .i32⟩ : BufTy).Contents (Elt F)),
    StableHlo.nullary main_c_41 (constantI S_ 32 2#32),
    StableHlo.unary main_c_41 main_v224 (broadcastInDim S32 ![] bcast_S_S32 : (⟨S_, .i32⟩ : BufTy).Contents (Elt F) → (⟨S32, .i32⟩ : BufTy).Contents (Elt F)),
    StableHlo.binary main_v224 main_v196 main_v225 (muli : (⟨S32, .i32⟩ : BufTy).Contents (Elt F) → (⟨S32, .i32⟩ : BufTy).Contents (Elt F) → (⟨S32, .i32⟩ : BufTy).Contents (Elt F)),
    StableHlo.unary main_v200 main_v226 (Host.negf : (⟨S32, .f32⟩ : BufTy).Contents (Elt F) → (⟨S32, .f32⟩ : BufTy).Contents (Elt F)),
    StableHlo.nullary main_c_42 (constantI S_ 32 0#32),
    StableHlo.unary main_c_42 main_v227 (broadcastInDim S32 ![] bcast_S_S32 : (⟨S_, .i32⟩ : BufTy).Contents (Elt F) → (⟨S32, .i32⟩ : BufTy).Contents (Elt F)),
    StableHlo.binary main_v223 main_v227 main_v228 (cmpi .slt : (⟨S32, .i32⟩ : BufTy).Contents (Elt F) → (⟨S32, .i32⟩ : BufTy).Contents (Elt F) → (⟨S32, .i1⟩ : BufTy).Contents (Elt F)),
    StableHlo.nullary main_c_43 (constantI S_ 32 64#32),
    StableHlo.unary main_c_43 main_v229 (broadcastInDim S32 ![] bcast_S_S32 : (⟨S_, .i32⟩ : BufTy).Contents (Elt F) → (⟨S32, .i32⟩ : BufTy).Contents (Elt F)),
    StableHlo.binary main_v223 main_v229 main_v230 (addi : (⟨S32, .i32⟩ : BufTy).Contents (Elt F) → (⟨S32, .i32⟩ : BufTy).Contents (Elt F) → (⟨S32, .i32⟩ : BufTy).Contents (Elt F)),
    StableHlo.ternary main_v228 main_v230 main_v223 main_v231 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_44 (constantI S_ 32 0#32),
    StableHlo.unary main_c_44 main_v232 (broadcastInDim S32 ![] bcast_S_S32 : (⟨S_, .i32⟩ : BufTy).Contents (Elt F) → (⟨S32, .i32⟩ : BufTy).Contents (Elt F)),
    StableHlo.binary main_v225 main_v232 main_v233 (cmpi .slt : (⟨S32, .i32⟩ : BufTy).Contents (Elt F) → (⟨S32, .i32⟩ : BufTy).Contents (Elt F) → (⟨S32, .i1⟩ : BufTy).Contents (Elt F)),
    StableHlo.nullary main_c_45 (constantI S_ 32 64#32),
    StableHlo.unary main_c_45 main_v234 (broadcastInDim S32 ![] bcast_S_S32 : (⟨S_, .i32⟩ : BufTy).Contents (Elt F) → (⟨S32, .i32⟩ : BufTy).Contents (Elt F)),
    StableHlo.binary main_v225 main_v234 main_v235 (addi : (⟨S32, .i32⟩ : BufTy).Contents (Elt F) → (⟨S32, .i32⟩ : BufTy).Contents (Elt F) → (⟨S32, .i32⟩ : BufTy).Contents (Elt F)),
    StableHlo.ternary main_v233 main_v235 main_v225 main_v236 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v231 main_v237 (broadcastInDim S32x1 ![0] bcast_S32_S32x1_0 : (⟨S32, .i32⟩ : BufTy).Contents (Elt F) → (⟨S32x1, .i32⟩ : BufTy).Contents (Elt F)),
    StableHlo.unary main_v236 main_v238 (broadcastInDim S32x1 ![0] bcast_S32_S32x1_0 : (⟨S32, .i32⟩ : BufTy).Contents (Elt F) → (⟨S32x1, .i32⟩ : BufTy).Contents (Elt F)),
    StableHlo.binary main_v237 main_v238 main_v239 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v219 main_v239 main_v226 main_v240 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_46 (constantI S_ 32 2#32),
    StableHlo.unary main_c_46 main_v241 (broadcastInDim S32 ![] bcast_S_S32 : (⟨S_, .i32⟩ : BufTy).Contents (Elt F) → (⟨S32, .i32⟩ : BufTy).Contents (Elt F)),
    StableHlo.binary main_v241 main_v196 main_v242 (muli : (⟨S32, .i32⟩ : BufTy).Contents (Elt F) → (⟨S32, .i32⟩ : BufTy).Contents (Elt F) → (⟨S32, .i32⟩ : BufTy).Contents (Elt F)),
    StableHlo.nullary main_c_47 (constantI S_ 32 2#32),
    StableHlo.unary main_c_47 main_v243 (broadcastInDim S32 ![] bcast_S_S32 : (⟨S_, .i32⟩ : BufTy).Contents (Elt F) → (⟨S32, .i32⟩ : BufTy).Contents (Elt F)),
    StableHlo.binary main_v243 main_v196 main_v244 (muli : (⟨S32, .i32⟩ : BufTy).Contents (Elt F) → (⟨S32, .i32⟩ : BufTy).Contents (Elt F) → (⟨S32, .i32⟩ : BufTy).Contents (Elt F)),
    StableHlo.nullary main_c_48 (constantI S_ 32 1#32),
    StableHlo.unary main_c_48 main_v245 (broadcastInDim S32 ![] bcast_S_S32 : (⟨S_, .i32⟩ : BufTy).Contents (Elt F) → (⟨S32, .i32⟩ : BufTy).Contents (Elt F)),
    StableHlo.binary main_v244 main_v245 main_v246 (addi : (⟨S32, .i32⟩ : BufTy).Contents (Elt F) → (⟨S32, .i32⟩ : BufTy).Contents (Elt F) → (⟨S32, .i32⟩ : BufTy).Contents (Elt F)),
    StableHlo.nullary main_c_49 (constantI S_ 32 0#32),
    StableHlo.unary main_c_49 main_v247 (broadcastInDim S32 ![] bcast_S_S32 : (⟨S_, .i32⟩ : BufTy).Contents (Elt F) → (⟨S32, .i32⟩ : BufTy).Contents (Elt F)),
    StableHlo.binary main_v242 main_v247 main_v248 (cmpi .slt : (⟨S32, .i32⟩ : BufTy).Contents (Elt F) → (⟨S32, .i32⟩ : BufTy).Contents (Elt F) → (⟨S32, .i1⟩ : BufTy).Contents (Elt F)),
    StableHlo.nullary main_c_50 (constantI S_ 32 64#32),
    StableHlo.unary main_c_50 main_v249 (broadcastInDim S32 ![] bcast_S_S32 : (⟨S_, .i32⟩ : BufTy).Contents (Elt F) → (⟨S32, .i32⟩ : BufTy).Contents (Elt F)),
    StableHlo.binary main_v242 main_v249 main_v250 (addi : (⟨S32, .i32⟩ : BufTy).Contents (Elt F) → (⟨S32, .i32⟩ : BufTy).Contents (Elt F) → (⟨S32, .i32⟩ : BufTy).Contents (Elt F)),
    StableHlo.ternary main_v248 main_v250 main_v242 main_v251 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_51 (constantI S_ 32 0#32),
    StableHlo.unary main_c_51 main_v252 (broadcastInDim S32 ![] bcast_S_S32 : (⟨S_, .i32⟩ : BufTy).Contents (Elt F) → (⟨S32, .i32⟩ : BufTy).Contents (Elt F)),
    StableHlo.binary main_v246 main_v252 main_v253 (cmpi .slt : (⟨S32, .i32⟩ : BufTy).Contents (Elt F) → (⟨S32, .i32⟩ : BufTy).Contents (Elt F) → (⟨S32, .i1⟩ : BufTy).Contents (Elt F)),
    StableHlo.nullary main_c_52 (constantI S_ 32 64#32),
    StableHlo.unary main_c_52 main_v254 (broadcastInDim S32 ![] bcast_S_S32 : (⟨S_, .i32⟩ : BufTy).Contents (Elt F) → (⟨S32, .i32⟩ : BufTy).Contents (Elt F)),
    StableHlo.binary main_v246 main_v254 main_v255 (addi : (⟨S32, .i32⟩ : BufTy).Contents (Elt F) → (⟨S32, .i32⟩ : BufTy).Contents (Elt F) → (⟨S32, .i32⟩ : BufTy).Contents (Elt F)),
    StableHlo.ternary main_v253 main_v255 main_v246 main_v256 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v251 main_v257 (broadcastInDim S32x1 ![0] bcast_S32_S32x1_0 : (⟨S32, .i32⟩ : BufTy).Contents (Elt F) → (⟨S32x1, .i32⟩ : BufTy).Contents (Elt F)),
    StableHlo.unary main_v256 main_v258 (broadcastInDim S32x1 ![0] bcast_S32_S32x1_0 : (⟨S32, .i32⟩ : BufTy).Contents (Elt F) → (⟨S32x1, .i32⟩ : BufTy).Contents (Elt F)),
    StableHlo.binary main_v257 main_v258 main_v259 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v240 main_v259 main_v200 main_v260 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_53 (constantI S_ 32 2#32),
    StableHlo.unary main_c_53 main_v261 (broadcastInDim S32 ![] bcast_S_S32 : (⟨S_, .i32⟩ : BufTy).Contents (Elt F) → (⟨S32, .i32⟩ : BufTy).Contents (Elt F)),
    StableHlo.binary main_v261 main_v196 main_v262 (muli : (⟨S32, .i32⟩ : BufTy).Contents (Elt F) → (⟨S32, .i32⟩ : BufTy).Contents (Elt F) → (⟨S32, .i32⟩ : BufTy).Contents (Elt F)),
    StableHlo.nullary main_c_54 (constantI S_ 32 1#32),
    StableHlo.unary main_c_54 main_v263 (broadcastInDim S32 ![] bcast_S_S32 : (⟨S_, .i32⟩ : BufTy).Contents (Elt F) → (⟨S32, .i32⟩ : BufTy).Contents (Elt F)),
    StableHlo.binary main_v262 main_v263 main_v264 (addi : (⟨S32, .i32⟩ : BufTy).Contents (Elt F) → (⟨S32, .i32⟩ : BufTy).Contents (Elt F) → (⟨S32, .i32⟩ : BufTy).Contents (Elt F)),
    StableHlo.nullary main_c_55 (constantI S_ 32 2#32),
    StableHlo.unary main_c_55 main_v265 (broadcastInDim S32 ![] bcast_S_S32 : (⟨S_, .i32⟩ : BufTy).Contents (Elt F) → (⟨S32, .i32⟩ : BufTy).Contents (Elt F)),
    StableHlo.binary main_v265 main_v196 main_v266 (muli : (⟨S32, .i32⟩ : BufTy).Contents (Elt F) → (⟨S32, .i32⟩ : BufTy).Contents (Elt F) → (⟨S32, .i32⟩ : BufTy).Contents (Elt F)),
    StableHlo.nullary main_c_56 (constantI S_ 32 1#32),
    StableHlo.unary main_c_56 main_v267 (broadcastInDim S32 ![] bcast_S_S32 : (⟨S_, .i32⟩ : BufTy).Contents (Elt F) → (⟨S32, .i32⟩ : BufTy).Contents (Elt F)),
    StableHlo.binary main_v266 main_v267 main_v268 (addi : (⟨S32, .i32⟩ : BufTy).Contents (Elt F) → (⟨S32, .i32⟩ : BufTy).Contents (Elt F) → (⟨S32, .i32⟩ : BufTy).Contents (Elt F)),
    StableHlo.nullary main_c_57 (constantI S_ 32 0#32),
    StableHlo.unary main_c_57 main_v269 (broadcastInDim S32 ![] bcast_S_S32 : (⟨S_, .i32⟩ : BufTy).Contents (Elt F) → (⟨S32, .i32⟩ : BufTy).Contents (Elt F)),
    StableHlo.binary main_v264 main_v269 main_v270 (cmpi .slt : (⟨S32, .i32⟩ : BufTy).Contents (Elt F) → (⟨S32, .i32⟩ : BufTy).Contents (Elt F) → (⟨S32, .i1⟩ : BufTy).Contents (Elt F)),
    StableHlo.nullary main_c_58 (constantI S_ 32 64#32),
    StableHlo.unary main_c_58 main_v271 (broadcastInDim S32 ![] bcast_S_S32 : (⟨S_, .i32⟩ : BufTy).Contents (Elt F) → (⟨S32, .i32⟩ : BufTy).Contents (Elt F)),
    StableHlo.binary main_v264 main_v271 main_v272 (addi : (⟨S32, .i32⟩ : BufTy).Contents (Elt F) → (⟨S32, .i32⟩ : BufTy).Contents (Elt F) → (⟨S32, .i32⟩ : BufTy).Contents (Elt F)),
    StableHlo.ternary main_v270 main_v272 main_v264 main_v273 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_59 (constantI S_ 32 0#32),
    StableHlo.unary main_c_59 main_v274 (broadcastInDim S32 ![] bcast_S_S32 : (⟨S_, .i32⟩ : BufTy).Contents (Elt F) → (⟨S32, .i32⟩ : BufTy).Contents (Elt F)),
    StableHlo.binary main_v268 main_v274 main_v275 (cmpi .slt : (⟨S32, .i32⟩ : BufTy).Contents (Elt F) → (⟨S32, .i32⟩ : BufTy).Contents (Elt F) → (⟨S32, .i1⟩ : BufTy).Contents (Elt F)),
    StableHlo.nullary main_c_60 (constantI S_ 32 64#32),
    StableHlo.unary main_c_60 main_v276 (broadcastInDim S32 ![] bcast_S_S32 : (⟨S_, .i32⟩ : BufTy).Contents (Elt F) → (⟨S32, .i32⟩ : BufTy).Contents (Elt F)),
    StableHlo.binary main_v268 main_v276 main_v277 (addi : (⟨S32, .i32⟩ : BufTy).Contents (Elt F) → (⟨S32, .i32⟩ : BufTy).Contents (Elt F) → (⟨S32, .i32⟩ : BufTy).Contents (Elt F)),
    StableHlo.ternary main_v275 main_v277 main_v268 main_v278 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v273 main_v279 (broadcastInDim S32x1 ![0] bcast_S32_S32x1_0 : (⟨S32, .i32⟩ : BufTy).Contents (Elt F) → (⟨S32x1, .i32⟩ : BufTy).Contents (Elt F)),
    StableHlo.unary main_v278 main_v280 (broadcastInDim S32x1 ![0] bcast_S32_S32x1_0 : (⟨S32, .i32⟩ : BufTy).Contents (Elt F) → (⟨S32x1, .i32⟩ : BufTy).Contents (Elt F)),
    StableHlo.binary main_v279 main_v280 main_v281 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v260 main_v281 main_v198 main_v282 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)) ]
/-- The operations building the third matrix from the stack. -/
abbrev mat2Ops : List (HloOp τ sig (Elt F)) :=
  [
    StableHlo.unary main_v104 main_v283 ((extractStridedSlice S1x32x2 ![2, 0, 0] · slices_S3x32x2_S1x32x2_2_0_0) : (⟨S3x32x2, .f32⟩ : BufTy).Contents (Elt F) → (⟨S1x32x2, .f32⟩ : BufTy).Contents (Elt F)),
    StableHlo.reshape main_v283 main_v284 rfl shapeCasts_S1x32x2_S32x2,
    StableHlo.nullary main_v285 (iotaInDim S32 32 0),
    StableHlo.unary main_v284 main_v286 ((extractStridedSlice S32x1 ![0, 0] · slices_S32x2_S32x1_0_0) : (⟨S32x2, .f32⟩ : BufTy).Contents (Elt F) → (⟨S32x1, .f32⟩ : BufTy).Contents (Elt F)),
    StableHlo.reshape main_v286 main_v287 rfl shapeCasts_S32x1_S32,
    StableHlo.unary main_v284 main_v288 ((extractStridedSlice S32x1 ![0, 1] · slices_S32x2_S32x1_0_1) : (⟨S32x2, .f32⟩ : BufTy).Contents (Elt F) → (⟨S32x1, .f32⟩ : BufTy).Contents (Elt F)),
    StableHlo.reshape main_v288 main_v289 rfl shapeCasts_S32x1_S32,
    StableHlo.nullary main_cst_61 (constant S_ .f32 0x00000000#32),
    StableHlo.unary main_cst_61 main_v290 (broadcastInDim S64x64 ![] bcast_S_S64x64 : (⟨S_, .f32⟩ : BufTy).Contents (Elt F) → (⟨S64x64, .f32⟩ : BufTy).Contents (Elt F)),
    StableHlo.nullary main_c_62 (constantI S_ 32 2#32),
    StableHlo.unary main_c_62 main_v291 (broadcastInDim S32 ![] bcast_S_S32 : (⟨S_, .i32⟩ : BufTy).Contents (Elt F) → (⟨S32, .i32⟩ : BufTy).Contents (Elt F)),
    StableHlo.binary main_v291 main_v285 main_v292 (muli : (⟨S32, .i32⟩ : BufTy).Contents (Elt F) → (⟨S32, .i32⟩ : BufTy).Contents (Elt F) → (⟨S32, .i32⟩ : BufTy).Contents (Elt F)),
    StableHlo.nullary main_c_63 (constantI S_ 32 2#32),
    StableHlo.unary main_c_63 main_v293 (broadcastInDim S32 ![] bcast_S_S32 : (⟨S_, .i32⟩ : BufTy).Contents (Elt F) → (⟨S32, .i32⟩ : BufTy).Contents (Elt F)),
    StableHlo.binary main_v293 main_v285 main_v294 (muli : (⟨S32, .i32⟩ : BufTy).Contents (Elt F) → (⟨S32, .i32⟩ : BufTy).Contents (Elt F) → (⟨S32, .i32⟩ : BufTy).Contents (Elt F)),
    StableHlo.nullary main_c_64 (constantI S_ 32 0#32),
    StableHlo.unary main_c_64 main_v295 (broadcastInDim S32 ![] bcast_S_S32 : (⟨S_, .i32⟩ : BufTy).Contents (Elt F) → (⟨S32, .i32⟩ : BufTy).Contents (Elt F)),
    StableHlo.binary main_v292 main_v295 main_v296 (cmpi .slt : (⟨S32, .i32⟩ : BufTy).Contents (Elt F) → (⟨S32, .i32⟩ : BufTy).Contents (Elt F) → (⟨S32, .i1⟩ : BufTy).Contents (Elt F)),
    StableHlo.nullary main_c_65 (constantI S_ 32 64#32),
    StableHlo.unary main_c_65 main_v297 (broadcastInDim S32 ![] bcast_S_S32 : (⟨S_, .i32⟩ : BufTy).Contents (Elt F) → (⟨S32, .i32⟩ : BufTy).Contents (Elt F)),
    StableHlo.binary main_v292 main_v297 main_v298 (addi : (⟨S32, .i32⟩ : BufTy).Contents (Elt F) → (⟨S32, .i32⟩ : BufTy).Contents (Elt F) → (⟨S32, .i32⟩ : BufTy).Contents (Elt F)),
    StableHlo.ternary main_v296 main_v298 main_v292 main_v299 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_66 (constantI S_ 32 0#32),
    StableHlo.unary main_c_66 main_v300 (broadcastInDim S32 ![] bcast_S_S32 : (⟨S_, .i32⟩ : BufTy).Contents (Elt F) → (⟨S32, .i32⟩ : BufTy).Contents (Elt F)),
    StableHlo.binary main_v294 main_v300 main_v301 (cmpi .slt : (⟨S32, .i32⟩ : BufTy).Contents (Elt F) → (⟨S32, .i32⟩ : BufTy).Contents (Elt F) → (⟨S32, .i1⟩ : BufTy).Contents (Elt F)),
    StableHlo.nullary main_c_67 (constantI S_ 32 64#32),
    StableHlo.unary main_c_67 main_v302 (broadcastInDim S32 ![] bcast_S_S32 : (⟨S_, .i32⟩ : BufTy).Contents (Elt F) → (⟨S32, .i32⟩ : BufTy).Contents (Elt F)),
    StableHlo.binary main_v294 main_v302 main_v303 (addi : (⟨S32, .i32⟩ : BufTy).Contents (Elt F) → (⟨S32, .i32⟩ : BufTy).Contents (Elt F) → (⟨S32, .i32⟩ : BufTy).Contents (Elt F)),
    StableHlo.ternary main_v301 main_v303 main_v294 main_v304 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v299 main_v305 (broadcastInDim S32x1 ![0] bcast_S32_S32x1_0 : (⟨S32, .i32⟩ : BufTy).Contents (Elt F) → (⟨S32x1, .i32⟩ : BufTy).Contents (Elt F)),
    StableHlo.unary main_v304 main_v306 (broadcastInDim S32x1 ![0] bcast_S32_S32x1_0 : (⟨S32, .i32⟩ : BufTy).Contents (Elt F) → (⟨S32x1, .i32⟩ : BufTy).Contents (Elt F)),
    StableHlo.binary main_v305 main_v306 main_v307 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v290 main_v307 main_v287 main_v308 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_68 (constantI S_ 32 2#32),
    StableHlo.unary main_c_68 main_v309 (broadcastInDim S32 ![] bcast_S_S32 : (⟨S_, .i32⟩ : BufTy).Contents (Elt F) → (⟨S32, .i32⟩ : BufTy).Contents (Elt F)),
    StableHlo.binary main_v309 main_v285 main_v310 (muli : (⟨S32, .i32⟩ : BufTy).Contents (Elt F) → (⟨S32, .i32⟩ : BufTy).Contents (Elt F) → (⟨S32, .i32⟩ : BufTy).Contents (Elt F)),
    StableHlo.nullary main_c_69 (constantI S_ 32 1#32),
    StableHlo.unary main_c_69 main_v311 (broadcastInDim S32 ![] bcast_S_S32 : (⟨S_, .i32⟩ : BufTy).Contents (Elt F) → (⟨S32, .i32⟩ : BufTy).Contents (Elt F)),
    StableHlo.binary main_v310 main_v311 main_v312 (addi : (⟨S32, .i32⟩ : BufTy).Contents (Elt F) → (⟨S32, .i32⟩ : BufTy).Contents (Elt F) → (⟨S32, .i32⟩ : BufTy).Contents (Elt F)),
    StableHlo.nullary main_c_70 (constantI S_ 32 2#32),
    StableHlo.unary main_c_70 main_v313 (broadcastInDim S32 ![] bcast_S_S32 : (⟨S_, .i32⟩ : BufTy).Contents (Elt F) → (⟨S32, .i32⟩ : BufTy).Contents (Elt F)),
    StableHlo.binary main_v313 main_v285 main_v314 (muli : (⟨S32, .i32⟩ : BufTy).Contents (Elt F) → (⟨S32, .i32⟩ : BufTy).Contents (Elt F) → (⟨S32, .i32⟩ : BufTy).Contents (Elt F)),
    StableHlo.unary main_v289 main_v315 (Host.negf : (⟨S32, .f32⟩ : BufTy).Contents (Elt F) → (⟨S32, .f32⟩ : BufTy).Contents (Elt F)),
    StableHlo.nullary main_c_71 (constantI S_ 32 0#32),
    StableHlo.unary main_c_71 main_v316 (broadcastInDim S32 ![] bcast_S_S32 : (⟨S_, .i32⟩ : BufTy).Contents (Elt F) → (⟨S32, .i32⟩ : BufTy).Contents (Elt F)),
    StableHlo.binary main_v312 main_v316 main_v317 (cmpi .slt : (⟨S32, .i32⟩ : BufTy).Contents (Elt F) → (⟨S32, .i32⟩ : BufTy).Contents (Elt F) → (⟨S32, .i1⟩ : BufTy).Contents (Elt F)),
    StableHlo.nullary main_c_72 (constantI S_ 32 64#32),
    StableHlo.unary main_c_72 main_v318 (broadcastInDim S32 ![] bcast_S_S32 : (⟨S_, .i32⟩ : BufTy).Contents (Elt F) → (⟨S32, .i32⟩ : BufTy).Contents (Elt F)),
    StableHlo.binary main_v312 main_v318 main_v319 (addi : (⟨S32, .i32⟩ : BufTy).Contents (Elt F) → (⟨S32, .i32⟩ : BufTy).Contents (Elt F) → (⟨S32, .i32⟩ : BufTy).Contents (Elt F)),
    StableHlo.ternary main_v317 main_v319 main_v312 main_v320 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_73 (constantI S_ 32 0#32),
    StableHlo.unary main_c_73 main_v321 (broadcastInDim S32 ![] bcast_S_S32 : (⟨S_, .i32⟩ : BufTy).Contents (Elt F) → (⟨S32, .i32⟩ : BufTy).Contents (Elt F)),
    StableHlo.binary main_v314 main_v321 main_v322 (cmpi .slt : (⟨S32, .i32⟩ : BufTy).Contents (Elt F) → (⟨S32, .i32⟩ : BufTy).Contents (Elt F) → (⟨S32, .i1⟩ : BufTy).Contents (Elt F)),
    StableHlo.nullary main_c_74 (constantI S_ 32 64#32),
    StableHlo.unary main_c_74 main_v323 (broadcastInDim S32 ![] bcast_S_S32 : (⟨S_, .i32⟩ : BufTy).Contents (Elt F) → (⟨S32, .i32⟩ : BufTy).Contents (Elt F)),
    StableHlo.binary main_v314 main_v323 main_v324 (addi : (⟨S32, .i32⟩ : BufTy).Contents (Elt F) → (⟨S32, .i32⟩ : BufTy).Contents (Elt F) → (⟨S32, .i32⟩ : BufTy).Contents (Elt F)),
    StableHlo.ternary main_v322 main_v324 main_v314 main_v325 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v320 main_v326 (broadcastInDim S32x1 ![0] bcast_S32_S32x1_0 : (⟨S32, .i32⟩ : BufTy).Contents (Elt F) → (⟨S32x1, .i32⟩ : BufTy).Contents (Elt F)),
    StableHlo.unary main_v325 main_v327 (broadcastInDim S32x1 ![0] bcast_S32_S32x1_0 : (⟨S32, .i32⟩ : BufTy).Contents (Elt F) → (⟨S32x1, .i32⟩ : BufTy).Contents (Elt F)),
    StableHlo.binary main_v326 main_v327 main_v328 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v308 main_v328 main_v315 main_v329 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_75 (constantI S_ 32 2#32),
    StableHlo.unary main_c_75 main_v330 (broadcastInDim S32 ![] bcast_S_S32 : (⟨S_, .i32⟩ : BufTy).Contents (Elt F) → (⟨S32, .i32⟩ : BufTy).Contents (Elt F)),
    StableHlo.binary main_v330 main_v285 main_v331 (muli : (⟨S32, .i32⟩ : BufTy).Contents (Elt F) → (⟨S32, .i32⟩ : BufTy).Contents (Elt F) → (⟨S32, .i32⟩ : BufTy).Contents (Elt F)),
    StableHlo.nullary main_c_76 (constantI S_ 32 2#32),
    StableHlo.unary main_c_76 main_v332 (broadcastInDim S32 ![] bcast_S_S32 : (⟨S_, .i32⟩ : BufTy).Contents (Elt F) → (⟨S32, .i32⟩ : BufTy).Contents (Elt F)),
    StableHlo.binary main_v332 main_v285 main_v333 (muli : (⟨S32, .i32⟩ : BufTy).Contents (Elt F) → (⟨S32, .i32⟩ : BufTy).Contents (Elt F) → (⟨S32, .i32⟩ : BufTy).Contents (Elt F)),
    StableHlo.nullary main_c_77 (constantI S_ 32 1#32),
    StableHlo.unary main_c_77 main_v334 (broadcastInDim S32 ![] bcast_S_S32 : (⟨S_, .i32⟩ : BufTy).Contents (Elt F) → (⟨S32, .i32⟩ : BufTy).Contents (Elt F)),
    StableHlo.binary main_v333 main_v334 main_v335 (addi : (⟨S32, .i32⟩ : BufTy).Contents (Elt F) → (⟨S32, .i32⟩ : BufTy).Contents (Elt F) → (⟨S32, .i32⟩ : BufTy).Contents (Elt F)),
    StableHlo.nullary main_c_78 (constantI S_ 32 0#32),
    StableHlo.unary main_c_78 main_v336 (broadcastInDim S32 ![] bcast_S_S32 : (⟨S_, .i32⟩ : BufTy).Contents (Elt F) → (⟨S32, .i32⟩ : BufTy).Contents (Elt F)),
    StableHlo.binary main_v331 main_v336 main_v337 (cmpi .slt : (⟨S32, .i32⟩ : BufTy).Contents (Elt F) → (⟨S32, .i32⟩ : BufTy).Contents (Elt F) → (⟨S32, .i1⟩ : BufTy).Contents (Elt F)),
    StableHlo.nullary main_c_79 (constantI S_ 32 64#32),
    StableHlo.unary main_c_79 main_v338 (broadcastInDim S32 ![] bcast_S_S32 : (⟨S_, .i32⟩ : BufTy).Contents (Elt F) → (⟨S32, .i32⟩ : BufTy).Contents (Elt F)),
    StableHlo.binary main_v331 main_v338 main_v339 (addi : (⟨S32, .i32⟩ : BufTy).Contents (Elt F) → (⟨S32, .i32⟩ : BufTy).Contents (Elt F) → (⟨S32, .i32⟩ : BufTy).Contents (Elt F)),
    StableHlo.ternary main_v337 main_v339 main_v331 main_v340 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_80 (constantI S_ 32 0#32),
    StableHlo.unary main_c_80 main_v341 (broadcastInDim S32 ![] bcast_S_S32 : (⟨S_, .i32⟩ : BufTy).Contents (Elt F) → (⟨S32, .i32⟩ : BufTy).Contents (Elt F)),
    StableHlo.binary main_v335 main_v341 main_v342 (cmpi .slt : (⟨S32, .i32⟩ : BufTy).Contents (Elt F) → (⟨S32, .i32⟩ : BufTy).Contents (Elt F) → (⟨S32, .i1⟩ : BufTy).Contents (Elt F)),
    StableHlo.nullary main_c_81 (constantI S_ 32 64#32),
    StableHlo.unary main_c_81 main_v343 (broadcastInDim S32 ![] bcast_S_S32 : (⟨S_, .i32⟩ : BufTy).Contents (Elt F) → (⟨S32, .i32⟩ : BufTy).Contents (Elt F)),
    StableHlo.binary main_v335 main_v343 main_v344 (addi : (⟨S32, .i32⟩ : BufTy).Contents (Elt F) → (⟨S32, .i32⟩ : BufTy).Contents (Elt F) → (⟨S32, .i32⟩ : BufTy).Contents (Elt F)),
    StableHlo.ternary main_v342 main_v344 main_v335 main_v345 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v340 main_v346 (broadcastInDim S32x1 ![0] bcast_S32_S32x1_0 : (⟨S32, .i32⟩ : BufTy).Contents (Elt F) → (⟨S32x1, .i32⟩ : BufTy).Contents (Elt F)),
    StableHlo.unary main_v345 main_v347 (broadcastInDim S32x1 ![0] bcast_S32_S32x1_0 : (⟨S32, .i32⟩ : BufTy).Contents (Elt F) → (⟨S32x1, .i32⟩ : BufTy).Contents (Elt F)),
    StableHlo.binary main_v346 main_v347 main_v348 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v329 main_v348 main_v289 main_v349 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)),
    StableHlo.nullary main_c_82 (constantI S_ 32 2#32),
    StableHlo.unary main_c_82 main_v350 (broadcastInDim S32 ![] bcast_S_S32 : (⟨S_, .i32⟩ : BufTy).Contents (Elt F) → (⟨S32, .i32⟩ : BufTy).Contents (Elt F)),
    StableHlo.binary main_v350 main_v285 main_v351 (muli : (⟨S32, .i32⟩ : BufTy).Contents (Elt F) → (⟨S32, .i32⟩ : BufTy).Contents (Elt F) → (⟨S32, .i32⟩ : BufTy).Contents (Elt F)),
    StableHlo.nullary main_c_83 (constantI S_ 32 1#32),
    StableHlo.unary main_c_83 main_v352 (broadcastInDim S32 ![] bcast_S_S32 : (⟨S_, .i32⟩ : BufTy).Contents (Elt F) → (⟨S32, .i32⟩ : BufTy).Contents (Elt F)),
    StableHlo.binary main_v351 main_v352 main_v353 (addi : (⟨S32, .i32⟩ : BufTy).Contents (Elt F) → (⟨S32, .i32⟩ : BufTy).Contents (Elt F) → (⟨S32, .i32⟩ : BufTy).Contents (Elt F)),
    StableHlo.nullary main_c_84 (constantI S_ 32 2#32),
    StableHlo.unary main_c_84 main_v354 (broadcastInDim S32 ![] bcast_S_S32 : (⟨S_, .i32⟩ : BufTy).Contents (Elt F) → (⟨S32, .i32⟩ : BufTy).Contents (Elt F)),
    StableHlo.binary main_v354 main_v285 main_v355 (muli : (⟨S32, .i32⟩ : BufTy).Contents (Elt F) → (⟨S32, .i32⟩ : BufTy).Contents (Elt F) → (⟨S32, .i32⟩ : BufTy).Contents (Elt F)),
    StableHlo.nullary main_c_85 (constantI S_ 32 1#32),
    StableHlo.unary main_c_85 main_v356 (broadcastInDim S32 ![] bcast_S_S32 : (⟨S_, .i32⟩ : BufTy).Contents (Elt F) → (⟨S32, .i32⟩ : BufTy).Contents (Elt F)),
    StableHlo.binary main_v355 main_v356 main_v357 (addi : (⟨S32, .i32⟩ : BufTy).Contents (Elt F) → (⟨S32, .i32⟩ : BufTy).Contents (Elt F) → (⟨S32, .i32⟩ : BufTy).Contents (Elt F)),
    StableHlo.nullary main_c_86 (constantI S_ 32 0#32),
    StableHlo.unary main_c_86 main_v358 (broadcastInDim S32 ![] bcast_S_S32 : (⟨S_, .i32⟩ : BufTy).Contents (Elt F) → (⟨S32, .i32⟩ : BufTy).Contents (Elt F)),
    StableHlo.binary main_v353 main_v358 main_v359 (cmpi .slt : (⟨S32, .i32⟩ : BufTy).Contents (Elt F) → (⟨S32, .i32⟩ : BufTy).Contents (Elt F) → (⟨S32, .i1⟩ : BufTy).Contents (Elt F)),
    StableHlo.nullary main_c_87 (constantI S_ 32 64#32),
    StableHlo.unary main_c_87 main_v360 (broadcastInDim S32 ![] bcast_S_S32 : (⟨S_, .i32⟩ : BufTy).Contents (Elt F) → (⟨S32, .i32⟩ : BufTy).Contents (Elt F)),
    StableHlo.binary main_v353 main_v360 main_v361 (addi : (⟨S32, .i32⟩ : BufTy).Contents (Elt F) → (⟨S32, .i32⟩ : BufTy).Contents (Elt F) → (⟨S32, .i32⟩ : BufTy).Contents (Elt F)),
    StableHlo.ternary main_v359 main_v361 main_v353 main_v362 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_c_88 (constantI S_ 32 0#32),
    StableHlo.unary main_c_88 main_v363 (broadcastInDim S32 ![] bcast_S_S32 : (⟨S_, .i32⟩ : BufTy).Contents (Elt F) → (⟨S32, .i32⟩ : BufTy).Contents (Elt F)),
    StableHlo.binary main_v357 main_v363 main_v364 (cmpi .slt : (⟨S32, .i32⟩ : BufTy).Contents (Elt F) → (⟨S32, .i32⟩ : BufTy).Contents (Elt F) → (⟨S32, .i1⟩ : BufTy).Contents (Elt F)),
    StableHlo.nullary main_c_89 (constantI S_ 32 64#32),
    StableHlo.unary main_c_89 main_v365 (broadcastInDim S32 ![] bcast_S_S32 : (⟨S_, .i32⟩ : BufTy).Contents (Elt F) → (⟨S32, .i32⟩ : BufTy).Contents (Elt F)),
    StableHlo.binary main_v357 main_v365 main_v366 (addi : (⟨S32, .i32⟩ : BufTy).Contents (Elt F) → (⟨S32, .i32⟩ : BufTy).Contents (Elt F) → (⟨S32, .i32⟩ : BufTy).Contents (Elt F)),
    StableHlo.ternary main_v364 main_v366 main_v357 main_v367 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v362 main_v368 (broadcastInDim S32x1 ![0] bcast_S32_S32x1_0 : (⟨S32, .i32⟩ : BufTy).Contents (Elt F) → (⟨S32x1, .i32⟩ : BufTy).Contents (Elt F)),
    StableHlo.unary main_v367 main_v369 (broadcastInDim S32x1 ![0] bcast_S32_S32x1_0 : (⟨S32, .i32⟩ : BufTy).Contents (Elt F) → (⟨S32x1, .i32⟩ : BufTy).Contents (Elt F)),
    StableHlo.binary main_v368 main_v369 main_v370 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v349 main_v370 main_v287 main_v371 ((fun x i u => Host.scatter scatter_S64x64_S32x2_S32_n_01_01_1 (fun _ b => b) x i u) : (⟨S64x64, .f32⟩ : BufTy).Contents (Elt F) → (⟨S32x2, .i32⟩ : BufTy).Contents (Elt F) → (⟨S32, .f32⟩ : BufTy).Contents (Elt F) → (⟨S64x64, .f32⟩ : BufTy).Contents (Elt F)) ]
/-- Each matrix given a leading unit axis. -/
abbrev fin3Ops : List (HloOp τ sig (Elt F)) :=
  [
    StableHlo.unary main_v193 main_v372 (broadcastInDim S1x64x64 ![1, 2] bcast_S64x64_S1x64x64_1_2 : (⟨S64x64, .f32⟩ : BufTy).Contents (Elt F) → (⟨S1x64x64, .f32⟩ : BufTy).Contents (Elt F)),
    StableHlo.unary main_v282 main_v373 (broadcastInDim S1x64x64 ![1, 2] bcast_S64x64_S1x64x64_1_2 : (⟨S64x64, .f32⟩ : BufTy).Contents (Elt F) → (⟨S1x64x64, .f32⟩ : BufTy).Contents (Elt F)),
    StableHlo.unary main_v371 main_v374 (broadcastInDim S1x64x64 ![1, 2] bcast_S64x64_S1x64x64_1_2 : (⟨S64x64, .f32⟩ : BufTy).Contents (Elt F) → (⟨S1x64x64, .f32⟩ : BufTy).Contents (Elt F)) ]
/-- The three matrices stacked. -/
abbrev catOps : List (HloOp τ sig (Elt F)) :=
  [
    StableHlo.nary ![main_v372, main_v373, main_v374] main_v375 (fun u => concatenate S3x64x64 0 [⟨S1x64x64, u 0⟩, ⟨S1x64x64, u 1⟩, ⟨S1x64x64, u 2⟩] concatenates_S1x64x64_S1x64x64_S1x64x64_S3x64x64_d0) ]

set_option maxHeartbeats 40000000 in
/-- The line is its six stretches in order. -/
theorem hostTail_cut : (hostTail : List (HloOp τ sig (Elt F)))
    = rowsOps ++ (mat0Ops ++ (mat1Ops ++ (mat2Ops ++ (fin3Ops ++ catOps)))) := rfl

/-- The final stack read at block 0: the first of the stacked arrays. -/
theorem cat_read_0 (V : Valuation τ sig (Elt Ideal)) (k j : Fin 64) :
    StableHlo.after (catOps (F := Ideal)) V (Proc.devRef .tc main_v375) (ix3 (0 : Fin 3) k j)
      = V (Proc.devRef .tc main_v372) (ix3 (0 : Fin 1) k j) := by
  after_results_simp
  refine (stack3_lead_apply _ _ _ _ (0 : Fin 3) k j).trans ?_
  rfl

/-- The final stack read at block 1: the second of the stacked arrays. -/
theorem cat_read_1 (V : Valuation τ sig (Elt Ideal)) (k j : Fin 64) :
    StableHlo.after (catOps (F := Ideal)) V (Proc.devRef .tc main_v375) (ix3 (1 : Fin 3) k j)
      = V (Proc.devRef .tc main_v373) (ix3 (0 : Fin 1) k j) := by
  after_results_simp
  refine (stack3_lead_apply _ _ _ _ (1 : Fin 3) k j).trans ?_
  rfl

/-- The final stack read at block 2: the third of the stacked arrays. -/
theorem cat_read_2 (V : Valuation τ sig (Elt Ideal)) (k j : Fin 64) :
    StableHlo.after (catOps (F := Ideal)) V (Proc.devRef .tc main_v375) (ix3 (2 : Fin 3) k j)
      = V (Proc.devRef .tc main_v374) (ix3 (0 : Fin 1) k j) := by
  after_results_simp
  refine (stack3_lead_apply _ _ _ _ (2 : Fin 3) k j).trans ?_
  rfl

/-- Matrix 0 under its leading unit axis. -/
theorem fin3_read_0 (V : Valuation τ sig (Elt Ideal)) (k j : Fin 64) :
    StableHlo.after (fin3Ops (F := Ideal)) V (Proc.devRef .tc main_v372) (ix3 (0 : Fin 1) k j)
      = V (Proc.devRef .tc main_v193) (ix2 k j) := by
  after_results_simp
  exact lead_apply _ _ k j

/-- Matrix 1 under its leading unit axis. -/
theorem fin3_read_1 (V : Valuation τ sig (Elt Ideal)) (k j : Fin 64) :
    StableHlo.after (fin3Ops (F := Ideal)) V (Proc.devRef .tc main_v373) (ix3 (0 : Fin 1) k j)
      = V (Proc.devRef .tc main_v282) (ix2 k j) := by
  after_results_simp
  exact lead_apply _ _ k j

/-- Matrix 2 under its leading unit axis. -/
theorem fin3_read_2 (V : Valuation τ sig (Elt Ideal)) (k j : Fin 64) :
    StableHlo.after (fin3Ops (F := Ideal)) V (Proc.devRef .tc main_v374) (ix3 (0 : Fin 1) k j)
      = V (Proc.devRef .tc main_v371) (ix2 k j) := by
  after_results_simp
  exact lead_apply _ _ k j

/-- The stack of rows read at row 0. -/
theorem rows_read_0 (W : Valuation τ sig (Elt Ideal)) (e : Fin 32) (c : Fin 2) :
    StableHlo.after (rowsOps (F := Ideal)) W (Proc.devRef .tc main_v104) (ix3 (0 : Fin 3) e c)
      = W (Proc.devRef .tc main_v101) (ix3 (0 : Fin 1) e c) := by
  after_results_simp
  refine (stack3_lead_apply _ _ _ _ (0 : Fin 3) e c).trans ?_
  rfl

/-- The stack of rows read at row 1. -/
theorem rows_read_1 (W : Valuation τ sig (Elt Ideal)) (e : Fin 32) (c : Fin 2) :
    StableHlo.after (rowsOps (F := Ideal)) W (Proc.devRef .tc main_v104) (ix3 (1 : Fin 3) e c)
      = W (Proc.devRef .tc main_v102) (ix3 (0 : Fin 1) e c) := by
  after_results_simp
  refine (stack3_lead_apply _ _ _ _ (1 : Fin 3) e c).trans ?_
  rfl

/-- The stack of rows read at row 2. -/
theorem rows_read_2 (W : Valuation τ sig (Elt Ideal)) (e : Fin 32) (c : Fin 2) :
    StableHlo.after (rowsOps (F := Ideal)) W (Proc.devRef .tc main_v104) (ix3 (2 : Fin 3) e c)
      = W (Proc.devRef .tc main_v103) (ix3 (0 : Fin 1) e c) := by
  after_results_simp
  refine (stack3_lead_apply _ _ _ _ (2 : Fin 3) e c).trans ?_
  rfl

set_option maxHeartbeats 40000000 in
/-- The stretch building matrix 2 leaves buffer `main_v193` as it was. -/
theorem skip_mat2_v193 (V : Valuation τ sig (Elt Ideal)) :
    StableHlo.after (mat2Ops (F := Ideal)) V (Proc.devRef .tc main_v193) = V (Proc.devRef .tc main_v193) := by
  after_results_simp

set_option maxHeartbeats 40000000 in
/-- The stretch building matrix 1 leaves buffer `main_v193` as it was. -/
theorem skip_mat1_v193 (V : Valuation τ sig (Elt Ideal)) :
    StableHlo.after (mat1Ops (F := Ideal)) V (Proc.devRef .tc main_v193) = V (Proc.devRef .tc main_v193) := by
  after_results_simp

set_option maxHeartbeats 40000000 in
/-- The stretch building matrix 2 leaves buffer `main_v282` as it was. -/
theorem skip_mat2_v282 (V : Valuation τ sig (Elt Ideal)) :
    StableHlo.after (mat2Ops (F := Ideal)) V (Proc.devRef .tc main_v282) = V (Proc.devRef .tc main_v282) := by
  after_results_simp

set_option maxHeartbeats 40000000 in
/-- The stretch building matrix 0 leaves buffer `main_v104` as it was. -/
theorem skip_mat0_v104 (V : Valuation τ sig (Elt Ideal)) :
    StableHlo.after (mat0Ops (F := Ideal)) V (Proc.devRef .tc main_v104) = V (Proc.devRef .tc main_v104) := by
  after_results_simp

set_option maxHeartbeats 40000000 in
/-- The stretch building matrix 1 leaves buffer `main_v104` as it was. -/
theorem skip_mat1_v104 (V : Valuation τ sig (Elt Ideal)) :
    StableHlo.after (mat1Ops (F := Ideal)) V (Proc.devRef .tc main_v104) = V (Proc.devRef .tc main_v104) := by
  after_results_simp

set_option maxHeartbeats 40000000 in
/-- Matrix 0 read at an entry, in terms of the stack of rows its stretch starts from. -/
theorem mat0_read (V : Valuation τ sig (Elt Ideal)) (k j : Fin 64) :
    StableHlo.after (mat0Ops (F := Ideal)) V (Proc.devRef .tc main_v193) (ix2 k j)
      = entry (fun i : S1x32x2.Idx => (V (Proc.devRef .tc main_v104) : S3x32x2.Idx → EReal) (ix3 (0 : Fin 3) (i 1 : Fin 32) (i 2 : Fin 2))) k j := by
  after_results_simp
  refine mat_entry _ _ ?_ _ _ _ _ _ _ _ ?_ ?_ ?_ ?_ ?_ ?_ ?_ k j
  · intro i; exact zeros_apply _ i
  · refine land00 _ _ ?_ ?_ <;> after_results_simp
  · refine land10 _ _ ?_ ?_ <;> after_results_simp
  · refine land01 _ _ ?_ ?_ <;> after_results_simp
  · refine land11 _ _ ?_ ?_ <;> after_results_simp
  · intro e; exact (col_apply _ 0 0 rfl _ _ e).trans (row_apply _ 0 0 rfl _ _ e 0)
  · intro e; exact (col_apply _ 1 1 rfl _ _ e).trans (row_apply _ 0 0 rfl _ _ e 1)
  · intro e; exact congrArg (fun v : EReal => -v) ((col_apply _ 1 1 rfl _ _ e).trans (row_apply _ 0 0 rfl _ _ e 1))

set_option maxHeartbeats 40000000 in
/-- Matrix 1 read at an entry, in terms of the stack of rows its stretch starts from. -/
theorem mat1_read (V : Valuation τ sig (Elt Ideal)) (k j : Fin 64) :
    StableHlo.after (mat1Ops (F := Ideal)) V (Proc.devRef .tc main_v282) (ix2 k j)
      = entry (fun i : S1x32x2.Idx => (V (Proc.devRef .tc main_v104) : S3x32x2.Idx → EReal) (ix3 (1 : Fin 3) (i 1 : Fin 32) (i 2 : Fin 2))) k j := by
  after_results_simp
  refine mat_entry _ _ ?_ _ _ _ _ _ _ _ ?_ ?_ ?_ ?_ ?_ ?_ ?_ k j
  · intro i; exact zeros_apply _ i
  · refine land00 _ _ ?_ ?_ <;> after_results_simp
  · refine land10 _ _ ?_ ?_ <;> after_results_simp
  · refine land01 _ _ ?_ ?_ <;> after_results_simp
  · refine land11 _ _ ?_ ?_ <;> after_results_simp
  · intro e; exact (col_apply _ 0 0 rfl _ _ e).trans (row_apply _ 1 1 rfl _ _ e 0)
  · intro e; exact (col_apply _ 1 1 rfl _ _ e).trans (row_apply _ 1 1 rfl _ _ e 1)
  · intro e; exact congrArg (fun v : EReal => -v) ((col_apply _ 1 1 rfl _ _ e).trans (row_apply _ 1 1 rfl _ _ e 1))

set_option maxHeartbeats 40000000 in
/-- Matrix 2 read at an entry, in terms of the stack of rows its stretch starts from. -/
theorem mat2_read (V : Valuation τ sig (Elt Ideal)) (k j : Fin 64) :
    StableHlo.after (mat2Ops (F := Ideal)) V (Proc.devRef .tc main_v371) (ix2 k j)
      = entry (fun i : S1x32x2.Idx => (V (Proc.devRef .tc main_v104) : S3x32x2.Idx → EReal) (ix3 (2 : Fin 3) (i 1 : Fin 32) (i 2 : Fin 2))) k j := by
  after_results_simp
  refine mat_entry _ _ ?_ _ _ _ _ _ _ _ ?_ ?_ ?_ ?_ ?_ ?_ ?_ k j
  · intro i; exact zeros_apply _ i
  · refine land00 _ _ ?_ ?_ <;> after_results_simp
  · refine land10 _ _ ?_ ?_ <;> after_results_simp
  · refine land01 _ _ ?_ ?_ <;> after_results_simp
  · refine land11 _ _ ?_ ?_ <;> after_results_simp
  · intro e; exact (col_apply _ 0 0 rfl _ _ e).trans (row_apply _ 2 2 rfl _ _ e 0)
  · intro e; exact (col_apply _ 1 1 rfl _ _ e).trans (row_apply _ 2 2 rfl _ _ e 1)
  · intro e; exact congrArg (fun v : EReal => -v) ((col_apply _ 1 1 rfl _ _ e).trans (row_apply _ 2 2 rfl _ _ e 1))

set_option maxHeartbeats 40000000 in
/-- Block 0 of the result is the matrix of the first row. -/
theorem rotMat_apply_0 (W : Valuation τ sig (Elt Ideal)) (k j : Fin 64) :
    StableHlo.after (hostTail (F := Ideal)) W (Proc.devRef .tc main_v375) (ix3 (0 : Fin 3) k j)
      = entry (W (Proc.devRef .tc main_v101)) k j := by
  rw [hostTail_cut, StableHlo.after_append, StableHlo.after_append, StableHlo.after_append, StableHlo.after_append,
    StableHlo.after_append, cat_read_0, fin3_read_0, skip_mat2_v193, skip_mat1_v193, mat0_read]
  refine entry_congr _ _ ?_ k j
  intro e c
  exact rows_read_0 W e c

set_option maxHeartbeats 40000000 in
/-- Block 1 of the result is the matrix of the second row. -/
theorem rotMat_apply_1 (W : Valuation τ sig (Elt Ideal)) (k j : Fin 64) :
    StableHlo.after (hostTail (F := Ideal)) W (Proc.devRef .tc main_v375) (ix3 (1 : Fin 3) k j)
      = entry (W (Proc.devRef .tc main_v102)) k j := by
  rw [hostTail_cut, StableHlo.after_append, StableHlo.after_append, StableHlo.after_append, StableHlo.after_append,
    StableHlo.after_append, cat_read_1, fin3_read_1, skip_mat2_v282, mat1_read, skip_mat0_v104]
  refine entry_congr _ _ ?_ k j
  intro e c
  exact rows_read_1 W e c

set_option maxHeartbeats 40000000 in
/-- Block 2 of the result is the matrix of the third row. -/
theorem rotMat_apply_2 (W : Valuation τ sig (Elt Ideal)) (k j : Fin 64) :
    StableHlo.after (hostTail (F := Ideal)) W (Proc.devRef .tc main_v375) (ix3 (2 : Fin 3) k j)
      = entry (W (Proc.devRef .tc main_v103)) k j := by
  rw [hostTail_cut, StableHlo.after_append, StableHlo.after_append, StableHlo.after_append, StableHlo.after_append,
    StableHlo.after_append, cat_read_2, fin3_read_2, mat2_read, skip_mat1_v104, skip_mat0_v104]
  refine entry_congr _ _ ?_ k j
  intro e c
  exact rows_read_2 W e c

end Cert.KernelIdeal.RotMat
end
-- ==== Proof.RotAlg.lean ====
/-
  The little algebra that joins a block-diagonal matrix product to a complex rotation, on the extended reals.

  A 64-term sum `Σ_k x k · g k` in which `g` vanishes off two lanes is the sum of those two terms (a product with
  zero is zero on the extended reals, whatever the other factor).  Multiplying by a negated number is negating the
  product, and subtracting is adding the negation, so `a·p + b·(−q) = a·p − b·q`.  Dividing by the float 4.0 is
  multiplying by the float 0.25: both denote the rationals they spell.
-/
import Idealize.ShloMosaic.PureOps.Ideal
import Idealize.ShloMosaic.PureOps.Ideal.Laws

noncomputable section

namespace Cert.RotAlg

open Idealize.ShloMosaic

/-- `4.0` denotes the real 4. -/
theorem ofBits_four : Ideal.ofBits .f32 0x40800000#32 = ((4 : ℝ) : EReal) := by
  simp [Ideal.ofBits, Ideal.ieee, -EReal.coe_mul]; norm_num

/-- `0.25` denotes the real 1/4. -/
theorem ofBits_quarter : Ideal.ofBits .f32 0x3E800000#32 = ((1 / 4 : ℝ) : EReal) := by
  simp [Ideal.ofBits, Ideal.ieee, -EReal.coe_mul]; norm_num

/-- Dividing by 4.0 is multiplying by 0.25, on every extended real. -/
theorem div_four (x : EReal) : Ideal.div x (Ideal.ofBits .f32 0x40800000#32) = x * Ideal.ofBits .f32 0x3E800000#32 := by
  rw [ofBits_four, ofBits_quarter]
  exact Ideal.div_coe (by norm_num) x

/-- A sum of products whose second factor vanishes off two distinct indices is the two products there. -/
theorem sum_two {n : Nat} (x g : Fin n → EReal) (a b : Fin n) (hab : a ≠ b)
    (hz : ∀ k : Fin n, k ≠ a → k ≠ b → g k = 0) :
    ∑ k : Fin n, x k * g k = x a * g a + x b * g b :=
  Finset.sum_eq_add a b hab (fun k _ h => by rw [hz k h.1 h.2, mul_zero])
    (fun h => absurd (Finset.mem_univ a) h) (fun h => absurd (Finset.mem_univ b) h)

/-- A product with a negated factor added is the product subtracted. -/
theorem add_mul_neg (a p b q : EReal) : a * p + b * (-q) = a * p - b * q := by
  rw [mul_neg, sub_eq_add_neg]

end Cert.RotAlg

end
-- ==== Proof.RotSpec.lean ====
/-
  The specification both programs meet, and the identity between a block-diagonal product and a complex rotation.

  A row of 64 lanes is 32 complex numbers: lane `2·d + c` is component `c` (0 real, 1 imaginary) of number `d`.  A rotation
  row `f` holds 32 complex numbers `(f d 0, f d 1)`.  Its matrix has, in the 2×2 block of number `d`,

      [  f d 0    f d 1 ]
      [ −f d 1    f d 0 ]            (row index = input lane, column index = output lane)

  and zero elsewhere, so a row vector `x` times it has, at output lane `2·d + c`, only the two products of column `c` of block `d`:
  `x(2d)·f d 0 − x(2d+1)·f d 1` for the real part and `x(2d)·f d 1 + x(2d+1)·f d 0` for the imaginary part — the complex product.
  The result of either program at row `n`, lane `2·d + c` is the sum of the three rotated positions and the fourth, times ¼.
-/
import proofs.«111939_j20813411516915_2_alg».proof.Proof.RotAlg
import Idealize.ShloMosaic.Lib.ValueIdx

noncomputable section

namespace Cert.RotSpec

open Idealize.ShloMosaic Idealize.ShloMosaic.ValueIdx

/-- The feature array, and one rotation row. -/
abbrev Feat := (⟨3, ![1000000, 4, 64]⟩ : Shape).Idx → EReal
abbrev Row := (⟨3, ![1, 32, 2]⟩ : Shape).Idx → EReal

/-- Lane `2·d + c`. -/
def lane (d : Fin 32) (c : Fin 2) : Fin 64 := ⟨2 * d.val + c.val, by omega⟩

theorem lane_val (d : Fin 32) (c : Fin 2) : (lane d c).val = 2 * d.val + c.val := rfl

/-- Every lane is some `2·d + c`. -/
theorem lane_cases (j : Fin 64) : ∃ (d : Fin 32) (c : Fin 2), j = lane d c :=
  ⟨⟨j.val / 2, by have := j.isLt; omega⟩, ⟨j.val % 2, by omega⟩, Fin.ext (by show j.val = 2 * (j.val / 2) + j.val % 2; omega)⟩

/-- The entry at (input lane `k`, output lane `j`) of a rotation row's block-diagonal matrix. -/
def entry (f : Row) (k j : Fin 64) : EReal :=
  if k.val / 2 = j.val / 2 then
    (if k.val % 2 = 0 then (if j.val % 2 = 0 then f (ix3 0 ⟨j.val / 2, by have := j.isLt; omega⟩ 0) else f (ix3 0 ⟨j.val / 2, by have := j.isLt; omega⟩ 1))
     else (if j.val % 2 = 0 then - f (ix3 0 ⟨j.val / 2, by have := j.isLt; omega⟩ 1) else f (ix3 0 ⟨j.val / 2, by have := j.isLt; omega⟩ 0)))
  else 0

/-- One rotated position of row `n` at lane `2·d + c`. -/
def rotX (X : Feat) (f : Row) (n : Fin 1000000) (l : Fin 4) (d : Fin 32) (c : Fin 2) : EReal :=
  if c.val = 0 then X (ix3 n l (lane d 0)) * f (ix3 0 d 0) - X (ix3 n l (lane d 1)) * f (ix3 0 d 1)
  else X (ix3 n l (lane d 0)) * f (ix3 0 d 1) + X (ix3 n l (lane d 1)) * f (ix3 0 d 0)

/-- The mean over the four positions, the first three rotated. -/
def mean4 (X : Feat) (f0 f1 f2 : Row) (n : Fin 1000000) (d : Fin 32) (c : Fin 2) : EReal :=
  (((rotX X f0 n 0 d c + rotX X f1 n 1 d c) + rotX X f2 n 2 d c) + X (ix3 n 3 (lane d c))) * Ideal.ofBits .f32 0x3E800000#32

theorem half_lane (d : Fin 32) (c : Fin 2) (h : (lane d c).val / 2 < 32) : (⟨(lane d c).val / 2, h⟩ : Fin 32) = d :=
  Fin.ext (by show (2 * d.val + c.val) / 2 = d.val; omega)

/-- The matrix entries of block `d`, column `c`. -/
theorem entry_top (f : Row) (d : Fin 32) (c : Fin 2) :
    entry f (lane d 0) (lane d c) = if c.val = 0 then f (ix3 0 d 0) else f (ix3 0 d 1) := by
  unfold entry
  have h1 : (lane d 0).val / 2 = (lane d c).val / 2 := by simp only [lane_val]; omega
  have h2 : (lane d 0).val % 2 = 0 := by simp only [lane_val]; show (2 * d.val + 0) % 2 = 0; omega
  rw [if_pos h1, if_pos h2]
  by_cases hc : c.val = 0
  · have h3 : (lane d c).val % 2 = 0 := by simp only [lane_val]; omega
    rw [if_pos h3, if_pos hc, half_lane]
  · have h3 : ¬ (lane d c).val % 2 = 0 := by simp only [lane_val]; omega
    rw [if_neg h3, if_neg hc, half_lane]

theorem entry_bot (f : Row) (d : Fin 32) (c : Fin 2) :
    entry f (lane d 1) (lane d c) = if c.val = 0 then - f (ix3 0 d 1) else f (ix3 0 d 0) := by
  unfold entry
  have h1 : (lane d 1).val / 2 = (lane d c).val / 2 := by simp only [lane_val]; show (2 * d.val + 1) / 2 = (2 * d.val + c.val) / 2; omega
  have h2 : ¬ (lane d 1).val % 2 = 0 := by simp only [lane_val]; show ¬ (2 * d.val + 1) % 2 = 0; omega
  rw [if_pos h1, if_neg h2]
  by_cases hc : c.val = 0
  · have h3 : (lane d c).val % 2 = 0 := by simp only [lane_val]; omega
    rw [if_pos h3, if_pos hc, half_lane]
  · have h3 : ¬ (lane d c).val % 2 = 0 := by simp only [lane_val]; omega
    rw [if_neg h3, if_neg hc, half_lane]

theorem entry_off (f : Row) (d : Fin 32) (c : Fin 2) (k : Fin 64) (h0 : k ≠ lane d 0) (h1 : k ≠ lane d 1) :
    entry f k (lane d c) = 0 := by
  unfold entry
  have a0 : k.val ≠ 2 * d.val + 0 := fun e => h0 (Fin.ext e)
  have a1 : k.val ≠ 2 * d.val + 1 := fun e => h1 (Fin.ext e)
  have hne : ¬ k.val / 2 = (lane d c).val / 2 := by simp only [lane_val]; omega
  rw [if_neg hne]

/-- A row vector times a rotation row's matrix, at lane `2·d + c`: the complex product's component `c`. -/
theorem row_times_matrix (x : Fin 64 → EReal) (f : Row) (d : Fin 32) (c : Fin 2) :
    ∑ k : Fin 64, x k * entry f k (lane d c)
      = if c.val = 0 then x (lane d 0) * f (ix3 0 d 0) - x (lane d 1) * f (ix3 0 d 1)
        else x (lane d 0) * f (ix3 0 d 1) + x (lane d 1) * f (ix3 0 d 0) := by
  have h01 : lane d 0 ≠ lane d 1 := fun h => by
    have := congrArg Fin.val h
    simp only [lane_val] at this
    have e0 : (0 : Fin 2).val = 0 := rfl
    have e1 : (1 : Fin 2).val = 1 := rfl
    omega
  rw [Cert.RotAlg.sum_two x (fun k => entry f k (lane d c)) (lane d 0) (lane d 1) h01
    (fun k h0 h1 => entry_off f d c k h0 h1), entry_top, entry_bot]
  by_cases hc : c.val = 0
  · rw [if_pos hc, if_pos hc, if_pos hc, Cert.RotAlg.add_mul_neg]
  · rw [if_neg hc, if_neg hc, if_neg hc]

end Cert.RotSpec

end
-- ==== Proof.KIBridge.lean ====
/-
  The kernel's result at an index, as the specification.

  The kernel's host prefix is its first part followed by its second.  The second part turns the three rotation rows the first
  part leaves into the three block-diagonal matrices the region reads, so the matrix array at (l, k, j) is the block-diagonal
  entry of row `l`.  A feature row times such a matrix is, lane by lane, the complex product with the rotation row; so what the
  region writes at row `n`, lane `2·d + c` — three such products, plus the fourth position, times ¼ — is `mean4` of the feature
  array and the three rows.
-/
import proofs.«111939_j20813411516915_2_alg».proof.Proof.KIValue
import proofs.«111939_j20813411516915_2_alg».proof.Proof.KIRotMat
import proofs.«111939_j20813411516915_2_alg».proof.Proof.RotSpec
import Idealize.ShloMosaic.Lib.Pipeline.Frame

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx Idealize.ShloMosaic.StableHlo

variable (m : (ℓ : Loc nD τ sig) → Buf (Elt Ideal) ℓ)

/-- What the region finds is the second part's fold over what the first part leaves. -/
theorem V_split (c : Dev nD) (b : Ref sig .tc) :
    V m c b = after (hostTail (F := Ideal)) (after (hostPre (F := Ideal)) (fun b => m (c, b))) b := by
  show after (hostOps0 (F := Ideal)) (fun b => m (c, b)) b = _
  rw [hostOps0_split, StableHlo.after_append]

/-- The two spellings of the block-diagonal entry are one function. -/
theorem entry_eq (f : S1x32x2.Idx → EReal) (k j : Fin 64) : Cert.KernelIdeal.RotMat.entry f k j = Cert.RotSpec.entry f k j := rfl

/-- The matrix array as the region finds it, entry by entry. -/
theorem mat_entry (c : Dev nD) (k j : Fin 64) :
    V m c main_v375 (ix3 (0 : Fin 3) k j)
        = Cert.RotSpec.entry (after (hostPre (F := Ideal)) (fun b => m (c, b)) (Proc.devRef .tc main_v101)) k j
    ∧ V m c main_v375 (ix3 (1 : Fin 3) k j)
        = Cert.RotSpec.entry (after (hostPre (F := Ideal)) (fun b => m (c, b)) (Proc.devRef .tc main_v102)) k j
    ∧ V m c main_v375 (ix3 (2 : Fin 3) k j)
        = Cert.RotSpec.entry (after (hostPre (F := Ideal)) (fun b => m (c, b)) (Proc.devRef .tc main_v103)) k j := by
  rw [V_split]
  exact ⟨(Cert.KernelIdeal.RotMat.rotMat_apply_0 _ k j).trans (entry_eq _ k j),
    (Cert.KernelIdeal.RotMat.rotMat_apply_1 _ k j).trans (entry_eq _ k j),
    (Cert.KernelIdeal.RotMat.rotMat_apply_2 _ k j).trans (entry_eq _ k j)⟩

/-- `entryK` over a matrix array that is block-diagonal in each of its three matrices is `mean4`. -/
theorem entryK_mean4 (X : S1000000x4x64.Idx → EReal) (R : S3x64x64.Idx → EReal) (f0 f1 f2 : S1x32x2.Idx → EReal)
    (h0 : ∀ k j : Fin 64, R (ix3 (0 : Fin 3) k j) = Cert.RotSpec.entry f0 k j)
    (h1 : ∀ k j : Fin 64, R (ix3 (1 : Fin 3) k j) = Cert.RotSpec.entry f1 k j)
    (h2 : ∀ k j : Fin 64, R (ix3 (2 : Fin 3) k j) = Cert.RotSpec.entry f2 k j)
    (n : Fin 1000000) (d : Fin 32) (c : Fin 2) :
    entryK X R n (Cert.RotSpec.lane d c) = Cert.RotSpec.mean4 X f0 f1 f2 n d c := by
  unfold entryK
  simp only [h0, h1, h2]
  rw [Cert.RotSpec.row_times_matrix (fun k => X (ix3 n 0 k)) f0 d c,
    Cert.RotSpec.row_times_matrix (fun k => X (ix3 n 1 k)) f1 d c,
    Cert.RotSpec.row_times_matrix (fun k => X (ix3 n 2 k)) f2 d c]
  rfl

/-- The kernel's result at row `n`, lane `2·d + c`. -/
theorem kernel_entry (c : Dev nD) (n : Fin 1000000) (d : Fin 32) (cc : Fin 2) :
    GK (m ((c.tc : Thread nD τ).loc main_arg0)) (V m c main_v375) (ix2 n (Cert.RotSpec.lane d cc))
      = Cert.RotSpec.mean4 (m ((c.tc : Thread nD τ).loc main_arg0))
          (after (hostPre (F := Ideal)) (fun b => m (c, b)) (Proc.devRef .tc main_v101))
          (after (hostPre (F := Ideal)) (fun b => m (c, b)) (Proc.devRef .tc main_v102))
          (after (hostPre (F := Ideal)) (fun b => m (c, b)) (Proc.devRef .tc main_v103)) n d cc :=
  entryK_mean4 _ _ _ _ _ (fun k j => (mat_entry m c k j).1) (fun k j => (mat_entry m c k j).2.1)
    (fun k j => (mat_entry m c k j).2.2) n d cc

end Cert.KernelIdeal.Val

end
-- ==== Proof.RefSplit.lean ====
/-
  The reference's operations cut in two.

  The first 111 operations normalise the rotation table, build the three cumulative rotations (and the identity), reshape the
  feature array into complex pairs and lay each rotation out as a one-row block; the remaining 41 stack those rows, rotate the
  first three positions of every feature row, put the fourth back, and average over the four positions.  The whole line is the
  first part followed by the second.
-/
import proofs.«111939_j20813411516915_2_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations up to the cumulative rotations laid out as rows. -/
abbrev opsPre : List (HloOp τ sig (Elt F)) :=
  [
    nullary main_cst (fun i => FloatOps.ofBits .f32 (lit0 (S2.rowMajor i))),
    binary main_arg1 main_arg1 main_v0 (mulf : (⟨S4x32x2, .f32⟩ : BufTy).Contents (Elt F) → (⟨S4x32x2, .f32⟩ : BufTy).Contents (Elt F) → (⟨S4x32x2, .f32⟩ : BufTy).Contents (Elt F)),
    nullary main_cst_0 (constant S_ .f32 0x00000000#32),
    binary main_v0 main_cst_0 main_v1 ((fun x v => Host.reduceAdd x v reducesTo_S4x32x2_S4x32_d2 h_S_) : (⟨S4x32x2, .f32⟩ : BufTy).Contents (Elt F) → (⟨S_, .f32⟩ : BufTy).Contents (Elt F) → (⟨S4x32, .f32⟩ : BufTy).Contents (Elt F)),
    unary main_v1 main_v2 (broadcastInDim S4x32x1 ![0, 1] bcast_S4x32_S4x32x1_0_1 : (⟨S4x32, .f32⟩ : BufTy).Contents (Elt F) → (⟨S4x32x1, .f32⟩ : BufTy).Contents (Elt F)),
    unary main_v2 main_v3 (Host.sqrt : (⟨S4x32x1, .f32⟩ : BufTy).Contents (Elt F) → (⟨S4x32x1, .f32⟩ : BufTy).Contents (Elt F)),
    nullary main_cst_1 (constant S_ .f32 0x2B8CBCCC#32),
    unary main_cst_1 main_v4 (broadcastInDim S4x32x1 ![] bcast_S_S4x32x1 : (⟨S_, .f32⟩ : BufTy).Contents (Elt F) → (⟨S4x32x1, .f32⟩ : BufTy).Contents (Elt F)),
    binary main_v3 main_v4 main_v5 (maximumf : (⟨S4x32x1, .f32⟩ : BufTy).Contents (Elt F) → (⟨S4x32x1, .f32⟩ : BufTy).Contents (Elt F) → (⟨S4x32x1, .f32⟩ : BufTy).Contents (Elt F)),
    unary main_v5 main_v6 (broadcastInDim S4x32x2 ![0, 1, 2] bcast_S4x32x1_S4x32x2_0_1_2 : (⟨S4x32x1, .f32⟩ : BufTy).Contents (Elt F) → (⟨S4x32x2, .f32⟩ : BufTy).Contents (Elt F)),
    binary main_arg1 main_v6 main_v7 (Host.divf : (⟨S4x32x2, .f32⟩ : BufTy).Contents (Elt F) → (⟨S4x32x2, .f32⟩ : BufTy).Contents (Elt F) → (⟨S4x32x2, .f32⟩ : BufTy).Contents (Elt F)),
    unary main_cst main_v8 (broadcastInDim S1x1x2 ![2] bcast_S2_S1x1x2_2 : (⟨S2, .f32⟩ : BufTy).Contents (Elt F) → (⟨S1x1x2, .f32⟩ : BufTy).Contents (Elt F)),
    unary main_v8 main_v9 (broadcastInDim S4x32x2 ![0, 1, 2] bcast_S1x1x2_S4x32x2_0_1_2 : (⟨S1x1x2, .f32⟩ : BufTy).Contents (Elt F) → (⟨S4x32x2, .f32⟩ : BufTy).Contents (Elt F)),
    binary main_v7 main_v9 main_v10 (mulf : (⟨S4x32x2, .f32⟩ : BufTy).Contents (Elt F) → (⟨S4x32x2, .f32⟩ : BufTy).Contents (Elt F) → (⟨S4x32x2, .f32⟩ : BufTy).Contents (Elt F)),
    unary main_v7 main_v11 (broadcastInDim S4x1x32x2 ![0, 2, 3] bcast_S4x32x2_S4x1x32x2_0_2_3 : (⟨S4x32x2, .f32⟩ : BufTy).Contents (Elt F) → (⟨S4x1x32x2, .f32⟩ : BufTy).Contents (Elt F)),
    unary main_v10 main_v12 (broadcastInDim S4x1x32x2 ![0, 2, 3] bcast_S4x32x2_S4x1x32x2_0_2_3 : (⟨S4x32x2, .f32⟩ : BufTy).Contents (Elt F) → (⟨S4x1x32x2, .f32⟩ : BufTy).Contents (Elt F)),
    binary main_v11 main_v12 main_v13 ((fun a b => concatenate S4x2x32x2 1 [⟨S4x1x32x2, a⟩, ⟨S4x1x32x2, b⟩] concatenates_S4x1x32x2_S4x1x32x2_S4x2x32x2_d1) : (⟨S4x1x32x2, .f32⟩ : BufTy).Contents (Elt F) → (⟨S4x1x32x2, .f32⟩ : BufTy).Contents (Elt F) → (⟨S4x2x32x2, .f32⟩ : BufTy).Contents (Elt F)),
    reshape main_v13 main_v14 rfl shapeCasts_S4x2x32x2_S8x32x2,
    reshape main_arg0 main_v15 rfl shapeCasts_S1000000x4x64_S1000000x4x32x2,
    nullary main_cst_2 (constant S_ .f32 0x3F800000#32),
    unary main_cst_2 main_v16 (broadcastInDim S32 ![] bcast_S_S32 : (⟨S_, .f32⟩ : BufTy).Contents (Elt F) → (⟨S32, .f32⟩ : BufTy).Contents (Elt F)),
    nullary main_cst_3 (constant S_ .f32 0x00000000#32),
    unary main_cst_3 main_v17 (broadcastInDim S32 ![] bcast_S_S32 : (⟨S_, .f32⟩ : BufTy).Contents (Elt F) → (⟨S32, .f32⟩ : BufTy).Contents (Elt F)),
    unary main_v16 main_v18 (broadcastInDim S32x1 ![0] bcast_S32_S32x1_0 : (⟨S32, .f32⟩ : BufTy).Contents (Elt F) → (⟨S32x1, .f32⟩ : BufTy).Contents (Elt F)),
    unary main_v17 main_v19 (broadcastInDim S32x1 ![0] bcast_S32_S32x1_0 : (⟨S32, .f32⟩ : BufTy).Contents (Elt F) → (⟨S32x1, .f32⟩ : BufTy).Contents (Elt F)),
    binary main_v18 main_v19 main_v20 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    unary main_v14 main_v21 ((extractStridedSlice S1x32x2 ![5, 0, 0] · slices_S8x32x2_S1x32x2_5_0_0) : (⟨S8x32x2, .f32⟩ : BufTy).Contents (Elt F) → (⟨S1x32x2, .f32⟩ : BufTy).Contents (Elt F)),
    reshape main_v21 main_v22 rfl shapeCasts_S1x32x2_S32x2,
    unary main_v20 main_v23 ((extractStridedSlice S32x1 ![0, 0] · slices_S32x2_S32x1_0_0) : (⟨S32x2, .f32⟩ : BufTy).Contents (Elt F) → (⟨S32x1, .f32⟩ : BufTy).Contents (Elt F)),
    reshape main_v23 main_v24 rfl shapeCasts_S32x1_S32,
    unary main_v22 main_v25 ((extractStridedSlice S32x1 ![0, 0] · slices_S32x2_S32x1_0_0) : (⟨S32x2, .f32⟩ : BufTy).Contents (Elt F) → (⟨S32x1, .f32⟩ : BufTy).Contents (Elt F)),
    reshape main_v25 main_v26 rfl shapeCasts_S32x1_S32,
    binary main_v24 main_v26 main_v27 (mulf : (⟨S32, .f32⟩ : BufTy).Contents (Elt F) → (⟨S32, .f32⟩ : BufTy).Contents (Elt F) → (⟨S32, .f32⟩ : BufTy).Contents (Elt F)),
    unary main_v20 main_v28 ((extractStridedSlice S32x1 ![0, 1] · slices_S32x2_S32x1_0_1) : (⟨S32x2, .f32⟩ : BufTy).Contents (Elt F) → (⟨S32x1, .f32⟩ : BufTy).Contents (Elt F)),
    reshape main_v28 main_v29 rfl shapeCasts_S32x1_S32,
    unary main_v22 main_v30 ((extractStridedSlice S32x1 ![0, 1] · slices_S32x2_S32x1_0_1) : (⟨S32x2, .f32⟩ : BufTy).Contents (Elt F) → (⟨S32x1, .f32⟩ : BufTy).Contents (Elt F)),
    reshape main_v30 main_v31 rfl shapeCasts_S32x1_S32,
    binary main_v29 main_v31 main_v32 (mulf : (⟨S32, .f32⟩ : BufTy).Contents (Elt F) → (⟨S32, .f32⟩ : BufTy).Contents (Elt F) → (⟨S32, .f32⟩ : BufTy).Contents (Elt F)),
    binary main_v27 main_v32 main_v33 (subf : (⟨S32, .f32⟩ : BufTy).Contents (Elt F) → (⟨S32, .f32⟩ : BufTy).Contents (Elt F) → (⟨S32, .f32⟩ : BufTy).Contents (Elt F)),
    unary main_v20 main_v34 ((extractStridedSlice S32x1 ![0, 0] · slices_S32x2_S32x1_0_0) : (⟨S32x2, .f32⟩ : BufTy).Contents (Elt F) → (⟨S32x1, .f32⟩ : BufTy).Contents (Elt F)),
    reshape main_v34 main_v35 rfl shapeCasts_S32x1_S32,
    unary main_v22 main_v36 ((extractStridedSlice S32x1 ![0, 1] · slices_S32x2_S32x1_0_1) : (⟨S32x2, .f32⟩ : BufTy).Contents (Elt F) → (⟨S32x1, .f32⟩ : BufTy).Contents (Elt F)),
    reshape main_v36 main_v37 rfl shapeCasts_S32x1_S32,
    binary main_v35 main_v37 main_v38 (mulf : (⟨S32, .f32⟩ : BufTy).Contents (Elt F) → (⟨S32, .f32⟩ : BufTy).Contents (Elt F) → (⟨S32, .f32⟩ : BufTy).Contents (Elt F)),
    unary main_v20 main_v39 ((extractStridedSlice S32x1 ![0, 1] · slices_S32x2_S32x1_0_1) : (⟨S32x2, .f32⟩ : BufTy).Contents (Elt F) → (⟨S32x1, .f32⟩ : BufTy).Contents (Elt F)),
    reshape main_v39 main_v40 rfl shapeCasts_S32x1_S32,
    unary main_v22 main_v41 ((extractStridedSlice S32x1 ![0, 0] · slices_S32x2_S32x1_0_0) : (⟨S32x2, .f32⟩ : BufTy).Contents (Elt F) → (⟨S32x1, .f32⟩ : BufTy).Contents (Elt F)),
    reshape main_v41 main_v42 rfl shapeCasts_S32x1_S32,
    binary main_v40 main_v42 main_v43 (mulf : (⟨S32, .f32⟩ : BufTy).Contents (Elt F) → (⟨S32, .f32⟩ : BufTy).Contents (Elt F) → (⟨S32, .f32⟩ : BufTy).Contents (Elt F)),
    binary main_v38 main_v43 main_v44 (addf : (⟨S32, .f32⟩ : BufTy).Contents (Elt F) → (⟨S32, .f32⟩ : BufTy).Contents (Elt F) → (⟨S32, .f32⟩ : BufTy).Contents (Elt F)),
    unary main_v33 main_v45 (broadcastInDim S32x1 ![0] bcast_S32_S32x1_0 : (⟨S32, .f32⟩ : BufTy).Contents (Elt F) → (⟨S32x1, .f32⟩ : BufTy).Contents (Elt F)),
    unary main_v44 main_v46 (broadcastInDim S32x1 ![0] bcast_S32_S32x1_0 : (⟨S32, .f32⟩ : BufTy).Contents (Elt F) → (⟨S32x1, .f32⟩ : BufTy).Contents (Elt F)),
    binary main_v45 main_v46 main_v47 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    unary main_v14 main_v48 ((extractStridedSlice S1x32x2 ![3, 0, 0] · slices_S8x32x2_S1x32x2_3_0_0) : (⟨S8x32x2, .f32⟩ : BufTy).Contents (Elt F) → (⟨S1x32x2, .f32⟩ : BufTy).Contents (Elt F)),
    reshape main_v48 main_v49 rfl shapeCasts_S1x32x2_S32x2,
    unary main_v47 main_v50 ((extractStridedSlice S32x1 ![0, 0] · slices_S32x2_S32x1_0_0) : (⟨S32x2, .f32⟩ : BufTy).Contents (Elt F) → (⟨S32x1, .f32⟩ : BufTy).Contents (Elt F)),
    reshape main_v50 main_v51 rfl shapeCasts_S32x1_S32,
    unary main_v49 main_v52 ((extractStridedSlice S32x1 ![0, 0] · slices_S32x2_S32x1_0_0) : (⟨S32x2, .f32⟩ : BufTy).Contents (Elt F) → (⟨S32x1, .f32⟩ : BufTy).Contents (Elt F)),
    reshape main_v52 main_v53 rfl shapeCasts_S32x1_S32,
    binary main_v51 main_v53 main_v54 (mulf : (⟨S32, .f32⟩ : BufTy).Contents (Elt F) → (⟨S32, .f32⟩ : BufTy).Contents (Elt F) → (⟨S32, .f32⟩ : BufTy).Contents (Elt F)),
    unary main_v47 main_v55 ((extractStridedSlice S32x1 ![0, 1] · slices_S32x2_S32x1_0_1) : (⟨S32x2, .f32⟩ : BufTy).Contents (Elt F) → (⟨S32x1, .f32⟩ : BufTy).Contents (Elt F)),
    reshape main_v55 main_v56 rfl shapeCasts_S32x1_S32,
    unary main_v49 main_v57 ((extractStridedSlice S32x1 ![0, 1] · slices_S32x2_S32x1_0_1) : (⟨S32x2, .f32⟩ : BufTy).Contents (Elt F) → (⟨S32x1, .f32⟩ : BufTy).Contents (Elt F)),
    reshape main_v57 main_v58 rfl shapeCasts_S32x1_S32,
    binary main_v56 main_v58 main_v59 (mulf : (⟨S32, .f32⟩ : BufTy).Contents (Elt F) → (⟨S32, .f32⟩ : BufTy).Contents (Elt F) → (⟨S32, .f32⟩ : BufTy).Contents (Elt F)),
    binary main_v54 main_v59 main_v60 (subf : (⟨S32, .f32⟩ : BufTy).Contents (Elt F) → (⟨S32, .f32⟩ : BufTy).Contents (Elt F) → (⟨S32, .f32⟩ : BufTy).Contents (Elt F)),
    unary main_v47 main_v61 ((extractStridedSlice S32x1 ![0, 0] · slices_S32x2_S32x1_0_0) : (⟨S32x2, .f32⟩ : BufTy).Contents (Elt F) → (⟨S32x1, .f32⟩ : BufTy).Contents (Elt F)),
    reshape main_v61 main_v62 rfl shapeCasts_S32x1_S32,
    unary main_v49 main_v63 ((extractStridedSlice S32x1 ![0, 1] · slices_S32x2_S32x1_0_1) : (⟨S32x2, .f32⟩ : BufTy).Contents (Elt F) → (⟨S32x1, .f32⟩ : BufTy).Contents (Elt F)),
    reshape main_v63 main_v64 rfl shapeCasts_S32x1_S32,
    binary main_v62 main_v64 main_v65 (mulf : (⟨S32, .f32⟩ : BufTy).Contents (Elt F) → (⟨S32, .f32⟩ : BufTy).Contents (Elt F) → (⟨S32, .f32⟩ : BufTy).Contents (Elt F)),
    unary main_v47 main_v66 ((extractStridedSlice S32x1 ![0, 1] · slices_S32x2_S32x1_0_1) : (⟨S32x2, .f32⟩ : BufTy).Contents (Elt F) → (⟨S32x1, .f32⟩ : BufTy).Contents (Elt F)),
    reshape main_v66 main_v67 rfl shapeCasts_S32x1_S32,
    unary main_v49 main_v68 ((extractStridedSlice S32x1 ![0, 0] · slices_S32x2_S32x1_0_0) : (⟨S32x2, .f32⟩ : BufTy).Contents (Elt F) → (⟨S32x1, .f32⟩ : BufTy).Contents (Elt F)),
    reshape main_v68 main_v69 rfl shapeCasts_S32x1_S32,
    binary main_v67 main_v69 main_v70 (mulf : (⟨S32, .f32⟩ : BufTy).Contents (Elt F) → (⟨S32, .f32⟩ : BufTy).Contents (Elt F) → (⟨S32, .f32⟩ : BufTy).Contents (Elt F)),
    binary main_v65 main_v70 main_v71 (addf : (⟨S32, .f32⟩ : BufTy).Contents (Elt F) → (⟨S32, .f32⟩ : BufTy).Contents (Elt F) → (⟨S32, .f32⟩ : BufTy).Contents (Elt F)),
    unary main_v60 main_v72 (broadcastInDim S32x1 ![0] bcast_S32_S32x1_0 : (⟨S32, .f32⟩ : BufTy).Contents (Elt F) → (⟨S32x1, .f32⟩ : BufTy).Contents (Elt F)),
    unary main_v71 main_v73 (broadcastInDim S32x1 ![0] bcast_S32_S32x1_0 : (⟨S32, .f32⟩ : BufTy).Contents (Elt F) → (⟨S32x1, .f32⟩ : BufTy).Contents (Elt F)),
    binary main_v72 main_v73 main_v74 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    unary main_v14 main_v75 ((extractStridedSlice S1x32x2 ![0, 0, 0] · slices_S8x32x2_S1x32x2_0_0_0) : (⟨S8x32x2, .f32⟩ : BufTy).Contents (Elt F) → (⟨S1x32x2, .f32⟩ : BufTy).Contents (Elt F)),
    reshape main_v75 main_v76 rfl shapeCasts_S1x32x2_S32x2,
    unary main_v74 main_v77 ((extractStridedSlice S32x1 ![0, 0] · slices_S32x2_S32x1_0_0) : (⟨S32x2, .f32⟩ : BufTy).Contents (Elt F) → (⟨S32x1, .f32⟩ : BufTy).Contents (Elt F)),
    reshape main_v77 main_v78 rfl shapeCasts_S32x1_S32,
    unary main_v76 main_v79 ((extractStridedSlice S32x1 ![0, 0] · slices_S32x2_S32x1_0_0) : (⟨S32x2, .f32⟩ : BufTy).Contents (Elt F) → (⟨S32x1, .f32⟩ : BufTy).Contents (Elt F)),
    reshape main_v79 main_v80 rfl shapeCasts_S32x1_S32,
    binary main_v78 main_v80 main_v81 (mulf : (⟨S32, .f32⟩ : BufTy).Contents (Elt F) → (⟨S32, .f32⟩ : BufTy).Contents (Elt F) → (⟨S32, .f32⟩ : BufTy).Contents (Elt F)),
    unary main_v74 main_v82 ((extractStridedSlice S32x1 ![0, 1] · slices_S32x2_S32x1_0_1) : (⟨S32x2, .f32⟩ : BufTy).Contents (Elt F) → (⟨S32x1, .f32⟩ : BufTy).Contents (Elt F)),
    reshape main_v82 main_v83 rfl shapeCasts_S32x1_S32,
    unary main_v76 main_v84 ((extractStridedSlice S32x1 ![0, 1] · slices_S32x2_S32x1_0_1) : (⟨S32x2, .f32⟩ : BufTy).Contents (Elt F) → (⟨S32x1, .f32⟩ : BufTy).Contents (Elt F)),
    reshape main_v84 main_v85 rfl shapeCasts_S32x1_S32,
    binary main_v83 main_v85 main_v86 (mulf : (⟨S32, .f32⟩ : BufTy).Contents (Elt F) → (⟨S32, .f32⟩ : BufTy).Contents (Elt F) → (⟨S32, .f32⟩ : BufTy).Contents (Elt F)),
    binary main_v81 main_v86 main_v87 (subf : (⟨S32, .f32⟩ : BufTy).Contents (Elt F) → (⟨S32, .f32⟩ : BufTy).Contents (Elt F) → (⟨S32, .f32⟩ : BufTy).Contents (Elt F)),
    unary main_v74 main_v88 ((extractStridedSlice S32x1 ![0, 0] · slices_S32x2_S32x1_0_0) : (⟨S32x2, .f32⟩ : BufTy).Contents (Elt F) → (⟨S32x1, .f32⟩ : BufTy).Contents (Elt F)),
    reshape main_v88 main_v89 rfl shapeCasts_S32x1_S32,
    unary main_v76 main_v90 ((extractStridedSlice S32x1 ![0, 1] · slices_S32x2_S32x1_0_1) : (⟨S32x2, .f32⟩ : BufTy).Contents (Elt F) → (⟨S32x1, .f32⟩ : BufTy).Contents (Elt F)),
    reshape main_v90 main_v91 rfl shapeCasts_S32x1_S32,
    binary main_v89 main_v91 main_v92 (mulf : (⟨S32, .f32⟩ : BufTy).Contents (Elt F) → (⟨S32, .f32⟩ : BufTy).Contents (Elt F) → (⟨S32, .f32⟩ : BufTy).Contents (Elt F)),
    unary main_v74 main_v93 ((extractStridedSlice S32x1 ![0, 1] · slices_S32x2_S32x1_0_1) : (⟨S32x2, .f32⟩ : BufTy).Contents (Elt F) → (⟨S32x1, .f32⟩ : BufTy).Contents (Elt F)),
    reshape main_v93 main_v94 rfl shapeCasts_S32x1_S32,
    unary main_v76 main_v95 ((extractStridedSlice S32x1 ![0, 0] · slices_S32x2_S32x1_0_0) : (⟨S32x2, .f32⟩ : BufTy).Contents (Elt F) → (⟨S32x1, .f32⟩ : BufTy).Contents (Elt F)),
    reshape main_v95 main_v96 rfl shapeCasts_S32x1_S32,
    binary main_v94 main_v96 main_v97 (mulf : (⟨S32, .f32⟩ : BufTy).Contents (Elt F) → (⟨S32, .f32⟩ : BufTy).Contents (Elt F) → (⟨S32, .f32⟩ : BufTy).Contents (Elt F)),
    binary main_v92 main_v97 main_v98 (addf : (⟨S32, .f32⟩ : BufTy).Contents (Elt F) → (⟨S32, .f32⟩ : BufTy).Contents (Elt F) → (⟨S32, .f32⟩ : BufTy).Contents (Elt F)),
    unary main_v87 main_v99 (broadcastInDim S32x1 ![0] bcast_S32_S32x1_0 : (⟨S32, .f32⟩ : BufTy).Contents (Elt F) → (⟨S32x1, .f32⟩ : BufTy).Contents (Elt F)),
    unary main_v98 main_v100 (broadcastInDim S32x1 ![0] bcast_S32_S32x1_0 : (⟨S32, .f32⟩ : BufTy).Contents (Elt F) → (⟨S32x1, .f32⟩ : BufTy).Contents (Elt F)),
    binary main_v99 main_v100 main_v101 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)),
    unary main_v101 main_v102 (broadcastInDim S1x32x2 ![1, 2] bcast_S32x2_S1x32x2_1_2 : (⟨S32x2, .f32⟩ : BufTy).Contents (Elt F) → (⟨S1x32x2, .f32⟩ : BufTy).Contents (Elt F)),
    unary main_v74 main_v103 (broadcastInDim S1x32x2 ![1, 2] bcast_S32x2_S1x32x2_1_2 : (⟨S32x2, .f32⟩ : BufTy).Contents (Elt F) → (⟨S1x32x2, .f32⟩ : BufTy).Contents (Elt F)),
    unary main_v47 main_v104 (broadcastInDim S1x32x2 ![1, 2] bcast_S32x2_S1x32x2_1_2 : (⟨S32x2, .f32⟩ : BufTy).Contents (Elt F) → (⟨S1x32x2, .f32⟩ : BufTy).Contents (Elt F)),
    unary main_v20 main_v105 (broadcastInDim S1x32x2 ![1, 2] bcast_S32x2_S1x32x2_1_2 : (⟨S32x2, .f32⟩ : BufTy).Contents (Elt F) → (⟨S1x32x2, .f32⟩ : BufTy).Contents (Elt F)) ]

set_option maxHeartbeats 40000000 in
/-- The operations from the stacking of the rotations to the mean. -/
abbrev opsTail : List (HloOp τ sig (Elt F)) :=
  [
    nary ![main_v102, main_v103, main_v104, main_v105] main_v106 (fun u => concatenate S4x32x2 0 [⟨S1x32x2, u 0⟩, ⟨S1x32x2, u 1⟩, ⟨S1x32x2, u 2⟩, ⟨S1x32x2, u 3⟩] concatenates_S1x32x2_S1x32x2_S1x32x2_S1x32x2_S4x32x2_d0),
    unary main_v15 main_v107 ((extractStridedSlice S1000000x3x32x2 ![0, 0, 0, 0] · slices_S1000000x4x32x2_S1000000x3x32x2_0_0_0_0) : (⟨S1000000x4x32x2, .f32⟩ : BufTy).Contents (Elt F) → (⟨S1000000x3x32x2, .f32⟩ : BufTy).Contents (Elt F)),
    unary main_v106 main_v108 ((extractStridedSlice S3x32x2 ![0, 0, 0] · slices_S4x32x2_S3x32x2_0_0_0) : (⟨S4x32x2, .f32⟩ : BufTy).Contents (Elt F) → (⟨S3x32x2, .f32⟩ : BufTy).Contents (Elt F)),
    unary main_v108 main_v109 (broadcastInDim S1x3x32x2 ![1, 2, 3] bcast_S3x32x2_S1x3x32x2_1_2_3 : (⟨S3x32x2, .f32⟩ : BufTy).Contents (Elt F) → (⟨S1x3x32x2, .f32⟩ : BufTy).Contents (Elt F)),
    unary main_v107 main_v110 ((extractStridedSlice S1000000x3x32x1 ![0, 0, 0, 0] · slices_S1000000x3x32x2_S1000000x3x32x1_0_0_0_0) : (⟨S1000000x3x32x2, .f32⟩ : BufTy).Contents (Elt F) → (⟨S1000000x3x32x1, .f32⟩ : BufTy).Contents (Elt F)),
    reshape main_v110 main_v111 rfl shapeCasts_S1000000x3x32x1_S1000000x3x32,
    unary main_v109 main_v112 ((extractStridedSlice S1x3x32x1 ![0, 0, 0, 0] · slices_S1x3x32x2_S1x3x32x1_0_0_0_0) : (⟨S1x3x32x2, .f32⟩ : BufTy).Contents (Elt F) → (⟨S1x3x32x1, .f32⟩ : BufTy).Contents (Elt F)),
    reshape main_v112 main_v113 rfl shapeCasts_S1x3x32x1_S1x3x32,
    unary main_v113 main_v114 (broadcastInDim S1000000x3x32 ![0, 1, 2] bcast_S1x3x32_S1000000x3x32_0_1_2 : (⟨S1x3x32, .f32⟩ : BufTy).Contents (Elt F) → (⟨S1000000x3x32, .f32⟩ : BufTy).Contents (Elt F)),
    binary main_v111 main_v114 main_v115 (mulf : (⟨S1000000x3x32, .f32⟩ : BufTy).Contents (Elt F) → (⟨S1000000x3x32, .f32⟩ : BufTy).Contents (Elt F) → (⟨S1000000x3x32, .f32⟩ : BufTy).Contents (Elt F)),
    unary main_v107 main_v116 ((extractStridedSlice S1000000x3x32x1 ![0, 0, 0, 1] · slices_S1000000x3x32x2_S1000000x3x32x1_0_0_0_1) : (⟨S1000000x3x32x2, .f32⟩ : BufTy).Contents (Elt F) → (⟨S1000000x3x32x1, .f32⟩ : BufTy).Contents (Elt F)),
    reshape main_v116 main_v117 rfl shapeCasts_S1000000x3x32x1_S1000000x3x32,
    unary main_v109 main_v118 ((extractStridedSlice S1x3x32x1 ![0, 0, 0, 1] · slices_S1x3x32x2_S1x3x32x1_0_0_0_1) : (⟨S1x3x32x2, .f32⟩ : BufTy).Contents (Elt F) → (⟨S1x3x32x1, .f32⟩ : BufTy).Contents (Elt F)),
    reshape main_v118 main_v119 rfl shapeCasts_S1x3x32x1_S1x3x32,
    unary main_v119 main_v120 (broadcastInDim S1000000x3x32 ![0, 1, 2] bcast_S1x3x32_S1000000x3x32_0_1_2 : (⟨S1x3x32, .f32⟩ : BufTy).Contents (Elt F) → (⟨S1000000x3x32, .f32⟩ : BufTy).Contents (Elt F)),
    binary main_v117 main_v120 main_v121 (mulf : (⟨S1000000x3x32, .f32⟩ : BufTy).Contents (Elt F) → (⟨S1000000x3x32, .f32⟩ : BufTy).Contents (Elt F) → (⟨S1000000x3x32, .f32⟩ : BufTy).Contents (Elt F)),
    binary main_v115 main_v121 main_v122 (subf : (⟨S1000000x3x32, .f32⟩ : BufTy).Contents (Elt F) → (⟨S1000000x3x32, .f32⟩ : BufTy).Contents (Elt F) → (⟨S1000000x3x32, .f32⟩ : BufTy).Contents (Elt F)),
    unary main_v107 main_v123 ((extractStridedSlice S1000000x3x32x1 ![0, 0, 0, 0] · slices_S1000000x3x32x2_S1000000x3x32x1_0_0_0_0) : (⟨S1000000x3x32x2, .f32⟩ : BufTy).Contents (Elt F) → (⟨S1000000x3x32x1, .f32⟩ : BufTy).Contents (Elt F)),
    reshape main_v123 main_v124 rfl shapeCasts_S1000000x3x32x1_S1000000x3x32,
    unary main_v109 main_v125 ((extractStridedSlice S1x3x32x1 ![0, 0, 0, 1] · slices_S1x3x32x2_S1x3x32x1_0_0_0_1) : (⟨S1x3x32x2, .f32⟩ : BufTy).Contents (Elt F) → (⟨S1x3x32x1, .f32⟩ : BufTy).Contents (Elt F)),
    reshape main_v125 main_v126 rfl shapeCasts_S1x3x32x1_S1x3x32,
    unary main_v126 main_v127 (broadcastInDim S1000000x3x32 ![0, 1, 2] bcast_S1x3x32_S1000000x3x32_0_1_2 : (⟨S1x3x32, .f32⟩ : BufTy).Contents (Elt F) → (⟨S1000000x3x32, .f32⟩ : BufTy).Contents (Elt F)),
    binary main_v124 main_v127 main_v128 (mulf : (⟨S1000000x3x32, .f32⟩ : BufTy).Contents (Elt F) → (⟨S1000000x3x32, .f32⟩ : BufTy).Contents (Elt F) → (⟨S1000000x3x32, .f32⟩ : BufTy).Contents (Elt F)),
    unary main_v107 main_v129 ((extractStridedSlice S1000000x3x32x1 ![0, 0, 0, 1] · slices_S1000000x3x32x2_S1000000x3x32x1_0_0_0_1) : (⟨S1000000x3x32x2, .f32⟩ : BufTy).Contents (Elt F) → (⟨S1000000x3x32x1, .f32⟩ : BufTy).Contents (Elt F)),
    reshape main_v129 main_v130 rfl shapeCasts_S1000000x3x32x1_S1000000x3x32,
    unary main_v109 main_v131 ((extractStridedSlice S1x3x32x1 ![0, 0, 0, 0] · slices_S1x3x32x2_S1x3x32x1_0_0_0_0) : (⟨S1x3x32x2, .f32⟩ : BufTy).Contents (Elt F) → (⟨S1x3x32x1, .f32⟩ : BufTy).Contents (Elt F)),
    reshape main_v131 main_v132 rfl shapeCasts_S1x3x32x1_S1x3x32,
    unary main_v132 main_v133 (broadcastInDim S1000000x3x32 ![0, 1, 2] bcast_S1x3x32_S1000000x3x32_0_1_2 : (⟨S1x3x32, .f32⟩ : BufTy).Contents (Elt F) → (⟨S1000000x3x32, .f32⟩ : BufTy).Contents (Elt F)),
    binary main_v130 main_v133 main_v134 (mulf : (⟨S1000000x3x32, .f32⟩ : BufTy).Contents (Elt F) → (⟨S1000000x3x32, .f32⟩ : BufTy).Contents (Elt F) → (⟨S1000000x3x32, .f32⟩ : BufTy).Contents (Elt F)),
    binary main_v128 main_v134 main_v135 (addf : (⟨S1000000x3x32, .f32⟩ : BufTy).Contents (Elt F) → (⟨S1000000x3x32, .f32⟩ : BufTy).Contents (Elt F) → (⟨S1000000x3x32, .f32⟩ : BufTy).Contents (Elt F)),
    unary main_v122 main_v136 (broadcastInDim S1000000x3x32x1 ![0, 1, 2] bcast_S1000000x3x32_S1000000x3x32x1_0_1_2 : (⟨S1000000x3x32, .f32⟩ : BufTy).Contents (Elt F) → (⟨S1000000x3x32x1, .f32⟩ : BufTy).Contents (Elt F)),
    unary main_v135 main_v137 (broadcastInDim S1000000x3x32x1 ![0, 1, 2] bcast_S1000000x3x32_S1000000x3x32x1_0_1_2 : (⟨S1000000x3x32, .f32⟩ : BufTy).Contents (Elt F) → (⟨S1000000x3x32x1, .f32⟩ : BufTy).Contents (Elt F)),
    binary main_v136 main_v137 main_v138 ((fun a b => concatenate S1000000x3x32x2 3 [⟨S1000000x3x32x1, a⟩, ⟨S1000000x3x32x1, b⟩] concatenates_S1000000x3x32x1_S1000000x3x32x1_S1000000x3x32x2_d3) : (⟨S1000000x3x32x1, .f32⟩ : BufTy).Contents (Elt F) → (⟨S1000000x3x32x1, .f32⟩ : BufTy).Contents (Elt F) → (⟨S1000000x3x32x2, .f32⟩ : BufTy).Contents (Elt F)),
    unary main_v15 main_v139 ((extractStridedSlice S1000000x1x32x2 ![0, 3, 0, 0] · slices_S1000000x4x32x2_S1000000x1x32x2_0_3_0_0) : (⟨S1000000x4x32x2, .f32⟩ : BufTy).Contents (Elt F) → (⟨S1000000x1x32x2, .f32⟩ : BufTy).Contents (Elt F)),
    binary main_v138 main_v139 main_v140 ((fun a b => concatenate S1000000x4x32x2 1 [⟨S1000000x3x32x2, a⟩, ⟨S1000000x1x32x2, b⟩] concatenates_S1000000x3x32x2_S1000000x1x32x2_S1000000x4x32x2_d1) : (⟨S1000000x3x32x2, .f32⟩ : BufTy).Contents (Elt F) → (⟨S1000000x1x32x2, .f32⟩ : BufTy).Contents (Elt F) → (⟨S1000000x4x32x2, .f32⟩ : BufTy).Contents (Elt F)),
    reshape main_v140 main_v141 rfl shapeCasts_S1000000x4x32x2_S1000000x4x64,
    nullary main_cst_4 (constant S_ .f32 0x00000000#32),
    binary main_v141 main_cst_4 main_v142 ((fun x v => Host.reduceAdd x v reducesTo_S1000000x4x64_S1000000x64_d1 h_S_) : (⟨S1000000x4x64, .f32⟩ : BufTy).Contents (Elt F) → (⟨S_, .f32⟩ : BufTy).Contents (Elt F) → (⟨S1000000x64, .f32⟩ : BufTy).Contents (Elt F)),
    nullary main_cst_5 (constant S_ .f32 0x40800000#32),
    unary main_cst_5 main_v143 (broadcastInDim S1000000x64 ![] bcast_S_S1000000x64 : (⟨S_, .f32⟩ : BufTy).Contents (Elt F) → (⟨S1000000x64, .f32⟩ : BufTy).Contents (Elt F)),
    binary main_v142 main_v143 main_v144 (Host.divf : (⟨S1000000x64, .f32⟩ : BufTy).Contents (Elt F) → (⟨S1000000x64, .f32⟩ : BufTy).Contents (Elt F) → (⟨S1000000x64, .f32⟩ : BufTy).Contents (Elt F)) ]

set_option maxHeartbeats 4000000 in
theorem ops_split : (ops : List (HloOp τ sig (Elt F))) = opsPre ++ opsTail := rfl

end Cert.ReferenceIdeal.RefRun

end
-- ==== Proof.LibFoldEval.lean ====
/-
  Reading a fold of host operations in one pass, concatenations included.

  The contents of a buffer after a straight line of host operations is a fold: each operation rewrites the buffer it writes
  and leaves every other buffer as it was.  One simplifier pass unfolds such a fold down to the operations' functions of the
  contents it starts from, visiting each shared intermediate once — provided it can reach the operands.  A concatenation keeps
  its operands inside a list of (shape, array) pairs, where a rewrite cannot go; writing the concatenation of two, three or four
  arrays as a function of the arrays themselves puts them back in reach.
-/
import Idealize.ShloMosaic.Lib.StableHlo.Run

namespace Cert.FoldEval

open Idealize.ShloMosaic Idealize.ShloMosaic.StableHlo

variable {α : Type}

/-- The concatenation of two arrays along an axis, as a function of the two arrays. -/
def cat2 (t : Shape) (a : Fin t.rank) (s1 s2 : Shape) (x1 : s1.Idx → α) (x2 : s2.Idx → α)
    (h : Shape.Concatenates [s1, s2] t a) : t.Idx → α :=
  concatenate t a [⟨s1, x1⟩, ⟨s2, x2⟩] h

/-- Of three. -/
def cat3 (t : Shape) (a : Fin t.rank) (s1 s2 s3 : Shape) (x1 : s1.Idx → α) (x2 : s2.Idx → α) (x3 : s3.Idx → α)
    (h : Shape.Concatenates [s1, s2, s3] t a) : t.Idx → α :=
  concatenate t a [⟨s1, x1⟩, ⟨s2, x2⟩, ⟨s3, x3⟩] h

/-- Of four. -/
def cat4 (t : Shape) (a : Fin t.rank) (s1 s2 s3 s4 : Shape) (x1 : s1.Idx → α) (x2 : s2.Idx → α) (x3 : s3.Idx → α)
    (x4 : s4.Idx → α) (h : Shape.Concatenates [s1, s2, s3, s4] t a) : t.Idx → α :=
  concatenate t a [⟨s1, x1⟩, ⟨s2, x2⟩, ⟨s3, x3⟩, ⟨s4, x4⟩] h

theorem cat2_eq (t : Shape) (a : Fin t.rank) (s1 s2 : Shape) (x1 : s1.Idx → α) (x2 : s2.Idx → α)
    (h : Shape.Concatenates [s1, s2] t a) :
    concatenate t a [⟨s1, x1⟩, ⟨s2, x2⟩] h = cat2 t a s1 s2 x1 x2 h := rfl

theorem cat3_eq (t : Shape) (a : Fin t.rank) (s1 s2 s3 : Shape) (x1 : s1.Idx → α) (x2 : s2.Idx → α) (x3 : s3.Idx → α)
    (h : Shape.Concatenates [s1, s2, s3] t a) :
    concatenate t a [⟨s1, x1⟩, ⟨s2, x2⟩, ⟨s3, x3⟩] h = cat3 t a s1 s2 s3 x1 x2 x3 h := rfl

theorem cat4_eq (t : Shape) (a : Fin t.rank) (s1 s2 s3 s4 : Shape) (x1 : s1.Idx → α) (x2 : s2.Idx → α) (x3 : s3.Idx → α)
    (x4 : s4.Idx → α) (h : Shape.Concatenates [s1, s2, s3, s4] t a) :
    concatenate t a [⟨s1, x1⟩, ⟨s2, x2⟩, ⟨s3, x3⟩, ⟨s4, x4⟩] h = cat4 t a s1 s2 s3 s4 x1 x2 x3 x4 h := rfl

/-- Rewrites every `after ops V b` in the goal, for a literal line `ops` over literal references, to the operations' functions
    of `V` at the buffers read, in one simplifier pass; concatenations come out as `cat2` / `cat3` / `cat4`. -/
macro "fold_eval" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      cat2_eq, cat3_eq, cat4_eq, Matrix.cons_val_zero, Matrix.cons_val_one, Matrix.cons_val_two, Matrix.head_cons]))

end Cert.FoldEval
-- ==== Proof.RefTail.lean ====
/-
  The second part of the reference, read at one index, at the ideal instance (floats are extended reals).

  The reference's last 41 operations stack the four one-row blocks of rotations, keep the first three, multiply the first
  three positions of every feature row by them as complex numbers (real part a_re r_re − a_im r_im, imaginary part
  a_re r_im + a_im r_re), put the fourth position back unchanged, sum over the four positions and divide by a constant.
  Composed into one term over the five buffers they read (`tailTerm`, `tail_fold`), and that term read at row `n` and
  lane `2 d + c` (`tailTerm_apply`), they give the result buffer at that index (`refTail_apply`).
-/
import proofs.«111939_j20813411516915_2_alg».proof.Proof.RefSplit
import proofs.«111939_j20813411516915_2_alg».proof.Proof.LibFold
import proofs.«111939_j20813411516915_2_alg».proof.Proof.LibFoldEval
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.ReferenceIdeal.RefTail

open Cert.ReferenceIdeal Cert.ReferenceIdeal.Gen Cert.ReferenceIdeal.RefRun Idealize.ShloMosaic Idealize.SL.Sem Idealize.ShloMosaic.ValueIdx
open Cert.LibFold Cert.FoldEval

variable {α : Type}

/-- Lane `2 d + c` of a 64-lane row: complex number `d`, component `c` (0 the real part, 1 the imaginary part). -/
def lane (d : Fin 32) (c : Fin 2) : Fin 64 := ⟨2 * d.val + c.val, by omega⟩

/-! ## The layout operations at an index -/

/-- A [N, 4, 32, 2] array viewed as [N, 4, 64] reads, at lane `2 d + c`, the array at `(n, l, d, c)`. -/
theorem mergeLanes_apply (x : S1000000x4x32x2.Idx → α) (h : S1000000x4x32x2.ShapeCasts S1000000x4x64)
    (n : Fin 1000000) (l : Fin 4) (d : Fin 32) (c : Fin 2) :
    shapeCast S1000000x4x64 x h (ix3 n l (lane d c)) = x (ix4 n l d c) :=
  shapeCast_apply x h _ _ (by
    rw [Shape.rowMajor_val_four, Shape.rowMajor_val_three]
    show ((n.val * 4 + l.val) * 32 + d.val) * 2 + c.val = (n.val * 4 + l.val) * 64 + (2 * d.val + c.val)
    omega)

/-- Three positions followed by one, along axis 1: a position below three reads the first piece. -/
theorem catPos_left (a : S1000000x3x32x2.Idx → α) (b : S1000000x1x32x2.Idx → α)
    (h : Shape.Concatenates [S1000000x3x32x2, S1000000x1x32x2] S1000000x4x32x2 1)
    (n : Fin 1000000) (l' : Fin 4) (l : Fin 3) (hl : l'.val = l.val) (d : Fin 32) (c : Fin 2) :
    concatenate S1000000x4x32x2 1 [⟨S1000000x3x32x2, a⟩, ⟨S1000000x1x32x2, b⟩] h (ix4 n l' d c) = a (ix4 n l d c) :=
  concatenate_pair_apply_left 1 a b h _ rfl _ (fun bx => match bx with
    | ⟨0, _⟩ => rfl
    | ⟨1, _⟩ => hl.symm
    | ⟨2, _⟩ => rfl
    | ⟨3, _⟩ => rfl)

/-- Three positions followed by one, along axis 1: position three reads the second piece at its one position. -/
theorem catPos_right (a : S1000000x3x32x2.Idx → α) (b : S1000000x1x32x2.Idx → α)
    (h : Shape.Concatenates [S1000000x3x32x2, S1000000x1x32x2] S1000000x4x32x2 1)
    (n : Fin 1000000) (d : Fin 32) (c : Fin 2) :
    concatenate S1000000x4x32x2 1 [⟨S1000000x3x32x2, a⟩, ⟨S1000000x1x32x2, b⟩] h (ix4 n (3 : Fin 4) d c)
      = b (ix4 n (0 : Fin 1) d c) :=
  concatenate_pair_apply_right 1 a b h _ rfl rfl _ (fun bx hb => match bx with
    | ⟨0, _⟩ => rfl
    | ⟨1, _⟩ => absurd rfl hb
    | ⟨2, _⟩ => rfl
    | ⟨3, _⟩ => rfl) rfl

/-- The real and the imaginary parts laid side by side along the last axis: component 0 reads the first piece, component 1
    the second. -/
theorem catReIm_apply (a b : S1000000x3x32x1.Idx → α)
    (h : Shape.Concatenates [S1000000x3x32x1, S1000000x3x32x1] S1000000x3x32x2 3)
    (n : Fin 1000000) (l : Fin 3) (d : Fin 32) (c : Fin 2) :
    concatenate S1000000x3x32x2 3 [⟨S1000000x3x32x1, a⟩, ⟨S1000000x3x32x1, b⟩] h (ix4 n l d c)
      = if c.val = 0 then a (ix4 n l d (0 : Fin 1)) else b (ix4 n l d (0 : Fin 1)) := by
  split
  · next hc =>
    exact concatenate_pair_apply_left 3 a b h _ rfl _ (fun bx => match bx with
      | ⟨0, _⟩ => rfl
      | ⟨1, _⟩ => rfl
      | ⟨2, _⟩ => rfl
      | ⟨3, _⟩ => hc.symm)
  · next hc =>
    exact concatenate_pair_apply_right 3 a b h _ rfl rfl _ (fun bx hb => match bx with
      | ⟨0, _⟩ => rfl
      | ⟨1, _⟩ => rfl
      | ⟨2, _⟩ => rfl
      | ⟨3, _⟩ => absurd rfl hb) (by show 0 + 1 = c.val; omega)

/-- A [N, 3, 32] array given a trailing unit axis reads the array at the first three coordinates. -/
theorem addUnitLane_apply (x : S1000000x3x32.Idx → α) (n : Fin 1000000) (l : Fin 3) (d : Fin 32) :
    broadcastInDim S1000000x3x32x1 ![0, 1, 2] bcast_S1000000x3x32_S1000000x3x32x1_0_1_2 x (ix4 n l d (0 : Fin 1)) = x (ix3 n l d) :=
  broadcastInDim_apply _ _ x _ _ (fun a => match a with
    | ⟨0, _⟩ => rfl
    | ⟨1, _⟩ => rfl
    | ⟨2, _⟩ => rfl)

/-- A [N, 3, 32, 1] array with its trailing unit axis dropped reads the array at component 0. -/
theorem dropUnitLane_apply (x : S1000000x3x32x1.Idx → α) (h : S1000000x3x32x1.ShapeCasts S1000000x3x32)
    (n : Fin 1000000) (l : Fin 3) (d : Fin 32) :
    shapeCast S1000000x3x32 x h (ix3 n l d) = x (ix4 n l d (0 : Fin 1)) :=
  shapeCast_apply x h _ _ (by
    rw [Shape.rowMajor_val_four, Shape.rowMajor_val_three]
    show ((n.val * 3 + l.val) * 32 + d.val) * 1 + 0 = (n.val * 3 + l.val) * 32 + d.val
    omega)

/-- Component `o` of a [N, 3, 32, 2] array, cut out as a [N, 3, 32, 1] slice. -/
theorem component_apply (x : S1000000x3x32x2.Idx → α) (o : Nat) (c : Fin 2) (hc : c.val = o)
    (h : S1000000x3x32x2.Slices ![0, 0, 0, o] S1000000x3x32x1) (n : Fin 1000000) (l : Fin 3) (d : Fin 32) :
    extractStridedSlice S1000000x3x32x1 ![0, 0, 0, o] x h (ix4 n l d (0 : Fin 1)) = x (ix4 n l d c) :=
  extractStridedSlice_apply _ x h _ _ fun a => match a with
    | ⟨0, _⟩ => by show n.val = 0 + n.val; omega
    | ⟨1, _⟩ => by show l.val = 0 + l.val; omega
    | ⟨2, _⟩ => by show d.val = 0 + d.val; omega
    | ⟨3, _⟩ => by show c.val = o + 0; omega

/-- The first three positions of a [N, 4, 32, 2] array. -/
theorem firstThree_apply (x : S1000000x4x32x2.Idx → α) (h : S1000000x4x32x2.Slices ![0, 0, 0, 0] S1000000x3x32x2)
    (n : Fin 1000000) (l : Fin 3) (l' : Fin 4) (hl : l'.val = l.val) (d : Fin 32) (c : Fin 2) :
    extractStridedSlice S1000000x3x32x2 ![0, 0, 0, 0] x h (ix4 n l d c) = x (ix4 n l' d c) :=
  extractStridedSlice_apply _ x h _ _ fun a => match a with
    | ⟨0, _⟩ => by show n.val = 0 + n.val; omega
    | ⟨1, _⟩ => by show l'.val = 0 + l.val; omega
    | ⟨2, _⟩ => by show d.val = 0 + d.val; omega
    | ⟨3, _⟩ => by show c.val = 0 + c.val; omega

/-- The fourth position of a [N, 4, 32, 2] array, cut out as a [N, 1, 32, 2] slice. -/
theorem fourth_apply (x : S1000000x4x32x2.Idx → α) (h : S1000000x4x32x2.Slices ![0, 3, 0, 0] S1000000x1x32x2)
    (n : Fin 1000000) (d : Fin 32) (c : Fin 2) :
    extractStridedSlice S1000000x1x32x2 ![0, 3, 0, 0] x h (ix4 n (0 : Fin 1) d c) = x (ix4 n (3 : Fin 4) d c) :=
  extractStridedSlice_apply _ x h _ _ fun a => match a with
    | ⟨0, _⟩ => by show n.val = 0 + n.val; omega
    | ⟨1, _⟩ => rfl
    | ⟨2, _⟩ => by show d.val = 0 + d.val; omega
    | ⟨3, _⟩ => by show c.val = 0 + c.val; omega

/-- One row of [1, 3, 32] copied over the N rows. -/
theorem overRows_apply (x : S1x3x32.Idx → α) (n : Fin 1000000) (l : Fin 3) (d : Fin 32) :
    broadcastInDim S1000000x3x32 ![0, 1, 2] bcast_S1x3x32_S1000000x3x32_0_1_2 x (ix3 n l d) = x (ix3 (0 : Fin 1) l d) :=
  broadcastInDim_apply _ _ x _ _ (fun a => match a with
    | ⟨0, _⟩ => rfl
    | ⟨1, _⟩ => rfl
    | ⟨2, _⟩ => rfl)

/-- A [1, 3, 32, 1] array with its trailing unit axis dropped. -/
theorem dropUnitLane1_apply (x : S1x3x32x1.Idx → α) (h : S1x3x32x1.ShapeCasts S1x3x32) (l : Fin 3) (d : Fin 32) :
    shapeCast S1x3x32 x h (ix3 (0 : Fin 1) l d) = x (ix4 (0 : Fin 1) l d (0 : Fin 1)) :=
  shapeCast_apply x h _ _ (by
    rw [Shape.rowMajor_val_four, Shape.rowMajor_val_three]
    show ((0 * 3 + l.val) * 32 + d.val) * 1 + 0 = (0 * 3 + l.val) * 32 + d.val
    omega)

/-- Component `o` of a [1, 3, 32, 2] array, cut out as a [1, 3, 32, 1] slice. -/
theorem component1_apply (x : S1x3x32x2.Idx → α) (o : Nat) (c : Fin 2) (hc : c.val = o)
    (h : S1x3x32x2.Slices ![0, 0, 0, o] S1x3x32x1) (l : Fin 3) (d : Fin 32) :
    extractStridedSlice S1x3x32x1 ![0, 0, 0, o] x h (ix4 (0 : Fin 1) l d (0 : Fin 1)) = x (ix4 (0 : Fin 1) l d c) :=
  extractStridedSlice_apply _ x h _ _ fun a => match a with
    | ⟨0, _⟩ => rfl
    | ⟨1, _⟩ => by show l.val = 0 + l.val; omega
    | ⟨2, _⟩ => by show d.val = 0 + d.val; omega
    | ⟨3, _⟩ => by show c.val = o + 0; omega

/-- A [3, 32, 2] array given a leading unit axis. -/
theorem addUnitRow_apply (x : S3x32x2.Idx → α) (l : Fin 3) (d : Fin 32) (c : Fin 2) :
    broadcastInDim S1x3x32x2 ![1, 2, 3] bcast_S3x32x2_S1x3x32x2_1_2_3 x (ix4 (0 : Fin 1) l d c) = x (ix3 l d c) :=
  broadcastInDim_apply _ _ x _ _ (fun a => match a with
    | ⟨0, _⟩ => rfl
    | ⟨1, _⟩ => rfl
    | ⟨2, _⟩ => rfl)

/-- The first three rows of a [4, 32, 2] array. -/
theorem firstThreeRows_apply (x : S4x32x2.Idx → α) (h : S4x32x2.Slices ![0, 0, 0] S3x32x2)
    (l : Fin 3) (l' : Fin 4) (hl : l'.val = l.val) (d : Fin 32) (c : Fin 2) :
    extractStridedSlice S3x32x2 ![0, 0, 0] x h (ix3 l d c) = x (ix3 l' d c) :=
  extractStridedSlice_apply _ x h _ _ fun a => match a with
    | ⟨0, _⟩ => by show l'.val = 0 + l.val; omega
    | ⟨1, _⟩ => by show d.val = 0 + d.val; omega
    | ⟨2, _⟩ => by show c.val = 0 + c.val; omega

/-- Four one-row blocks stacked along axis 0: row `k` reads block `k` at its one row. -/
theorem stack_apply (g : Fin 4 → S1x32x2.Idx → α)
    (h : Shape.Concatenates [S1x32x2, S1x32x2, S1x32x2, S1x32x2] S4x32x2 0) (k : Fin 4) (d : Fin 32) (c : Fin 2) :
    concatenate S4x32x2 0 [⟨S1x32x2, g 0⟩, ⟨S1x32x2, g 1⟩, ⟨S1x32x2, g 2⟩, ⟨S1x32x2, g 3⟩] h (ix3 k d c)
      = g k (ix3 (0 : Fin 1) d c) := by
  have key : ∀ (kk : Nat) (hk : kk < 4), kk = k.val →
      concatenate S4x32x2 0 [⟨S1x32x2, g 0⟩, ⟨S1x32x2, g 1⟩, ⟨S1x32x2, g 2⟩, ⟨S1x32x2, g 3⟩] h (ix3 k d c)
        = g ⟨kk, hk⟩ (ix3 (0 : Fin 1) d c) := by
    intro kk hk hkk
    refine concatenate_apply_piece (t := S4x32x2) 0 [⟨S1x32x2, g 0⟩, ⟨S1x32x2, g 1⟩, ⟨S1x32x2, g 2⟩, ⟨S1x32x2, g 3⟩] h (ix3 k d c) kk hk S1x32x2
      (g ⟨kk, hk⟩) ?_ rfl kk ?_ (ix3 (0 : Fin 1) d c) ?_ ?_
    · interval_cases kk <;> rfl
    · interval_cases kk <;> rfl
    · intro bx hb
      match bx with
      | ⟨0, _⟩ => exact absurd rfl hb
      | ⟨1, _⟩ => rfl
      | ⟨2, _⟩ => rfl
    · show kk + 0 = k.val
      omega
  exact key k.val k.isLt rfl

/-! ## The sum over the four positions -/

/-- The host's sum over axis 1 of a [N, 4, 64] array from an initial value: the initial value plus the four positions,
    added left to right. -/
theorem sumPositions_apply (x : FVec Ideal S1000000x4x64 .f32) (init : S_.Idx → Ideal .f32)
    (h' : S1000000x4x64.ReducesTo [1] S1000000x64) (hu : 0 < S_.numel) (n : Fin 1000000) (j : Fin 64) :
    Host.reduceAdd x init h' hu (ix2 n j)
      = init (Shape.Idx.first hu) + (((x (ix3 n 0 j) + x (ix3 n 1 j)) + x (ix3 n 2 j)) + x (ix3 n 3 j)) := by
  have hR : S1000000x4x64.Reduces [1] S1000000x64 := ⟨h'.1, by decide, h'.2⟩
  rw [hostReduceAdd_apply, Ideal.hostReduceAdd_single h' hR]
  congr 1
  refine (Fin.sum_univ_four _).trans ?_
  have e : ∀ k : Fin 4, hR.lift (ix2 n j) k = ix3 n k j := fun k => by
    funext a
    refine Fin.ext ?_
    match a with
    | ⟨0, _⟩ => rfl
    | ⟨1, _⟩ => rfl
    | ⟨2, _⟩ => rfl
  rw [e 0, e 1, e 2, e 3]

/-- A scalar copied over a [N, 64] array reads the scalar. -/
theorem splat_apply (x : S_.Idx → α) (j : S1000000x64.Idx) :
    broadcastInDim S1000000x64 ![] bcast_S_S1000000x64 x j = x ix0 :=
  broadcastInDim_scalar_apply _ x j

/-! ## The second part of the reference as one term -/

/-- The reference's last 41 operations composed: from the feature array `Y` as complex pairs and the four one-row blocks of
    rotations to the mean over the four positions. -/
def tailTerm (Y : FVec Ideal S1000000x4x32x2 .f32) (f0 f1 f2 f3 : FVec Ideal S1x32x2 .f32) : FVec Ideal S1000000x64 .f32 :=
  have v106 : FVec Ideal S4x32x2 .f32 := concatenate S4x32x2 0 [⟨S1x32x2, f0⟩, ⟨S1x32x2, f1⟩, ⟨S1x32x2, f2⟩, ⟨S1x32x2, f3⟩] concatenates_S1x32x2_S1x32x2_S1x32x2_S1x32x2_S4x32x2_d0
  have v107 : FVec Ideal S1000000x3x32x2 .f32 := extractStridedSlice S1000000x3x32x2 ![0, 0, 0, 0] Y slices_S1000000x4x32x2_S1000000x3x32x2_0_0_0_0
  have v108 : FVec Ideal S3x32x2 .f32 := extractStridedSlice S3x32x2 ![0, 0, 0] v106 slices_S4x32x2_S3x32x2_0_0_0
  have v109 : FVec Ideal S1x3x32x2 .f32 := broadcastInDim S1x3x32x2 ![1, 2, 3] bcast_S3x32x2_S1x3x32x2_1_2_3 v108
  have v110 : FVec Ideal S1000000x3x32x1 .f32 := extractStridedSlice S1000000x3x32x1 ![0, 0, 0, 0] v107 slices_S1000000x3x32x2_S1000000x3x32x1_0_0_0_0
  have v111 : FVec Ideal S1000000x3x32 .f32 := shapeCast S1000000x3x32 v110 shapeCasts_S1000000x3x32x1_S1000000x3x32
  have v112 : FVec Ideal S1x3x32x1 .f32 := extractStridedSlice S1x3x32x1 ![0, 0, 0, 0] v109 slices_S1x3x32x2_S1x3x32x1_0_0_0_0
  have v113 : FVec Ideal S1x3x32 .f32 := shapeCast S1x3x32 v112 shapeCasts_S1x3x32x1_S1x3x32
  have v114 : FVec Ideal S1000000x3x32 .f32 := broadcastInDim S1000000x3x32 ![0, 1, 2] bcast_S1x3x32_S1000000x3x32_0_1_2 v113
  have v115 : FVec Ideal S1000000x3x32 .f32 := mulf v111 v114
  have v116 : FVec Ideal S1000000x3x32x1 .f32 := extractStridedSlice S1000000x3x32x1 ![0, 0, 0, 1] v107 slices_S1000000x3x32x2_S1000000x3x32x1_0_0_0_1
  have v117 : FVec Ideal S1000000x3x32 .f32 := shapeCast S1000000x3x32 v116 shapeCasts_S1000000x3x32x1_S1000000x3x32
  have v118 : FVec Ideal S1x3x32x1 .f32 := extractStridedSlice S1x3x32x1 ![0, 0, 0, 1] v109 slices_S1x3x32x2_S1x3x32x1_0_0_0_1
  have v119 : FVec Ideal S1x3x32 .f32 := shapeCast S1x3x32 v118 shapeCasts_S1x3x32x1_S1x3x32
  have v120 : FVec Ideal S1000000x3x32 .f32 := broadcastInDim S1000000x3x32 ![0, 1, 2] bcast_S1x3x32_S1000000x3x32_0_1_2 v119
  have v121 : FVec Ideal S1000000x3x32 .f32 := mulf v117 v120
  have v122 : FVec Ideal S1000000x3x32 .f32 := subf v115 v121
  have v123 : FVec Ideal S1000000x3x32x1 .f32 := extractStridedSlice S1000000x3x32x1 ![0, 0, 0, 0] v107 slices_S1000000x3x32x2_S1000000x3x32x1_0_0_0_0
  have v124 : FVec Ideal S1000000x3x32 .f32 := shapeCast S1000000x3x32 v123 shapeCasts_S1000000x3x32x1_S1000000x3x32
  have v125 : FVec Ideal S1x3x32x1 .f32 := extractStridedSlice S1x3x32x1 ![0, 0, 0, 1] v109 slices_S1x3x32x2_S1x3x32x1_0_0_0_1
  have v126 : FVec Ideal S1x3x32 .f32 := shapeCast S1x3x32 v125 shapeCasts_S1x3x32x1_S1x3x32
  have v127 : FVec Ideal S1000000x3x32 .f32 := broadcastInDim S1000000x3x32 ![0, 1, 2] bcast_S1x3x32_S1000000x3x32_0_1_2 v126
  have v128 : FVec Ideal S1000000x3x32 .f32 := mulf v124 v127
  have v129 : FVec Ideal S1000000x3x32x1 .f32 := extractStridedSlice S1000000x3x32x1 ![0, 0, 0, 1] v107 slices_S1000000x3x32x2_S1000000x3x32x1_0_0_0_1
  have v130 : FVec Ideal S1000000x3x32 .f32 := shapeCast S1000000x3x32 v129 shapeCasts_S1000000x3x32x1_S1000000x3x32
  have v131 : FVec Ideal S1x3x32x1 .f32 := extractStridedSlice S1x3x32x1 ![0, 0, 0, 0] v109 slices_S1x3x32x2_S1x3x32x1_0_0_0_0
  have v132 : FVec Ideal S1x3x32 .f32 := shapeCast S1x3x32 v131 shapeCasts_S1x3x32x1_S1x3x32
  have v133 : FVec Ideal S1000000x3x32 .f32 := broadcastInDim S1000000x3x32 ![0, 1, 2] bcast_S1x3x32_S1000000x3x32_0_1_2 v132
  have v134 : FVec Ideal S1000000x3x32 .f32 := mulf v130 v133
  have v135 : FVec Ideal S1000000x3x32 .f32 := addf v128 v134
  have v136 : FVec Ideal S1000000x3x32x1 .f32 := broadcastInDim S1000000x3x32x1 ![0, 1, 2] bcast_S1000000x3x32_S1000000x3x32x1_0_1_2 v122
  have v137 : FVec Ideal S1000000x3x32x1 .f32 := broadcastInDim S1000000x3x32x1 ![0, 1, 2] bcast_S1000000x3x32_S1000000x3x32x1_0_1_2 v135
  have v138 : FVec Ideal S1000000x3x32x2 .f32 := concatenate S1000000x3x32x2 3 [⟨S1000000x3x32x1, v136⟩, ⟨S1000000x3x32x1, v137⟩] concatenates_S1000000x3x32x1_S1000000x3x32x1_S1000000x3x32x2_d3
  have v139 : FVec Ideal S1000000x1x32x2 .f32 := extractStridedSlice S1000000x1x32x2 ![0, 3, 0, 0] Y slices_S1000000x4x32x2_S1000000x1x32x2_0_3_0_0
  have v140 : FVec Ideal S1000000x4x32x2 .f32 := concatenate S1000000x4x32x2 1 [⟨S1000000x3x32x2, v138⟩, ⟨S1000000x1x32x2, v139⟩] concatenates_S1000000x3x32x2_S1000000x1x32x2_S1000000x4x32x2_d1
  have v141 : FVec Ideal S1000000x4x64 .f32 := shapeCast S1000000x4x64 v140 shapeCasts_S1000000x4x32x2_S1000000x4x64
  have cst_4 : FVec Ideal S_ .f32 := constant (F := Ideal) S_ .f32 0x00000000#32
  have v142 : FVec Ideal S1000000x64 .f32 := Host.reduceAdd v141 cst_4 reducesTo_S1000000x4x64_S1000000x64_d1 h_S_
  have cst_5 : FVec Ideal S_ .f32 := constant (F := Ideal) S_ .f32 0x40800000#32
  have v143 : FVec Ideal S1000000x64 .f32 := broadcastInDim S1000000x64 ![] bcast_S_S1000000x64 cst_5
  have v144 : FVec Ideal S1000000x64 .f32 := Host.divf v142 v143
  v144

set_option maxRecDepth 16384 in
set_option maxHeartbeats 4000000 in
/-- The contents of the result buffer after the last 41 operations, from any contents: the composed term at the five
    buffers the operations read. -/
theorem tail_fold (W : Valuation τ sig (Elt Ideal)) :
    StableHlo.after (opsTail (F := Ideal)) W (Proc.devRef .tc main_v144)
      = tailTerm (W (Proc.devRef .tc main_v15)) (W (Proc.devRef .tc main_v102)) (W (Proc.devRef .tc main_v103))
          (W (Proc.devRef .tc main_v104)) (W (Proc.devRef .tc main_v105)) := by
  fold_eval
  rfl

/-! ## The term at an index -/

/-- Position `l` of row `n` of `Y`, complex number `d`, multiplied as a complex number by entry `d` of the one-row block
    `f`: component 0 is the real part of the product, component 1 the imaginary part. -/
def rot (Y : S1000000x4x32x2.Idx → EReal) (f : S1x32x2.Idx → EReal) (n : Fin 1000000) (l : Fin 4) (d : Fin 32) (c : Fin 2) : EReal :=
  if c.val = 0 then Y (ix4 n l d 0) * f (ix3 0 d 0) - Y (ix4 n l d 1) * f (ix3 0 d 1)
  else Y (ix4 n l d 0) * f (ix3 0 d 1) + Y (ix4 n l d 1) * f (ix3 0 d 0)

/-- The composed term at row `n`, lane `2 d + c`: the three rotated positions and the fourth position, added left to
    right, over the constant. -/
theorem tailTerm_apply (Y : FVec Ideal S1000000x4x32x2 .f32) (f0 f1 f2 f3 : FVec Ideal S1x32x2 .f32)
    (n : Fin 1000000) (d : Fin 32) (c : Fin 2) :
    tailTerm Y f0 f1 f2 f3 (ix2 n (lane d c))
      = Ideal.div (((rot Y f0 n 0 d c + rot Y f1 n 1 d c) + rot Y f2 n 2 d c) + Y (ix4 n 3 d c))
          (Ideal.ofBits .f32 0x40800000#32) := by
  have hs0 : ∀ (dd : Fin 32) (cc : Fin 2),
      concatenate S4x32x2 0 [⟨S1x32x2, f0⟩, ⟨S1x32x2, f1⟩, ⟨S1x32x2, f2⟩, ⟨S1x32x2, f3⟩]
          concatenates_S1x32x2_S1x32x2_S1x32x2_S1x32x2_S4x32x2_d0 (ix3 (0 : Fin 4) dd cc) = f0 (ix3 (0 : Fin 1) dd cc) :=
    fun dd cc => stack_apply (![f0, f1, f2, f3] : Fin 4 → S1x32x2.Idx → EReal) _ 0 dd cc
  have hs1 : ∀ (dd : Fin 32) (cc : Fin 2),
      concatenate S4x32x2 0 [⟨S1x32x2, f0⟩, ⟨S1x32x2, f1⟩, ⟨S1x32x2, f2⟩, ⟨S1x32x2, f3⟩]
          concatenates_S1x32x2_S1x32x2_S1x32x2_S1x32x2_S4x32x2_d0 (ix3 (1 : Fin 4) dd cc) = f1 (ix3 (0 : Fin 1) dd cc) :=
    fun dd cc => stack_apply (![f0, f1, f2, f3] : Fin 4 → S1x32x2.Idx → EReal) _ 1 dd cc
  have hs2 : ∀ (dd : Fin 32) (cc : Fin 2),
      concatenate S4x32x2 0 [⟨S1x32x2, f0⟩, ⟨S1x32x2, f1⟩, ⟨S1x32x2, f2⟩, ⟨S1x32x2, f3⟩]
          concatenates_S1x32x2_S1x32x2_S1x32x2_S1x32x2_S4x32x2_d0 (ix3 (2 : Fin 4) dd cc) = f2 (ix3 (0 : Fin 1) dd cc) :=
    fun dd cc => stack_apply (![f0, f1, f2, f3] : Fin 4 → S1x32x2.Idx → EReal) _ 2 dd cc
  unfold tailTerm rot
  simp only [hostDivf_apply, splat_apply _ (ix2 n (lane d c)), constant_apply, sumPositions_apply, mergeLanes_apply,
    catPos_left _ _ _ _ (0 : Fin 4) (0 : Fin 3) rfl, catPos_left _ _ _ _ (1 : Fin 4) (1 : Fin 3) rfl,
    catPos_left _ _ _ _ (2 : Fin 4) (2 : Fin 3) rfl, catPos_right, catReIm_apply, addUnitLane_apply _ n 0 d, addUnitLane_apply _ n 1 d, addUnitLane_apply _ n 2 d, dropUnitLane_apply,
    subf_apply, addf_apply, mulf_apply,
    component_apply _ 0 (0 : Fin 2) rfl, component_apply _ 1 (1 : Fin 2) rfl,
    firstThree_apply _ _ _ (0 : Fin 3) (0 : Fin 4) rfl, firstThree_apply _ _ _ (1 : Fin 3) (1 : Fin 4) rfl,
    firstThree_apply _ _ _ (2 : Fin 3) (2 : Fin 4) rfl, fourth_apply, overRows_apply _ n 0 d, overRows_apply _ n 1 d, overRows_apply _ n 2 d, dropUnitLane1_apply,
    component1_apply _ 0 (0 : Fin 2) rfl, component1_apply _ 1 (1 : Fin 2) rfl, addUnitRow_apply _ 0 d 0, addUnitRow_apply _ 0 d 1, addUnitRow_apply _ 1 d 0, addUnitRow_apply _ 1 d 1, addUnitRow_apply _ 2 d 0, addUnitRow_apply _ 2 d 1,
    firstThreeRows_apply _ _ (0 : Fin 3) (0 : Fin 4) rfl, firstThreeRows_apply _ _ (1 : Fin 3) (1 : Fin 4) rfl,
    firstThreeRows_apply _ _ (2 : Fin 3) (2 : Fin 4) rfl, hs0, hs1, hs2, Ideal.ofBits_zero_f32, zero_add]

/-! ## The result buffer at an index -/

/-- The result buffer after the reference's last 41 operations, from any contents `W`, read at row `n`, lane
    `2 d + c`: the first three positions of the feature row rotated by the three rotations, and the fourth position,
    added left to right, over the constant. -/
theorem refTail_apply (W : Valuation τ sig (Elt Ideal)) (n : Fin 1000000) (d : Fin 32) (c : Fin 2) :
    StableHlo.after (opsTail (F := Ideal)) W (Proc.devRef .tc main_v144) (ix2 n (lane d c))
      = Ideal.div
          (((rot (W (Proc.devRef .tc main_v15)) (W (Proc.devRef .tc main_v102)) n 0 d c
              + rot (W (Proc.devRef .tc main_v15)) (W (Proc.devRef .tc main_v103)) n 1 d c)
              + rot (W (Proc.devRef .tc main_v15)) (W (Proc.devRef .tc main_v104)) n 2 d c)
            + W (Proc.devRef .tc main_v15) (ix4 n 3 d c))
          (Ideal.ofBits .f32 0x40800000#32) :=
  (congrFun (tail_fold W) (ix2 n (lane d c))).trans (tailTerm_apply _ _ _ _ _ n d c)

end Cert.ReferenceIdeal.RefTail

end
-- ==== Proof.RefPairs.lean ====
/-
  The reference's view of the feature array as complex pairs.

  The reference reshapes the feature array [N, 4, 64] to [N, 4, 32, 2]: lane `2·d + c` of a row becomes component `c`
  (0 = real part, 1 = imaginary part) of its `d`-th complex number.  Both layouts are row-major, so the entry at
  (n, l, d, c) of the reshaped array is the entry at (n, l, 2·d + c) of the original.
-/
import proofs.«111939_j20813411516915_2_alg».proof.Proof.RefSplit
import proofs.«111939_j20813411516915_2_alg».proof.Proof.LibFold
import Idealize.ShloMosaic.PureOps.Ideal
import Idealize.ShloMosaic.Lib.Pipeline.Value
import Idealize.ShloMosaic.Lib.ValueIdx

set_option maxRecDepth 16384

noncomputable section

namespace Cert.ReferenceIdeal.RefPairs

open Cert.ReferenceIdeal Cert.ReferenceIdeal.Gen Cert.ReferenceIdeal.RefRun Idealize.ShloMosaic Idealize.ShloMosaic.TcCoe Idealize.ShloMosaic.StableHlo
open Idealize.ShloMosaic.ValueIdx Cert.LibFold

/-- A row-major [N, 4, 64] array read as [N, 4, 32, 2]. -/
theorem shapeCast_pairs {α : Type} (x : S1000000x4x64.Idx → α) (h : S1000000x4x64.ShapeCasts S1000000x4x32x2)
    (n : Fin 1000000) (l : Fin 4) (d : Fin 32) (c : Fin 2) :
    shapeCast S1000000x4x32x2 x h (ix4 n l d c) = x (ix3 n l (⟨2 * d.val + c.val, by omega⟩ : Fin 64)) :=
  shapeCast_apply x h _ _ (by
    rw [Shape.rowMajor_val_three, Shape.rowMajor_val_four]
    show (n.val * 4 + l.val) * 64 + (2 * d.val + c.val) = ((n.val * 4 + l.val) * 32 + d.val) * 2 + c.val
    omega)

set_option maxHeartbeats 4000000 in
/-- After the reference's first part, the pair view of the feature array at (n, l, d, c) is the feature array at
    (n, l, 2·d + c). -/
theorem pairs_apply (W : Valuation τ sig (Elt Ideal)) (n : Fin 1000000) (l : Fin 4) (d : Fin 32) (c : Fin 2) :
    after (opsPre (F := Ideal)) W (Proc.devRef .tc main_v15) (ix4 n l d c)
      = W (Proc.devRef .tc main_arg0) (ix3 n l (⟨2 * d.val + c.val, by omega⟩ : Fin 64)) := by
  have e : after (opsPre (F := Ideal)) W (Proc.devRef .tc main_v15)
      = shapeCast S1000000x4x32x2 (W (Proc.devRef .tc main_arg0)) shapeCasts_S1000000x4x64_S1000000x4x32x2 := by
    after_all
    rfl
  rw [e]
  exact shapeCast_pairs _ _ n l d c

end Cert.ReferenceIdeal.RefPairs

end
-- ==== Proof.RefValue.lean ====
/-
  The reference's result at an index, as the specification.

  The reference's whole line is its first part followed by its second.  The second part, from what the first leaves — the
  feature array seen as complex pairs and the three rotation rows — rotates the first three positions, keeps the fourth, sums the
  four and divides by 4.0; the pair view at (n, l, d, c) is the feature array at lane `2·d + c`; and dividing by 4.0 is
  multiplying by 0.25.  So the result at row `n`, lane `2·d + c` is `mean4` of the feature array and the three rows.
-/
import proofs.«111939_j20813411516915_2_alg».proof.Proof.RefTail
import proofs.«111939_j20813411516915_2_alg».proof.Proof.RefPairs
import proofs.«111939_j20813411516915_2_alg».proof.Proof.RotSpec
import Idealize.ShloMosaic.Lib.Pipeline.Frame

set_option maxRecDepth 16384

noncomputable section

namespace Cert.ReferenceIdeal.RefValue

open Cert.ReferenceIdeal Cert.ReferenceIdeal.Gen Cert.ReferenceIdeal.RefRun Idealize.ShloMosaic Idealize.ShloMosaic.TcCoe
open Idealize.ShloMosaic.StableHlo Idealize.ShloMosaic.ValueIdx

/-- The pair view after the first part, with the lane spelt as the specification spells it. -/
theorem pairs_lane (W : Valuation τ sig (Elt Ideal)) (n : Fin 1000000) (l : Fin 4) (d : Fin 32) (c : Fin 2) :
    after (opsPre (F := Ideal)) W (Proc.devRef .tc main_v15) (ix4 n l d c)
      = W (Proc.devRef .tc main_arg0) (ix3 n l (Cert.RotSpec.lane d c)) :=
  Cert.ReferenceIdeal.RefPairs.pairs_apply W n l d c

/-- The reference's result at row `n`, lane `2·d + c`. -/
theorem ref_entry (W0 : Valuation τ sig (Elt Ideal)) (n : Fin 1000000) (d : Fin 32) (c : Fin 2) :
    after (ops (F := Ideal)) W0 (Proc.devRef .tc main_v144) (ix2 n (Cert.RotSpec.lane d c))
      = Cert.RotSpec.mean4 (W0 (Proc.devRef .tc main_arg0))
          (after (opsPre (F := Ideal)) W0 (Proc.devRef .tc main_v102))
          (after (opsPre (F := Ideal)) W0 (Proc.devRef .tc main_v103))
          (after (opsPre (F := Ideal)) W0 (Proc.devRef .tc main_v104)) n d c := by
  rw [ops_split, StableHlo.after_append]
  refine (Cert.ReferenceIdeal.RefTail.refTail_apply (after (opsPre (F := Ideal)) W0) n d c).trans ?_
  rw [Cert.RotAlg.div_four]
  unfold Cert.RotSpec.mean4 Cert.RotSpec.rotX Cert.ReferenceIdeal.RefTail.rot
  simp only [pairs_lane W0 n 0 d 0, pairs_lane W0 n 0 d 1, pairs_lane W0 n 1 d 0, pairs_lane W0 n 1 d 1,
    pairs_lane W0 n 2 d 0, pairs_lane W0 n 2 d 1, pairs_lane W0 n 3 d c]

end Cert.ReferenceIdeal.RefValue

end
-- ==== Proof.KIPreChunks.lean ====
/-
  The first part of the kernel's host prefix, in six pieces: the normalised table with conjugates (to the 8×32×2 array of
  rotations), the identity rotation, the three complex products of the reverse cumulative rotation (third position, second,
  first), and the three one-row layouts.
-/
import proofs.«111939_j20813411516915_2_alg».proof.Proof.KISplit

set_option maxRecDepth 16384

noncomputable section

namespace Cert.KernelIdeal.Frm

open Cert.KernelIdeal Cert.KernelIdeal.Gen Idealize.ShloMosaic Idealize.ShloMosaic.TcCoe Idealize.SL.Sem

variable {F : FTy → Type} [FloatOps F]

abbrev kA : List (HloOp τ sig (Elt F)) :=
  [
    StableHlo.nullary main_cst (fun i => FloatOps.ofBits .f32 (lit0 (S2.rowMajor i))),
    StableHlo.binary main_arg1 main_arg1 main_v0 (mulf : (⟨S4x32x2, .f32⟩ : BufTy).Contents (Elt F) → (⟨S4x32x2, .f32⟩ : BufTy).Contents (Elt F) → (⟨S4x32x2, .f32⟩ : BufTy).Contents (Elt F)),
    StableHlo.nullary main_cst_0 (constant S_ .f32 0x00000000#32),
    StableHlo.binary main_v0 main_cst_0 main_v1 ((fun x v => Host.reduceAdd x v reducesTo_S4x32x2_S4x32_d2 h_S_) : (⟨S4x32x2, .f32⟩ : BufTy).Contents (Elt F) → (⟨S_, .f32⟩ : BufTy).Contents (Elt F) → (⟨S4x32, .f32⟩ : BufTy).Contents (Elt F)),
    StableHlo.unary main_v1 main_v2 (broadcastInDim S4x32x1 ![0, 1] bcast_S4x32_S4x32x1_0_1 : (⟨S4x32, .f32⟩ : BufTy).Contents (Elt F) → (⟨S4x32x1, .f32⟩ : BufTy).Contents (Elt F)),
    StableHlo.unary main_v2 main_v3 (Host.sqrt : (⟨S4x32x1, .f32⟩ : BufTy).Contents (Elt F) → (⟨S4x32x1, .f32⟩ : BufTy).Contents (Elt F)),
    StableHlo.nullary main_cst_1 (constant S_ .f32 0x2B8CBCCC#32),
    StableHlo.unary main_cst_1 main_v4 (broadcastInDim S4x32x1 ![] bcast_S_S4x32x1 : (⟨S_, .f32⟩ : BufTy).Contents (Elt F) → (⟨S4x32x1, .f32⟩ : BufTy).Contents (Elt F)),
    StableHlo.binary main_v3 main_v4 main_v5 (maximumf : (⟨S4x32x1, .f32⟩ : BufTy).Contents (Elt F) → (⟨S4x32x1, .f32⟩ : BufTy).Contents (Elt F) → (⟨S4x32x1, .f32⟩ : BufTy).Contents (Elt F)),
    StableHlo.unary main_v5 main_v6 (broadcastInDim S4x32x2 ![0, 1, 2] bcast_S4x32x1_S4x32x2_0_1_2 : (⟨S4x32x1, .f32⟩ : BufTy).Contents (Elt F) → (⟨S4x32x2, .f32⟩ : BufTy).Contents (Elt F)),
    StableHlo.binary main_arg1 main_v6 main_v7 (Host.divf : (⟨S4x32x2, .f32⟩ : BufTy).Contents (Elt F) → (⟨S4x32x2, .f32⟩ : BufTy).Contents (Elt F) → (⟨S4x32x2, .f32⟩ : BufTy).Contents (Elt F)),
    StableHlo.unary main_cst main_v8 (broadcastInDim S1x1x2 ![2] bcast_S2_S1x1x2_2 : (⟨S2, .f32⟩ : BufTy).Contents (Elt F) → (⟨S1x1x2, .f32⟩ : BufTy).Contents (Elt F)),
    StableHlo.unary main_v8 main_v9 (broadcastInDim S4x32x2 ![0, 1, 2] bcast_S1x1x2_S4x32x2_0_1_2 : (⟨S1x1x2, .f32⟩ : BufTy).Contents (Elt F) → (⟨S4x32x2, .f32⟩ : BufTy).Contents (Elt F)),
    StableHlo.binary main_v7 main_v9 main_v10 (mulf : (⟨S4x32x2, .f32⟩ : BufTy).Contents (Elt F) → (⟨S4x32x2, .f32⟩ : BufTy).Contents (Elt F) → (⟨S4x32x2, .f32⟩ : BufTy).Contents (Elt F)),
    StableHlo.unary main_v7 main_v11 (broadcastInDim S4x1x32x2 ![0, 2, 3] bcast_S4x32x2_S4x1x32x2_0_2_3 : (⟨S4x32x2, .f32⟩ : BufTy).Contents (Elt F) → (⟨S4x1x32x2, .f32⟩ : BufTy).Contents (Elt F)),
    StableHlo.unary main_v10 main_v12 (broadcastInDim S4x1x32x2 ![0, 2, 3] bcast_S4x32x2_S4x1x32x2_0_2_3 : (⟨S4x32x2, .f32⟩ : BufTy).Contents (Elt F) → (⟨S4x1x32x2, .f32⟩ : BufTy).Contents (Elt F)),
    StableHlo.binary main_v11 main_v12 main_v13 ((fun a b => concatenate S4x2x32x2 1 [⟨S4x1x32x2, a⟩, ⟨S4x1x32x2, b⟩] concatenates_S4x1x32x2_S4x1x32x2_S4x2x32x2_d1) : (⟨S4x1x32x2, .f32⟩ : BufTy).Contents (Elt F) → (⟨S4x1x32x2, .f32⟩ : BufTy).Contents (Elt F) → (⟨S4x2x32x2, .f32⟩ : BufTy).Contents (Elt F)),
    StableHlo.reshape main_v13 main_v14 rfl shapeCasts_S4x2x32x2_S8x32x2 ]

abbrev kB : List (HloOp τ sig (Elt F)) :=
  [
    StableHlo.nullary main_cst_2 (constant S_ .f32 0x3F800000#32),
    StableHlo.unary main_cst_2 main_v15 (broadcastInDim S32 ![] bcast_S_S32 : (⟨S_, .f32⟩ : BufTy).Contents (Elt F) → (⟨S32, .f32⟩ : BufTy).Contents (Elt F)),
    StableHlo.nullary main_cst_3 (constant S_ .f32 0x00000000#32),
    StableHlo.unary main_cst_3 main_v16 (broadcastInDim S32 ![] bcast_S_S32 : (⟨S_, .f32⟩ : BufTy).Contents (Elt F) → (⟨S32, .f32⟩ : BufTy).Contents (Elt F)),
    StableHlo.unary main_v15 main_v17 (broadcastInDim S32x1 ![0] bcast_S32_S32x1_0 : (⟨S32, .f32⟩ : BufTy).Contents (Elt F) → (⟨S32x1, .f32⟩ : BufTy).Contents (Elt F)),
    StableHlo.unary main_v16 main_v18 (broadcastInDim S32x1 ![0] bcast_S32_S32x1_0 : (⟨S32, .f32⟩ : BufTy).Contents (Elt F) → (⟨S32x1, .f32⟩ : BufTy).Contents (Elt F)),
    StableHlo.binary main_v17 main_v18 main_v19 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)) ]

abbrev kC2 : List (HloOp τ sig (Elt F)) :=
  [
    StableHlo.unary main_v14 main_v20 ((extractStridedSlice S1x32x2 ![5, 0, 0] · slices_S8x32x2_S1x32x2_5_0_0) : (⟨S8x32x2, .f32⟩ : BufTy).Contents (Elt F) → (⟨S1x32x2, .f32⟩ : BufTy).Contents (Elt F)),
    StableHlo.reshape main_v20 main_v21 rfl shapeCasts_S1x32x2_S32x2,
    StableHlo.unary main_v19 main_v22 ((extractStridedSlice S32x1 ![0, 0] · slices_S32x2_S32x1_0_0) : (⟨S32x2, .f32⟩ : BufTy).Contents (Elt F) → (⟨S32x1, .f32⟩ : BufTy).Contents (Elt F)),
    StableHlo.reshape main_v22 main_v23 rfl shapeCasts_S32x1_S32,
    StableHlo.unary main_v21 main_v24 ((extractStridedSlice S32x1 ![0, 0] · slices_S32x2_S32x1_0_0) : (⟨S32x2, .f32⟩ : BufTy).Contents (Elt F) → (⟨S32x1, .f32⟩ : BufTy).Contents (Elt F)),
    StableHlo.reshape main_v24 main_v25 rfl shapeCasts_S32x1_S32,
    StableHlo.binary main_v23 main_v25 main_v26 (mulf : (⟨S32, .f32⟩ : BufTy).Contents (Elt F) → (⟨S32, .f32⟩ : BufTy).Contents (Elt F) → (⟨S32, .f32⟩ : BufTy).Contents (Elt F)),
    StableHlo.unary main_v19 main_v27 ((extractStridedSlice S32x1 ![0, 1] · slices_S32x2_S32x1_0_1) : (⟨S32x2, .f32⟩ : BufTy).Contents (Elt F) → (⟨S32x1, .f32⟩ : BufTy).Contents (Elt F)),
    StableHlo.reshape main_v27 main_v28 rfl shapeCasts_S32x1_S32,
    StableHlo.unary main_v21 main_v29 ((extractStridedSlice S32x1 ![0, 1] · slices_S32x2_S32x1_0_1) : (⟨S32x2, .f32⟩ : BufTy).Contents (Elt F) → (⟨S32x1, .f32⟩ : BufTy).Contents (Elt F)),
    StableHlo.reshape main_v29 main_v30 rfl shapeCasts_S32x1_S32,
    StableHlo.binary main_v28 main_v30 main_v31 (mulf : (⟨S32, .f32⟩ : BufTy).Contents (Elt F) → (⟨S32, .f32⟩ : BufTy).Contents (Elt F) → (⟨S32, .f32⟩ : BufTy).Contents (Elt F)),
    StableHlo.binary main_v26 main_v31 main_v32 (subf : (⟨S32, .f32⟩ : BufTy).Contents (Elt F) → (⟨S32, .f32⟩ : BufTy).Contents (Elt F) → (⟨S32, .f32⟩ : BufTy).Contents (Elt F)),
    StableHlo.unary main_v19 main_v33 ((extractStridedSlice S32x1 ![0, 0] · slices_S32x2_S32x1_0_0) : (⟨S32x2, .f32⟩ : BufTy).Contents (Elt F) → (⟨S32x1, .f32⟩ : BufTy).Contents (Elt F)),
    StableHlo.reshape main_v33 main_v34 rfl shapeCasts_S32x1_S32,
    StableHlo.unary main_v21 main_v35 ((extractStridedSlice S32x1 ![0, 1] · slices_S32x2_S32x1_0_1) : (⟨S32x2, .f32⟩ : BufTy).Contents (Elt F) → (⟨S32x1, .f32⟩ : BufTy).Contents (Elt F)),
    StableHlo.reshape main_v35 main_v36 rfl shapeCasts_S32x1_S32,
    StableHlo.binary main_v34 main_v36 main_v37 (mulf : (⟨S32, .f32⟩ : BufTy).Contents (Elt F) → (⟨S32, .f32⟩ : BufTy).Contents (Elt F) → (⟨S32, .f32⟩ : BufTy).Contents (Elt F)),
    StableHlo.unary main_v19 main_v38 ((extractStridedSlice S32x1 ![0, 1] · slices_S32x2_S32x1_0_1) : (⟨S32x2, .f32⟩ : BufTy).Contents (Elt F) → (⟨S32x1, .f32⟩ : BufTy).Contents (Elt F)),
    StableHlo.reshape main_v38 main_v39 rfl shapeCasts_S32x1_S32,
    StableHlo.unary main_v21 main_v40 ((extractStridedSlice S32x1 ![0, 0] · slices_S32x2_S32x1_0_0) : (⟨S32x2, .f32⟩ : BufTy).Contents (Elt F) → (⟨S32x1, .f32⟩ : BufTy).Contents (Elt F)),
    StableHlo.reshape main_v40 main_v41 rfl shapeCasts_S32x1_S32,
    StableHlo.binary main_v39 main_v41 main_v42 (mulf : (⟨S32, .f32⟩ : BufTy).Contents (Elt F) → (⟨S32, .f32⟩ : BufTy).Contents (Elt F) → (⟨S32, .f32⟩ : BufTy).Contents (Elt F)),
    StableHlo.binary main_v37 main_v42 main_v43 (addf : (⟨S32, .f32⟩ : BufTy).Contents (Elt F) → (⟨S32, .f32⟩ : BufTy).Contents (Elt F) → (⟨S32, .f32⟩ : BufTy).Contents (Elt F)),
    StableHlo.unary main_v32 main_v44 (broadcastInDim S32x1 ![0] bcast_S32_S32x1_0 : (⟨S32, .f32⟩ : BufTy).Contents (Elt F) → (⟨S32x1, .f32⟩ : BufTy).Contents (Elt F)),
    StableHlo.unary main_v43 main_v45 (broadcastInDim S32x1 ![0] bcast_S32_S32x1_0 : (⟨S32, .f32⟩ : BufTy).Contents (Elt F) → (⟨S32x1, .f32⟩ : BufTy).Contents (Elt F)),
    StableHlo.binary main_v44 main_v45 main_v46 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)) ]

abbrev kC1 : List (HloOp τ sig (Elt F)) :=
  [
    StableHlo.unary main_v14 main_v47 ((extractStridedSlice S1x32x2 ![3, 0, 0] · slices_S8x32x2_S1x32x2_3_0_0) : (⟨S8x32x2, .f32⟩ : BufTy).Contents (Elt F) → (⟨S1x32x2, .f32⟩ : BufTy).Contents (Elt F)),
    StableHlo.reshape main_v47 main_v48 rfl shapeCasts_S1x32x2_S32x2,
    StableHlo.unary main_v46 main_v49 ((extractStridedSlice S32x1 ![0, 0] · slices_S32x2_S32x1_0_0) : (⟨S32x2, .f32⟩ : BufTy).Contents (Elt F) → (⟨S32x1, .f32⟩ : BufTy).Contents (Elt F)),
    StableHlo.reshape main_v49 main_v50 rfl shapeCasts_S32x1_S32,
    StableHlo.unary main_v48 main_v51 ((extractStridedSlice S32x1 ![0, 0] · slices_S32x2_S32x1_0_0) : (⟨S32x2, .f32⟩ : BufTy).Contents (Elt F) → (⟨S32x1, .f32⟩ : BufTy).Contents (Elt F)),
    StableHlo.reshape main_v51 main_v52 rfl shapeCasts_S32x1_S32,
    StableHlo.binary main_v50 main_v52 main_v53 (mulf : (⟨S32, .f32⟩ : BufTy).Contents (Elt F) → (⟨S32, .f32⟩ : BufTy).Contents (Elt F) → (⟨S32, .f32⟩ : BufTy).Contents (Elt F)),
    StableHlo.unary main_v46 main_v54 ((extractStridedSlice S32x1 ![0, 1] · slices_S32x2_S32x1_0_1) : (⟨S32x2, .f32⟩ : BufTy).Contents (Elt F) → (⟨S32x1, .f32⟩ : BufTy).Contents (Elt F)),
    StableHlo.reshape main_v54 main_v55 rfl shapeCasts_S32x1_S32,
    StableHlo.unary main_v48 main_v56 ((extractStridedSlice S32x1 ![0, 1] · slices_S32x2_S32x1_0_1) : (⟨S32x2, .f32⟩ : BufTy).Contents (Elt F) → (⟨S32x1, .f32⟩ : BufTy).Contents (Elt F)),
    StableHlo.reshape main_v56 main_v57 rfl shapeCasts_S32x1_S32,
    StableHlo.binary main_v55 main_v57 main_v58 (mulf : (⟨S32, .f32⟩ : BufTy).Contents (Elt F) → (⟨S32, .f32⟩ : BufTy).Contents (Elt F) → (⟨S32, .f32⟩ : BufTy).Contents (Elt F)),
    StableHlo.binary main_v53 main_v58 main_v59 (subf : (⟨S32, .f32⟩ : BufTy).Contents (Elt F) → (⟨S32, .f32⟩ : BufTy).Contents (Elt F) → (⟨S32, .f32⟩ : BufTy).Contents (Elt F)),
    StableHlo.unary main_v46 main_v60 ((extractStridedSlice S32x1 ![0, 0] · slices_S32x2_S32x1_0_0) : (⟨S32x2, .f32⟩ : BufTy).Contents (Elt F) → (⟨S32x1, .f32⟩ : BufTy).Contents (Elt F)),
    StableHlo.reshape main_v60 main_v61 rfl shapeCasts_S32x1_S32,
    StableHlo.unary main_v48 main_v62 ((extractStridedSlice S32x1 ![0, 1] · slices_S32x2_S32x1_0_1) : (⟨S32x2, .f32⟩ : BufTy).Contents (Elt F) → (⟨S32x1, .f32⟩ : BufTy).Contents (Elt F)),
    StableHlo.reshape main_v62 main_v63 rfl shapeCasts_S32x1_S32,
    StableHlo.binary main_v61 main_v63 main_v64 (mulf : (⟨S32, .f32⟩ : BufTy).Contents (Elt F) → (⟨S32, .f32⟩ : BufTy).Contents (Elt F) → (⟨S32, .f32⟩ : BufTy).Contents (Elt F)),
    StableHlo.unary main_v46 main_v65 ((extractStridedSlice S32x1 ![0, 1] · slices_S32x2_S32x1_0_1) : (⟨S32x2, .f32⟩ : BufTy).Contents (Elt F) → (⟨S32x1, .f32⟩ : BufTy).Contents (Elt F)),
    StableHlo.reshape main_v65 main_v66 rfl shapeCasts_S32x1_S32,
    StableHlo.unary main_v48 main_v67 ((extractStridedSlice S32x1 ![0, 0] · slices_S32x2_S32x1_0_0) : (⟨S32x2, .f32⟩ : BufTy).Contents (Elt F) → (⟨S32x1, .f32⟩ : BufTy).Contents (Elt F)),
    StableHlo.reshape main_v67 main_v68 rfl shapeCasts_S32x1_S32,
    StableHlo.binary main_v66 main_v68 main_v69 (mulf : (⟨S32, .f32⟩ : BufTy).Contents (Elt F) → (⟨S32, .f32⟩ : BufTy).Contents (Elt F) → (⟨S32, .f32⟩ : BufTy).Contents (Elt F)),
    StableHlo.binary main_v64 main_v69 main_v70 (addf : (⟨S32, .f32⟩ : BufTy).Contents (Elt F) → (⟨S32, .f32⟩ : BufTy).Contents (Elt F) → (⟨S32, .f32⟩ : BufTy).Contents (Elt F)),
    StableHlo.unary main_v59 main_v71 (broadcastInDim S32x1 ![0] bcast_S32_S32x1_0 : (⟨S32, .f32⟩ : BufTy).Contents (Elt F) → (⟨S32x1, .f32⟩ : BufTy).Contents (Elt F)),
    StableHlo.unary main_v70 main_v72 (broadcastInDim S32x1 ![0] bcast_S32_S32x1_0 : (⟨S32, .f32⟩ : BufTy).Contents (Elt F) → (⟨S32x1, .f32⟩ : BufTy).Contents (Elt F)),
    StableHlo.binary main_v71 main_v72 main_v73 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)) ]

abbrev kC0 : List (HloOp τ sig (Elt F)) :=
  [
    StableHlo.unary main_v14 main_v74 ((extractStridedSlice S1x32x2 ![0, 0, 0] · slices_S8x32x2_S1x32x2_0_0_0) : (⟨S8x32x2, .f32⟩ : BufTy).Contents (Elt F) → (⟨S1x32x2, .f32⟩ : BufTy).Contents (Elt F)),
    StableHlo.reshape main_v74 main_v75 rfl shapeCasts_S1x32x2_S32x2,
    StableHlo.unary main_v73 main_v76 ((extractStridedSlice S32x1 ![0, 0] · slices_S32x2_S32x1_0_0) : (⟨S32x2, .f32⟩ : BufTy).Contents (Elt F) → (⟨S32x1, .f32⟩ : BufTy).Contents (Elt F)),
    StableHlo.reshape main_v76 main_v77 rfl shapeCasts_S32x1_S32,
    StableHlo.unary main_v75 main_v78 ((extractStridedSlice S32x1 ![0, 0] · slices_S32x2_S32x1_0_0) : (⟨S32x2, .f32⟩ : BufTy).Contents (Elt F) → (⟨S32x1, .f32⟩ : BufTy).Contents (Elt F)),
    StableHlo.reshape main_v78 main_v79 rfl shapeCasts_S32x1_S32,
    StableHlo.binary main_v77 main_v79 main_v80 (mulf : (⟨S32, .f32⟩ : BufTy).Contents (Elt F) → (⟨S32, .f32⟩ : BufTy).Contents (Elt F) → (⟨S32, .f32⟩ : BufTy).Contents (Elt F)),
    StableHlo.unary main_v73 main_v81 ((extractStridedSlice S32x1 ![0, 1] · slices_S32x2_S32x1_0_1) : (⟨S32x2, .f32⟩ : BufTy).Contents (Elt F) → (⟨S32x1, .f32⟩ : BufTy).Contents (Elt F)),
    StableHlo.reshape main_v81 main_v82 rfl shapeCasts_S32x1_S32,
    StableHlo.unary main_v75 main_v83 ((extractStridedSlice S32x1 ![0, 1] · slices_S32x2_S32x1_0_1) : (⟨S32x2, .f32⟩ : BufTy).Contents (Elt F) → (⟨S32x1, .f32⟩ : BufTy).Contents (Elt F)),
    StableHlo.reshape main_v83 main_v84 rfl shapeCasts_S32x1_S32,
    StableHlo.binary main_v82 main_v84 main_v85 (mulf : (⟨S32, .f32⟩ : BufTy).Contents (Elt F) → (⟨S32, .f32⟩ : BufTy).Contents (Elt F) → (⟨S32, .f32⟩ : BufTy).Contents (Elt F)),
    StableHlo.binary main_v80 main_v85 main_v86 (subf : (⟨S32, .f32⟩ : BufTy).Contents (Elt F) → (⟨S32, .f32⟩ : BufTy).Contents (Elt F) → (⟨S32, .f32⟩ : BufTy).Contents (Elt F)),
    StableHlo.unary main_v73 main_v87 ((extractStridedSlice S32x1 ![0, 0] · slices_S32x2_S32x1_0_0) : (⟨S32x2, .f32⟩ : BufTy).Contents (Elt F) → (⟨S32x1, .f32⟩ : BufTy).Contents (Elt F)),
    StableHlo.reshape main_v87 main_v88 rfl shapeCasts_S32x1_S32,
    StableHlo.unary main_v75 main_v89 ((extractStridedSlice S32x1 ![0, 1] · slices_S32x2_S32x1_0_1) : (⟨S32x2, .f32⟩ : BufTy).Contents (Elt F) → (⟨S32x1, .f32⟩ : BufTy).Contents (Elt F)),
    StableHlo.reshape main_v89 main_v90 rfl shapeCasts_S32x1_S32,
    StableHlo.binary main_v88 main_v90 main_v91 (mulf : (⟨S32, .f32⟩ : BufTy).Contents (Elt F) → (⟨S32, .f32⟩ : BufTy).Contents (Elt F) → (⟨S32, .f32⟩ : BufTy).Contents (Elt F)),
    StableHlo.unary main_v73 main_v92 ((extractStridedSlice S32x1 ![0, 1] · slices_S32x2_S32x1_0_1) : (⟨S32x2, .f32⟩ : BufTy).Contents (Elt F) → (⟨S32x1, .f32⟩ : BufTy).Contents (Elt F)),
    StableHlo.reshape main_v92 main_v93 rfl shapeCasts_S32x1_S32,
    StableHlo.unary main_v75 main_v94 ((extractStridedSlice S32x1 ![0, 0] · slices_S32x2_S32x1_0_0) : (⟨S32x2, .f32⟩ : BufTy).Contents (Elt F) → (⟨S32x1, .f32⟩ : BufTy).Contents (Elt F)),
    StableHlo.reshape main_v94 main_v95 rfl shapeCasts_S32x1_S32,
    StableHlo.binary main_v93 main_v95 main_v96 (mulf : (⟨S32, .f32⟩ : BufTy).Contents (Elt F) → (⟨S32, .f32⟩ : BufTy).Contents (Elt F) → (⟨S32, .f32⟩ : BufTy).Contents (Elt F)),
    StableHlo.binary main_v91 main_v96 main_v97 (addf : (⟨S32, .f32⟩ : BufTy).Contents (Elt F) → (⟨S32, .f32⟩ : BufTy).Contents (Elt F) → (⟨S32, .f32⟩ : BufTy).Contents (Elt F)),
    StableHlo.unary main_v86 main_v98 (broadcastInDim S32x1 ![0] bcast_S32_S32x1_0 : (⟨S32, .f32⟩ : BufTy).Contents (Elt F) → (⟨S32x1, .f32⟩ : BufTy).Contents (Elt F)),
    StableHlo.unary main_v97 main_v99 (broadcastInDim S32x1 ![0] bcast_S32_S32x1_0 : (⟨S32, .f32⟩ : BufTy).Contents (Elt F) → (⟨S32x1, .f32⟩ : BufTy).Contents (Elt F)),
    StableHlo.binary main_v98 main_v99 main_v100 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)) ]

abbrev kD : List (HloOp τ sig (Elt F)) :=
  [
    StableHlo.unary main_v100 main_v101 (broadcastInDim S1x32x2 ![1, 2] bcast_S32x2_S1x32x2_1_2 : (⟨S32x2, .f32⟩ : BufTy).Contents (Elt F) → (⟨S1x32x2, .f32⟩ : BufTy).Contents (Elt F)),
    StableHlo.unary main_v73 main_v102 (broadcastInDim S1x32x2 ![1, 2] bcast_S32x2_S1x32x2_1_2 : (⟨S32x2, .f32⟩ : BufTy).Contents (Elt F) → (⟨S1x32x2, .f32⟩ : BufTy).Contents (Elt F)),
    StableHlo.unary main_v46 main_v103 (broadcastInDim S1x32x2 ![1, 2] bcast_S32x2_S1x32x2_1_2 : (⟨S32x2, .f32⟩ : BufTy).Contents (Elt F) → (⟨S1x32x2, .f32⟩ : BufTy).Contents (Elt F)) ]

set_option maxHeartbeats 4000000 in
theorem hostPre_chunks : (hostPre : List (HloOp τ sig (Elt F))) = kA ++ kB ++ kC2 ++ kC1 ++ kC0 ++ kD := rfl

end Cert.KernelIdeal.Frm

end
-- ==== Proof.RefPreChunks.lean ====
/-
  The first part of the reference, in six pieces: the normalised table with conjugates (to the 8×32×2 array of rotations) and
  the pair view of the feature array, the identity rotation, the three complex products of the reverse cumulative rotation
  (third position, second, first), and the four one-row layouts.
-/
import proofs.«111939_j20813411516915_2_alg».proof.Proof.RefSplit

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev rA : List (HloOp τ sig (Elt F)) :=
  [
    nullary main_cst (fun i => FloatOps.ofBits .f32 (lit0 (S2.rowMajor i))),
    binary main_arg1 main_arg1 main_v0 (mulf : (⟨S4x32x2, .f32⟩ : BufTy).Contents (Elt F) → (⟨S4x32x2, .f32⟩ : BufTy).Contents (Elt F) → (⟨S4x32x2, .f32⟩ : BufTy).Contents (Elt F)),
    nullary main_cst_0 (constant S_ .f32 0x00000000#32),
    binary main_v0 main_cst_0 main_v1 ((fun x v => Host.reduceAdd x v reducesTo_S4x32x2_S4x32_d2 h_S_) : (⟨S4x32x2, .f32⟩ : BufTy).Contents (Elt F) → (⟨S_, .f32⟩ : BufTy).Contents (Elt F) → (⟨S4x32, .f32⟩ : BufTy).Contents (Elt F)),
    unary main_v1 main_v2 (broadcastInDim S4x32x1 ![0, 1] bcast_S4x32_S4x32x1_0_1 : (⟨S4x32, .f32⟩ : BufTy).Contents (Elt F) → (⟨S4x32x1, .f32⟩ : BufTy).Contents (Elt F)),
    unary main_v2 main_v3 (Host.sqrt : (⟨S4x32x1, .f32⟩ : BufTy).Contents (Elt F) → (⟨S4x32x1, .f32⟩ : BufTy).Contents (Elt F)),
    nullary main_cst_1 (constant S_ .f32 0x2B8CBCCC#32),
    unary main_cst_1 main_v4 (broadcastInDim S4x32x1 ![] bcast_S_S4x32x1 : (⟨S_, .f32⟩ : BufTy).Contents (Elt F) → (⟨S4x32x1, .f32⟩ : BufTy).Contents (Elt F)),
    binary main_v3 main_v4 main_v5 (maximumf : (⟨S4x32x1, .f32⟩ : BufTy).Contents (Elt F) → (⟨S4x32x1, .f32⟩ : BufTy).Contents (Elt F) → (⟨S4x32x1, .f32⟩ : BufTy).Contents (Elt F)),
    unary main_v5 main_v6 (broadcastInDim S4x32x2 ![0, 1, 2] bcast_S4x32x1_S4x32x2_0_1_2 : (⟨S4x32x1, .f32⟩ : BufTy).Contents (Elt F) → (⟨S4x32x2, .f32⟩ : BufTy).Contents (Elt F)),
    binary main_arg1 main_v6 main_v7 (Host.divf : (⟨S4x32x2, .f32⟩ : BufTy).Contents (Elt F) → (⟨S4x32x2, .f32⟩ : BufTy).Contents (Elt F) → (⟨S4x32x2, .f32⟩ : BufTy).Contents (Elt F)),
    unary main_cst main_v8 (broadcastInDim S1x1x2 ![2] bcast_S2_S1x1x2_2 : (⟨S2, .f32⟩ : BufTy).Contents (Elt F) → (⟨S1x1x2, .f32⟩ : BufTy).Contents (Elt F)),
    unary main_v8 main_v9 (broadcastInDim S4x32x2 ![0, 1, 2] bcast_S1x1x2_S4x32x2_0_1_2 : (⟨S1x1x2, .f32⟩ : BufTy).Contents (Elt F) → (⟨S4x32x2, .f32⟩ : BufTy).Contents (Elt F)),
    binary main_v7 main_v9 main_v10 (mulf : (⟨S4x32x2, .f32⟩ : BufTy).Contents (Elt F) → (⟨S4x32x2, .f32⟩ : BufTy).Contents (Elt F) → (⟨S4x32x2, .f32⟩ : BufTy).Contents (Elt F)),
    unary main_v7 main_v11 (broadcastInDim S4x1x32x2 ![0, 2, 3] bcast_S4x32x2_S4x1x32x2_0_2_3 : (⟨S4x32x2, .f32⟩ : BufTy).Contents (Elt F) → (⟨S4x1x32x2, .f32⟩ : BufTy).Contents (Elt F)),
    unary main_v10 main_v12 (broadcastInDim S4x1x32x2 ![0, 2, 3] bcast_S4x32x2_S4x1x32x2_0_2_3 : (⟨S4x32x2, .f32⟩ : BufTy).Contents (Elt F) → (⟨S4x1x32x2, .f32⟩ : BufTy).Contents (Elt F)),
    binary main_v11 main_v12 main_v13 ((fun a b => concatenate S4x2x32x2 1 [⟨S4x1x32x2, a⟩, ⟨S4x1x32x2, b⟩] concatenates_S4x1x32x2_S4x1x32x2_S4x2x32x2_d1) : (⟨S4x1x32x2, .f32⟩ : BufTy).Contents (Elt F) → (⟨S4x1x32x2, .f32⟩ : BufTy).Contents (Elt F) → (⟨S4x2x32x2, .f32⟩ : BufTy).Contents (Elt F)),
    reshape main_v13 main_v14 rfl shapeCasts_S4x2x32x2_S8x32x2,
    reshape main_arg0 main_v15 rfl shapeCasts_S1000000x4x64_S1000000x4x32x2 ]

abbrev rB : List (HloOp τ sig (Elt F)) :=
  [
    nullary main_cst_2 (constant S_ .f32 0x3F800000#32),
    unary main_cst_2 main_v16 (broadcastInDim S32 ![] bcast_S_S32 : (⟨S_, .f32⟩ : BufTy).Contents (Elt F) → (⟨S32, .f32⟩ : BufTy).Contents (Elt F)),
    nullary main_cst_3 (constant S_ .f32 0x00000000#32),
    unary main_cst_3 main_v17 (broadcastInDim S32 ![] bcast_S_S32 : (⟨S_, .f32⟩ : BufTy).Contents (Elt F) → (⟨S32, .f32⟩ : BufTy).Contents (Elt F)),
    unary main_v16 main_v18 (broadcastInDim S32x1 ![0] bcast_S32_S32x1_0 : (⟨S32, .f32⟩ : BufTy).Contents (Elt F) → (⟨S32x1, .f32⟩ : BufTy).Contents (Elt F)),
    unary main_v17 main_v19 (broadcastInDim S32x1 ![0] bcast_S32_S32x1_0 : (⟨S32, .f32⟩ : BufTy).Contents (Elt F) → (⟨S32x1, .f32⟩ : BufTy).Contents (Elt F)),
    binary main_v18 main_v19 main_v20 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)) ]

abbrev rC2 : List (HloOp τ sig (Elt F)) :=
  [
    unary main_v14 main_v21 ((extractStridedSlice S1x32x2 ![5, 0, 0] · slices_S8x32x2_S1x32x2_5_0_0) : (⟨S8x32x2, .f32⟩ : BufTy).Contents (Elt F) → (⟨S1x32x2, .f32⟩ : BufTy).Contents (Elt F)),
    reshape main_v21 main_v22 rfl shapeCasts_S1x32x2_S32x2,
    unary main_v20 main_v23 ((extractStridedSlice S32x1 ![0, 0] · slices_S32x2_S32x1_0_0) : (⟨S32x2, .f32⟩ : BufTy).Contents (Elt F) → (⟨S32x1, .f32⟩ : BufTy).Contents (Elt F)),
    reshape main_v23 main_v24 rfl shapeCasts_S32x1_S32,
    unary main_v22 main_v25 ((extractStridedSlice S32x1 ![0, 0] · slices_S32x2_S32x1_0_0) : (⟨S32x2, .f32⟩ : BufTy).Contents (Elt F) → (⟨S32x1, .f32⟩ : BufTy).Contents (Elt F)),
    reshape main_v25 main_v26 rfl shapeCasts_S32x1_S32,
    binary main_v24 main_v26 main_v27 (mulf : (⟨S32, .f32⟩ : BufTy).Contents (Elt F) → (⟨S32, .f32⟩ : BufTy).Contents (Elt F) → (⟨S32, .f32⟩ : BufTy).Contents (Elt F)),
    unary main_v20 main_v28 ((extractStridedSlice S32x1 ![0, 1] · slices_S32x2_S32x1_0_1) : (⟨S32x2, .f32⟩ : BufTy).Contents (Elt F) → (⟨S32x1, .f32⟩ : BufTy).Contents (Elt F)),
    reshape main_v28 main_v29 rfl shapeCasts_S32x1_S32,
    unary main_v22 main_v30 ((extractStridedSlice S32x1 ![0, 1] · slices_S32x2_S32x1_0_1) : (⟨S32x2, .f32⟩ : BufTy).Contents (Elt F) → (⟨S32x1, .f32⟩ : BufTy).Contents (Elt F)),
    reshape main_v30 main_v31 rfl shapeCasts_S32x1_S32,
    binary main_v29 main_v31 main_v32 (mulf : (⟨S32, .f32⟩ : BufTy).Contents (Elt F) → (⟨S32, .f32⟩ : BufTy).Contents (Elt F) → (⟨S32, .f32⟩ : BufTy).Contents (Elt F)),
    binary main_v27 main_v32 main_v33 (subf : (⟨S32, .f32⟩ : BufTy).Contents (Elt F) → (⟨S32, .f32⟩ : BufTy).Contents (Elt F) → (⟨S32, .f32⟩ : BufTy).Contents (Elt F)),
    unary main_v20 main_v34 ((extractStridedSlice S32x1 ![0, 0] · slices_S32x2_S32x1_0_0) : (⟨S32x2, .f32⟩ : BufTy).Contents (Elt F) → (⟨S32x1, .f32⟩ : BufTy).Contents (Elt F)),
    reshape main_v34 main_v35 rfl shapeCasts_S32x1_S32,
    unary main_v22 main_v36 ((extractStridedSlice S32x1 ![0, 1] · slices_S32x2_S32x1_0_1) : (⟨S32x2, .f32⟩ : BufTy).Contents (Elt F) → (⟨S32x1, .f32⟩ : BufTy).Contents (Elt F)),
    reshape main_v36 main_v37 rfl shapeCasts_S32x1_S32,
    binary main_v35 main_v37 main_v38 (mulf : (⟨S32, .f32⟩ : BufTy).Contents (Elt F) → (⟨S32, .f32⟩ : BufTy).Contents (Elt F) → (⟨S32, .f32⟩ : BufTy).Contents (Elt F)),
    unary main_v20 main_v39 ((extractStridedSlice S32x1 ![0, 1] · slices_S32x2_S32x1_0_1) : (⟨S32x2, .f32⟩ : BufTy).Contents (Elt F) → (⟨S32x1, .f32⟩ : BufTy).Contents (Elt F)),
    reshape main_v39 main_v40 rfl shapeCasts_S32x1_S32,
    unary main_v22 main_v41 ((extractStridedSlice S32x1 ![0, 0] · slices_S32x2_S32x1_0_0) : (⟨S32x2, .f32⟩ : BufTy).Contents (Elt F) → (⟨S32x1, .f32⟩ : BufTy).Contents (Elt F)),
    reshape main_v41 main_v42 rfl shapeCasts_S32x1_S32,
    binary main_v40 main_v42 main_v43 (mulf : (⟨S32, .f32⟩ : BufTy).Contents (Elt F) → (⟨S32, .f32⟩ : BufTy).Contents (Elt F) → (⟨S32, .f32⟩ : BufTy).Contents (Elt F)),
    binary main_v38 main_v43 main_v44 (addf : (⟨S32, .f32⟩ : BufTy).Contents (Elt F) → (⟨S32, .f32⟩ : BufTy).Contents (Elt F) → (⟨S32, .f32⟩ : BufTy).Contents (Elt F)),
    unary main_v33 main_v45 (broadcastInDim S32x1 ![0] bcast_S32_S32x1_0 : (⟨S32, .f32⟩ : BufTy).Contents (Elt F) → (⟨S32x1, .f32⟩ : BufTy).Contents (Elt F)),
    unary main_v44 main_v46 (broadcastInDim S32x1 ![0] bcast_S32_S32x1_0 : (⟨S32, .f32⟩ : BufTy).Contents (Elt F) → (⟨S32x1, .f32⟩ : BufTy).Contents (Elt F)),
    binary main_v45 main_v46 main_v47 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)) ]

abbrev rC1 : List (HloOp τ sig (Elt F)) :=
  [
    unary main_v14 main_v48 ((extractStridedSlice S1x32x2 ![3, 0, 0] · slices_S8x32x2_S1x32x2_3_0_0) : (⟨S8x32x2, .f32⟩ : BufTy).Contents (Elt F) → (⟨S1x32x2, .f32⟩ : BufTy).Contents (Elt F)),
    reshape main_v48 main_v49 rfl shapeCasts_S1x32x2_S32x2,
    unary main_v47 main_v50 ((extractStridedSlice S32x1 ![0, 0] · slices_S32x2_S32x1_0_0) : (⟨S32x2, .f32⟩ : BufTy).Contents (Elt F) → (⟨S32x1, .f32⟩ : BufTy).Contents (Elt F)),
    reshape main_v50 main_v51 rfl shapeCasts_S32x1_S32,
    unary main_v49 main_v52 ((extractStridedSlice S32x1 ![0, 0] · slices_S32x2_S32x1_0_0) : (⟨S32x2, .f32⟩ : BufTy).Contents (Elt F) → (⟨S32x1, .f32⟩ : BufTy).Contents (Elt F)),
    reshape main_v52 main_v53 rfl shapeCasts_S32x1_S32,
    binary main_v51 main_v53 main_v54 (mulf : (⟨S32, .f32⟩ : BufTy).Contents (Elt F) → (⟨S32, .f32⟩ : BufTy).Contents (Elt F) → (⟨S32, .f32⟩ : BufTy).Contents (Elt F)),
    unary main_v47 main_v55 ((extractStridedSlice S32x1 ![0, 1] · slices_S32x2_S32x1_0_1) : (⟨S32x2, .f32⟩ : BufTy).Contents (Elt F) → (⟨S32x1, .f32⟩ : BufTy).Contents (Elt F)),
    reshape main_v55 main_v56 rfl shapeCasts_S32x1_S32,
    unary main_v49 main_v57 ((extractStridedSlice S32x1 ![0, 1] · slices_S32x2_S32x1_0_1) : (⟨S32x2, .f32⟩ : BufTy).Contents (Elt F) → (⟨S32x1, .f32⟩ : BufTy).Contents (Elt F)),
    reshape main_v57 main_v58 rfl shapeCasts_S32x1_S32,
    binary main_v56 main_v58 main_v59 (mulf : (⟨S32, .f32⟩ : BufTy).Contents (Elt F) → (⟨S32, .f32⟩ : BufTy).Contents (Elt F) → (⟨S32, .f32⟩ : BufTy).Contents (Elt F)),
    binary main_v54 main_v59 main_v60 (subf : (⟨S32, .f32⟩ : BufTy).Contents (Elt F) → (⟨S32, .f32⟩ : BufTy).Contents (Elt F) → (⟨S32, .f32⟩ : BufTy).Contents (Elt F)),
    unary main_v47 main_v61 ((extractStridedSlice S32x1 ![0, 0] · slices_S32x2_S32x1_0_0) : (⟨S32x2, .f32⟩ : BufTy).Contents (Elt F) → (⟨S32x1, .f32⟩ : BufTy).Contents (Elt F)),
    reshape main_v61 main_v62 rfl shapeCasts_S32x1_S32,
    unary main_v49 main_v63 ((extractStridedSlice S32x1 ![0, 1] · slices_S32x2_S32x1_0_1) : (⟨S32x2, .f32⟩ : BufTy).Contents (Elt F) → (⟨S32x1, .f32⟩ : BufTy).Contents (Elt F)),
    reshape main_v63 main_v64 rfl shapeCasts_S32x1_S32,
    binary main_v62 main_v64 main_v65 (mulf : (⟨S32, .f32⟩ : BufTy).Contents (Elt F) → (⟨S32, .f32⟩ : BufTy).Contents (Elt F) → (⟨S32, .f32⟩ : BufTy).Contents (Elt F)),
    unary main_v47 main_v66 ((extractStridedSlice S32x1 ![0, 1] · slices_S32x2_S32x1_0_1) : (⟨S32x2, .f32⟩ : BufTy).Contents (Elt F) → (⟨S32x1, .f32⟩ : BufTy).Contents (Elt F)),
    reshape main_v66 main_v67 rfl shapeCasts_S32x1_S32,
    unary main_v49 main_v68 ((extractStridedSlice S32x1 ![0, 0] · slices_S32x2_S32x1_0_0) : (⟨S32x2, .f32⟩ : BufTy).Contents (Elt F) → (⟨S32x1, .f32⟩ : BufTy).Contents (Elt F)),
    reshape main_v68 main_v69 rfl shapeCasts_S32x1_S32,
    binary main_v67 main_v69 main_v70 (mulf : (⟨S32, .f32⟩ : BufTy).Contents (Elt F) → (⟨S32, .f32⟩ : BufTy).Contents (Elt F) → (⟨S32, .f32⟩ : BufTy).Contents (Elt F)),
    binary main_v65 main_v70 main_v71 (addf : (⟨S32, .f32⟩ : BufTy).Contents (Elt F) → (⟨S32, .f32⟩ : BufTy).Contents (Elt F) → (⟨S32, .f32⟩ : BufTy).Contents (Elt F)),
    unary main_v60 main_v72 (broadcastInDim S32x1 ![0] bcast_S32_S32x1_0 : (⟨S32, .f32⟩ : BufTy).Contents (Elt F) → (⟨S32x1, .f32⟩ : BufTy).Contents (Elt F)),
    unary main_v71 main_v73 (broadcastInDim S32x1 ![0] bcast_S32_S32x1_0 : (⟨S32, .f32⟩ : BufTy).Contents (Elt F) → (⟨S32x1, .f32⟩ : BufTy).Contents (Elt F)),
    binary main_v72 main_v73 main_v74 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)) ]

abbrev rC0 : List (HloOp τ sig (Elt F)) :=
  [
    unary main_v14 main_v75 ((extractStridedSlice S1x32x2 ![0, 0, 0] · slices_S8x32x2_S1x32x2_0_0_0) : (⟨S8x32x2, .f32⟩ : BufTy).Contents (Elt F) → (⟨S1x32x2, .f32⟩ : BufTy).Contents (Elt F)),
    reshape main_v75 main_v76 rfl shapeCasts_S1x32x2_S32x2,
    unary main_v74 main_v77 ((extractStridedSlice S32x1 ![0, 0] · slices_S32x2_S32x1_0_0) : (⟨S32x2, .f32⟩ : BufTy).Contents (Elt F) → (⟨S32x1, .f32⟩ : BufTy).Contents (Elt F)),
    reshape main_v77 main_v78 rfl shapeCasts_S32x1_S32,
    unary main_v76 main_v79 ((extractStridedSlice S32x1 ![0, 0] · slices_S32x2_S32x1_0_0) : (⟨S32x2, .f32⟩ : BufTy).Contents (Elt F) → (⟨S32x1, .f32⟩ : BufTy).Contents (Elt F)),
    reshape main_v79 main_v80 rfl shapeCasts_S32x1_S32,
    binary main_v78 main_v80 main_v81 (mulf : (⟨S32, .f32⟩ : BufTy).Contents (Elt F) → (⟨S32, .f32⟩ : BufTy).Contents (Elt F) → (⟨S32, .f32⟩ : BufTy).Contents (Elt F)),
    unary main_v74 main_v82 ((extractStridedSlice S32x1 ![0, 1] · slices_S32x2_S32x1_0_1) : (⟨S32x2, .f32⟩ : BufTy).Contents (Elt F) → (⟨S32x1, .f32⟩ : BufTy).Contents (Elt F)),
    reshape main_v82 main_v83 rfl shapeCasts_S32x1_S32,
    unary main_v76 main_v84 ((extractStridedSlice S32x1 ![0, 1] · slices_S32x2_S32x1_0_1) : (⟨S32x2, .f32⟩ : BufTy).Contents (Elt F) → (⟨S32x1, .f32⟩ : BufTy).Contents (Elt F)),
    reshape main_v84 main_v85 rfl shapeCasts_S32x1_S32,
    binary main_v83 main_v85 main_v86 (mulf : (⟨S32, .f32⟩ : BufTy).Contents (Elt F) → (⟨S32, .f32⟩ : BufTy).Contents (Elt F) → (⟨S32, .f32⟩ : BufTy).Contents (Elt F)),
    binary main_v81 main_v86 main_v87 (subf : (⟨S32, .f32⟩ : BufTy).Contents (Elt F) → (⟨S32, .f32⟩ : BufTy).Contents (Elt F) → (⟨S32, .f32⟩ : BufTy).Contents (Elt F)),
    unary main_v74 main_v88 ((extractStridedSlice S32x1 ![0, 0] · slices_S32x2_S32x1_0_0) : (⟨S32x2, .f32⟩ : BufTy).Contents (Elt F) → (⟨S32x1, .f32⟩ : BufTy).Contents (Elt F)),
    reshape main_v88 main_v89 rfl shapeCasts_S32x1_S32,
    unary main_v76 main_v90 ((extractStridedSlice S32x1 ![0, 1] · slices_S32x2_S32x1_0_1) : (⟨S32x2, .f32⟩ : BufTy).Contents (Elt F) → (⟨S32x1, .f32⟩ : BufTy).Contents (Elt F)),
    reshape main_v90 main_v91 rfl shapeCasts_S32x1_S32,
    binary main_v89 main_v91 main_v92 (mulf : (⟨S32, .f32⟩ : BufTy).Contents (Elt F) → (⟨S32, .f32⟩ : BufTy).Contents (Elt F) → (⟨S32, .f32⟩ : BufTy).Contents (Elt F)),
    unary main_v74 main_v93 ((extractStridedSlice S32x1 ![0, 1] · slices_S32x2_S32x1_0_1) : (⟨S32x2, .f32⟩ : BufTy).Contents (Elt F) → (⟨S32x1, .f32⟩ : BufTy).Contents (Elt F)),
    reshape main_v93 main_v94 rfl shapeCasts_S32x1_S32,
    unary main_v76 main_v95 ((extractStridedSlice S32x1 ![0, 0] · slices_S32x2_S32x1_0_0) : (⟨S32x2, .f32⟩ : BufTy).Contents (Elt F) → (⟨S32x1, .f32⟩ : BufTy).Contents (Elt F)),
    reshape main_v95 main_v96 rfl shapeCasts_S32x1_S32,
    binary main_v94 main_v96 main_v97 (mulf : (⟨S32, .f32⟩ : BufTy).Contents (Elt F) → (⟨S32, .f32⟩ : BufTy).Contents (Elt F) → (⟨S32, .f32⟩ : BufTy).Contents (Elt F)),
    binary main_v92 main_v97 main_v98 (addf : (⟨S32, .f32⟩ : BufTy).Contents (Elt F) → (⟨S32, .f32⟩ : BufTy).Contents (Elt F) → (⟨S32, .f32⟩ : BufTy).Contents (Elt F)),
    unary main_v87 main_v99 (broadcastInDim S32x1 ![0] bcast_S32_S32x1_0 : (⟨S32, .f32⟩ : BufTy).Contents (Elt F) → (⟨S32x1, .f32⟩ : BufTy).Contents (Elt F)),
    unary main_v98 main_v100 (broadcastInDim S32x1 ![0] bcast_S32_S32x1_0 : (⟨S32, .f32⟩ : BufTy).Contents (Elt F) → (⟨S32x1, .f32⟩ : BufTy).Contents (Elt F)),
    binary main_v99 main_v100 main_v101 ((fun a b => concatenate S32x2 1 [⟨S32x1, a⟩, ⟨S32x1, b⟩] concatenates_S32x1_S32x1_S32x2_d1) : (⟨S32x1, .f32⟩ : BufTy).Contents (Elt F) → (⟨S32x1, .f32⟩ : BufTy).Contents (Elt F) → (⟨S32x2, .f32⟩ : BufTy).Contents (Elt F)) ]

abbrev rD : List (HloOp τ sig (Elt F)) :=
  [
    unary main_v101 main_v102 (broadcastInDim S1x32x2 ![1, 2] bcast_S32x2_S1x32x2_1_2 : (⟨S32x2, .f32⟩ : BufTy).Contents (Elt F) → (⟨S1x32x2, .f32⟩ : BufTy).Contents (Elt F)),
    unary main_v74 main_v103 (broadcastInDim S1x32x2 ![1, 2] bcast_S32x2_S1x32x2_1_2 : (⟨S32x2, .f32⟩ : BufTy).Contents (Elt F) → (⟨S1x32x2, .f32⟩ : BufTy).Contents (Elt F)),
    unary main_v47 main_v104 (broadcastInDim S1x32x2 ![1, 2] bcast_S32x2_S1x32x2_1_2 : (⟨S32x2, .f32⟩ : BufTy).Contents (Elt F) → (⟨S1x32x2, .f32⟩ : BufTy).Contents (Elt F)),
    unary main_v20 main_v105 (broadcastInDim S1x32x2 ![1, 2] bcast_S32x2_S1x32x2_1_2 : (⟨S32x2, .f32⟩ : BufTy).Contents (Elt F) → (⟨S1x32x2, .f32⟩ : BufTy).Contents (Elt F)) ]

set_option maxHeartbeats 4000000 in
theorem opsPre_chunks : (opsPre : List (HloOp τ sig (Elt F))) = rA ++ rB ++ rC2 ++ rC1 ++ rC0 ++ rD := rfl

end Cert.ReferenceIdeal.RefRun

end
-- ==== Proof.PreAgree.lean ====
/-
  Both programs compute the same three cumulative rotations.

  The first part of the kernel's host prefix and the first part of the reference are the same operations in the same order on the
  same rotation table (the reference also reshapes the feature array on the way, which touches nothing else): normalise the table,
  interleave each rotation with its conjugate, start from the identity, and multiply down three times.  Piece by piece, equal
  inputs give equal outputs, and a piece leaves the arrays it does not write as they were; so the three one-row blocks each program
  hands to its second part are equal whenever the two launch memories agree on the table.
-/
import proofs.«111939_j20813411516915_2_alg».proof.Proof.KIPreChunks
import proofs.«111939_j20813411516915_2_alg».proof.Proof.RefPreChunks
import proofs.«111939_j20813411516915_2_alg».proof.Proof.LibFoldEval
import Idealize.ShloMosaic.PureOps.Ideal
import Idealize.ShloMosaic.Lib.Pipeline.Frame

set_option maxRecDepth 16384

noncomputable section

namespace Cert.PreAgree

open Idealize.ShloMosaic Idealize.ShloMosaic.TcCoe Idealize.ShloMosaic.StableHlo Cert.FoldEval

abbrev KV := Valuation Cert.KernelIdeal.τ Cert.KernelIdeal.sig (Elt Ideal)
abbrev RV := Valuation Cert.ReferenceIdeal.τ Cert.ReferenceIdeal.sig (Elt Ideal)

set_option maxHeartbeats 4000000 in
/-- The array of the eight rotations (each normalised rotation and its conjugate). -/
theorem stepA (WK : KV) (WR : RV)
    (h1 : WR (Proc.devRef .tc Cert.ReferenceIdeal.main_arg1) = WK (Proc.devRef .tc Cert.KernelIdeal.main_arg1)) :
    after (Cert.KernelIdeal.Frm.kA (F := Ideal)) WK (Proc.devRef .tc Cert.KernelIdeal.main_v14) = after (Cert.ReferenceIdeal.RefRun.rA (F := Ideal)) WR (Proc.devRef .tc Cert.ReferenceIdeal.main_v14) := by
  fold_eval
  simp only [h1]
  rfl

set_option maxHeartbeats 4000000 in
/-- The identity rotation; the eight rotations pass through. -/
theorem stepB (WK : KV) (WR : RV) (h14 : WK (Proc.devRef .tc Cert.KernelIdeal.main_v14) = WR (Proc.devRef .tc Cert.ReferenceIdeal.main_v14)) :
    after (Cert.KernelIdeal.Frm.kB (F := Ideal)) WK (Proc.devRef .tc Cert.KernelIdeal.main_v19) = after (Cert.ReferenceIdeal.RefRun.rB (F := Ideal)) WR (Proc.devRef .tc Cert.ReferenceIdeal.main_v20)
    ∧ after (Cert.KernelIdeal.Frm.kB (F := Ideal)) WK (Proc.devRef .tc Cert.KernelIdeal.main_v14) = after (Cert.ReferenceIdeal.RefRun.rB (F := Ideal)) WR (Proc.devRef .tc Cert.ReferenceIdeal.main_v14) := by
  refine ⟨?_, ?_⟩
  · fold_eval
  · fold_eval; exact h14

set_option maxHeartbeats 4000000 in
/-- The third position's rotation: the identity times the sixth of the eight. -/
theorem stepC2 (WK : KV) (WR : RV) (h19 : WK (Proc.devRef .tc Cert.KernelIdeal.main_v19) = WR (Proc.devRef .tc Cert.ReferenceIdeal.main_v20)) (h14 : WK (Proc.devRef .tc Cert.KernelIdeal.main_v14) = WR (Proc.devRef .tc Cert.ReferenceIdeal.main_v14)) :
    after (Cert.KernelIdeal.Frm.kC2 (F := Ideal)) WK (Proc.devRef .tc Cert.KernelIdeal.main_v46) = after (Cert.ReferenceIdeal.RefRun.rC2 (F := Ideal)) WR (Proc.devRef .tc Cert.ReferenceIdeal.main_v47)
    ∧ after (Cert.KernelIdeal.Frm.kC2 (F := Ideal)) WK (Proc.devRef .tc Cert.KernelIdeal.main_v14) = after (Cert.ReferenceIdeal.RefRun.rC2 (F := Ideal)) WR (Proc.devRef .tc Cert.ReferenceIdeal.main_v14) := by
  refine ⟨?_, ?_⟩
  · fold_eval; simp only [h19, h14]; rfl
  · fold_eval; exact h14

set_option maxHeartbeats 4000000 in
/-- The second position's rotation: the third's times the fourth of the eight. -/
theorem stepC1 (WK : KV) (WR : RV) (h46 : WK (Proc.devRef .tc Cert.KernelIdeal.main_v46) = WR (Proc.devRef .tc Cert.ReferenceIdeal.main_v47)) (h14 : WK (Proc.devRef .tc Cert.KernelIdeal.main_v14) = WR (Proc.devRef .tc Cert.ReferenceIdeal.main_v14)) :
    after (Cert.KernelIdeal.Frm.kC1 (F := Ideal)) WK (Proc.devRef .tc Cert.KernelIdeal.main_v73) = after (Cert.ReferenceIdeal.RefRun.rC1 (F := Ideal)) WR (Proc.devRef .tc Cert.ReferenceIdeal.main_v74)
    ∧ after (Cert.KernelIdeal.Frm.kC1 (F := Ideal)) WK (Proc.devRef .tc Cert.KernelIdeal.main_v14) = after (Cert.ReferenceIdeal.RefRun.rC1 (F := Ideal)) WR (Proc.devRef .tc Cert.ReferenceIdeal.main_v14)
    ∧ after (Cert.KernelIdeal.Frm.kC1 (F := Ideal)) WK (Proc.devRef .tc Cert.KernelIdeal.main_v46) = after (Cert.ReferenceIdeal.RefRun.rC1 (F := Ideal)) WR (Proc.devRef .tc Cert.ReferenceIdeal.main_v47) := by
  refine ⟨?_, ?_, ?_⟩
  · fold_eval; simp only [h46, h14]; rfl
  · fold_eval; exact h14
  · fold_eval; exact h46

set_option maxHeartbeats 4000000 in
/-- The first position's rotation: the second's times the first of the eight. -/
theorem stepC0 (WK : KV) (WR : RV) (h73 : WK (Proc.devRef .tc Cert.KernelIdeal.main_v73) = WR (Proc.devRef .tc Cert.ReferenceIdeal.main_v74)) (h14 : WK (Proc.devRef .tc Cert.KernelIdeal.main_v14) = WR (Proc.devRef .tc Cert.ReferenceIdeal.main_v14)) (h46 : WK (Proc.devRef .tc Cert.KernelIdeal.main_v46) = WR (Proc.devRef .tc Cert.ReferenceIdeal.main_v47)) :
    after (Cert.KernelIdeal.Frm.kC0 (F := Ideal)) WK (Proc.devRef .tc Cert.KernelIdeal.main_v100) = after (Cert.ReferenceIdeal.RefRun.rC0 (F := Ideal)) WR (Proc.devRef .tc Cert.ReferenceIdeal.main_v101)
    ∧ after (Cert.KernelIdeal.Frm.kC0 (F := Ideal)) WK (Proc.devRef .tc Cert.KernelIdeal.main_v73) = after (Cert.ReferenceIdeal.RefRun.rC0 (F := Ideal)) WR (Proc.devRef .tc Cert.ReferenceIdeal.main_v74)
    ∧ after (Cert.KernelIdeal.Frm.kC0 (F := Ideal)) WK (Proc.devRef .tc Cert.KernelIdeal.main_v46) = after (Cert.ReferenceIdeal.RefRun.rC0 (F := Ideal)) WR (Proc.devRef .tc Cert.ReferenceIdeal.main_v47) := by
  refine ⟨?_, ?_, ?_⟩
  · fold_eval; simp only [h73, h14]; rfl
  · fold_eval; exact h73
  · fold_eval; exact h46

set_option maxHeartbeats 4000000 in
/-- The three rotations laid out as one-row blocks. -/
theorem stepD (WK : KV) (WR : RV) (h100 : WK (Proc.devRef .tc Cert.KernelIdeal.main_v100) = WR (Proc.devRef .tc Cert.ReferenceIdeal.main_v101)) (h73 : WK (Proc.devRef .tc Cert.KernelIdeal.main_v73) = WR (Proc.devRef .tc Cert.ReferenceIdeal.main_v74)) (h46 : WK (Proc.devRef .tc Cert.KernelIdeal.main_v46) = WR (Proc.devRef .tc Cert.ReferenceIdeal.main_v47)) :
    after (Cert.KernelIdeal.Frm.kD (F := Ideal)) WK (Proc.devRef .tc Cert.KernelIdeal.main_v101) = after (Cert.ReferenceIdeal.RefRun.rD (F := Ideal)) WR (Proc.devRef .tc Cert.ReferenceIdeal.main_v102)
    ∧ after (Cert.KernelIdeal.Frm.kD (F := Ideal)) WK (Proc.devRef .tc Cert.KernelIdeal.main_v102) = after (Cert.ReferenceIdeal.RefRun.rD (F := Ideal)) WR (Proc.devRef .tc Cert.ReferenceIdeal.main_v103)
    ∧ after (Cert.KernelIdeal.Frm.kD (F := Ideal)) WK (Proc.devRef .tc Cert.KernelIdeal.main_v103) = after (Cert.ReferenceIdeal.RefRun.rD (F := Ideal)) WR (Proc.devRef .tc Cert.ReferenceIdeal.main_v104) := by
  refine ⟨?_, ?_, ?_⟩
  · fold_eval; simp only [h100]
  · fold_eval; simp only [h73]
  · fold_eval; simp only [h46]

/-- The three rows agree. -/
theorem rows (WK : KV) (WR : RV)
    (h1 : WR (Proc.devRef .tc Cert.ReferenceIdeal.main_arg1) = WK (Proc.devRef .tc Cert.KernelIdeal.main_arg1)) :
    after (Cert.KernelIdeal.Frm.hostPre (F := Ideal)) WK (Proc.devRef .tc Cert.KernelIdeal.main_v101)
        = after (Cert.ReferenceIdeal.RefRun.opsPre (F := Ideal)) WR (Proc.devRef .tc Cert.ReferenceIdeal.main_v102)
    ∧ after (Cert.KernelIdeal.Frm.hostPre (F := Ideal)) WK (Proc.devRef .tc Cert.KernelIdeal.main_v102)
        = after (Cert.ReferenceIdeal.RefRun.opsPre (F := Ideal)) WR (Proc.devRef .tc Cert.ReferenceIdeal.main_v103)
    ∧ after (Cert.KernelIdeal.Frm.hostPre (F := Ideal)) WK (Proc.devRef .tc Cert.KernelIdeal.main_v103)
        = after (Cert.ReferenceIdeal.RefRun.opsPre (F := Ideal)) WR (Proc.devRef .tc Cert.ReferenceIdeal.main_v104) := by
  rw [Cert.KernelIdeal.Frm.hostPre_chunks, Cert.ReferenceIdeal.RefRun.opsPre_chunks]
  simp only [StableHlo.after_append]
  have a := stepA WK WR h1
  have b := stepB _ _ a
  have c2 := stepC2 _ _ b.1 b.2
  have c1 := stepC1 _ _ c2.1 c2.2
  have c0 := stepC0 _ _ c1.1 c1.2.1 c1.2.2
  exact stepD _ _ c0.1 c0.2.1 c0.2.2

end Cert.PreAgree

end
-- ==== Proof.Algebraic.lean ====
/-
  The two idealized programs end with equal results.

  Run from memories that agree on the two arguments, the idealized kernel ends with its output array at `GK` of the feature
  array and the matrices its host prefix built, and the reference with its result at the fold of its operations.  At row `n`,
  lane `2·d + c` both are `mean4` of the feature array and three rotation rows; the feature arrays agree by hypothesis, and the
  rows agree because both programs compute them from the same table by the same operations.  Every lane is some `2·d + c`.
-/
import proofs.«111939_j20813411516915_2_alg».proof.Defs
import proofs.«111939_j20813411516915_2_alg».proof.Proof.KIBridge
import proofs.«111939_j20813411516915_2_alg».proof.Proof.RefValue
import proofs.«111939_j20813411516915_2_alg».proof.Proof.PreAgree
import proofs.«111939_j20813411516915_2_alg».proof.Proof.Gen.Pre_finite_inputs

set_option maxRecDepth 16384

noncomputable section

namespace Cert.Proof

open Idealize.ShloMosaic Idealize.ShloMosaic.TcCoe Idealize.SL.Sem Idealize.ShloMosaic.ValueIdx Idealize.ShloMosaic.StableHlo

/-- The reference's result array is the kernel's output array, when the launch memories agree on the arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    (after (Cert.ReferenceIdeal.RefRun.ops (F := Ideal)) (launchContents m' c) (Proc.devRef .tc Cert.ReferenceIdeal.main_v144)
        : Cert.KernelIdeal.S1000000x64.Idx → EReal)
      = Cert.KernelIdeal.Val.GK (m ((c.tc : Thread Cert.KernelIdeal.nD Cert.KernelIdeal.τ).loc Cert.KernelIdeal.main_arg0))
          (Cert.KernelIdeal.Frm.V m c Cert.KernelIdeal.main_v375) := by
  funext i
  obtain ⟨n, j, rfl⟩ : ∃ (n : Fin 1000000) (j : Fin 64), i = ix2 n j := ⟨i 0, i 1, eq_ix2 i⟩
  obtain ⟨d, cc, rfl⟩ := Cert.RotSpec.lane_cases j
  obtain ⟨r0, r1, r2⟩ := Cert.PreAgree.rows (fun b => m (c, b)) (launchContents m' c) h1
  refine (Cert.ReferenceIdeal.RefValue.ref_entry (launchContents m' c) n d cc).trans ?_
  refine Eq.trans ?_ (Cert.KernelIdeal.Val.kernel_entry m c n d cc).symm
  rw [← r0, ← r1, ← r2]
  exact congrArg (fun X => Cert.RotSpec.mean4 X _ _ _ n d cc) h0

/-- From memories agreeing on the arguments both idealized programs run to the end, with equal results and their arguments
    unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.GK (m ((c.tc : Thread Cert.KernelIdeal.nD Cert.KernelIdeal.τ).loc Cert.KernelIdeal.main_arg0))
      (Cert.KernelIdeal.Frm.V m c Cert.KernelIdeal.main_v375), Cert.KernelIdeal.Val.run m ρ, ?_⟩
  refine (θ_run Cert.ReferenceIdeal.defs _ _).mono (fun _ h c => ⟨(h c).1.trans ?_, (h c).2⟩)
    (Cert.ReferenceIdeal.RefRun.run (F := Ideal) m' ρ')
  exact result_eq m m' c (hagree c).1 (hagree c).2

end Cert.Proof

end
-- ==== Proof.lean ====
/-
  The claim: a rotation-and-mean kernel against its reference.

  Each row of the feature array holds four positions of 32 complex numbers (64 lanes, real and imaginary parts
  interleaved).  The reference rotates the first three positions by cumulative complex rotations built from a
  normalised rotation table, leaves the fourth as it is, and takes the mean over the four positions.  The kernel
  builds the same three rotations on the host, lays each out as a block-diagonal 64×64 real matrix (32 blocks of
  2×2), and at each of 200 grid points multiplies 5000 rows by the three matrices, adds the fourth position and
  multiplies by one quarter.

  On the extended reals the two are the same function: an entry of a row times such a matrix is the two
  products of its 2×2 block (every other term is a product with zero), `a·p + b·(−q) = a·p − b·q`, the order of
  the four summands is the same on both sides, and dividing by 4.0 is multiplying by 0.25.  Both programs
  terminate without a fault and leave their argument arrays as launched; the idealization rewrote nothing.
-/
import proofs.«111939_j20813411516915_2_alg».proof.Defs
import proofs.«111939_j20813411516915_2_alg».proof.Proof.Gen.Kernel
import proofs.«111939_j20813411516915_2_alg».proof.Proof.Gen.KernelIdeal
import proofs.«111939_j20813411516915_2_alg».proof.Proof.Gen.ReferenceIdeal
import proofs.«111939_j20813411516915_2_alg».proof.Proof.Gen.Pre_finite_inputs
import proofs.«111939_j20813411516915_2_alg».proof.Proof.KFrame
import proofs.«111939_j20813411516915_2_alg».proof.Proof.KIFrame
import proofs.«111939_j20813411516915_2_alg».proof.Proof.RefRun
import proofs.«111939_j20813411516915_2_alg».proof.Proof.Algebraic

noncomputable section

namespace Cert.Proof

open Idealize.ShloMosaic Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => Cert.Kernel.Frm.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Proof.algebraic⟩

end Cert.Proof

end
